-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v181)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v181) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x1 .f32) (main_arg11 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S3x128 .f32) (main_arg6 : FVec F S3x128 .f32) (main_arg7 : FVec F S128x128 .f32) (main_arg8 : FVec F S128x128 .f32) (main_arg9 : FVec F S128 .f32) (main_arg10 : FVec F S128x1 .f32) (main_arg11 : FVec F S1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x640000 32) (main_arg2 : FVec F S3x128x128 .f32) (main_arg3 : FVec F S3x128 .f32) (main_arg4 : FVec F S3x128 .f32) (main_arg5 : FVec F S3x128 .f32) (main_arg6 : FVec F S3x128 .f32) (main_arg7 : FVec F S128x128 .f32) (main_arg8 : FVec F S128x128 .f32) (main_arg9 : FVec F S128 .f32) (main_arg10 : FVec F S128x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x640000 : Shape := ⟨2, ![2, 640000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S5000x128 : Shape := ⟨2, ![5000, 128]⟩
abbrev S1x128x128 : Shape := ⟨3, ![1, 128, 128]⟩
abbrev S740000x128 : Shape := ⟨2, ![740000, 128]⟩
abbrev S1x128 : Shape := ⟨2, ![1, 128]⟩
abbrev S1x1 : Shape := ⟨2, ![1, 1]⟩
abbrev S100000x1 : Shape := ⟨2, ![100000, 1]⟩

abbrev nBuf : Space → Nat
  | .hbm => 232
  | .vmem => 82
  | .smem => 0
  | _ => 0

abbrev hbmTy0_0 (i : Nat) : BufTy := match i % 128 with
  | 0 => ⟨S100000x128, .f32⟩
  | 1 => ⟨S2x640000, .i32⟩
  | 2 => ⟨S3x128x128, .f32⟩
  | 3 => ⟨S3x128, .f32⟩
  | 4 => ⟨S3x128, .f32⟩
  | 5 => ⟨S3x128, .f32⟩
  | 6 => ⟨S3x128, .f32⟩
  | 7 => ⟨S128x128, .f32⟩
  | 8 => ⟨S128x128, .f32⟩
  | 9 => ⟨S128, .f32⟩
  | 10 => ⟨S128x1, .f32⟩
  | 11 => ⟨S1, .f32⟩
  | 12 => ⟨S100000, .i32⟩
  | 13 => ⟨S1x640000, .i32⟩
  | 14 => ⟨S640000, .i32⟩
  | 15 => ⟨S740000, .i32⟩
  | 16 => ⟨S1x640000, .i32⟩
  | 17 => ⟨S640000, .i32⟩
  | 18 => ⟨S740000, .i32⟩
  | 19 => ⟨S_, .f32⟩
  | 20 => ⟨S740000, .f32⟩
  | 21 => ⟨S_, .f32⟩
  | 22 => ⟨S100000, .f32⟩
  | 23 => ⟨S740000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S740000, .i32⟩
  | 35 => ⟨S740000, .i1⟩
  | 36 => ⟨S_, .i32⟩
  | 37 => ⟨S740000, .i32⟩
  | 38 => ⟨S740000, .i32⟩
  | 39 => ⟨S740000, .i32⟩
  | 40 => ⟨S740000x1, .i32⟩
  | 41 => ⟨S740000, .f32⟩
  | 42 => ⟨S_, .i32⟩
  | 43 => ⟨S740000, .i32⟩
  | 44 => ⟨S740000, .i1⟩
  | 45 => ⟨S_, .i32⟩
  | 46 => ⟨S740000, .i32⟩
  | 47 => ⟨S740000, .i32⟩
  | 48 => ⟨S740000, .i32⟩
  | 49 => ⟨S740000x1, .i32⟩
  | 50 => ⟨S740000, .f32⟩
  | 51 => ⟨S740000, .f32⟩
  | 52 => ⟨S100000x128, .f32⟩
  | 53 => ⟨S1x128x128, .f32⟩
  | 54 => ⟨S128x128, .f32⟩
  | 55 => ⟨S100000x128, .f32⟩
  | 56 => ⟨S_, .i32⟩
  | 57 => ⟨S740000, .i32⟩
  | 58 => ⟨S740000, .i1⟩
  | 59 => ⟨S_, .i32⟩
  | 60 => ⟨S740000, .i32⟩
  | 61 => ⟨S740000, .i32⟩
  | 62 => ⟨S740000, .i32⟩
  | 63 => ⟨S740000x1, .i32⟩
  | 64 => ⟨S740000x128, .f32⟩
  | 65 => ⟨S740000x1, .f32⟩
  | 66 => ⟨S740000x128, .f32⟩
  | 67 => ⟨S740000x128, .f32⟩
  | 68 => ⟨S_, .f32⟩
  | 69 => ⟨S100000x128, .f32⟩
  | 70 => ⟨S740000x1, .i32⟩
  | 71 => ⟨S100000x128, .f32⟩
  | 72 => ⟨S1x128, .f32⟩
  | 73 => ⟨S128, .f32⟩
  | 74 => ⟨S1x128, .f32⟩
  | 75 => ⟨S100000x128, .f32⟩
  | 76 => ⟨S1x128, .f32⟩
  | 77 => ⟨S1x128, .f32⟩
  | 78 => ⟨S1x128, .f32⟩
  | 79 => ⟨S128, .f32⟩
  | 80 => ⟨S128, .f32⟩
  | 81 => ⟨S_, .f32⟩
  | 82 => ⟨S128, .f32⟩
  | 83 => ⟨S128, .f32⟩
  | 84 => ⟨S128, .f32⟩
  | 85 => ⟨S_, .f32⟩
  | 86 => ⟨S128, .f32⟩
  | 87 => ⟨S128, .f32⟩
  | 88 => ⟨S_, .f32⟩
  | 89 => ⟨S128, .f32⟩
  | 90 => ⟨S128, .f32⟩
  | 91 => ⟨S128, .f32⟩
  | 92 => ⟨S128, .f32⟩
  | 93 => ⟨S128, .f32⟩
  | 94 => ⟨S128, .f32⟩
  | 95 => ⟨S128, .f32⟩
  | 96 => ⟨S128, .f32⟩
  | 97 => ⟨S128, .f32⟩
  | 98 => ⟨S1x128, .f32⟩
  | 99 => ⟨S128, .f32⟩
  | 100 => ⟨S1x128, .f32⟩
  | 101 => ⟨S128, .f32⟩
  | 102 => ⟨S1x128, .f32⟩
  | 103 => ⟨S1x128, .f32⟩
  | 104 => ⟨S1x128, .f32⟩
  | 105 => ⟨S1x128, .f32⟩
  | 106 => ⟨S1x128, .f32⟩
  | 107 => ⟨S100000x128, .f32⟩
  | 108 => ⟨S1x128x128, .f32⟩
  | 109 => ⟨S128x128, .f32⟩
  | 110 => ⟨S100000x128, .f32⟩
  | 111 => ⟨S_, .i32⟩
  | 112 => ⟨S740000, .i32⟩
  | 113 => ⟨S740000, .i1⟩
  | 114 => ⟨S_, .i32⟩
  | 115 => ⟨S740000, .i32⟩
  | 116 => ⟨S740000, .i32⟩
  | 117 => ⟨S740000, .i32⟩
  | 118 => ⟨S740000x1, .i32⟩
  | 119 => ⟨S740000x128, .f32⟩
  | 120 => ⟨S740000x1, .f32⟩
  | 121 => ⟨S740000x128, .f32⟩
  | 122 => ⟨S740000x128, .f32⟩
  | 123 => ⟨S_, .f32⟩
  | 124 => ⟨S100000x128, .f32⟩
  | 125 => ⟨S740000x1, .i32⟩
  | 126 => ⟨S100000x128, .f32⟩
  | 127 => ⟨S1x128, .f32⟩
  | _ => ⟨S100000x128, .f32⟩

abbrev hbmTy0_1 (i : Nat) : BufTy := match i % 128 with
  | 0 => ⟨S128, .f32⟩
  | 1 => ⟨S1x128, .f32⟩
  | 2 => ⟨S100000x128, .f32⟩
  | 3 => ⟨S1x128, .f32⟩
  | 4 => ⟨S1x128, .f32⟩
  | 5 => ⟨S1x128, .f32⟩
  | 6 => ⟨S128, .f32⟩
  | 7 => ⟨S128, .f32⟩
  | 8 => ⟨S_, .f32⟩
  | 9 => ⟨S128, .f32⟩
  | 10 => ⟨S128, .f32⟩
  | 11 => ⟨S128, .f32⟩
  | 12 => ⟨S_, .f32⟩
  | 13 => ⟨S128, .f32⟩
  | 14 => ⟨S128, .f32⟩
  | 15 => ⟨S_, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S128, .f32⟩
  | 23 => ⟨S128, .f32⟩
  | 24 => ⟨S128, .f32⟩
  | 25 => ⟨S1x128, .f32⟩
  | 26 => ⟨S128, .f32⟩
  | 27 => ⟨S1x128, .f32⟩
  | 28 => ⟨S128, .f32⟩
  | 29 => ⟨S1x128, .f32⟩
  | 30 => ⟨S1x128, .f32⟩
  | 31 => ⟨S1x128, .f32⟩
  | 32 => ⟨S1x128, .f32⟩
  | 33 => ⟨S1x128, .f32⟩
  | 34 => ⟨S100000x128, .f32⟩
  | 35 => ⟨S1x128x128, .f32⟩
  | 36 => ⟨S128x128, .f32⟩
  | 37 => ⟨S100000x128, .f32⟩
  | 38 => ⟨S_, .i32⟩
  | 39 => ⟨S740000, .i32⟩
  | 40 => ⟨S740000, .i1⟩
  | 41 => ⟨S_, .i32⟩
  | 42 => ⟨S740000, .i32⟩
  | 43 => ⟨S740000, .i32⟩
  | 44 => ⟨S740000, .i32⟩
  | 45 => ⟨S740000x1, .i32⟩
  | 46 => ⟨S740000x128, .f32⟩
  | 47 => ⟨S740000x1, .f32⟩
  | 48 => ⟨S740000x128, .f32⟩
  | 49 => ⟨S740000x128, .f32⟩
  | 50 => ⟨S_, .f32⟩
  | 51 => ⟨S100000x128, .f32⟩
  | 52 => ⟨S740000x1, .i32⟩
  | 53 => ⟨S100000x128, .f32⟩
  | 54 => ⟨S1x128, .f32⟩
  | 55 => ⟨S128, .f32⟩
  | 56 => ⟨S1x128, .f32⟩
  | 57 => ⟨S100000x128, .f32⟩
  | 58 => ⟨S1x128, .f32⟩
  | 59 => ⟨S1x128, .f32⟩
  | 60 => ⟨S1x128, .f32⟩
  | 61 => ⟨S128, .f32⟩
  | 62 => ⟨S128, .f32⟩
  | 63 => ⟨S_, .f32⟩
  | 64 => ⟨S128, .f32⟩
  | 65 => ⟨S128, .f32⟩
  | 66 => ⟨S128, .f32⟩
  | 67 => ⟨S_, .f32⟩
  | 68 => ⟨S128, .f32⟩
  | 69 => ⟨S128, .f32⟩
  | 70 => ⟨S_, .f32⟩
  | 71 => ⟨S128, .f32⟩
  | 72 => ⟨S128, .f32⟩
  | 73 => ⟨S128, .f32⟩
  | 74 => ⟨S128, .f32⟩
  | 75 => ⟨S128, .f32⟩
  | 76 => ⟨S128, .f32⟩
  | 77 => ⟨S128, .f32⟩
  | 78 => ⟨S128, .f32⟩
  | 79 => ⟨S128, .f32⟩
  | 80 => ⟨S1x128, .f32⟩
  | 81 => ⟨S128, .f32⟩
  | 82 => ⟨S1x128, .f32⟩
  | 83 => ⟨S128, .f32⟩
  | 84 => ⟨S1x128, .f32⟩
  | 85 => ⟨S1x128, .f32⟩
  | 86 => ⟨S1x128, .f32⟩
  | 87 => ⟨S1x128, .f32⟩
  | 88 => ⟨S1x128, .f32⟩
  | 89 => ⟨S100000x128, .f32⟩
  | 90 => ⟨S_, .f32⟩
  | 91 => ⟨S128x128, .f32⟩
  | 92 => ⟨S_, .i32⟩
  | 93 => ⟨S1, .i32⟩
  | 94 => ⟨S128x128, .f32⟩
  | 95 => ⟨S_, .f32⟩
  | 96 => ⟨S1x128, .f32⟩
  | 97 => ⟨S1x1, .f32⟩
  | 98 => ⟨S_, .i32⟩
  | 99 => ⟨S1, .i32⟩
  | 100 => ⟨S1x128, .f32⟩
  | 101 => ⟨S1x128, .f32⟩
  | 102 => ⟨S100000x128, .f32⟩
  | 103 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S128x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S1x128, .f32⟩
  | .local _ .vmem, ⟨59, _⟩ => ⟨S5000x128, .f32⟩
  | .local _ .vmem, ⟨60, _⟩ => ⟨S5000x128, .f32⟩
  | .local _ .vmem, ⟨61, _⟩ => ⟨S1x128, .f32⟩
  | .local _ .vmem, ⟨62, _⟩ => ⟨S1x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S5000x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S128x128, .f32⟩
  | .local _ .vmem, ⟨77, _⟩ => ⟨S1x128, .f32⟩
  | .local _ .vmem, ⟨78, _⟩ => ⟨S128x128, .f32⟩
  | .local _ .vmem, ⟨79, _⟩ => ⟨S1x128, .f32⟩
  | .local _ .vmem, ⟨80, _⟩ => ⟨S5000x128, .f32⟩
  | .local _ .vmem, ⟨81, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50_0 : Ref sig .tc := ⟨.hbm, 75, rfl⟩
abbrev main_v50_1 : Ref sig .tc := ⟨.hbm, 76, rfl⟩
abbrev main_v50_2 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_10 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_12 : Ref sig .tc := ⟨.hbm, 111, rfl⟩
abbrev main_v81 : Ref sig .tc := ⟨.hbm, 112, rfl⟩
abbrev main_v82 : Ref sig .tc := ⟨.hbm, 113, rfl⟩
abbrev main_c_13 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_14 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97_0 : Ref sig .tc := ⟨.hbm, 130, rfl⟩
abbrev main_v97_1 : Ref sig .tc := ⟨.hbm, 131, rfl⟩
abbrev main_v97_2 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_15 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_16 : Ref sig .tc := ⟨.hbm, 140, rfl⟩
abbrev main_v104 : Ref sig .tc := ⟨.hbm, 141, rfl⟩
abbrev main_v105 : Ref sig .tc := ⟨.hbm, 142, rfl⟩
abbrev main_cst_17 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_c_18 : Ref sig .tc := ⟨.hbm, 166, rfl⟩
abbrev main_v128 : Ref sig .tc := ⟨.hbm, 167, rfl⟩
abbrev main_v129 : Ref sig .tc := ⟨.hbm, 168, rfl⟩
abbrev main_c_19 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_cst_20 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144_0 : Ref sig .tc := ⟨.hbm, 185, rfl⟩
abbrev main_v144_1 : Ref sig .tc := ⟨.hbm, 186, rfl⟩
abbrev main_v144_2 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_cst_21 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_cst_22 : Ref sig .tc := ⟨.hbm, 195, rfl⟩
abbrev main_v151 : Ref sig .tc := ⟨.hbm, 196, rfl⟩
abbrev main_v152 : Ref sig .tc := ⟨.hbm, 197, rfl⟩
abbrev main_cst_23 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_cst_24 : Ref sig .tc := ⟨.hbm, 218, rfl⟩
abbrev main_v172 : Ref sig .tc := ⟨.hbm, 219, rfl⟩
abbrev main_c_25 : Ref sig .tc := ⟨.hbm, 220, rfl⟩
abbrev main_v173 : Ref sig .tc := ⟨.hbm, 221, rfl⟩
abbrev main_v174 : Ref sig .tc := ⟨.hbm, 222, rfl⟩
abbrev main_cst_26 : Ref sig .tc := ⟨.hbm, 223, rfl⟩
abbrev main_v175 : Ref sig .tc := ⟨.hbm, 224, rfl⟩
abbrev main_v176 : Ref sig .tc := ⟨.hbm, 225, rfl⟩
abbrev main_c_27 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg4_0 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg6_0 : Ref sig .tc := ⟨.vmem, 25, rfl⟩
abbrev cc3_stg7_0 : Ref sig .tc := ⟨.vmem, 26, rfl⟩
abbrev cc3_stg7_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg4_0 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc6_stg6_0 : Ref sig .tc := ⟨.vmem, 48, rfl⟩
abbrev cc6_stg7_0 : Ref sig .tc := ⟨.vmem, 49, rfl⟩
abbrev cc6_stg7_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg2_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg2_1 : Ref sig .tc := ⟨.vmem, 60, rfl⟩
abbrev cc8_stg3_0 : Ref sig .tc := ⟨.vmem, 61, rfl⟩
abbrev cc8_stg4_0 : Ref sig .tc := ⟨.vmem, 62, rfl⟩
abbrev cc9_stg0_0 : Ref sig .tc := ⟨.vmem, 63, rfl⟩
abbrev cc9_stg0_1 : Ref sig .tc := ⟨.vmem, 64, rfl⟩
abbrev cc9_stg1_0 : Ref sig .tc := ⟨.vmem, 65, rfl⟩
abbrev cc9_stg1_1 : Ref sig .tc := ⟨.vmem, 66, rfl⟩
abbrev cc9_stg2_0 : Ref sig .tc := ⟨.vmem, 67, rfl⟩
abbrev cc9_stg3_0 : Ref sig .tc := ⟨.vmem, 68, rfl⟩
abbrev cc9_stg4_0 : Ref sig .tc := ⟨.vmem, 69, rfl⟩
abbrev cc9_stg5_0 : Ref sig .tc := ⟨.vmem, 70, rfl⟩
abbrev cc9_stg6_0 : Ref sig .tc := ⟨.vmem, 71, rfl⟩
abbrev cc9_stg7_0 : Ref sig .tc := ⟨.vmem, 72, rfl⟩
abbrev cc9_stg7_1 : Ref sig .tc := ⟨.vmem, 73, rfl⟩
abbrev cc10_stg0_0 : Ref sig .tc := ⟨.vmem, 74, rfl⟩
abbrev cc10_stg0_1 : Ref sig .tc := ⟨.vmem, 75, rfl⟩
abbrev cc10_stg1_0 : Ref sig .tc := ⟨.vmem, 76, rfl⟩
abbrev cc10_stg2_0 : Ref sig .tc := ⟨.vmem, 77, rfl⟩
abbrev cc10_stg3_0 : Ref sig .tc := ⟨.vmem, 78, rfl⟩
abbrev cc10_stg4_0 : Ref sig .tc := ⟨.vmem, 79, rfl⟩
abbrev cc10_stg5_0 : Ref sig .tc := ⟨.vmem, 80, rfl⟩
abbrev cc10_stg5_1 : Ref sig .tc := ⟨.vmem, 81, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem4_0 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem6_0 : DmaSem sig := 25
abbrev cc3_sem7_0 : DmaSem sig := 26
abbrev cc3_sem7_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc5_sem3_0 : DmaSem sig := 38
abbrev cc5_sem4_0 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem3_0 : DmaSem sig := 45
abbrev cc6_sem4_0 : DmaSem sig := 46
abbrev cc6_sem5_0 : DmaSem sig := 47
abbrev cc6_sem6_0 : DmaSem sig := 48
abbrev cc6_sem7_0 : DmaSem sig := 49
abbrev cc6_sem7_1 : DmaSem sig := 50
abbrev cc7_sem0_0 : DmaSem sig := 51
abbrev cc7_sem0_1 : DmaSem sig := 52
abbrev cc7_sem1_0 : DmaSem sig := 53
abbrev cc7_sem2_0 : DmaSem sig := 54
abbrev cc7_sem2_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem2_1 : DmaSem sig := 60
abbrev cc8_sem3_0 : DmaSem sig := 61
abbrev cc8_sem4_0 : DmaSem sig := 62
abbrev cc9_sem0_0 : DmaSem sig := 63
abbrev cc9_sem0_1 : DmaSem sig := 64
abbrev cc9_sem1_0 : DmaSem sig := 65
abbrev cc9_sem1_1 : DmaSem sig := 66
abbrev cc9_sem2_0 : DmaSem sig := 67
abbrev cc9_sem3_0 : DmaSem sig := 68
abbrev cc9_sem4_0 : DmaSem sig := 69
abbrev cc9_sem5_0 : DmaSem sig := 70
abbrev cc9_sem6_0 : DmaSem sig := 71
abbrev cc9_sem7_0 : DmaSem sig := 72
abbrev cc9_sem7_1 : DmaSem sig := 73
abbrev cc10_sem0_0 : DmaSem sig := 74
abbrev cc10_sem0_1 : DmaSem sig := 75
abbrev cc10_sem1_0 : DmaSem sig := 76
abbrev cc10_sem2_0 : DmaSem sig := 77
abbrev cc10_sem3_0 : DmaSem sig := 78
abbrev cc10_sem4_0 : DmaSem sig := 79
abbrev cc10_sem5_0 : DmaSem sig := 80
abbrev cc10_sem5_1 : DmaSem sig := 81

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S5000x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  slices_S3x128x128_S1x128x128_0_0_0 : S3x128x128.Slices ![0, 0, 0] S1x128x128
  shapeCasts_S1x128x128_S128x128 : S1x128x128.ShapeCasts S128x128
  shapeCasts_S128x128_S128x128 : S128x128.ShapeCasts S128x128
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S128x128 : S_.BroadcastsInDim S128x128 (![] : Fin 0 → Fin S128x128.rank)
  bcast_S_S1 : S_.BroadcastsInDim S1 (![] : Fin 0 → Fin S1.rank)
  bcast_S_S1x128 : S_.BroadcastsInDim S1x128 (![] : Fin 0 → Fin S1x128.rank)
  shapeCasts_S1_S1x1 : S1.ShapeCasts S1x1
  slices_S100000x128_S100000x1_0_0 : S100000x128.Slices ![0, 0] S100000x1
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S5000x128_S128x128_S5000x128_1_0_0_1_n_n_wf : DotDims.WF S5000x128 S128x128 S5000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  scatter_S128x128_S1_S128x1_01_n_1_0_wf : ScatterDims.WF S128x128 S1 S128x1 [0, 1] [] [1] 0
  scatter_S1x128_S1_S1x1_01_n_1_0_wf : ScatterDims.WF S1x128 S1 S1x1 [0, 1] [] [1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S100000x128.size a
  hwx3_7 : ∀ i : grid3.Coords, EltTy.bits .f32 = 32 ∨ (Rect.block (s := S100000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x128.size a ≤ S100000x128.size a
  hwx6_7 : ∀ i : grid6.Coords, EltTy.bits .f32 = 32 ∨ (Rect.block (s := S100000x128) S5000x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S100000x128.size a
  hwx8_2 : ∀ i : grid8.Coords, EltTy.bits .f32 = 32 ∨ (Rect.block (s := S100000x128) S5000x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S100000x128.size a
  hwx9_1 : ∀ i : grid9.Coords, EltTy.bits .f32 = 32 ∨ (Rect.block (s := S100000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S5000x128.size a ≤ S100000x128.size a
  hwx9_7 : ∀ i : grid9.Coords, EltTy.bits .f32 = 32 ∨ (Rect.block (s := S100000x128) S5000x128.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .f32 = 32 ∨ (Rect.block (s := S128x128) S128x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x128.size a ≤ S100000x128.size a
  hwx10_5 : ∀ i : grid10.Coords, EltTy.bits .f32 = 32 ∨ (Rect.block (s := S100000x128) S5000x128.size (cc10_transform_5 i) (hinb10_5 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def scatter_S128x128_S1_S128x1_01_n_1_0 : ScatterDims S128x128 S1 S128x1 where
  updateWindowDims := [0, 1]
  insertedWindowDims := []
  scatterDimsToOperandDims := [1]
  indexVectorDim := 0
  wf := scatter_S128x128_S1_S128x1_01_n_1_0_wf
def scatter_S1x128_S1_S1x1_01_n_1_0 : ScatterDims S1x128 S1 S1x1 where
  updateWindowDims := [0, 1]
  insertedWindowDims := []
  scatterDimsToOperandDims := [1]
  indexVectorDim := 0
  wf := scatter_S1x128_S1_S1x1_01_n_1_0_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50_0) S5000x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v50_1) S1x128.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50_2) S1x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v76) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v77) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v77) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v93) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v96) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v97_0) S5000x128.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v97_1) S1x128.size cc5_transform_3 reads5_3 true true 1 stage5_3 sem5_3
    hrank5 hreads5_3 hinb5_3 nbuf5_3 (Memref.isWhole_whole _) hwx5_3 hstage5_3

abbrev win5_4 : Pipeline.Window sig grid5 :=
  Pipeline.Window.ofSpec (Memref.whole main_v97_2) S1x128.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v97_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v77) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v119) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v120) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v121) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v122) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v123) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v124) S5000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v124) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v126) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v127) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v140) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v143) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v144_0) S5000x128.size cc8_transform_2 reads8_2 true false 2 stage8_2 sem8_2
    hrank8 hreads8_2 hinb8_2 nbuf8_2 (Memref.isWhole_whole _) hwx8_2 hstage8_2

abbrev win8_3 : Pipeline.Window sig grid8 :=
  Pipeline.Window.ofSpec (Memref.whole main_v144_1) S1x128.size cc8_transform_3 reads8_3 true true 1 stage8_3 sem8_3
    hrank8 hreads8_3 hinb8_3 nbuf8_3 (Memref.isWhole_whole _) hwx8_3 hstage8_3

abbrev win8_4 : Pipeline.Window sig grid8 :=
  Pipeline.Window.ofSpec (Memref.whole main_v144_2) S1x128.size cc8_transform_4 reads8_4 true true 1 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v144_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v124) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v166) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v167) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v168) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v169) S1x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v170) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v171) S5000x128.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v171) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg8) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v179) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v174) S128x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v178) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v180) S5000x128.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S1x128x128 : Shape := ⟨3, ![1, 128, 128]⟩
abbrev S1x128 : Shape := ⟨2, ![1, 128]⟩
abbrev S740000x128 : Shape := ⟨2, ![740000, 128]⟩
abbrev S100000x1 : Shape := ⟨2, ![100000, 1]⟩
abbrev S1x1 : Shape := ⟨2, ![1, 1]⟩

abbrev nBuf : Space → Nat
  | .hbm => 250
  | .vmem => 0
  | .smem => 0
  | _ => 0

abbrev hbmTy0_0 (i : Nat) : BufTy := match i % 128 with
  | 0 => ⟨S100000x128, .f32⟩
  | 1 => ⟨S2x640000, .i32⟩
  | 2 => ⟨S3x128x128, .f32⟩
  | 3 => ⟨S3x128, .f32⟩
  | 4 => ⟨S3x128, .f32⟩
  | 5 => ⟨S3x128, .f32⟩
  | 6 => ⟨S3x128, .f32⟩
  | 7 => ⟨S128x128, .f32⟩
  | 8 => ⟨S128x128, .f32⟩
  | 9 => ⟨S128, .f32⟩
  | 10 => ⟨S128x1, .f32⟩
  | 11 => ⟨S1, .f32⟩
  | 12 => ⟨S100000, .i32⟩
  | 13 => ⟨S1x640000, .i32⟩
  | 14 => ⟨S640000, .i32⟩
  | 15 => ⟨S740000, .i32⟩
  | 16 => ⟨S1x640000, .i32⟩
  | 17 => ⟨S640000, .i32⟩
  | 18 => ⟨S740000, .i32⟩
  | 19 => ⟨S_, .f32⟩
  | 20 => ⟨S740000, .f32⟩
  | 21 => ⟨S_, .f32⟩
  | 22 => ⟨S100000, .f32⟩
  | 23 => ⟨S740000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S740000, .i32⟩
  | 35 => ⟨S740000, .i1⟩
  | 36 => ⟨S_, .i32⟩
  | 37 => ⟨S740000, .i32⟩
  | 38 => ⟨S740000, .i32⟩
  | 39 => ⟨S740000, .i32⟩
  | 40 => ⟨S740000x1, .i32⟩
  | 41 => ⟨S740000, .f32⟩
  | 42 => ⟨S_, .i32⟩
  | 43 => ⟨S740000, .i32⟩
  | 44 => ⟨S740000, .i1⟩
  | 45 => ⟨S_, .i32⟩
  | 46 => ⟨S740000, .i32⟩
  | 47 => ⟨S740000, .i32⟩
  | 48 => ⟨S740000, .i32⟩
  | 49 => ⟨S740000x1, .i32⟩
  | 50 => ⟨S740000, .f32⟩
  | 51 => ⟨S740000, .f32⟩
  | 52 => ⟨S100000x128, .f32⟩
  | 53 => ⟨S1x128x128, .f32⟩
  | 54 => ⟨S128x128, .f32⟩
  | 55 => ⟨S1x128, .f32⟩
  | 56 => ⟨S128, .f32⟩
  | 57 => ⟨S100000x128, .f32⟩
  | 58 => ⟨S_, .i32⟩
  | 59 => ⟨S740000, .i32⟩
  | 60 => ⟨S740000, .i1⟩
  | 61 => ⟨S_, .i32⟩
  | 62 => ⟨S740000, .i32⟩
  | 63 => ⟨S740000, .i32⟩
  | 64 => ⟨S740000, .i32⟩
  | 65 => ⟨S740000x1, .i32⟩
  | 66 => ⟨S740000x128, .f32⟩
  | 67 => ⟨S740000x1, .f32⟩
  | 68 => ⟨S740000x128, .f32⟩
  | 69 => ⟨S740000x128, .f32⟩
  | 70 => ⟨S_, .f32⟩
  | 71 => ⟨S100000x128, .f32⟩
  | 72 => ⟨S740000x1, .i32⟩
  | 73 => ⟨S100000x128, .f32⟩
  | 74 => ⟨S1x128, .f32⟩
  | 75 => ⟨S100000x128, .f32⟩
  | 76 => ⟨S100000x128, .f32⟩
  | 77 => ⟨S1x128, .f32⟩
  | 78 => ⟨S128, .f32⟩
  | 79 => ⟨S1x128, .f32⟩
  | 80 => ⟨S128, .f32⟩
  | 81 => ⟨S1x128, .f32⟩
  | 82 => ⟨S128, .f32⟩
  | 83 => ⟨S_, .f32⟩
  | 84 => ⟨S128, .f32⟩
  | 85 => ⟨S_, .f32⟩
  | 86 => ⟨S128, .f32⟩
  | 87 => ⟨S128, .f32⟩
  | 88 => ⟨S128, .f32⟩
  | 89 => ⟨S1x128, .f32⟩
  | 90 => ⟨S100000x128, .f32⟩
  | 91 => ⟨S100000x128, .f32⟩
  | 92 => ⟨S100000x128, .f32⟩
  | 93 => ⟨S_, .f32⟩
  | 94 => ⟨S128, .f32⟩
  | 95 => ⟨S_, .f32⟩
  | 96 => ⟨S128, .f32⟩
  | 97 => ⟨S128, .f32⟩
  | 98 => ⟨S_, .f32⟩
  | 99 => ⟨S128, .f32⟩
  | 100 => ⟨S128, .f32⟩
  | 101 => ⟨S128, .f32⟩
  | 102 => ⟨S1x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S100000x128, .f32⟩
  | 115 => ⟨S1x128x128, .f32⟩
  | 116 => ⟨S128x128, .f32⟩
  | 117 => ⟨S1x128, .f32⟩
  | 118 => ⟨S128, .f32⟩
  | 119 => ⟨S100000x128, .f32⟩
  | 120 => ⟨S_, .i32⟩
  | 121 => ⟨S740000, .i32⟩
  | 122 => ⟨S740000, .i1⟩
  | 123 => ⟨S_, .i32⟩
  | 124 => ⟨S740000, .i32⟩
  | 125 => ⟨S740000, .i32⟩
  | 126 => ⟨S740000, .i32⟩
  | 127 => ⟨S740000x1, .i32⟩
  | _ => ⟨S100000x128, .f32⟩

abbrev hbmTy0_1 (i : Nat) : BufTy := match i % 128 with
  | 0 => ⟨S740000x128, .f32⟩
  | 1 => ⟨S740000x1, .f32⟩
  | 2 => ⟨S740000x128, .f32⟩
  | 3 => ⟨S740000x128, .f32⟩
  | 4 => ⟨S_, .f32⟩
  | 5 => ⟨S100000x128, .f32⟩
  | 6 => ⟨S740000x1, .i32⟩
  | 7 => ⟨S100000x128, .f32⟩
  | 8 => ⟨S1x128, .f32⟩
  | 9 => ⟨S100000x128, .f32⟩
  | 10 => ⟨S100000x128, .f32⟩
  | 11 => ⟨S1x128, .f32⟩
  | 12 => ⟨S128, .f32⟩
  | 13 => ⟨S1x128, .f32⟩
  | 14 => ⟨S128, .f32⟩
  | 15 => ⟨S1x128, .f32⟩
  | 16 => ⟨S128, .f32⟩
  | 17 => ⟨S_, .f32⟩
  | 18 => ⟨S128, .f32⟩
  | 19 => ⟨S_, .f32⟩
  | 20 => ⟨S128, .f32⟩
  | 21 => ⟨S128, .f32⟩
  | 22 => ⟨S128, .f32⟩
  | 23 => ⟨S1x128, .f32⟩
  | 24 => ⟨S100000x128, .f32⟩
  | 25 => ⟨S100000x128, .f32⟩
  | 26 => ⟨S100000x128, .f32⟩
  | 27 => ⟨S_, .f32⟩
  | 28 => ⟨S128, .f32⟩
  | 29 => ⟨S_, .f32⟩
  | 30 => ⟨S128, .f32⟩
  | 31 => ⟨S128, .f32⟩
  | 32 => ⟨S_, .f32⟩
  | 33 => ⟨S128, .f32⟩
  | 34 => ⟨S128, .f32⟩
  | 35 => ⟨S128, .f32⟩
  | 36 => ⟨S1x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S100000x128, .f32⟩
  | 49 => ⟨S1x128x128, .f32⟩
  | 50 => ⟨S128x128, .f32⟩
  | 51 => ⟨S1x128, .f32⟩
  | 52 => ⟨S128, .f32⟩
  | 53 => ⟨S100000x128, .f32⟩
  | 54 => ⟨S_, .i32⟩
  | 55 => ⟨S740000, .i32⟩
  | 56 => ⟨S740000, .i1⟩
  | 57 => ⟨S_, .i32⟩
  | 58 => ⟨S740000, .i32⟩
  | 59 => ⟨S740000, .i32⟩
  | 60 => ⟨S740000, .i32⟩
  | 61 => ⟨S740000x1, .i32⟩
  | 62 => ⟨S740000x128, .f32⟩
  | 63 => ⟨S740000x1, .f32⟩
  | 64 => ⟨S740000x128, .f32⟩
  | 65 => ⟨S740000x128, .f32⟩
  | 66 => ⟨S_, .f32⟩
  | 67 => ⟨S100000x128, .f32⟩
  | 68 => ⟨S740000x1, .i32⟩
  | 69 => ⟨S100000x128, .f32⟩
  | 70 => ⟨S1x128, .f32⟩
  | 71 => ⟨S100000x128, .f32⟩
  | 72 => ⟨S100000x128, .f32⟩
  | 73 => ⟨S1x128, .f32⟩
  | 74 => ⟨S128, .f32⟩
  | 75 => ⟨S1x128, .f32⟩
  | 76 => ⟨S128, .f32⟩
  | 77 => ⟨S1x128, .f32⟩
  | 78 => ⟨S128, .f32⟩
  | 79 => ⟨S_, .f32⟩
  | 80 => ⟨S128, .f32⟩
  | 81 => ⟨S_, .f32⟩
  | 82 => ⟨S128, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S100000x128, .f32⟩
  | 89 => ⟨S_, .f32⟩
  | 90 => ⟨S128, .f32⟩
  | 91 => ⟨S_, .f32⟩
  | 92 => ⟨S128, .f32⟩
  | 93 => ⟨S128, .f32⟩
  | 94 => ⟨S_, .f32⟩
  | 95 => ⟨S128, .f32⟩
  | 96 => ⟨S128, .f32⟩
  | 97 => ⟨S128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S100000x1, .f32⟩
  | 119 => ⟨S1x1, .f32⟩
  | 120 => ⟨S100000x1, .f32⟩
  | 121 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_9 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_cst_12 : Ref sig .tc := ⟨.hbm, 95, rfl⟩
abbrev main_v67 : Ref sig .tc := ⟨.hbm, 96, rfl⟩
abbrev main_v68 : Ref sig .tc := ⟨.hbm, 97, rfl⟩
abbrev main_cst_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_call1_cst : Ref sig .tc := ⟨.hbm, 111, rfl⟩
abbrev main_call1_v0 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_14 : Ref sig .tc := ⟨.hbm, 120, rfl⟩
abbrev main_v88 : Ref sig .tc := ⟨.hbm, 121, rfl⟩
abbrev main_v89 : Ref sig .tc := ⟨.hbm, 122, rfl⟩
abbrev main_c_15 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_16 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_17 : Ref sig .tc := ⟨.hbm, 145, rfl⟩
abbrev main_v110 : Ref sig .tc := ⟨.hbm, 146, rfl⟩
abbrev main_cst_18 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_19 : Ref sig .tc := ⟨.hbm, 155, rfl⟩
abbrev main_v118 : Ref sig .tc := ⟨.hbm, 156, rfl⟩
abbrev main_cst_20 : Ref sig .tc := ⟨.hbm, 157, rfl⟩
abbrev main_v119 : Ref sig .tc := ⟨.hbm, 158, rfl⟩
abbrev main_v120 : Ref sig .tc := ⟨.hbm, 159, rfl⟩
abbrev main_cst_21 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_call2_cst : Ref sig .tc := ⟨.hbm, 173, rfl⟩
abbrev main_call2_v0 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_c_22 : Ref sig .tc := ⟨.hbm, 182, rfl⟩
abbrev main_v140 : Ref sig .tc := ⟨.hbm, 183, rfl⟩
abbrev main_v141 : Ref sig .tc := ⟨.hbm, 184, rfl⟩
abbrev main_c_23 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_cst_24 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_cst_25 : Ref sig .tc := ⟨.hbm, 207, rfl⟩
abbrev main_v162 : Ref sig .tc := ⟨.hbm, 208, rfl⟩
abbrev main_cst_26 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_cst_27 : Ref sig .tc := ⟨.hbm, 217, rfl⟩
abbrev main_v170 : Ref sig .tc := ⟨.hbm, 218, rfl⟩
abbrev main_cst_28 : Ref sig .tc := ⟨.hbm, 219, rfl⟩
abbrev main_v171 : Ref sig .tc := ⟨.hbm, 220, rfl⟩
abbrev main_v172 : Ref sig .tc := ⟨.hbm, 221, rfl⟩
abbrev main_cst_29 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_call3_cst : Ref sig .tc := ⟨.hbm, 235, rfl⟩
abbrev main_call3_v0 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_call4_cst : Ref sig .tc := ⟨.hbm, 243, rfl⟩
abbrev main_call4_v0 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x128_S128x128_S100000x128_1_0_0_1_n_n_wf : DotDims.WF S100000x128 S128x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x1_S100000x1_1_0_0_1_n_n_wf : DotDims.WF S100000x128 S128x1 S100000x1 [1] [0] [0] [1] [] []

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KRun.lean ====
/-
  The idealized kernel program's run, with its result named.

  Every weakly fair execution of the program terminates, without a fault, with the argument arrays as launched and
  with the result buffer holding what the fold of the program's segments — host stretches and pipelined regions, in
  order, from the launch memory — leaves there.  The argument is the launch of the segments over the thread state
  "every unscoped buffer at the boundary's contents"; the final state is read against the last boundary's contents
  at every unscoped buffer, the result's among them.
-/
import proofs.«110479_j25572235281175_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the program from any memory with zero counters: the result buffer ends at the last boundary's
    contents, the arguments end as launched. -/
theorem run_result : θ_run defs (onTc (τ := τ) (main (F := F))) ⟨m, fun _ => 0, ρ⟩ (fun r => ∀ c : Dev nD,
      r.2.mem ((c.tc : Thread nD τ).loc main_v181) = W25 m ρ c (Proc.devRef .tc main_v181)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v181 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c),
       (h c _ (mem_uc main_arg9 (by decide))).trans (W25_main_arg9 m ρ c),
       (h c _ (mem_uc main_arg10 (by decide))).trans (W25_main_arg10 m ρ c),
       (h c _ (mem_uc main_arg11 (by decide))).trans (W25_main_arg11 m ρ c)⟩)

end Cert.KernelIdeal.Gen

end
-- ==== Proof.Carry.lean ====
/-
  Buffers that a stretch of the program does not write keep their contents.

  The program is in single-assignment form: every buffer is written by exactly one host operation or is the output
  array of exactly one pipelined region.  For each host stretch the list of the buffers its operations write is
  spelt out, and a buffer outside that list holds after the stretch what it held before; for each region a buffer
  that is none of the region's arrays is untouched by it, and an input array of a region ends as it was entered.
  These are the steps by which a value computed early (an argument, the edge lists, the edge weights, a layer's
  input kept for the residual sum) is carried to the place where it is read.
-/
import proofs.«110479_j25572235281175_1_alg».proof.Proof.Gen.KernelIdeal.Frame

set_option maxRecDepth 16384

noncomputable section

namespace Cert.KernelIdeal.Carry

open Idealize.ShloMosaic Idealize.ShloMosaic.TcCoe Cert.KernelIdeal Cert.KernelIdeal.Gen

variable {F : FTy → Type} [FloatOps F]

/-- The buffers the operations of this stretch write. -/
abbrev wl0 : List (Ref sig .tc) := [main_v0, main_v1, main_v2, main_v3, main_v4, main_v5, main_v6, main_cst, main_v7, main_cst_0, main_v8, main_v9, main_v10, main_cst_1, main_v11, main_v12, main_v13, main_cst_2]
theorem writes0 : (hostOps0 : List (HloOp τ sig (Elt F))).Forall fun op => op.writes ⊆ ((wl0).map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer the stretch does not write keeps its contents. -/
theorem keepH0 (W : Valuation τ sig (Elt F)) (r : Ref sig .tc) (hr : r ∉ wl0) :
    StableHlo.after hostOps0 W (Proc.devRef .tc r) = W (Proc.devRef .tc r) :=
  StableHlo.after_of_writes_sub hostOps0 W writes0 hr

/-- The buffers the operations of this stretch write. -/
abbrev wl0_1 : List (Ref sig .tc) := [main_call0_v0, main_call0_v1, main_v14]
theorem writes0_1 : (hostOps0_1 : List (HloOp τ sig (Elt F))).Forall fun op => op.writes ⊆ ((wl0_1).map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer the stretch does not write keeps its contents. -/
theorem keepH0_1 (W : Valuation τ sig (Elt F)) (r : Ref sig .tc) (hr : r ∉ wl0_1) :
    StableHlo.after hostOps0_1 W (Proc.devRef .tc r) = W (Proc.devRef .tc r) :=
  StableHlo.after_of_writes_sub hostOps0_1 W writes0_1 hr

/-- The buffers the operations of this stretch write. -/
abbrev wl0_2 : List (Ref sig .tc) := [main_c, main_v15, main_v16, main_c_3, main_v17, main_v18, main_v19, main_v20, main_v21, main_c_4, main_v22, main_v23, main_c_5, main_v24, main_v25, main_v26, main_v27, main_v28, main_v29]
theorem writes0_2 : (hostOps0_2 : List (HloOp τ sig (Elt F))).Forall fun op => op.writes ⊆ ((wl0_2).map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer the stretch does not write keeps its contents. -/
theorem keepH0_2 (W : Valuation τ sig (Elt F)) (r : Ref sig .tc) (hr : r ∉ wl0_2) :
    StableHlo.after hostOps0_2 W (Proc.devRef .tc r) = W (Proc.devRef .tc r) :=
  StableHlo.after_of_writes_sub hostOps0_2 W writes0_2 hr

/-- The buffers the operations of this stretch write. -/
abbrev wl1 : List (Ref sig .tc) := [main_v31, main_v32]
theorem writes1 : (hostOps1 : List (HloOp τ sig (Elt F))).Forall fun op => op.writes ⊆ ((wl1).map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer the stretch does not write keeps its contents. -/
theorem keepH1 (W : Valuation τ sig (Elt F)) (r : Ref sig .tc) (hr : r ∉ wl1) :
    StableHlo.after hostOps1 W (Proc.devRef .tc r) = W (Proc.devRef .tc r) :=
  StableHlo.after_of_writes_sub hostOps1 W writes1 hr

/-- The buffers the operations of this stretch write. -/
abbrev wl2 : List (Ref sig .tc) := [main_c_6, main_v34, main_v35, main_c_7, main_v36, main_v37, main_v38, main_v39, main_v40, main_v41, main_v42, main_v43, main_cst_8, main_v44, main_v45, main_v46, main_v47, main_v48, main_v49]
theorem writes2 : (hostOps2 : List (HloOp τ sig (Elt F))).Forall fun op => op.writes ⊆ ((wl2).map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer the stretch does not write keeps its contents. -/
theorem keepH2 (W : Valuation τ sig (Elt F)) (r : Ref sig .tc) (hr : r ∉ wl2) :
    StableHlo.after hostOps2 W (Proc.devRef .tc r) = W (Proc.devRef .tc r) :=
  StableHlo.after_of_writes_sub hostOps2 W writes2 hr

/-- The buffers the operations of this stretch write. -/
abbrev wl3 : List (Ref sig .tc) := [main_v51, main_v52, main_v53, main_cst_9, main_v54, main_v55, main_v56, main_cst_10, main_v57, main_v58, main_cst_11, main_v59, main_v60, main_v61, main_v62, main_v63, main_v64, main_v65, main_v66, main_v67, main_v68, main_v69, main_v70, main_v71, main_v72, main_v73, main_v74, main_v75, main_v76]
theorem writes3 : (hostOps3 : List (HloOp τ sig (Elt F))).Forall fun op => op.writes ⊆ ((wl3).map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer the stretch does not write keeps its contents. -/
theorem keepH3 (W : Valuation τ sig (Elt F)) (r : Ref sig .tc) (hr : r ∉ wl3) :
    StableHlo.after hostOps3 W (Proc.devRef .tc r) = W (Proc.devRef .tc r) :=
  StableHlo.after_of_writes_sub hostOps3 W writes3 hr

/-- The buffers the operations of this stretch write. -/
abbrev wl4 : List (Ref sig .tc) := [main_v78, main_v79]
theorem writes4 : (hostOps4 : List (HloOp τ sig (Elt F))).Forall fun op => op.writes ⊆ ((wl4).map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer the stretch does not write keeps its contents. -/
theorem keepH4 (W : Valuation τ sig (Elt F)) (r : Ref sig .tc) (hr : r ∉ wl4) :
    StableHlo.after hostOps4 W (Proc.devRef .tc r) = W (Proc.devRef .tc r) :=
  StableHlo.after_of_writes_sub hostOps4 W writes4 hr

/-- The buffers the operations of this stretch write. -/
abbrev wl5 : List (Ref sig .tc) := [main_c_12, main_v81, main_v82, main_c_13, main_v83, main_v84, main_v85, main_v86, main_v87, main_v88, main_v89, main_v90, main_cst_14, main_v91, main_v92, main_v93, main_v94, main_v95, main_v96]
theorem writes5 : (hostOps5 : List (HloOp τ sig (Elt F))).Forall fun op => op.writes ⊆ ((wl5).map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer the stretch does not write keeps its contents. -/
theorem keepH5 (W : Valuation τ sig (Elt F)) (r : Ref sig .tc) (hr : r ∉ wl5) :
    StableHlo.after hostOps5 W (Proc.devRef .tc r) = W (Proc.devRef .tc r) :=
  StableHlo.after_of_writes_sub hostOps5 W writes5 hr

/-- The buffers the operations of this stretch write. -/
abbrev wl6 : List (Ref sig .tc) := [main_v98, main_v99, main_v100, main_cst_15, main_v101, main_v102, main_v103, main_cst_16, main_v104, main_v105, main_cst_17, main_v106, main_v107, main_v108, main_v109, main_v110, main_v111, main_v112, main_v113, main_v114, main_v115, main_v116, main_v117, main_v118, main_v119, main_v120, main_v121, main_v122, main_v123]
theorem writes6 : (hostOps6 : List (HloOp τ sig (Elt F))).Forall fun op => op.writes ⊆ ((wl6).map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer the stretch does not write keeps its contents. -/
theorem keepH6 (W : Valuation τ sig (Elt F)) (r : Ref sig .tc) (hr : r ∉ wl6) :
    StableHlo.after hostOps6 W (Proc.devRef .tc r) = W (Proc.devRef .tc r) :=
  StableHlo.after_of_writes_sub hostOps6 W writes6 hr

/-- The buffers the operations of this stretch write. -/
abbrev wl7 : List (Ref sig .tc) := [main_v125, main_v126]
theorem writes7 : (hostOps7 : List (HloOp τ sig (Elt F))).Forall fun op => op.writes ⊆ ((wl7).map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer the stretch does not write keeps its contents. -/
theorem keepH7 (W : Valuation τ sig (Elt F)) (r : Ref sig .tc) (hr : r ∉ wl7) :
    StableHlo.after hostOps7 W (Proc.devRef .tc r) = W (Proc.devRef .tc r) :=
  StableHlo.after_of_writes_sub hostOps7 W writes7 hr

/-- The buffers the operations of this stretch write. -/
abbrev wl8 : List (Ref sig .tc) := [main_c_18, main_v128, main_v129, main_c_19, main_v130, main_v131, main_v132, main_v133, main_v134, main_v135, main_v136, main_v137, main_cst_20, main_v138, main_v139, main_v140, main_v141, main_v142, main_v143]
theorem writes8 : (hostOps8 : List (HloOp τ sig (Elt F))).Forall fun op => op.writes ⊆ ((wl8).map (Proc.devRef (τ := τ) .tc)).toFinset := by
  simp only [hostOps8, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer the stretch does not write keeps its contents. -/
theorem keepH8 (W : Valuation τ sig (Elt F)) (r : Ref sig .tc) (hr : r ∉ wl8) :
    StableHlo.after hostOps8 W (Proc.devRef .tc r) = W (Proc.devRef .tc r) :=
  StableHlo.after_of_writes_sub hostOps8 W writes8 hr

/-- The buffers the operations of this stretch write. -/
abbrev wl9 : List (Ref sig .tc) := [main_v145, main_v146, main_v147, main_cst_21, main_v148, main_v149, main_v150, main_cst_22, main_v151, main_v152, main_cst_23, main_v153, main_v154, main_v155, main_v156, main_v157, main_v158, main_v159, main_v160, main_v161, main_v162, main_v163, main_v164, main_v165, main_v166, main_v167, main_v168, main_v169, main_v170]
theorem writes9 : (hostOps9 : List (HloOp τ sig (Elt F))).Forall fun op => op.writes ⊆ ((wl9).map (Proc.devRef (τ := τ) .tc)).toFinset := by
  simp only [hostOps9, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer the stretch does not write keeps its contents. -/
theorem keepH9 (W : Valuation τ sig (Elt F)) (r : Ref sig .tc) (hr : r ∉ wl9) :
    StableHlo.after hostOps9 W (Proc.devRef .tc r) = W (Proc.devRef .tc r) :=
  StableHlo.after_of_writes_sub hostOps9 W writes9 hr

/-- The buffers the operations of this stretch write. -/
abbrev wl10 : List (Ref sig .tc) := [main_cst_24, main_v172, main_c_25, main_v173, main_v174, main_cst_26, main_v175, main_v176, main_c_27, main_v177, main_v178, main_v179]
theorem writes10 : (hostOps10 : List (HloOp τ sig (Elt F))).Forall fun op => op.writes ⊆ ((wl10).map (Proc.devRef (τ := τ) .tc)).toFinset := by
  simp only [hostOps10, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer the stretch does not write keeps its contents. -/
theorem keepH10 (W : Valuation τ sig (Elt F)) (r : Ref sig .tc) (hr : r ∉ wl10) :
    StableHlo.after hostOps10 W (Proc.devRef .tc r) = W (Proc.devRef .tc r) :=
  StableHlo.after_of_writes_sub hostOps10 W writes10 hr

/-- The buffers the operations of this stretch write. -/
abbrev wl11 : List (Ref sig .tc) := [main_v181]
theorem writes11 : (hostOps11 : List (HloOp τ sig (Elt F))).Forall fun op => op.writes ⊆ ((wl11).map (Proc.devRef (τ := τ) .tc)).toFinset := by
  simp only [hostOps11, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer the stretch does not write keeps its contents. -/
theorem keepH11 (W : Valuation τ sig (Elt F)) (r : Ref sig .tc) (hr : r ∉ wl11) :
    StableHlo.after hostOps11 W (Proc.devRef .tc r) = W (Proc.devRef .tc r) :=
  StableHlo.after_of_writes_sub hostOps11 W writes11 hr

variable (m : (ℓ : Loc nD τ sig) → Buf (Elt F) ℓ) (ρ : Dev nD → PrngReg)

/-- A buffer that is none of region 0's arrays is untouched by the region. -/
theorem keepR0 (c : Dev nD) (r : Ref sig .tc) (hr : r ∉ ([main_arg0, main_arg7, main_v30] : List (Ref sig .tc))) :
    W4 m ρ c (Proc.devRef .tc r) = W3 m ρ c (Proc.devRef .tc r) :=
  W4_of_ne m ρ c r fun w e => hr (e ▸ (by decide : ∀ w : Fin cfg0.W, Pipeline.arrRef spec0 w ∈ ([main_arg0, main_arg7, main_v30] : List (Ref sig .tc))) w)

/-- A buffer that is none of region 1's arrays is untouched by the region. -/
theorem keepR1 (c : Dev nD) (r : Ref sig .tc) (hr : r ∉ ([main_arg0, main_v32, main_v33] : List (Ref sig .tc))) :
    W6 m ρ c (Proc.devRef .tc r) = W5 m ρ c (Proc.devRef .tc r) :=
  W6_of_ne m ρ c r fun w e => hr (e ▸ (by decide : ∀ w : Fin cfg1.W, Pipeline.arrRef spec1 w ∈ ([main_arg0, main_v32, main_v33] : List (Ref sig .tc))) w)

/-- A buffer that is none of region 2's arrays is untouched by the region. -/
theorem keepR2 (c : Dev nD) (r : Ref sig .tc) (hr : r ∉ ([main_v46, main_v49, main_v50_0, main_v50_1, main_v50_2] : List (Ref sig .tc))) :
    W8 m ρ c (Proc.devRef .tc r) = W7 m ρ c (Proc.devRef .tc r) :=
  W8_of_ne m ρ c r fun w e => hr (e ▸ (by decide : ∀ w : Fin cfg2.W, Pipeline.arrRef spec2 w ∈ ([main_v46, main_v49, main_v50_0, main_v50_1, main_v50_2] : List (Ref sig .tc))) w)

/-- A buffer that is none of region 3's arrays is untouched by the region. -/
theorem keepR3 (c : Dev nD) (r : Ref sig .tc) (hr : r ∉ ([main_v50_0, main_v30, main_v72, main_v73, main_v74, main_v75, main_v76, main_v77] : List (Ref sig .tc))) :
    W10 m ρ c (Proc.devRef .tc r) = W9 m ρ c (Proc.devRef .tc r) :=
  W10_of_ne m ρ c r fun w e => hr (e ▸ (by decide : ∀ w : Fin cfg3.W, Pipeline.arrRef spec3 w ∈ ([main_v50_0, main_v30, main_v72, main_v73, main_v74, main_v75, main_v76, main_v77] : List (Ref sig .tc))) w)

/-- A buffer that is none of region 4's arrays is untouched by the region. -/
theorem keepR4 (c : Dev nD) (r : Ref sig .tc) (hr : r ∉ ([main_v77, main_v79, main_v80] : List (Ref sig .tc))) :
    W12 m ρ c (Proc.devRef .tc r) = W11 m ρ c (Proc.devRef .tc r) :=
  W12_of_ne m ρ c r fun w e => hr (e ▸ (by decide : ∀ w : Fin cfg4.W, Pipeline.arrRef spec4 w ∈ ([main_v77, main_v79, main_v80] : List (Ref sig .tc))) w)

/-- A buffer that is none of region 5's arrays is untouched by the region. -/
theorem keepR5 (c : Dev nD) (r : Ref sig .tc) (hr : r ∉ ([main_v93, main_v96, main_v97_0, main_v97_1, main_v97_2] : List (Ref sig .tc))) :
    W14 m ρ c (Proc.devRef .tc r) = W13 m ρ c (Proc.devRef .tc r) :=
  W14_of_ne m ρ c r fun w e => hr (e ▸ (by decide : ∀ w : Fin cfg5.W, Pipeline.arrRef spec5 w ∈ ([main_v93, main_v96, main_v97_0, main_v97_1, main_v97_2] : List (Ref sig .tc))) w)

/-- A buffer that is none of region 6's arrays is untouched by the region. -/
theorem keepR6 (c : Dev nD) (r : Ref sig .tc) (hr : r ∉ ([main_v97_0, main_v77, main_v119, main_v120, main_v121, main_v122, main_v123, main_v124] : List (Ref sig .tc))) :
    W16 m ρ c (Proc.devRef .tc r) = W15 m ρ c (Proc.devRef .tc r) :=
  W16_of_ne m ρ c r fun w e => hr (e ▸ (by decide : ∀ w : Fin cfg6.W, Pipeline.arrRef spec6 w ∈ ([main_v97_0, main_v77, main_v119, main_v120, main_v121, main_v122, main_v123, main_v124] : List (Ref sig .tc))) w)

/-- A buffer that is none of region 7's arrays is untouched by the region. -/
theorem keepR7 (c : Dev nD) (r : Ref sig .tc) (hr : r ∉ ([main_v124, main_v126, main_v127] : List (Ref sig .tc))) :
    W18 m ρ c (Proc.devRef .tc r) = W17 m ρ c (Proc.devRef .tc r) :=
  W18_of_ne m ρ c r fun w e => hr (e ▸ (by decide : ∀ w : Fin cfg7.W, Pipeline.arrRef spec7 w ∈ ([main_v124, main_v126, main_v127] : List (Ref sig .tc))) w)

/-- A buffer that is none of region 8's arrays is untouched by the region. -/
theorem keepR8 (c : Dev nD) (r : Ref sig .tc) (hr : r ∉ ([main_v140, main_v143, main_v144_0, main_v144_1, main_v144_2] : List (Ref sig .tc))) :
    W20 m ρ c (Proc.devRef .tc r) = W19 m ρ c (Proc.devRef .tc r) :=
  W20_of_ne m ρ c r fun w e => hr (e ▸ (by decide : ∀ w : Fin cfg8.W, Pipeline.arrRef spec8 w ∈ ([main_v140, main_v143, main_v144_0, main_v144_1, main_v144_2] : List (Ref sig .tc))) w)

/-- A buffer that is none of region 9's arrays is untouched by the region. -/
theorem keepR9 (c : Dev nD) (r : Ref sig .tc) (hr : r ∉ ([main_v144_0, main_v124, main_v166, main_v167, main_v168, main_v169, main_v170, main_v171] : List (Ref sig .tc))) :
    W22 m ρ c (Proc.devRef .tc r) = W21 m ρ c (Proc.devRef .tc r) :=
  W22_of_ne m ρ c r fun w e => hr (e ▸ (by decide : ∀ w : Fin cfg9.W, Pipeline.arrRef spec9 w ∈ ([main_v144_0, main_v124, main_v166, main_v167, main_v168, main_v169, main_v170, main_v171] : List (Ref sig .tc))) w)

/-- A buffer that is none of region 10's arrays is untouched by the region. -/
theorem keepR10 (c : Dev nD) (r : Ref sig .tc) (hr : r ∉ ([main_v171, main_arg8, main_v179, main_v174, main_v178, main_v180] : List (Ref sig .tc))) :
    W24 m ρ c (Proc.devRef .tc r) = W23 m ρ c (Proc.devRef .tc r) :=
  W24_of_ne m ρ c r fun w e => hr (e ▸ (by decide : ∀ w : Fin cfg10.W, Pipeline.arrRef spec10 w ∈ ([main_v171, main_arg8, main_v179, main_v174, main_v178, main_v180] : List (Ref sig .tc))) w)

/-- Region 0's input array 0 ends as it was entered. -/
theorem keepIn0_0 (c : Dev nD) :
    W4 m ρ c (Proc.devRef .tc (Pipeline.arrRef spec0 0)) = W3 m ρ c (Proc.devRef .tc (Pipeline.arrRef spec0 0)) :=
  (W4_arr m ρ c 0).trans (((dat0 (V3 m ρ) c).arrAt_in 0 rfl _).trans (A_eq0 (V3 m ρ) c 0))

/-- Region 4's input array 0 ends as it was entered. -/
theorem keepIn4_0 (c : Dev nD) :
    W12 m ρ c (Proc.devRef .tc (Pipeline.arrRef spec4 0)) = W11 m ρ c (Proc.devRef .tc (Pipeline.arrRef spec4 0)) :=
  (W12_arr m ρ c 0).trans (((dat4 (V11 m ρ) c).arrAt_in 0 rfl _).trans (A_eq4 (V11 m ρ) c 0))

/-- Region 7's input array 0 ends as it was entered. -/
theorem keepIn7_0 (c : Dev nD) :
    W18 m ρ c (Proc.devRef .tc (Pipeline.arrRef spec7 0)) = W17 m ρ c (Proc.devRef .tc (Pipeline.arrRef spec7 0)) :=
  (W18_arr m ρ c 0).trans (((dat7 (V17 m ρ) c).arrAt_in 0 rfl _).trans (A_eq7 (V17 m ρ) c 0))

end Cert.KernelIdeal.Carry

end
-- ==== Proof.KStage0.lean ====
/-
  The idealized kernel program's values before its first pipelined region.

  The host operations before the first region are, operation for operation, the reference's first forty: the two edge
  lists with their self loops appended, the degree count as a segment sum of ones, its guarded reciprocal square root, and
  the edge weights, the product of that vector gathered at the two ends of every edge.  So at the first region's entry the
  three buffers hold the reference's stage functions of the edge-index argument, and every argument buffer holds its
  launch contents.
-/
import proofs.«110479_j25572235281175_1_alg».proof.Proof.Carry
import proofs.«110479_j25572235281175_1_alg».proof.Proof.RefReadP

set_option maxRecDepth 16384

noncomputable section

namespace Cert.KernelIdeal.Stages

open Idealize.ShloMosaic Idealize.ShloMosaic.TcCoe Idealize.ShloMosaic.StableHlo Cert.KernelIdeal Cert.KernelIdeal.Gen Cert.KernelIdeal.Carry

variable {F : FTy → Type} [FloatOps F]
variable (m : (ℓ : Loc nD τ sig) → Buf (Elt F) ℓ) (ρ : Dev nD → PrngReg)

/-- An argument buffer at the first region's entry holds its launch contents. -/
theorem W3_arg (c : Dev nD) (r : Ref sig .tc) (h0 : r ∉ wl0) (h1 : r ∉ wl0_1) (h2 : r ∉ wl0_2) :
    W3 m ρ c (Proc.devRef .tc r) = m ((c : Thread nD τ).loc r) :=
  (keepH0_2 _ r h2).trans ((keepH0_1 _ r h1).trans (keepH0 _ r h0))

/-- The source list with the self loops. -/
theorem W3_v3 (c : Dev nD) :
    W3 m ρ c (Proc.devRef .tc main_v3) = Cert.ReferenceIdeal.ReadP.val_main_v3 (F := F) (m ((c : Thread nD τ).loc main_arg1)) := by
  refine (keepH0_2 _ main_v3 (by decide)).trans ((keepH0_1 _ main_v3 (by decide)).trans ?_)
  try dsimp only [W0, hostOps0]
  after_results_simp
  rfl

/-- The destination list with the self loops. -/
theorem W3_v6 (c : Dev nD) :
    W3 m ρ c (Proc.devRef .tc main_v6) = Cert.ReferenceIdeal.ReadP.val_main_v6 (F := F) (m ((c : Thread nD τ).loc main_arg1)) := by
  refine (keepH0_2 _ main_v6 (by decide)).trans ((keepH0_1 _ main_v6 (by decide)).trans ?_)
  try dsimp only [W0, hostOps0]
  after_results_simp
  rfl

/-- The edge weights. -/
theorem W3_v29 (c : Dev nD) :
    W3 m ρ c (Proc.devRef .tc main_v29) = Cert.ReferenceIdeal.ReadP.val_main_v29 (F := F) (m ((c : Thread nD τ).loc main_arg1)) := by
  dsimp only [W3, W2, W1, W0, hostOps0, hostOps0_1, hostOps0_2]
  after_results_simp
  rfl

end Cert.KernelIdeal.Stages

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.RegMatmul0.lean ====
/-
  The value of the output array of matrix-product region 0, at the ideal values.

  The region runs over 20 grid points. At point t the body multiplies block t of the rows' array — 5000 rows of a
  [100000, 128] array — by the whole [128, 128] weights into the zero accumulator and stores the product into block t of
  the output array. At the ideal values (floats extended reals, every operation exact) a product into the zero
  accumulator is the plain sum over the contraction index, so what point t writes back is block t of the product of the
  two arrays; the 20 blocks of 5000 rows tile the 100000 rows, so after the region the output array is the whole
  product: entry (r, q) is the sum over k of the rows' array at (r, k) times the weights at (k, q). The region's entry
  contents stay a parameter, so the statement serves whatever the arrays hold when the region is entered.
-/
import proofs.«110479_j25572235281175_1_alg».proof.Proof.Gen.KernelIdeal.Frame
import proofs.«110479_j25572235281175_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegValue

open Idealize.ShloMosaic Idealize.ShloMosaic.ValueIdx Idealize.ShloMosaic.TcCoe Cert.KernelIdeal Cert.KernelIdeal.Gen
open Idealize.ShloMosaic.Pipeline (Dat)

/-! ## The body's payload at a block-local index -/

/-- The zero offsets of a whole-buffer access, as the constant function. -/
theorem matmul0_offsets : (![0, 0] : Fin 2 → Nat) = fun _ => 0 := funext fun a => by fin_cases a <;> rfl

/-- The body's dimension numbers are the plain ones: rows × contraction by contraction × columns. -/
theorem matmul0_dims : dot_S5000x128_S128x128_S5000x128_1_0_0_1_n_n = DotDims.plain 5000 128 128 := rfl

/-- What the body stores, read at the block-local index (p, q): row p of the block of rows times column q of the
    weights, summed over the contraction index. When row p of the
    block is row r of an array X and the weights are W, that is entry (r, q) of the product of X and W. -/
theorem matmul0_payload (X : S100000x128.Idx → EReal) (W : S128x128.Idx → EReal)
    (x0 : Vec Ideal S5000x128 .f32) (x1 : Vec Ideal S128x128 .f32) (p : Fin 5000) (q : Fin 128) (r : Fin 100000)
    (h0 : ∀ k : Fin 128, x0 (ix2 p k) = X (ix2 r k)) (h1 : ∀ k : Fin 128, x1 (ix2 k q) = W (ix2 k q)) :
    k0_pay1 x0 x1 (ix2 p q) = ∑ k : Fin 128, X (ix2 r k) * W (ix2 k q) := by
  unfold k0_pay1
  show matmul dot_S5000x128_S128x128_S5000x128_1_0_0_1_n_n none x0 x1 (constant (F := Ideal) S5000x128 .f32 0x00000000#32) (ix2 p q) = _
  rw [matmul0_dims]
  refine (Cert.Lib.PlainDot.matmul_plain_zero_apply none x0 x1 p q).trans ?_
  exact Finset.sum_congr rfl fun k _ => by rw [h0 k, h1 k]

/-! ## Where a block's elements sit in their arrays -/

/-- The block index maps over the grid: the row blocks of the left operand and of the output move with the grid point,
    the weights stay at block (0, 0). -/
theorem matmul0_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Element (p, k) of the left operand's block at point t is element (r, k) of its array, r = 5000 t + p. -/
theorem matmul0_emb_lhs (t : Fin cfg0.N) (p : Fin 5000) (k : Fin 128) (r : Fin 100000) (hr : r.val = t.val * 5000 + p.val) :
    ((cfg0.win 0).blk t).view.emb (ix2 p k) = ix2 r k := by
  obtain ⟨e0, e1, -, -, -, -⟩ := matmul0_index t
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- Element (k, q) of the weights' block at any point is element (k, q) of the weights. -/
theorem matmul0_emb_rhs (t : Fin cfg0.N) (k : Fin 128) (q : Fin 128) :
    ((cfg0.win 1).blk t).view.emb (ix2 k q) = ix2 k q := by
  obtain ⟨-, -, e2, e3, -, -⟩ := matmul0_index t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- Element (p, q) of the output's block at point t is element (r, q) of its array, r = 5000 t + p. -/
theorem matmul0_emb_out (t : Fin cfg0.N) (p : Fin 5000) (q : Fin 128) (r : Fin 100000) (hr : r.val = t.val * 5000 + p.val) :
    ((cfg0.win 2).blk t).view.emb (ix2 p q) = ix2 r q := by
  obtain ⟨-, -, -, -, e4, e5⟩ := matmul0_index t
  funext a; apply Fin.ext
  match a with
  | ⟨0, _⟩ => show win0_2.index t (0 : Fin 2) * 5000 + 1 * p.val = r.val; omega
  | ⟨1, _⟩ => show win0_2.index t (1 : Fin 2) * 128 + 1 * q.val = q.val; omega

/-- An index of the output array is in point t's block iff each coordinate is in the block's range on its axis. -/
theorem matmul0_mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the output array is in the block of the point that its row number divided by 5000 names: the 20 blocks
    of 5000 rows tile the 100000 rows. -/
theorem matmul0_cover (i : S100000x128.Idx) :
    ∃ t : Fin cfg0.N, (cfg0.win 2).flush t = true ∧ i ∈ ((cfg0.win 2).blk t).view.set := by
  have hN : cfg0.N = 20 := N_0
  have hi0 : (i 0).val < 100000 := idx2_lt0 i
  have hi1 : (i 1).val < 128 := idx2_lt1 i
  refine ⟨⟨(i 0).val / 5000, by rw [hN]; omega⟩, flush0_2 _, ?_⟩
  rw [matmul0_mem_blk]
  obtain ⟨-, -, -, -, e4, e5⟩ := matmul0_index ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e5]; omega

/-! ## From the blocks to the array -/

variable (V : (c : Dev nD) → (b : Ref sig .tc) → Buf (Elt Ideal) ((c : Thread nD τ).loc b))

/-- What point t writes back to the output array is block t of the product of the region's two input arrays X (the
    rows) and W (the weights): entry (r, q) of the product is the sum over k of X at (r, k) times W at (k, q). -/
theorem matmul0_flushed (c : Dev nD) (X : S100000x128.Idx → EReal) (W : S128x128.Idx → EReal)
    (hX : V c (Pipeline.arrRef spec0 0) = X) (hW : V c (Pipeline.arrRef spec0 1) = W) (t : Fin cfg0.N) :
    (dat0 (F := Ideal) V c).flushed 2 t = ((cfg0.win 2).blk t).view.read (Elt Ideal)
      (fun i : S100000x128.Idx => (∑ k : Fin 128, X (ix2 (i 0 : Fin 100000) k) * W (ix2 k (i 1 : Fin 128)) : EReal)) := by
  show (cfg0.win 2).cut (grid0.coords t) ((dat0 V c).after 2 t) = _
  rw [after0_2]
  unfold out0_2
  rw [View.canon_unit_zero matmul0_offsets]
  simp only [View.ld_unit_zero (S := S5000x128) matmul0_offsets, View.ld_unit_zero (S := S128x128) matmul0_offsets]
  funext j
  obtain ⟨p, q, rfl⟩ : ∃ (p : Fin 5000) (q : Fin 128), j = ix2 p q := ⟨j 0, j 1, eq_ix2 j⟩
  have hN : cfg0.N = 20 := N_0
  have hr : t.val * 5000 + p.val < 100000 := by have := t.isLt; have := p.isLt; omega
  show k0_pay1 (iblk0 V c 0 t) (iblk0 V c 1 t) (ix2 p q)
    = (fun i : S100000x128.Idx => (∑ k : Fin 128, X (ix2 (i 0 : Fin 100000) k) * W (ix2 k (i 1 : Fin 128)) : EReal))
        (((cfg0.win 2).blk t).view.emb (ix2 p q))
  rw [matmul0_emb_out t p q ⟨t.val * 5000 + p.val, hr⟩ rfl]
  refine matmul0_payload X W (iblk0 V c 0 t) (iblk0 V c 1 t) p q ⟨t.val * 5000 + p.val, hr⟩ (fun k => ?_) (fun k => ?_)
  · show V c (Pipeline.arrRef spec0 0) (((cfg0.win 0).blk t).view.emb (ix2 p k)) = _
    rw [matmul0_emb_lhs t p k ⟨t.val * 5000 + p.val, hr⟩ rfl, hX]
  · show V c (Pipeline.arrRef spec0 1) (((cfg0.win 1).blk t).view.emb (ix2 k q)) = _
    rw [matmul0_emb_rhs t k q, hW]

/-- The output array after the region is the product of the two input arrays, whole: every point writes its block of the
    product, and the blocks cover the array. -/
theorem matmul0_array (c : Dev nD) (X : S100000x128.Idx → EReal) (W : S128x128.Idx → EReal)
    (hX : V c (Pipeline.arrRef spec0 0) = X) (hW : V c (Pipeline.arrRef spec0 1) = W) :
    (dat0 (F := Ideal) V c).arrAt 2 cfg0.N
      = (fun i : S100000x128.Idx => (∑ k : Fin 128, X (ix2 (i 0 : Fin 100000) k) * W (ix2 k (i 1 : Fin 128)) : EReal)) :=
  (dat0 (F := Ideal) V c).arrAt_eq_of_cover 2 _ (fun t _ => matmul0_flushed V c X W hX hW t) matmul0_cover

/-- The output array after the region at (r, q): the sum over k of the rows' array at (r, k) times the weights at (k, q). -/
theorem matmul0_apply (c : Dev nD) (X : S100000x128.Idx → EReal) (W : S128x128.Idx → EReal)
    (hX : V c (Pipeline.arrRef spec0 0) = X) (hW : V c (Pipeline.arrRef spec0 1) = W) (r : Fin 100000) (q : Fin 128) :
    (dat0 (F := Ideal) V c).arrAt 2 cfg0.N (ix2 r q) = ∑ k : Fin 128, X (ix2 r k) * W (ix2 k q) :=
  congrFun (matmul0_array V c X W hX hW) (ix2 r q)

end Cert.KernelIdeal.RegValue

end
-- ==== Proof.RegMatmul1.lean ====
/-
  The value of the output array of matrix-product region 1, at the ideal values.

  The region runs over 20 grid points. At point t the body multiplies block t of the rows' array — 5000 rows of a
  [100000, 128] array — by the whole [128, 128] weights into the zero accumulator and stores the product into block t of
  the output array. At the ideal values (floats extended reals, every operation exact) a product into the zero
  accumulator is the plain sum over the contraction index, so what point t writes back is block t of the product of the
  two arrays; the 20 blocks of 5000 rows tile the 100000 rows, so after the region the output array is the whole
  product: entry (r, q) is the sum over k of the rows' array at (r, k) times the weights at (k, q). The region's entry
  contents stay a parameter, so the statement serves whatever the arrays hold when the region is entered.
-/
import proofs.«110479_j25572235281175_1_alg».proof.Proof.Gen.KernelIdeal.Frame
import proofs.«110479_j25572235281175_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegValue

open Idealize.ShloMosaic Idealize.ShloMosaic.ValueIdx Idealize.ShloMosaic.TcCoe Cert.KernelIdeal Cert.KernelIdeal.Gen
open Idealize.ShloMosaic.Pipeline (Dat)

/-! ## The body's payload at a block-local index -/

/-- The zero offsets of a whole-buffer access, as the constant function. -/
theorem matmul1_offsets : (![0, 0] : Fin 2 → Nat) = fun _ => 0 := funext fun a => by fin_cases a <;> rfl

/-- The body's dimension numbers are the plain ones: rows × contraction by contraction × columns. -/
theorem matmul1_dims : dot_S5000x128_S128x128_S5000x128_1_0_0_1_n_n = DotDims.plain 5000 128 128 := rfl

/-- What the body stores, read at the block-local index (p, q): row p of the block of rows times column q of the
    weights, summed over the contraction index (the recast of the weights to their own shape is the identity). When row p of the
    block is row r of an array X and the weights are W, that is entry (r, q) of the product of X and W. -/
theorem matmul1_payload (X : S100000x128.Idx → EReal) (W : S128x128.Idx → EReal)
    (x0 : Vec Ideal S5000x128 .f32) (x1 : Vec Ideal S128x128 .f32) (p : Fin 5000) (q : Fin 128) (r : Fin 100000)
    (h0 : ∀ k : Fin 128, x0 (ix2 p k) = X (ix2 r k)) (h1 : ∀ k : Fin 128, x1 (ix2 k q) = W (ix2 k q)) :
    k1_pay1 x0 x1 (ix2 p q) = ∑ k : Fin 128, X (ix2 r k) * W (ix2 k q) := by
  unfold k1_pay1
  show matmul dot_S5000x128_S128x128_S5000x128_1_0_0_1_n_n none x0 (shapeCast S128x128 x1 shapeCasts_S128x128_S128x128) (constant (F := Ideal) S5000x128 .f32 0x00000000#32) (ix2 p q) = _
  rw [shapeCast_self x1 shapeCasts_S128x128_S128x128]
  rw [matmul1_dims]
  refine (Cert.Lib.PlainDot.matmul_plain_zero_apply none x0 x1 p q).trans ?_
  exact Finset.sum_congr rfl fun k _ => by rw [h0 k, h1 k]

/-! ## Where a block's elements sit in their arrays -/

/-- The block index maps over the grid: the row blocks of the left operand and of the output move with the grid point,
    the weights stay at block (0, 0). -/
theorem matmul1_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Element (p, k) of the left operand's block at point t is element (r, k) of its array, r = 5000 t + p. -/
theorem matmul1_emb_lhs (t : Fin cfg1.N) (p : Fin 5000) (k : Fin 128) (r : Fin 100000) (hr : r.val = t.val * 5000 + p.val) :
    ((cfg1.win 0).blk t).view.emb (ix2 p k) = ix2 r k := by
  obtain ⟨e0, e1, -, -, -, -⟩ := matmul1_index t
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- Element (k, q) of the weights' block at any point is element (k, q) of the weights. -/
theorem matmul1_emb_rhs (t : Fin cfg1.N) (k : Fin 128) (q : Fin 128) :
    ((cfg1.win 1).blk t).view.emb (ix2 k q) = ix2 k q := by
  obtain ⟨-, -, e2, e3, -, -⟩ := matmul1_index t
  funext a; apply Fin.ext
  match a with
  | ⟨0, _⟩ => show win1_1.index t (0 : Fin 2) * 128 + 1 * k.val = k.val; omega
  | ⟨1, _⟩ => show win1_1.index t (1 : Fin 2) * 128 + 1 * q.val = q.val; omega

/-- Element (p, q) of the output's block at point t is element (r, q) of its array, r = 5000 t + p. -/
theorem matmul1_emb_out (t : Fin cfg1.N) (p : Fin 5000) (q : Fin 128) (r : Fin 100000) (hr : r.val = t.val * 5000 + p.val) :
    ((cfg1.win 2).blk t).view.emb (ix2 p q) = ix2 r q := by
  obtain ⟨-, -, -, -, e4, e5⟩ := matmul1_index t
  funext a; apply Fin.ext
  match a with
  | ⟨0, _⟩ => show win1_2.index t (0 : Fin 2) * 5000 + 1 * p.val = r.val; omega
  | ⟨1, _⟩ => show win1_2.index t (1 : Fin 2) * 128 + 1 * q.val = q.val; omega

/-- An index of the output array is in point t's block iff each coordinate is in the block's range on its axis. -/
theorem matmul1_mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v33).slice (win1_2.rect t)).set ↔ _
  rw [View.set_slice_whole, Rect.mem_set_unit]
  exact Iff.rfl

/-- Every index of the output array is in the block of the point that its row number divided by 5000 names: the 20 blocks
    of 5000 rows tile the 100000 rows. -/
theorem matmul1_cover (i : S100000x128.Idx) :
    ∃ t : Fin cfg1.N, (cfg1.win 2).flush t = true ∧ i ∈ ((cfg1.win 2).blk t).view.set := by
  have hN : cfg1.N = 20 := N_1
  have hi0 : (i 0).val < 100000 := idx2_lt0 i
  have hi1 : (i 1).val < 128 := idx2_lt1 i
  refine ⟨⟨(i 0).val / 5000, by rw [hN]; omega⟩, flush1_2 _, ?_⟩
  rw [matmul1_mem_blk]
  obtain ⟨-, -, -, -, e4, e5⟩ := matmul1_index ⟨(i 0).val / 5000, by rw [hN]; omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ (i 0).val ∧ (i 0).val < (i 0).val / 5000 * 5000 + 5000; omega
  | ⟨1, _⟩ => show win1_2.index _ (1 : Fin 2) * 128 ≤ (i 1).val ∧ (i 1).val < win1_2.index _ (1 : Fin 2) * 128 + 128; rw [e5]; omega

/-! ## From the blocks to the array -/

variable (V : (c : Dev nD) → (b : Ref sig .tc) → Buf (Elt Ideal) ((c : Thread nD τ).loc b))

/-- What point t writes back to the output array is block t of the product of the region's two input arrays X (the
    rows) and W (the weights): entry (r, q) of the product is the sum over k of X at (r, k) times W at (k, q). -/
theorem matmul1_flushed (c : Dev nD) (X : S100000x128.Idx → EReal) (W : S128x128.Idx → EReal)
    (hX : V c (Pipeline.arrRef spec1 0) = X) (hW : V c (Pipeline.arrRef spec1 1) = W) (t : Fin cfg1.N) :
    (dat1 (F := Ideal) V c).flushed 2 t = ((cfg1.win 2).blk t).view.read (Elt Ideal)
      (fun i : S100000x128.Idx => (∑ k : Fin 128, X (ix2 (i 0 : Fin 100000) k) * W (ix2 k (i 1 : Fin 128)) : EReal)) := by
  show (cfg1.win 2).cut (grid1.coords t) ((dat1 V c).after 2 t) = _
  rw [after1_2]
  unfold out1_2
  rw [View.canon_unit_zero matmul1_offsets]
  simp only [View.ld_unit_zero (S := S5000x128) matmul1_offsets, View.ld_unit_zero (S := S128x128) matmul1_offsets]
  funext j
  obtain ⟨p, q, rfl⟩ : ∃ (p : Fin 5000) (q : Fin 128), j = ix2 p q := ⟨j 0, j 1, eq_ix2 j⟩
  have hN : cfg1.N = 20 := N_1
  have hr : t.val * 5000 + p.val < 100000 := by have := t.isLt; have := p.isLt; omega
  show k1_pay1 (iblk1 V c 0 t) (iblk1 V c 1 t) (ix2 p q)
    = (fun i : S100000x128.Idx => (∑ k : Fin 128, X (ix2 (i 0 : Fin 100000) k) * W (ix2 k (i 1 : Fin 128)) : EReal))
        (((cfg1.win 2).blk t).view.emb (ix2 p q))
  rw [matmul1_emb_out t p q ⟨t.val * 5000 + p.val, hr⟩ rfl]
  refine matmul1_payload X W (iblk1 V c 0 t) (iblk1 V c 1 t) p q ⟨t.val * 5000 + p.val, hr⟩ (fun k => ?_) (fun k => ?_)
  · show V c (Pipeline.arrRef spec1 0) (((cfg1.win 0).blk t).view.emb (ix2 p k)) = _
    rw [matmul1_emb_lhs t p k ⟨t.val * 5000 + p.val, hr⟩ rfl, hX]
  · show V c (Pipeline.arrRef spec1 1) (((cfg1.win 1).blk t).view.emb (ix2 k q)) = _
    rw [matmul1_emb_rhs t k q, hW]

/-- The output array after the region is the product of the two input arrays, whole: every point writes its block of the
    product, and the blocks cover the array. -/
theorem matmul1_array (c : Dev nD) (X : S100000x128.Idx → EReal) (W : S128x128.Idx → EReal)
    (hX : V c (Pipeline.arrRef spec1 0) = X) (hW : V c (Pipeline.arrRef spec1 1) = W) :
    (dat1 (F := Ideal) V c).arrAt 2 cfg1.N
      = (fun i : S100000x128.Idx => (∑ k : Fin 128, X (ix2 (i 0 : Fin 100000) k) * W (ix2 k (i 1 : Fin 128)) : EReal)) :=
  (dat1 (F := Ideal) V c).arrAt_eq_of_cover 2 _ (fun t _ => matmul1_flushed V c X W hX hW t) matmul1_cover

/-- The output array after the region at (r, q): the sum over k of the rows' array at (r, k) times the weights at (k, q). -/
theorem matmul1_apply (c : Dev nD) (X : S100000x128.Idx → EReal) (W : S128x128.Idx → EReal)
    (hX : V c (Pipeline.arrRef spec1 0) = X) (hW : V c (Pipeline.arrRef spec1 1) = W) (r : Fin 100000) (q : Fin 128) :
    (dat1 (F := Ideal) V c).arrAt 2 cfg1.N (ix2 r q) = ∑ k : Fin 128, X (ix2 r k) * W (ix2 k q) :=
  congrFun (matmul1_array V c X W hX hW) (ix2 r q)

end Cert.KernelIdeal.RegValue

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«110479_j25572235281175_1_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.KStage1.lean ====
/-
  The skip projection and the first layer's projected features, in the idealized kernel program.

  Region 0 multiplies the node features by the skip matrix block of rows by block of rows, region 1 by the first
  layer's matrix; read as whole arrays after the regions, both are the plain matrix product, entry by entry the same
  sum over the contraction index as the reference's dot_general of the same arguments.
-/
import proofs.«110479_j25572235281175_1_alg».proof.Proof.KStage0
import proofs.«110479_j25572235281175_1_alg».proof.Proof.RegMatmul0
import proofs.«110479_j25572235281175_1_alg».proof.Proof.RegMatmul1
import proofs.«110479_j25572235281175_1_alg».proof.Proof.LibRowBlocks

set_option maxRecDepth 16384

noncomputable section

namespace Cert.KernelIdeal.Stages

open Idealize.ShloMosaic Idealize.ShloMosaic.TcCoe Idealize.ShloMosaic.StableHlo Idealize.ShloMosaic.ValueIdx
open Cert.KernelIdeal Cert.KernelIdeal.Gen Cert.KernelIdeal.Carry

variable (m : (ℓ : Loc nD τ sig) → Buf (Elt Ideal) ℓ) (ρ : Dev nD → PrngReg)

/-- After region 0 the skip projection's buffer holds the reference's x · proj_w. -/
theorem W4_v30 (c : Dev nD) :
    W4 m ρ c (Proc.devRef .tc main_v30) = Cert.ReferenceIdeal.ReadP.val_main_v30 (F := Ideal) (m ((c : Thread nD τ).loc main_arg0)) (m ((c : Thread nD τ).loc main_arg7)) := by
  refine (W4_arr m ρ c 2).trans ?_
  have key : ∀ i : S100000x128.Idx, (dat0 (F := Ideal) (V3 m ρ) c).arrAt 2 cfg0.N i
      = Cert.ReferenceIdeal.ReadP.val_main_v30 (F := Ideal) (m ((c : Thread nD τ).loc main_arg0)) (m ((c : Thread nD τ).loc main_arg7)) i := by
    intro i
    obtain ⟨r, q, rfl⟩ : ∃ (r : Fin 100000) (q : Fin 128), i = ix2 r q := ⟨i 0, i 1, eq_ix2 i⟩
    rw [Cert.KernelIdeal.RegValue.matmul0_apply (V3 m ρ) c _ _
      (W3_arg m ρ c main_arg0 (by decide) (by decide) (by decide)) (W3_arg m ρ c main_arg7 (by decide) (by decide) (by decide)) r q]
    exact (Cert.Lib.RowBlocks.dotGeneral_plain_apply none (m ((c : Thread nD τ).loc main_arg0)) (m ((c : Thread nD τ).loc main_arg7)) r q).symm
  exact funext key

end Cert.KernelIdeal.Stages

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibRowVec.lean ====
/-
  A one-row matrix flattened to a vector, read at an index, generic in the extent and the entries' type.

  A row [1, C] reshaped to the vector [C] reads, at c, the row at (0, c).
-/
import Idealize.ShloMosaic.Lib.ValueIdx
import Idealize.ShloMosaic.Lib.Pipeline.Value

noncomputable section

namespace Cert.Lib.RowVec

open Idealize.ShloMosaic Idealize.ShloMosaic.ValueIdx

variable {α : Type}

/-- A row [1, C] reshaped to the vector [C], read at c, is the row at (0, c). -/
theorem shapeCast_row_vec_apply {C : Nat} (x : (⟨2, ![1, C]⟩ : Shape).Idx → α)
    (h : (⟨2, ![1, C]⟩ : Shape).ShapeCasts ⟨1, ![C]⟩) (c : Fin C) :
    shapeCast ⟨1, ![C]⟩ x h (ix1 c) = x (ix2 0 c) :=
  shapeCast_apply x h (ix1 c) (ix2 0 c) (by
    rw [Shape.rowMajor_val_one, Shape.rowMajor_val_two]
    show (0 : Nat) * C + c.val = c.val
    omega)

end Cert.Lib.RowVec

end
-- ==== Proof.LibRowBroadcast.lean ====
/-
  The host's broadcasts of a row and of a scalar, read at an index, generic in the extents.

  A row [1, C] broadcast onto axes 0, 1 of [R, C] reads, at (r, c), the row at (0, c): the same bias is
  added to every row.  A scalar broadcast to any shape reads the scalar everywhere.
-/
import Idealize.ShloMosaic.Lib.ValueIdx
import Idealize.ShloMosaic.Lib.Pipeline.Value

noncomputable section

namespace Cert.Lib.RowBroadcast

open Idealize.ShloMosaic Idealize.ShloMosaic.ValueIdx

variable {α : Type}

/-- A row [1, C] broadcast onto axes 0, 1 of [R, C], read at (r, c), is the row at (0, c). -/
theorem broadcastInDim_row_apply {R C : Nat} (x : (⟨2, ![1, C]⟩ : Shape).Idx → α)
    (h : (⟨2, ![1, C]⟩ : Shape).BroadcastsInDim ⟨2, ![R, C]⟩ (![0, 1] : Fin 2 → Fin 2)) (r : Fin R) (c : Fin C) :
    broadcastInDim ⟨2, ![R, C]⟩ (![0, 1] : Fin 2 → Fin 2) h x (ix2 r c) = x (ix2 0 c) :=
  broadcastInDim_apply (![0, 1] : Fin 2 → Fin 2) h x (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A scalar broadcast to any shape reads the scalar at every index. -/
theorem broadcastInDim_scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply (![] : Fin 0 → Fin t.rank) h x j k (fun a => a.elim0)

end Cert.Lib.RowBroadcast

end
-- ==== Proof.KLayerDefs.lean ====
/-
  The host arithmetic between a layer's reduction region and its normalisation region, in the idealized kernel program,
  as functions of the two rows of column sums, and what they are channel by channel at the ideal values.

  The [1,128] rows of sums are flattened to vectors, divided by the number of rows (the mean and the mean of squares),
  combined into the variance in moment form, Σh²/N − 2·s·μ·μ + s·s·μ·μ with s the mean scale, and made rows again.
  Every operation acts channel by channel; a reshape between [128] and [1,128] reads the same channel.
-/
import proofs.«110479_j25572235281175_1_alg».proof.Proof.Gen.KernelIdeal
import proofs.«110479_j25572235281175_1_alg».proof.Proof.LibRows
import proofs.«110479_j25572235281175_1_alg».proof.Proof.LibRowVec
import proofs.«110479_j25572235281175_1_alg».proof.Proof.LibRowBroadcast
import Idealize.ShloMosaic.PureOps.Ideal.Laws

noncomputable section

namespace Cert.KernelIdeal.Layer

open Cert.KernelIdeal Cert.KernelIdeal.Gen Idealize.ShloMosaic Idealize.ShloMosaic.TcCoe Idealize.ShloMosaic.ValueIdx

variable {F : FTy → Type} [FloatOps F]

/-- A literal repeated over the channels. -/
def kvec (w : BitVec 32) : (⟨S128, .f32⟩ : BufTy).Contents (Elt F) := broadcastInDim S128 ![] bcast_S_S128 (constant S_ .f32 w)
/-- A vector over the channels as a one-row matrix. -/
def krow (v : (⟨S128, .f32⟩ : BufTy).Contents (Elt F)) : (⟨S1x128, .f32⟩ : BufTy).Contents (Elt F) := shapeCast S1x128 v shapeCasts_S128_S1x128
/-- A one-row matrix as a vector over the channels. -/
def kunrow (s : (⟨S1x128, .f32⟩ : BufTy).Contents (Elt F)) : (⟨S128, .f32⟩ : BufTy).Contents (Elt F) := shapeCast S128 s shapeCasts_S1x128_S128
/-- The column means from the row of column sums. -/
def kmeanv (s1 : (⟨S1x128, .f32⟩ : BufTy).Contents (Elt F)) : (⟨S128, .f32⟩ : BufTy).Contents (Elt F) := Host.divf (kunrow s1) (kvec 0x47C35000#32)
/-- The variance in moment form from the rows of sums and of sums of squares and the mean scale. -/
def kvarv (s1 s2 : (⟨S1x128, .f32⟩ : BufTy).Contents (Elt F)) (ms : (⟨S128, .f32⟩ : BufTy).Contents (Elt F)) : (⟨S128, .f32⟩ : BufTy).Contents (Elt F) :=
  addf (subf (Host.divf (kunrow s2) (kvec 0x47C35000#32)) (mulf (mulf (mulf (kvec 0x40000000#32) ms) (kmeanv s1)) (kmeanv s1)))
    (mulf (mulf (mulf ms ms) (kmeanv s1)) (kmeanv s1))

theorem krow_apply (v : (⟨S128, .f32⟩ : BufTy).Contents (Elt Ideal)) (q : Fin 128) : krow (F := Ideal) v (ix2 0 q) = v (ix1 q) :=
  Cert.Lib.Rows.shapeCast_vec_row_apply v shapeCasts_S128_S1x128 q

theorem kunrow_apply (s : (⟨S1x128, .f32⟩ : BufTy).Contents (Elt Ideal)) (q : Fin 128) : kunrow (F := Ideal) s (ix1 q) = s (ix2 0 q) :=
  Cert.Lib.RowVec.shapeCast_row_vec_apply s shapeCasts_S1x128_S128 q

theorem kvec_apply (w : BitVec 32) (q : Fin 128) : kvec (F := Ideal) w (ix1 q) = Ideal.ofBits .f32 w := by
  unfold kvec
  exact Cert.Lib.RowBroadcast.broadcastInDim_scalar_apply _ bcast_S_S128 (ix1 q) (fun a => a.elim0)

theorem kmeanv_apply (s1 : (⟨S1x128, .f32⟩ : BufTy).Contents (Elt Ideal)) (q : Fin 128) :
    kmeanv (F := Ideal) s1 (ix1 q) = Ideal.div (s1 (ix2 0 q)) (Ideal.ofBits .f32 0x47C35000#32) := by
  show Ideal.div (kunrow (F := Ideal) s1 (ix1 q)) (kvec (F := Ideal) 0x47C35000#32 (ix1 q)) = _
  rw [kunrow_apply, kvec_apply]

theorem kvarv_apply (s1 s2 : (⟨S1x128, .f32⟩ : BufTy).Contents (Elt Ideal)) (ms : (⟨S128, .f32⟩ : BufTy).Contents (Elt Ideal)) (q : Fin 128) :
    kvarv (F := Ideal) s1 s2 ms (ix1 q)
      = (Ideal.div (s2 (ix2 0 q)) (Ideal.ofBits .f32 0x47C35000#32)
          - ((Ideal.ofBits .f32 0x40000000#32 * ms (ix1 q)) * Ideal.div (s1 (ix2 0 q)) (Ideal.ofBits .f32 0x47C35000#32))
              * Ideal.div (s1 (ix2 0 q)) (Ideal.ofBits .f32 0x47C35000#32))
        + ((ms (ix1 q) * ms (ix1 q)) * Ideal.div (s1 (ix2 0 q)) (Ideal.ofBits .f32 0x47C35000#32))
            * Ideal.div (s1 (ix2 0 q)) (Ideal.ofBits .f32 0x47C35000#32) := by
  show (Ideal.div (kunrow (F := Ideal) s2 (ix1 q)) (kvec (F := Ideal) 0x47C35000#32 (ix1 q))
          - ((kvec (F := Ideal) 0x40000000#32 (ix1 q) * ms (ix1 q)) * kmeanv (F := Ideal) s1 (ix1 q)) * kmeanv (F := Ideal) s1 (ix1 q))
        + ((ms (ix1 q) * ms (ix1 q)) * kmeanv (F := Ideal) s1 (ix1 q)) * kmeanv (F := Ideal) s1 (ix1 q) = _
  rw [kunrow_apply, kvec_apply, kvec_apply, kmeanv_apply]

end Cert.KernelIdeal.Layer

end
-- ==== Proof.LayerDefs.lean ====
/-
  One graph layer of the reference, as functions of its inputs, and what they are index by index at the ideal values.

  The reference's three layers are one and the same expression of different inputs: the aggregation
  seg = Σ over the edges into a node of (x·W)[source] · weight, plus the bias row; then the graph normalisation
  (h − s·mean) / sqrt(var + ε) · w + b with mean and var the column means of h and of the squared deviations, clamped
  below at zero, plus the skip input.  Naming the expression once lets each layer's stage function be recognised as it
  (by unfolding), and read at an index once: the broadcasts of a vector over the rows read the vector at the column, a
  column sum is the initial zero plus the sum down the column, and the elementwise operations act entry by entry.
-/
import proofs.«110479_j25572235281175_1_alg».proof.Proof.RefReadP
import proofs.«110479_j25572235281175_1_alg».proof.Proof.LibRows
import proofs.«110479_j25572235281175_1_alg».proof.Proof.LibRowBroadcast
import proofs.«110479_j25572235281175_1_alg».proof.Proof.LibRowBlocks

noncomputable section

namespace Cert.ReferenceIdeal.Layer

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx

variable {F : FTy → Type} [FloatOps F]

/-- A vector over the channels repeated over the rows. -/
def rowB (v : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 v)

/-- A literal repeated over the channels. -/
def cvec (w : BitVec 32) : (⟨S128, .f32⟩ : BufTy).Contents (Elt F) :=
  broadcastInDim S128 ![] bcast_S_S128 (constant S_ .f32 w)

/-- The column sums of an array, from the zero literal. -/
def colsum (a : (⟨S100000x128, .f32⟩ : BufTy).Contents (Elt F)) : (⟨S128, .f32⟩ : BufTy).Contents (Elt F) :=
  Host.reduceAdd a (constant S_ .f32 0x00000000#32) reducesTo_S100000x128_S128_d0 h_S_

/-- The aggregation of the projected features along the edges, weighted. -/
def seg (hw : (⟨S100000x128, .f32⟩ : BufTy).Contents (Elt F)) (row col : (⟨S740000, .i32⟩ : BufTy).Contents (Elt F)) (nrm : (⟨S740000, .f32⟩ : BufTy).Contents (Elt F)) : (⟨S100000x128, .f32⟩ : BufTy).Contents (Elt F) :=
  Host.scatterAdd scatter_S100000x128_S740000x1_S740000x128_1_0_0_1
    (broadcastInDim S100000x128 ![] bcast_S_S100000x128 (constant S_ .f32 0x00000000#32))
    (broadcastInDim S740000x1 ![0] bcast_S740000_S740000x1_0 col)
    (mulf (Host.gather gather_S100000x128_S740000x1_S740000x128_1_0_n_n_0_1_1128 hw
        (broadcastInDim S740000x1 ![0] bcast_S740000_S740000x1_0
          (select (cmpi .slt row (broadcastInDim S740000 ![] bcast_S_S740000 (constantI S_ 32 0#32)))
            (addi row (broadcastInDim S740000 ![] bcast_S_S740000 (constantI S_ 32 100000#32))) row)))
      (broadcastInDim S740000x128 ![0, 1] bcast_S740000x1_S740000x128_0_1 (broadcastInDim S740000x1 ![0] bcast_S740000_S740000x1_0 nrm)))

/-- The projected features x · W. -/
def proj (X : (⟨S100000x128, .f32⟩ : BufTy).Contents (Elt F)) (Wt : (⟨S128x128, .f32⟩ : BufTy).Contents (Elt F)) : (⟨S100000x128, .f32⟩ : BufTy).Contents (Elt F) :=
  Host.dotGeneral dot_S100000x128_S128x128_S100000x128_1_0_0_1_n_n none X Wt

/-- The graph convolution: project, aggregate, add the bias row. -/
def conv (X : (⟨S100000x128, .f32⟩ : BufTy).Contents (Elt F)) (Wt : (⟨S128x128, .f32⟩ : BufTy).Contents (Elt F)) (bv : (⟨S128, .f32⟩ : BufTy).Contents (Elt F))
    (row col : (⟨S740000, .i32⟩ : BufTy).Contents (Elt F)) (nrm : (⟨S740000, .f32⟩ : BufTy).Contents (Elt F)) : (⟨S100000x128, .f32⟩ : BufTy).Contents (Elt F) :=
  addf (seg (proj X Wt) row col nrm) (rowB bv)

/-- The column means. -/
def gmean (h : (⟨S100000x128, .f32⟩ : BufTy).Contents (Elt F)) : (⟨S128, .f32⟩ : BufTy).Contents (Elt F) := Host.divf (colsum h) (cvec 0x47C35000#32)
/-- The deviations from the scaled mean. -/
def gout (h : (⟨S100000x128, .f32⟩ : BufTy).Contents (Elt F)) (ms : (⟨S128, .f32⟩ : BufTy).Contents (Elt F)) : (⟨S100000x128, .f32⟩ : BufTy).Contents (Elt F) := subf h (rowB (mulf ms (gmean h)))
/-- The column means of the squared deviations. -/
def gvar (h : (⟨S100000x128, .f32⟩ : BufTy).Contents (Elt F)) (ms : (⟨S128, .f32⟩ : BufTy).Contents (Elt F)) : (⟨S128, .f32⟩ : BufTy).Contents (Elt F) :=
  Host.divf (colsum (mulf (gout h ms) (gout h ms))) (cvec 0x47C35000#32)
/-- The normalisation, the clamp and the skip sum. -/
def gnorm (h : (⟨S100000x128, .f32⟩ : BufTy).Contents (Elt F)) (ms w b : (⟨S128, .f32⟩ : BufTy).Contents (Elt F)) (res : (⟨S100000x128, .f32⟩ : BufTy).Contents (Elt F)) : (⟨S100000x128, .f32⟩ : BufTy).Contents (Elt F) :=
  addf (maximumf (addf (mulf (Host.divf (gout h ms) (rowB (Host.sqrt (addf (gvar h ms) (cvec 0x3727C5AC#32))))) (rowB w)) (rowB b))
      (broadcastInDim S100000x128 ![] bcast_S_S100000x128 (constant S_ .f32 0x00000000#32))) res

/-! ## The three layers' stage functions are these -/

section Stages
variable (x0 : (⟨S100000x128, .f32⟩ : BufTy).Contents (Elt F)) (x1 : (⟨S2x640000, .i32⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x128, .f32⟩ : BufTy).Contents (Elt F)) (x7 : (⟨S128x128, .f32⟩ : BufTy).Contents (Elt F))

theorem v51_eq : val_main_v51 (F := F) x0 x1 x2 x3
    = conv x0 (val_main_v32 (F := F) x2) (val_main_v34 (F := F) x3) (val_main_v3 (F := F) x1) (val_main_v6 (F := F) x1) (val_main_v29 (F := F) x1) := rfl
theorem v82_eq : val_main_v82 (F := F) x0 x1 x2 x3 x4 x5 x6 x7
    = gnorm (val_main_v51 (F := F) x0 x1 x2 x3) (val_main_v57 (F := F) x6) (val_main_v53 (F := F) x4) (val_main_v55 (F := F) x5) (val_main_v30 (F := F) x0 x7) := rfl
theorem v103_eq : val_main_v103 (F := F) x0 x1 x2 x3 x4 x5 x6 x7
    = conv (val_main_v82 (F := F) x0 x1 x2 x3 x4 x5 x6 x7) (val_main_v84 (F := F) x2) (val_main_v86 (F := F) x3) (val_main_v3 (F := F) x1) (val_main_v6 (F := F) x1) (val_main_v29 (F := F) x1) := rfl
theorem v134_eq : val_main_v134 (F := F) x0 x1 x2 x3 x4 x5 x6 x7
    = gnorm (val_main_v103 (F := F) x0 x1 x2 x3 x4 x5 x6 x7) (val_main_v109 (F := F) x6) (val_main_v105 (F := F) x4) (val_main_v107 (F := F) x5) (val_main_v82 (F := F) x0 x1 x2 x3 x4 x5 x6 x7) := rfl
theorem v155_eq : val_main_v155 (F := F) x0 x1 x2 x3 x4 x5 x6 x7
    = conv (val_main_v134 (F := F) x0 x1 x2 x3 x4 x5 x6 x7) (val_main_v136 (F := F) x2) (val_main_v138 (F := F) x3) (val_main_v3 (F := F) x1) (val_main_v6 (F := F) x1) (val_main_v29 (F := F) x1) := rfl
theorem v186_eq : val_main_v186 (F := F) x0 x1 x2 x3 x4 x5 x6 x7
    = gnorm (val_main_v155 (F := F) x0 x1 x2 x3 x4 x5 x6 x7) (val_main_v161 (F := F) x6) (val_main_v157 (F := F) x4) (val_main_v159 (F := F) x5) (val_main_v134 (F := F) x0 x1 x2 x3 x4 x5 x6 x7) := rfl
end Stages

/-! ## Read at an index, at the ideal values -/

theorem proj_apply (X : (⟨S100000x128, .f32⟩ : BufTy).Contents (Elt Ideal)) (Wt : (⟨S128x128, .f32⟩ : BufTy).Contents (Elt Ideal)) (r : Fin 100000) (q : Fin 128) :
    proj (F := Ideal) X Wt (ix2 r q) = ∑ k : Fin 128, X (ix2 r k) * Wt (ix2 k q) :=
  Cert.Lib.RowBlocks.dotGeneral_plain_apply none X Wt r q

theorem rowB_apply (v : (⟨S128, .f32⟩ : BufTy).Contents (Elt Ideal)) (r : Fin 100000) (q : Fin 128) : rowB (F := Ideal) v (ix2 r q) = v (ix1 q) := by
  unfold rowB
  rw [Cert.Lib.RowBroadcast.broadcastInDim_row_apply]
  exact broadcastInDim_apply (![1] : Fin 1 → Fin 2) bcast_S128_S1x128_1 v (ix2 0 q) (ix1 q) (fun a => by
    match a with
    | ⟨0, _⟩ => show q.val = if (128 : Nat) = 1 then 0 else q.val; rw [if_neg (by decide)])

theorem cvec_apply (w : BitVec 32) (q : Fin 128) : cvec (F := Ideal) w (ix1 q) = Ideal.ofBits .f32 w := by
  unfold cvec
  exact Cert.Lib.RowBroadcast.broadcastInDim_scalar_apply _ bcast_S_S128 (ix1 q) (fun a => a.elim0)

theorem colsum_apply (a : (⟨S100000x128, .f32⟩ : BufTy).Contents (Elt Ideal)) (q : Fin 128) :
    colsum (F := Ideal) a (ix1 q) = Ideal.ofBits .f32 0x00000000#32 + ∑ r : Fin 100000, a (ix2 r q) := by
  unfold colsum
  simp only [Host.reduceAdd, Ideal.hostReduceAdd_def]
  rw [Ideal.hostReduceAdd_single reducesTo_S100000x128_S128_d0 (by decide)]
  refine congrArg (_ + ·) (Finset.sum_congr rfl fun k _ => ?_)
  exact congrArg a (funext fun d => Fin.ext (by match d with | ⟨0, _⟩ => rfl | ⟨1, _⟩ => rfl))

end Cert.ReferenceIdeal.Layer

end
-- ==== Proof.KLayer1A.lean ====
/-
  The first graph layer in the idealized kernel program, up to its aggregation.
-/
import proofs.«110479_j25572235281175_1_alg».proof.Proof.KStage1
import proofs.«110479_j25572235281175_1_alg».proof.Proof.KLayerDefs
import proofs.«110479_j25572235281175_1_alg».proof.Proof.LayerDefs
import proofs.«110479_j25572235281175_1_alg».proof.Proof.RegMatmul1

set_option maxRecDepth 16384

noncomputable section

namespace Cert.KernelIdeal.Stages

open Idealize.ShloMosaic Idealize.ShloMosaic.TcCoe Idealize.ShloMosaic.StableHlo Idealize.ShloMosaic.ValueIdx
open Cert.KernelIdeal Cert.KernelIdeal.Gen Cert.KernelIdeal.Carry

variable (m : (ℓ : Loc nD τ sig) → Buf (Elt Ideal) ℓ) (ρ : Dev nD → PrngReg)

/-- The layer's input at the projection region's entry. -/
theorem L1_X (c : Dev nD) : V5 m ρ c main_arg0 = (m ((c : Thread nD τ).loc main_arg0)) :=
  ((keepH1 (W4 m ρ c) main_arg0 (by decide)).trans ((keepIn0_0 m ρ c).trans (W3_arg m ρ c main_arg0 (by decide) (by decide) (by decide))))

/-- The layer's weight matrix at the projection region's entry: the slice of the stacked weights, as the reference takes it. -/
theorem L1_Wt (c : Dev nD) : V5 m ρ c main_v32 = (Cert.ReferenceIdeal.ReadP.val_main_v32 (F := Ideal) (m ((c : Thread nD τ).loc main_arg2))) := by
  show StableHlo.after hostOps1 (W4 m ρ c) (Proc.devRef .tc main_v32) = _
  try dsimp only [hostOps1]
  after_results_simp
  rw [((keepR0 m ρ c main_arg2 (by decide)).trans ((keepH0_2 (W2 m ρ c) main_arg2 (by decide)).trans ((keepH0_1 (W1 m ρ c) main_arg2 (by decide)).trans (keepH0 (W0 m ρ c) main_arg2 (by decide)))))]
  rfl

/-- After the projection region: the projected features, the reference's x · W. -/
theorem L1_hw (c : Dev nD) :
    W6 m ρ c (Proc.devRef .tc main_v33) = Cert.ReferenceIdeal.Layer.proj (F := Ideal) (m ((c : Thread nD τ).loc main_arg0)) (Cert.ReferenceIdeal.ReadP.val_main_v32 (F := Ideal) (m ((c : Thread nD τ).loc main_arg2))) := by
  refine (W6_arr m ρ c 2).trans ?_
  have key : ∀ i : S100000x128.Idx, (dat1 (F := Ideal) (V5 m ρ) c).arrAt 2 cfg1.N i
      = Cert.ReferenceIdeal.Layer.proj (F := Ideal) (m ((c : Thread nD τ).loc main_arg0)) (Cert.ReferenceIdeal.ReadP.val_main_v32 (F := Ideal) (m ((c : Thread nD τ).loc main_arg2))) i := by
    intro i
    obtain ⟨r, q, rfl⟩ : ∃ (r : Fin 100000) (q : Fin 128), i = ix2 r q := ⟨i 0, i 1, eq_ix2 i⟩
    rw [Cert.KernelIdeal.RegValue.matmul1_apply (V5 m ρ) c _ _ (L1_X m ρ c) (L1_Wt m ρ c) r q]
    exact (Cert.ReferenceIdeal.Layer.proj_apply _ _ r q).symm
  exact funext key

/-- At the reduction region's entry: the aggregation along the edges of the projected features, the reference's. -/
theorem L1_seg (c : Dev nD) :
    V7 m ρ c main_v46 = Cert.ReferenceIdeal.Layer.seg (F := Ideal) (Cert.ReferenceIdeal.Layer.proj (F := Ideal) (m ((c : Thread nD τ).loc main_arg0)) (Cert.ReferenceIdeal.ReadP.val_main_v32 (F := Ideal) (m ((c : Thread nD τ).loc main_arg2))))
      (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1))) := by
  show StableHlo.after hostOps2 (W6 m ρ c) (Proc.devRef .tc main_v46) = _
  try dsimp only [hostOps2]
  after_results_simp
  rw [L1_hw m ρ c, ((keepR1 m ρ c main_v3 (by decide)).trans ((keepH1 (W4 m ρ c) main_v3 (by decide)).trans (keepR0 m ρ c main_v3 (by decide)))).trans (W3_v3 m ρ c),
    ((keepR1 m ρ c main_v6 (by decide)).trans ((keepH1 (W4 m ρ c) main_v6 (by decide)).trans (keepR0 m ρ c main_v6 (by decide)))).trans (W3_v6 m ρ c),
    ((keepR1 m ρ c main_v29 (by decide)).trans ((keepH1 (W4 m ρ c) main_v29 (by decide)).trans (keepR0 m ρ c main_v29 (by decide)))).trans (W3_v29 m ρ c)]
  rfl

/-- At the reduction region's entry: the layer's bias as a one-row matrix. -/
theorem L1_brow (c : Dev nD) :
    V7 m ρ c main_v49 = Cert.KernelIdeal.Layer.krow (F := Ideal) (Cert.ReferenceIdeal.ReadP.val_main_v34 (F := Ideal) (m ((c : Thread nD τ).loc main_arg3))) := by
  show StableHlo.after hostOps2 (W6 m ρ c) (Proc.devRef .tc main_v49) = _
  try dsimp only [hostOps2]
  after_results_simp
  rw [((keepR1 m ρ c main_arg3 (by decide)).trans ((keepH1 (W4 m ρ c) main_arg3 (by decide)).trans ((keepR0 m ρ c main_arg3 (by decide)).trans ((keepH0_2 (W2 m ρ c) main_arg3 (by decide)).trans ((keepH0_1 (W1 m ρ c) main_arg3 (by decide)).trans (keepH0 (W0 m ρ c) main_arg3 (by decide)))))))]
  rfl

end Cert.KernelIdeal.Stages

end
-- ==== Proof.LayerRead1.lean ====
/-
  The reference's graph normalisation read at an index at the ideal values: every broadcast of a channel vector over
  the rows reads the vector at the column, a column sum is the zero literal plus the sum down the column, and the
  elementwise operations act entry by entry.
-/
import proofs.«110479_j25572235281175_1_alg».proof.Proof.LayerDefs

noncomputable section

namespace Cert.ReferenceIdeal.Layer

open Cert.ReferenceIdeal Cert.ReferenceIdeal.Gen Idealize.ShloMosaic Idealize.ShloMosaic.TcCoe Idealize.ShloMosaic.ValueIdx
open scoped BigOperators

section Pointwise
variable {s : Shape} {φ : FTy}
/-- The host's quotient acts entry by entry. -/
theorem hdivf_apply (a b : FVec Ideal s φ) (i : s.Idx) : Host.divf a b i = Ideal.div (a i) (b i) := rfl
/-- The host's square root acts entry by entry. -/
theorem hsqrt_apply (a : FVec Ideal s φ) (i : s.Idx) : Host.sqrt a i = Ideal.sqrt (a i) := rfl
end Pointwise

/-- The column mean of channel q. -/
theorem gmean_apply (h : (⟨S100000x128, .f32⟩ : BufTy).Contents (Elt Ideal)) (q : Fin 128) :
    gmean (F := Ideal) h (ix1 q)
      = Ideal.div (Ideal.ofBits .f32 0x00000000#32 + ∑ k : Fin 100000, h (ix2 k q)) (Ideal.ofBits .f32 0x47C35000#32) := by
  unfold gmean
  rw [hdivf_apply, colsum_apply, cvec_apply]

/-- A deviation from the scaled mean. -/
theorem gout_apply (h : (⟨S100000x128, .f32⟩ : BufTy).Contents (Elt Ideal)) (ms : (⟨S128, .f32⟩ : BufTy).Contents (Elt Ideal)) (k : Fin 100000) (q : Fin 128) :
    gout (F := Ideal) h ms (ix2 k q)
      = h (ix2 k q) - ms (ix1 q) * Ideal.div (Ideal.ofBits .f32 0x00000000#32 + ∑ k : Fin 100000, h (ix2 k q)) (Ideal.ofBits .f32 0x47C35000#32) := by
  unfold gout
  rw [subf_apply, rowB_apply, mulf_apply, gmean_apply]

/-- The mean of the squared deviations of channel q. -/
theorem gvar_apply (h : (⟨S100000x128, .f32⟩ : BufTy).Contents (Elt Ideal)) (ms : (⟨S128, .f32⟩ : BufTy).Contents (Elt Ideal)) (q : Fin 128) :
    gvar (F := Ideal) h ms (ix1 q)
      = Ideal.div (Ideal.ofBits .f32 0x00000000#32 + ∑ k : Fin 100000,
            (h (ix2 k q) - ms (ix1 q) * Ideal.div (Ideal.ofBits .f32 0x00000000#32 + ∑ k : Fin 100000, h (ix2 k q)) (Ideal.ofBits .f32 0x47C35000#32))
              * (h (ix2 k q) - ms (ix1 q) * Ideal.div (Ideal.ofBits .f32 0x00000000#32 + ∑ k : Fin 100000, h (ix2 k q)) (Ideal.ofBits .f32 0x47C35000#32)))
          (Ideal.ofBits .f32 0x47C35000#32) := by
  unfold gvar
  rw [hdivf_apply, colsum_apply, cvec_apply]
  refine congrArg (fun z => Ideal.div (Ideal.ofBits .f32 0x00000000#32 + z) (Ideal.ofBits .f32 0x47C35000#32)) ?_
  refine Finset.sum_congr rfl fun k _ => ?_
  rw [mulf_apply, gout_apply]

/-- The normalisation at (r, q). -/
theorem gnorm_apply (h : (⟨S100000x128, .f32⟩ : BufTy).Contents (Elt Ideal)) (ms w b : (⟨S128, .f32⟩ : BufTy).Contents (Elt Ideal)) (res : (⟨S100000x128, .f32⟩ : BufTy).Contents (Elt Ideal))
    (r : Fin 100000) (q : Fin 128) :
    gnorm (F := Ideal) h ms w b res (ix2 r q)
      = max ((Ideal.div (h (ix2 r q) - ms (ix1 q) * Ideal.div (Ideal.ofBits .f32 0x00000000#32 + ∑ k : Fin 100000, h (ix2 k q)) (Ideal.ofBits .f32 0x47C35000#32))
              (Ideal.sqrt (Ideal.div (Ideal.ofBits .f32 0x00000000#32 + ∑ k : Fin 100000,
                  (h (ix2 k q) - ms (ix1 q) * Ideal.div (Ideal.ofBits .f32 0x00000000#32 + ∑ k : Fin 100000, h (ix2 k q)) (Ideal.ofBits .f32 0x47C35000#32))
                    * (h (ix2 k q) - ms (ix1 q) * Ideal.div (Ideal.ofBits .f32 0x00000000#32 + ∑ k : Fin 100000, h (ix2 k q)) (Ideal.ofBits .f32 0x47C35000#32)))
                  (Ideal.ofBits .f32 0x47C35000#32) + Ideal.ofBits .f32 0x3727C5AC#32))
            * w (ix1 q)) + b (ix1 q)) (Ideal.ofBits .f32 0x00000000#32) + res (ix2 r q) := by
  unfold gnorm
  rw [addf_apply, maximumf_apply, addf_apply, mulf_apply, hdivf_apply, rowB_apply, rowB_apply, rowB_apply, hsqrt_apply, addf_apply,
    gvar_apply, cvec_apply, gout_apply,
    Cert.Lib.RowBroadcast.broadcastInDim_scalar_apply _ bcast_S_S100000x128 (ix2 r q) (fun a => a.elim0), constant_apply]

end Cert.ReferenceIdeal.Layer

end
-- ==== Proof.LayerRead2.lean ====
/-
  The reference's convolution read at an index, and the column sums of an array as a vector over the channels.
-/
import proofs.«110479_j25572235281175_1_alg».proof.Proof.LayerRead1

noncomputable section

namespace Cert.ReferenceIdeal.Layer

open Cert.ReferenceIdeal Cert.ReferenceIdeal.Gen Idealize.ShloMosaic Idealize.ShloMosaic.TcCoe Idealize.ShloMosaic.ValueIdx
open scoped BigOperators

/-- The convolution at (r, q): the aggregated projected features plus the bias of channel q. -/
theorem conv_apply (X : (⟨S100000x128, .f32⟩ : BufTy).Contents (Elt Ideal)) (Wt : (⟨S128x128, .f32⟩ : BufTy).Contents (Elt Ideal)) (bv : (⟨S128, .f32⟩ : BufTy).Contents (Elt Ideal))
    (row col : (⟨S740000, .i32⟩ : BufTy).Contents (Elt Ideal)) (nrm : (⟨S740000, .f32⟩ : BufTy).Contents (Elt Ideal)) (r : Fin 100000) (q : Fin 128) :
    conv (F := Ideal) X Wt bv row col nrm (ix2 r q)
      = seg (F := Ideal) (proj (F := Ideal) X Wt) row col nrm (ix2 r q) + bv (ix1 q) := by
  unfold conv
  rw [addf_apply, rowB_apply]

/-- The column sums of an array as a vector over the channels. -/
def csum (h : (⟨S100000x128, .f32⟩ : BufTy).Contents (Elt Ideal)) : (⟨S128, .f32⟩ : BufTy).Contents (Elt Ideal) := fun j => ∑ r : Fin 100000, h (ix2 r (j 0))

theorem csum_apply (h : (⟨S100000x128, .f32⟩ : BufTy).Contents (Elt Ideal)) (q : Fin 128) : csum h (ix1 q) = ∑ r : Fin 100000, h (ix2 r q) := rfl

/-- The column sums of the squares of an array as a vector over the channels. -/
def csumsq (h : (⟨S100000x128, .f32⟩ : BufTy).Contents (Elt Ideal)) : (⟨S128, .f32⟩ : BufTy).Contents (Elt Ideal) := fun j => ∑ r : Fin 100000, h (ix2 r (j 0)) * h (ix2 r (j 0))

theorem csumsq_apply (h : (⟨S100000x128, .f32⟩ : BufTy).Contents (Elt Ideal)) (q : Fin 128) : csumsq h (ix1 q) = ∑ r : Fin 100000, h (ix2 r q) * h (ix2 r q) := rfl

end Cert.ReferenceIdeal.Layer

end
-- ==== Proof.LibColumnReduce.lean ====
/-
  A sum down the columns, read at an index, at the ideal values.

  The vector unit's add-reduction of an [a, b] array over its rows (axis 0), from the zero accumulator, read at
  column c, is the plain sum over the a rows r of the entry (r, c): no order of addition is left in it.
-/
import Idealize.ShloMosaic.Lib.ValueIdx
import Idealize.ShloMosaic.PureOps.Ideal.Laws

noncomputable section

namespace Cert.Lib.ColumnReduce

open Idealize.ShloMosaic Idealize.ShloMosaic.ValueIdx
open scoped BigOperators

/-- The row-reduction of an [a, b] array into [b], from the zero word, read at column c: the sum down the column. -/
theorem multiReduction_rows_apply {a b : Nat} (x : FVec Ideal ⟨2, ![a, b]⟩ .f32)
    (h : (⟨2, ![a, b]⟩ : Shape).Reduces [0] ⟨1, ![b]⟩) (c : Fin b) :
    multiReduction .add [0] ⟨1, ![b]⟩ x 0x00000000#32 h (.inl rfl) rfl (ix1 c) = ∑ r : Fin a, x (ix2 r c) := by
  refine (Ideal.multiReduction_add_single x 0x00000000#32 h (.inl rfl) rfl (ix1 c)).trans ?_
  show ∑ k : Fin a, x (h.lift (ix1 c) k) = ∑ r : Fin a, x (ix2 r c)
  refine Finset.sum_congr rfl fun k _ => congrArg x (funext fun d => Fin.ext ?_)
  match d with
  | ⟨0, _⟩ => rfl
  | ⟨1, _⟩ => rfl

end Cert.Lib.ColumnReduce

end
-- ==== Proof.LibBlockSumGen.lean ====
/-
  A sum over n = K · B indices is the sum, over the K consecutive blocks of B indices taken in order from zero,
  of the sums inside each block — in any commutative additive monoid, for any K and B. (A contraction that a
  kernel accumulates block by block over a grid axis equals the whole contraction.)
-/
import Mathlib.Algebra.BigOperators.Fin
import Mathlib.Logic.Equiv.Fin.Basic

open scoped BigOperators

namespace Cert.LibBlockSumGen

/-- Index `l` of block `k` is below `K · B`. -/
theorem block_index_lt {K B : ℕ} (k : Fin K) (l : Fin B) : B * k.val + l.val < K * B := by
  have hk := k.isLt
  have hl := l.isLt
  calc B * k.val + l.val < B * k.val + B := by omega
    _ = B * (k.val + 1) := (Nat.mul_succ _ _).symm
    _ ≤ B * K := Nat.mul_le_mul_left _ hk
    _ = K * B := Nat.mul_comm _ _

/-- A sum over `n = K · B` indices as `K` block sums of `B` terms: block `k` holds the indices `B·k, …, B·k + B − 1`. -/
theorem sum_blocks {M : Type*} [AddCommMonoid M] {n K B : ℕ} (h : n = K * B) (f : Fin n → M) :
    ∑ p : Fin n, f p = ∑ k : Fin K, ∑ l : Fin B, f ⟨B * k.val + l.val, h ▸ block_index_lt k l⟩ := by
  subst h
  rw [← Fintype.sum_prod_type' (fun (k : Fin K) (l : Fin B) => f ⟨B * k.val + l.val, block_index_lt k l⟩)]
  refine Fintype.sum_equiv (finProdFinEquiv (m := K) (n := B)).symm _ _ (fun p => ?_)
  congr 1
  apply Fin.ext
  simp only [finProdFinEquiv, Equiv.coe_fn_symm_mk, Fin.coe_divNat, Fin.coe_modNat]
  exact (Nat.div_add_mod p.val B).symm

end Cert.LibBlockSumGen
-- ==== Proof.RegReduce2.lean ====
/-
  The three output arrays of the first bias-and-reduce region, entry by entry.

  The region walks the 100000 rows of its [100000,128] input in 20 blocks of 5000 rows. At each block it adds the
  [1,128] bias row to every row of the block and writes the result to the matching block of its first output; it
  also keeps two [1,128] running rows, zeroed at the first block, to which each block adds the column sums of that
  result and of its square. After the region the first output is, at row r and column q, the input plus the bias;
  the two running rows are, at column q, the sum over all 100000 rows of that value and of its square. The order
  of the additions does not matter: the values are extended reals, whose addition is commutative and associative.
-/
import proofs.«110479_j25572235281175_1_alg».proof.Proof.Gen.KernelIdeal.Frame
import proofs.«110479_j25572235281175_1_alg».proof.Proof.LibColumnReduce
import proofs.«110479_j25572235281175_1_alg».proof.Proof.LibBlockSumGen
import proofs.«110479_j25572235281175_1_alg».proof.Proof.LibRows
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.RegValue

open Idealize.ShloMosaic Idealize.ShloMosaic.ValueIdx Idealize.ShloMosaic.TcCoe Idealize.ShloMosaic.Tactic
open Idealize.SL.Sem
open Cert.KernelIdeal Cert.KernelIdeal.Gen
open Idealize.ShloMosaic.Pipeline (Dat)
open scoped BigOperators

/-! ## What each case of the body leaves in its outputs, as values of the loaded blocks -/

section Pieces
variable {F : FTy → Type} [FloatOps F]

theorem reduce2_hz : (![0, 0] : Fin 2 → Nat) = fun _ => 0 := funext fun a => by fin_cases a <;> rfl

/-- First point: the output block holds the input block plus the bias row. -/
theorem reduce2_A_2 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond2_0 i)
    (x0 : Vec F S5000x128 .f32) (x1 : Vec F S1x128 .f32) :
    out2_A_2 c i arg1 harg1 arg2 harg2 arg3 harg3 arg4 harg4 arg5 harg5 hc0 x0 x1 = k2_pay1 x0 x1 := by
  unfold out2_A_2
  rw [View.read_writes_eq_canon _ _ _ (cover2_A_2 c i arg1 harg1 arg2 harg2 arg3 harg3 arg4 harg4 arg5 harg5 hc0 x0 x1)]
  unfold kernelRun2_A
  dsimp only
  sl_unfold_words
  rw [View.canon_unit_zero reduce2_hz]
  simp only [View.readAt_eq_ld, harg1.read_unread, harg2.read_unread, View.ld_unit_zero (S := S5000x128) reduce2_hz,
    View.ld_unit_zero (S := S1x128) reduce2_hz]

/-- Later points: the same. -/
theorem reduce2_B_2 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i)
    (x0 : Vec F S5000x128 .f32) (x1 : Vec F S1x128 .f32) (xo3 xo4 : Vec F S1x128 .f32) :
    out2_B_2 c i arg1 harg1 arg2 harg2 arg3 harg3 arg4 harg4 arg5 harg5 hc0 x0 x1 xo3 xo4 = k2_pay1 x0 x1 := by
  unfold out2_B_2
  rw [View.read_writes_eq_canon _ _ _ (cover2_B_2 c i arg1 harg1 arg2 harg2 arg3 harg3 arg4 harg4 arg5 harg5 hc0 x0 x1 xo3 xo4)]
  unfold kernelRun2_B
  dsimp only
  sl_unfold_words
  rw [View.canon_unit_zero reduce2_hz]
  simp only [View.readAt_eq_ld, harg1.read_unread, harg2.read_unread, View.ld_unit_zero (S := S5000x128) reduce2_hz,
    View.ld_unit_zero (S := S1x128) reduce2_hz]

/-- First point: the running sum is zeroed, read back, and the block's column sums are added to it. -/
theorem reduce2_A_3 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond2_0 i)
    (x0 : Vec F S5000x128 .f32) (x1 : Vec F S1x128 .f32) :
    out2_A_3 c i arg1 harg1 arg2 harg2 arg3 harg3 arg4 harg4 arg5 harg5 hc0 x0 x1 = k2_pay4 x0 x1 (k2_pay2 (F := F)) := by
  unfold out2_A_3
  rw [View.read_writes_eq_canon _ _ _ (cover2_A_3 c i arg1 harg1 arg2 harg2 arg3 harg3 arg4 harg4 arg5 harg5 hc0 x0 x1)]
  unfold kernelRun2_A
  dsimp only
  sl_unfold_words
  rw [View.canon_cons_unit_zero (S := S1x128) reduce2_hz]
  simp only [View.readCov_unit_zero (S := S1x128) _ reduce2_hz, View.readAt_eq_ld, harg1.read_unread, harg2.read_unread,
    View.ld_unit_zero (S := S5000x128) reduce2_hz, View.ld_unit_zero (S := S1x128) reduce2_hz]

/-- First point: likewise the running sum of squares. -/
theorem reduce2_A_4 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond2_0 i)
    (x0 : Vec F S5000x128 .f32) (x1 : Vec F S1x128 .f32) :
    out2_A_4 c i arg1 harg1 arg2 harg2 arg3 harg3 arg4 harg4 arg5 harg5 hc0 x0 x1 = k2_pay5 x0 x1 (k2_pay3 (F := F)) := by
  unfold out2_A_4
  rw [View.read_writes_eq_canon _ _ _ (cover2_A_4 c i arg1 harg1 arg2 harg2 arg3 harg3 arg4 harg4 arg5 harg5 hc0 x0 x1)]
  unfold kernelRun2_A
  dsimp only
  sl_unfold_words
  rw [View.canon_cons_unit_zero (S := S1x128) reduce2_hz]
  simp only [View.readCov_unit_zero (S := S1x128) _ reduce2_hz, View.readAt_eq_ld, harg1.read_unread, harg2.read_unread,
    View.ld_unit_zero (S := S5000x128) reduce2_hz, View.ld_unit_zero (S := S1x128) reduce2_hz]

/-- Later points: the block's column sums are added to the running sum the point before left. -/
theorem reduce2_B_3 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i)
    (x0 : Vec F S5000x128 .f32) (x1 : Vec F S1x128 .f32) (xo3 xo4 : Vec F S1x128 .f32) :
    out2_B_3 c i arg1 harg1 arg2 harg2 arg3 harg3 arg4 harg4 arg5 harg5 hc0 x0 x1 xo3 xo4 = k2_pay4 x0 x1 xo3 := by
  unfold out2_B_3
  rw [View.read_writes_eq_canon _ _ _ (cover2_B_3 c i arg1 harg1 arg2 harg2 arg3 harg3 arg4 harg4 arg5 harg5 hc0 x0 x1 xo3 xo4)]
  unfold kernelRun2_B
  dsimp only
  sl_unfold_words
  rw [View.canon_unit_zero reduce2_hz]
  simp only [View.readAt_eq_ld, harg1.read_unread, harg2.read_unread, harg4.read_unread, harg5.read_unread,
    View.ld_unit_zero (S := S5000x128) reduce2_hz, View.ld_unit_zero (S := S1x128) reduce2_hz]

/-- Later points: likewise the running sum of squares. -/
theorem reduce2_B_4 (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i)
    (x0 : Vec F S5000x128 .f32) (x1 : Vec F S1x128 .f32) (xo3 xo4 : Vec F S1x128 .f32) :
    out2_B_4 c i arg1 harg1 arg2 harg2 arg3 harg3 arg4 harg4 arg5 harg5 hc0 x0 x1 xo3 xo4 = k2_pay5 x0 x1 xo4 := by
  unfold out2_B_4
  rw [View.read_writes_eq_canon _ _ _ (cover2_B_4 c i arg1 harg1 arg2 harg2 arg3 harg3 arg4 harg4 arg5 harg5 hc0 x0 x1 xo3 xo4)]
  unfold kernelRun2_B
  dsimp only
  sl_unfold_words
  rw [View.canon_unit_zero reduce2_hz]
  simp only [View.readAt_eq_ld, harg1.read_unread, harg2.read_unread, harg4.read_unread, harg5.read_unread,
    View.ld_unit_zero (S := S5000x128) reduce2_hz, View.ld_unit_zero (S := S1x128) reduce2_hz]

/-! ## The outputs after each point, over the blocks at that point -/

variable (V : (c : Dev nD) → (b : Ref sig .tc) → Buf (Elt F) ((c : Thread nD τ).loc b))

/-- After any point the output block holds that point's input block plus the bias row. -/
theorem reduce2_outs_agg (c : Dev nD) (t : Fin cfg2.N) :
    (outsAt2 V c t.val t.isLt).1 = k2_pay1 (iblk2 V c 0 t) (iblk2 V c 1 t) := by
  by_cases h0 : t.val % 20 = 0
  · rw [outsAt2_A V c t h0]
    dsimp only
    exact reduce2_A_2 c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t)
  · rw [outsAt2_B V c t h0]
    dsimp only
    exact reduce2_B_2 c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t)
      (outsAt2 V c (t.val - 1) (Nat.lt_of_le_of_lt (Nat.sub_le _ _) t.isLt)).2.1 (outsAt2 V c (t.val - 1) (Nat.lt_of_le_of_lt (Nat.sub_le _ _) t.isLt)).2.2

/-- After the first point the running sum is the zero row plus the first block's column sums. -/
theorem reduce2_outs_sum_zero (c : Dev nD) (h : 0 < cfg2.N) :
    (outsAt2 V c 0 h).2.1 = k2_pay4 (iblk2 V c 0 ⟨0, h⟩) (iblk2 V c 1 ⟨0, h⟩) (k2_pay2 (F := F)) := by
  rw [outsAt2_A V c ⟨0, h⟩ rfl]
  dsimp only
  exact reduce2_A_3 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) ((hcond2_0 ⟨0, h⟩).mpr rfl) (iblk2 V c 0 ⟨0, h⟩) (iblk2 V c 1 ⟨0, h⟩)

/-- After the first point the running sum of squares is the zero row plus the first block's column sums of squares. -/
theorem reduce2_outs_sumsq_zero (c : Dev nD) (h : 0 < cfg2.N) :
    (outsAt2 V c 0 h).2.2 = k2_pay5 (iblk2 V c 0 ⟨0, h⟩) (iblk2 V c 1 ⟨0, h⟩) (k2_pay3 (F := F)) := by
  rw [outsAt2_A V c ⟨0, h⟩ rfl]
  dsimp only
  exact reduce2_A_4 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) ((hcond2_0 ⟨0, h⟩).mpr rfl) (iblk2 V c 0 ⟨0, h⟩) (iblk2 V c 1 ⟨0, h⟩)

/-- After a later point the running sum is what the point before left plus this block's column sums. -/
theorem reduce2_outs_sum_succ (c : Dev nD) (n : ℕ) (h : n + 1 < cfg2.N) :
    (outsAt2 V c (n + 1) h).2.1
      = k2_pay4 (iblk2 V c 0 ⟨n + 1, h⟩) (iblk2 V c 1 ⟨n + 1, h⟩) (outsAt2 V c n (Nat.lt_of_succ_lt h)).2.1 := by
  have hN : cfg2.N = 20 := N_2
  have hB : ¬(⟨n + 1, h⟩ : Fin cfg2.N).val % 20 = 0 := by dsimp only; omega
  rw [outsAt2_B V c ⟨n + 1, h⟩ hB]
  dsimp only
  exact reduce2_B_3 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (fun h' => hB ((hcond2_0 ⟨n + 1, h⟩).mp h')) (iblk2 V c 0 ⟨n + 1, h⟩) (iblk2 V c 1 ⟨n + 1, h⟩)
    (outsAt2 V c n (Nat.lt_of_succ_lt h)).2.1 (outsAt2 V c n (Nat.lt_of_succ_lt h)).2.2

/-- After a later point the running sum of squares is what the point before left plus this block's column sums of squares. -/
theorem reduce2_outs_sumsq_succ (c : Dev nD) (n : ℕ) (h : n + 1 < cfg2.N) :
    (outsAt2 V c (n + 1) h).2.2
      = k2_pay5 (iblk2 V c 0 ⟨n + 1, h⟩) (iblk2 V c 1 ⟨n + 1, h⟩) (outsAt2 V c n (Nat.lt_of_succ_lt h)).2.2 := by
  have hN : cfg2.N = 20 := N_2
  have hB : ¬(⟨n + 1, h⟩ : Fin cfg2.N).val % 20 = 0 := by dsimp only; omega
  rw [outsAt2_B V c ⟨n + 1, h⟩ hB]
  dsimp only
  exact reduce2_B_4 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (fun h' => hB ((hcond2_0 ⟨n + 1, h⟩).mp h')) (iblk2 V c 0 ⟨n + 1, h⟩) (iblk2 V c 1 ⟨n + 1, h⟩)
    (outsAt2 V c n (Nat.lt_of_succ_lt h)).2.1 (outsAt2 V c n (Nat.lt_of_succ_lt h)).2.2

end Pieces

/-! ## The body's values at an index, at the ideal values -/

section Payloads

/-- The first value the body computes, at row p and column q of a block: the block's entry plus the bias row's
    entry in that column (the [1,128] row is broadcast down the 5000 rows). -/
theorem reduce2_pay1_apply (x0 : Vec Ideal S5000x128 .f32) (x1 : Vec Ideal S1x128 .f32) (p : Fin 5000) (q : Fin 128) :
    k2_pay1 (F := Ideal) x0 x1 (ix2 p q) = x0 (ix2 p q) + x1 (ix2 (0 : Fin 1) q) := by
  unfold k2_pay1
  show shapeCast S5000x128 x0 shapeCasts_S5000x128_S5000x128 (ix2 p q)
      + broadcastTo S5000x128 (shapeCast S1x128 x1 shapeCasts_S1x128_S1x128) broadcasts_S1x128_S5000x128 (ix2 p q) = _
  rw [shapeCast_self, shapeCast_self]
  exact congrArg (fun z => x0 (ix2 p q) + z)
    (Cert.Lib.Rows.broadcastTo_row_apply (R := 5000) (C := 128) x1 broadcasts_S1x128_S5000x128 p q)

/-- The zero row the first point stores into the running sum reads zero. -/
theorem reduce2_pay2_apply (q : Fin 128) : k2_pay2 (F := Ideal) (ix2 (0 : Fin 1) q) = 0 := by
  unfold k2_pay2
  show Ideal.ofBits .f32 0x00000000#32 = 0
  exact Ideal.ofBits_zero_f32

/-- The zero row the first point stores into the running sum of squares reads zero. -/
theorem reduce2_pay3_apply (q : Fin 128) : k2_pay3 (F := Ideal) (ix2 (0 : Fin 1) q) = 0 := by
  unfold k2_pay3
  show Ideal.ofBits .f32 0x00000000#32 = 0
  exact Ideal.ofBits_zero_f32

/-- The running sum after a point, at column q: what it held before plus the sum down column q of the block's
    5000 rows of the first value. -/
theorem reduce2_pay4_apply (x0 : Vec Ideal S5000x128 .f32) (x1 : Vec Ideal S1x128 .f32) (v10 : Vec Ideal S1x128 .f32)
    (q : Fin 128) :
    k2_pay4 (F := Ideal) x0 x1 v10 (ix2 (0 : Fin 1) q)
      = v10 (ix2 (0 : Fin 1) q) + ∑ p : Fin 5000, (x0 (ix2 p q) + x1 (ix2 (0 : Fin 1) q)) := by
  unfold k2_pay4
  show shapeCast S1x128 v10 shapeCasts_S1x128_S1x128 (ix2 (0 : Fin 1) q)
      + shapeCast S1x128 (multiReduction (F := Ideal) .add [0] S128 (k2_pay1 x0 x1) 0x00000000#32 reduces_S5000x128_S128 (.inl rfl) rfl)
          shapeCasts_S128_S1x128 (ix2 (0 : Fin 1) q) = _
  rw [shapeCast_self]
  refine congrArg (fun z => v10 (ix2 (0 : Fin 1) q) + z) ?_
  refine (Cert.Lib.Rows.shapeCast_vec_row_apply (C := 128) _ shapeCasts_S128_S1x128 q).trans ?_
  refine (Cert.Lib.ColumnReduce.multiReduction_rows_apply (a := 5000) (b := 128) (k2_pay1 x0 x1) reduces_S5000x128_S128 q).trans ?_
  exact Finset.sum_congr rfl fun p _ => reduce2_pay1_apply x0 x1 p q

/-- The running sum of squares after a point, at column q: what it held before plus the sum down column q of the
    block's 5000 rows of the first value's square. -/
theorem reduce2_pay5_apply (x0 : Vec Ideal S5000x128 .f32) (x1 : Vec Ideal S1x128 .f32) (v16 : Vec Ideal S1x128 .f32)
    (q : Fin 128) :
    k2_pay5 (F := Ideal) x0 x1 v16 (ix2 (0 : Fin 1) q)
      = v16 (ix2 (0 : Fin 1) q)
        + ∑ p : Fin 5000, ((x0 (ix2 p q) + x1 (ix2 (0 : Fin 1) q)) * (x0 (ix2 p q) + x1 (ix2 (0 : Fin 1) q))) := by
  unfold k2_pay5
  show shapeCast S1x128 v16 shapeCasts_S1x128_S1x128 (ix2 (0 : Fin 1) q)
      + shapeCast S1x128 (multiReduction (F := Ideal) .add [0] S128 (mulf (k2_pay1 x0 x1) (k2_pay1 x0 x1)) 0x00000000#32
            reduces_S5000x128_S128 (.inl rfl) rfl)
          shapeCasts_S128_S1x128 (ix2 (0 : Fin 1) q) = _
  rw [shapeCast_self]
  refine congrArg (fun z => v16 (ix2 (0 : Fin 1) q) + z) ?_
  refine (Cert.Lib.Rows.shapeCast_vec_row_apply (C := 128) _ shapeCasts_S128_S1x128 q).trans ?_
  refine (Cert.Lib.ColumnReduce.multiReduction_rows_apply (a := 5000) (b := 128) (mulf (k2_pay1 x0 x1) (k2_pay1 x0 x1))
    reduces_S5000x128_S128 q).trans ?_
  refine Finset.sum_congr rfl fun p _ => ?_
  show k2_pay1 (F := Ideal) x0 x1 (ix2 p q) * k2_pay1 (F := Ideal) x0 x1 (ix2 p q) = _
  rw [reduce2_pay1_apply]

end Payloads

/-! ## The blocks the windows read, as entries of the region's input arrays -/

section Values
variable (V : (c : Dev nD) → (b : Ref sig .tc) → Buf (Elt Ideal) ((c : Thread nD τ).loc b)) (c : Dev nD)
variable (A0 : S100000x128.Idx → EReal) (A1 : S1x128.Idx → EReal)

/-- Where the windows' blocks sit at each grid point, decided over the 20 points: the row blocks of the input and of
    the first output are block t of the rows; the bias row and the two running rows never move. -/
theorem reduce2_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Row l of block k of the 20 blocks of 5000 rows is a row of the array. -/
theorem reduce2_row_lt {n : ℕ} (hn : n < cfg2.N) (k : Fin (n + 1)) (l : Fin 5000) : 5000 * k.val + l.val < 100000 := by
  have hN : cfg2.N = 20 := N_2
  have := k.isLt
  have := l.isLt
  omega

/-- The input block at point t, at (p, q), is the input array at row 5000 t + p, column q. -/
theorem reduce2_iblk0_apply (h0 : V c (Pipeline.arrRef spec2 0) = A0) (t : Fin cfg2.N) (p : Fin 5000) (q : Fin 128)
    (hr : 5000 * t.val + p.val < 100000) :
    (iblk2 (F := Ideal) V c 0 t : Vec Ideal S5000x128 .f32) (ix2 p q) = A0 (ix2 ⟨5000 * t.val + p.val, hr⟩ q) := by
  subst h0
  obtain ⟨e0, e1, -⟩ := reduce2_idx t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * p.val = 5000 * t.val + p.val; rw [e0]; omega
  | ⟨1, _⟩ => show win2_0.index t (1 : Fin 2) * 128 + 1 * q.val = q.val; rw [e1]; omega

/-- The bias block at every point, at (0, q), is the bias row at column q. -/
theorem reduce2_iblk1_apply (h1 : V c (Pipeline.arrRef spec2 1) = A1) (t : Fin cfg2.N) (q : Fin 128) :
    (iblk2 (F := Ideal) V c 1 t : Vec Ideal S1x128 .f32) (ix2 (0 : Fin 1) q) = A1 (ix2 (0 : Fin 1) q) := by
  subst h1
  obtain ⟨-, -, e0, e1, -⟩ := reduce2_idx t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 1 + 1 * 0 = 0; rw [e0]
  | ⟨1, _⟩ => show win2_1.index t (1 : Fin 2) * 128 + 1 * q.val = q.val; rw [e1]; omega

/-! ## The running sums after each point -/

/-- What a point adds to the running sum at column q: the sum, down column q, of the point's 5000 rows of the input
    plus the bias. -/
theorem reduce2_block_sum (h0 : V c (Pipeline.arrRef spec2 0) = A0) (h1 : V c (Pipeline.arrRef spec2 1) = A1)
    (t : Fin cfg2.N) (xo : Vec Ideal S1x128 .f32) (q : Fin 128)
    (hr : ∀ l : Fin 5000, 5000 * t.val + l.val < 100000) :
    k2_pay4 (F := Ideal) (iblk2 V c 0 t) (iblk2 V c 1 t) xo (ix2 (0 : Fin 1) q)
      = xo (ix2 (0 : Fin 1) q) + ∑ l : Fin 5000, (A0 (ix2 ⟨5000 * t.val + l.val, hr l⟩ q) + A1 (ix2 (0 : Fin 1) q)) := by
  refine (reduce2_pay4_apply (iblk2 V c 0 t) (iblk2 V c 1 t) xo q).trans ?_
  refine congrArg (fun z => xo (ix2 (0 : Fin 1) q) + z) (Finset.sum_congr rfl fun l _ => ?_)
  rw [reduce2_iblk0_apply V c A0 h0 t l q (hr l), reduce2_iblk1_apply V c A1 h1 t q]

/-- What a point adds to the running sum of squares at column q. -/
theorem reduce2_block_sumsq (h0 : V c (Pipeline.arrRef spec2 0) = A0) (h1 : V c (Pipeline.arrRef spec2 1) = A1)
    (t : Fin cfg2.N) (xo : Vec Ideal S1x128 .f32) (q : Fin 128)
    (hr : ∀ l : Fin 5000, 5000 * t.val + l.val < 100000) :
    k2_pay5 (F := Ideal) (iblk2 V c 0 t) (iblk2 V c 1 t) xo (ix2 (0 : Fin 1) q)
      = xo (ix2 (0 : Fin 1) q) + ∑ l : Fin 5000, ((A0 (ix2 ⟨5000 * t.val + l.val, hr l⟩ q) + A1 (ix2 (0 : Fin 1) q)) * (A0 (ix2 ⟨5000 * t.val + l.val, hr l⟩ q) + A1 (ix2 (0 : Fin 1) q))) := by
  refine (reduce2_pay5_apply (iblk2 V c 0 t) (iblk2 V c 1 t) xo q).trans ?_
  refine congrArg (fun z => xo (ix2 (0 : Fin 1) q) + z) (Finset.sum_congr rfl fun l _ => ?_)
  rw [reduce2_iblk0_apply V c A0 h0 t l q (hr l), reduce2_iblk1_apply V c A1 h1 t q]

/-- THE RUNNING SUM: after point n the sum row holds, at column q, the sum over the first n + 1 blocks of 5000 rows of
    the input plus the bias — by induction on the point: the first point starts from the zero row, each later point
    adds its block's column sum to what the point before left. -/
theorem reduce2_sum_inv (h0 : V c (Pipeline.arrRef spec2 0) = A0) (h1 : V c (Pipeline.arrRef spec2 1) = A1)
    (q : Fin 128) : ∀ (n : ℕ) (hn : n < cfg2.N),
    (outsAt2 (F := Ideal) V c n hn).2.1 (ix2 (0 : Fin 1) q)
      = ∑ k : Fin (n + 1), ∑ l : Fin 5000, (A0 (ix2 ⟨5000 * k.val + l.val, reduce2_row_lt hn k l⟩ q) + A1 (ix2 (0 : Fin 1) q))
  | 0, hn => by
    rw [reduce2_outs_sum_zero V c hn]
    refine (reduce2_block_sum V c A0 A1 h0 h1 ⟨0, hn⟩ (k2_pay2 (F := Ideal)) q (fun l => reduce2_row_lt hn 0 l)).trans ?_
    rw [reduce2_pay2_apply, zero_add, Fin.sum_univ_one]
    rfl
  | n + 1, hn => by
    rw [reduce2_outs_sum_succ V c n hn]
    refine (reduce2_block_sum V c A0 A1 h0 h1 ⟨n + 1, hn⟩ _ q (fun l => reduce2_row_lt hn (Fin.last (n + 1)) l)).trans ?_
    rw [reduce2_sum_inv h0 h1 q n (Nat.lt_of_succ_lt hn), Fin.sum_univ_castSucc (n := n + 1)]
    rfl

/-- THE RUNNING SUM OF SQUARES, likewise. -/
theorem reduce2_sumsq_inv (h0 : V c (Pipeline.arrRef spec2 0) = A0) (h1 : V c (Pipeline.arrRef spec2 1) = A1)
    (q : Fin 128) : ∀ (n : ℕ) (hn : n < cfg2.N),
    (outsAt2 (F := Ideal) V c n hn).2.2 (ix2 (0 : Fin 1) q)
      = ∑ k : Fin (n + 1), ∑ l : Fin 5000, ((A0 (ix2 ⟨5000 * k.val + l.val, reduce2_row_lt hn k l⟩ q) + A1 (ix2 (0 : Fin 1) q)) * (A0 (ix2 ⟨5000 * k.val + l.val, reduce2_row_lt hn k l⟩ q) + A1 (ix2 (0 : Fin 1) q)))
  | 0, hn => by
    rw [reduce2_outs_sumsq_zero V c hn]
    refine (reduce2_block_sumsq V c A0 A1 h0 h1 ⟨0, hn⟩ (k2_pay3 (F := Ideal)) q (fun l => reduce2_row_lt hn 0 l)).trans ?_
    rw [reduce2_pay3_apply, zero_add, Fin.sum_univ_one]
    rfl
  | n + 1, hn => by
    rw [reduce2_outs_sumsq_succ V c n hn]
    refine (reduce2_block_sumsq V c A0 A1 h0 h1 ⟨n + 1, hn⟩ _ q (fun l => reduce2_row_lt hn (Fin.last (n + 1)) l)).trans ?_
    rw [reduce2_sumsq_inv h0 h1 q n (Nat.lt_of_succ_lt hn), Fin.sum_univ_castSucc (n := n + 1)]
    rfl

/-- The last point. -/
theorem reduce2_last_lt : 19 < cfg2.N := by rw [show cfg2.N = 20 from N_2]; decide

/-- The 20 blocks of 5000 rows are all 100000 rows: a sum over the blocks of the sums inside each is the sum over
    the rows. -/
theorem reduce2_sum_rows {M : Type*} [AddCommMonoid M] (f : Fin 100000 → M) :
    ∑ k : Fin (19 + 1), ∑ l : Fin 5000, f ⟨5000 * k.val + l.val, reduce2_row_lt reduce2_last_lt k l⟩ = ∑ r : Fin 100000, f r :=
  (Cert.LibBlockSumGen.sum_blocks (n := 100000) (K := 20) (B := 5000) rfl f).symm

/-! ## From the blocks written back to the arrays after the region -/

/-- The first output array after the region, as one function of the input arrays: the input plus the bias row. -/
abbrev reduce2_agg_fn : S100000x128.Idx → EReal :=
  fun i => A0 i + A1 (ix2 (0 : Fin 1) (i 1))

/-- What point t writes back to the first output is block t of that function. -/
theorem reduce2_flushed_agg (h0 : V c (Pipeline.arrRef spec2 0) = A0) (h1 : V c (Pipeline.arrRef spec2 1) = A1)
    (t : Fin cfg2.N) :
    (dat2 (F := Ideal) V c).flushed 2 t = ((cfg2.win 2).blk t).view.read (Elt Ideal) (reduce2_agg_fn A0 A1) := by
  show (cfg2.win 2).cut (grid2.coords t) ((dat2 (F := Ideal) V c).after 2 t) = _
  rw [after2_2, reduce2_outs_agg V c t]
  obtain ⟨-, -, -, -, e0, e1, -⟩ := reduce2_idx t
  have hN : cfg2.N = 20 := N_2
  show (k2_pay1 (F := Ideal) (iblk2 V c 0 t) (iblk2 V c 1 t) : S5000x128.Idx → EReal)
    = fun j : S5000x128.Idx => reduce2_agg_fn A0 A1 (((cfg2.win 2).blk t).view.emb j)
  funext j
  obtain ⟨p, q, rfl⟩ : ∃ (p : Fin 5000) (q : Fin 128), j = ix2 p q := ⟨j 0, j 1, eq_ix2 j⟩
  have hr : 5000 * t.val + p.val < 100000 := by have := t.isLt; have := p.isLt; omega
  have he : ((cfg2.win 2).blk t).view.emb (ix2 p q) = (ix2 ⟨5000 * t.val + p.val, hr⟩ q : S100000x128.Idx) := by
    funext a
    apply Fin.ext
    match a with
    | ⟨0, _⟩ => show win2_2.index t (0 : Fin 2) * 5000 + 1 * p.val = 5000 * t.val + p.val; rw [e0]; omega
    | ⟨1, _⟩ => show win2_2.index t (1 : Fin 2) * 128 + 1 * q.val = q.val; rw [e1]; omega
  rw [he]
  refine (reduce2_pay1_apply (iblk2 V c 0 t) (iblk2 V c 1 t) p q).trans ?_
  rw [reduce2_iblk0_apply V c A0 h0 t p q hr, reduce2_iblk1_apply V c A1 h1 t q]

/-- An index of the first output array is in point t's block iff each coordinate is in the block's range. -/
theorem reduce2_mem_blk_agg (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v50_0).slice (win2_2.rect t)).set ↔ _
  rw [View.set_slice_whole, Rect.mem_set_unit]
  exact Iff.rfl

/-- THE FIRST OUTPUT ARRAY after the region: every row r lies in the block of point r / 5000, which is written back. -/
theorem reduce2_agg_final (h0 : V c (Pipeline.arrRef spec2 0) = A0) (h1 : V c (Pipeline.arrRef spec2 1) = A1) :
    (dat2 (F := Ideal) V c).arrAt 2 cfg2.N = reduce2_agg_fn A0 A1 :=
  (dat2 (F := Ideal) V c).arrAt_eq_of_cover 2 (reduce2_agg_fn A0 A1) (fun t _ => reduce2_flushed_agg V c A0 A1 h0 h1 t) fun i => by
    have hN : cfg2.N = 20 := N_2
    have hi0 : (i 0).val < 100000 := (i 0).isLt
    have hi1 : (i 1).val < 128 := (i 1).isLt
    have ht : (i 0).val / 5000 < cfg2.N := by omega
    obtain ⟨-, -, -, -, e0, e1, -⟩ := reduce2_idx ⟨(i 0).val / 5000, ht⟩
    refine ⟨⟨(i 0).val / 5000, ht⟩, flush2_2 _, ?_⟩
    rw [reduce2_mem_blk_agg]
    intro a
    match a with
    | ⟨0, _⟩ =>
      show win2_2.index ⟨(i 0).val / 5000, ht⟩ (0 : Fin 2) * 5000 ≤ (i 0).val
        ∧ (i 0).val < win2_2.index ⟨(i 0).val / 5000, ht⟩ (0 : Fin 2) * 5000 + 5000
      rw [e0]; dsimp only; omega
    | ⟨1, _⟩ =>
      show win2_2.index ⟨(i 0).val / 5000, ht⟩ (1 : Fin 2) * 128 ≤ (i 1).val
        ∧ (i 1).val < win2_2.index ⟨(i 0).val / 5000, ht⟩ (1 : Fin 2) * 128 + 128
      rw [e1]; omega

/-- The sum row's one write-back, at the last point, writes what the last point left: the row's one block is the
    whole [1,128] array. -/
theorem reduce2_flushed_sum (t : Fin cfg2.N) (hf : (cfg2.win 3).flush t = true) :
    (dat2 (F := Ideal) V c).flushed 3 t
      = ((cfg2.win 3).blk t).view.read (Elt Ideal) (outsAt2 (F := Ideal) V c 19 reduce2_last_lt).2.1 := by
  have hN : cfg2.N = 20 := N_2
  have h19 : t.val = 19 := by have := (flush2_3 t).mp hf; have := t.isLt; omega
  obtain rfl : t = ⟨19, reduce2_last_lt⟩ := Fin.ext h19
  obtain ⟨-, -, -, -, -, -, e0, e1, -⟩ := reduce2_idx ⟨19, reduce2_last_lt⟩
  show (cfg2.win 3).cut (grid2.coords ⟨19, reduce2_last_lt⟩) ((dat2 (F := Ideal) V c).after 3 ⟨19, reduce2_last_lt⟩) = _
  rw [after2_3]
  have hz' : (fun a => win2_3.index ⟨19, reduce2_last_lt⟩ a * main_v50_1.ty.shape.size a) = fun _ => 0 :=
    funext fun a => by
      match a with
      | ⟨0, _⟩ => show win2_3.index ⟨19, reduce2_last_lt⟩ (0 : Fin 2) * 1 = 0; rw [e0]
      | ⟨1, _⟩ => show win2_3.index ⟨19, reduce2_last_lt⟩ (1 : Fin 2) * 128 = 0; rw [e1]
  exact (Memref.read_access_unit_zero (Elt Ideal) main_v50_1 hz' (fun a => by rw [congrFun hz' a]; simp)
    (outsAt2 (F := Ideal) V c 19 reduce2_last_lt).2.1).symm

/-- The sum of squares row's one write-back, likewise. -/
theorem reduce2_flushed_sumsq (t : Fin cfg2.N) (hf : (cfg2.win 4).flush t = true) :
    (dat2 (F := Ideal) V c).flushed 4 t
      = ((cfg2.win 4).blk t).view.read (Elt Ideal) (outsAt2 (F := Ideal) V c 19 reduce2_last_lt).2.2 := by
  have hN : cfg2.N = 20 := N_2
  have h19 : t.val = 19 := by have := (flush2_4 t).mp hf; have := t.isLt; omega
  obtain rfl : t = ⟨19, reduce2_last_lt⟩ := Fin.ext h19
  obtain ⟨-, -, -, -, -, -, -, -, e0, e1⟩ := reduce2_idx ⟨19, reduce2_last_lt⟩
  show (cfg2.win 4).cut (grid2.coords ⟨19, reduce2_last_lt⟩) ((dat2 (F := Ideal) V c).after 4 ⟨19, reduce2_last_lt⟩) = _
  rw [after2_4]
  have hz' : (fun a => win2_4.index ⟨19, reduce2_last_lt⟩ a * main_v50_2.ty.shape.size a) = fun _ => 0 :=
    funext fun a => by
      match a with
      | ⟨0, _⟩ => show win2_4.index ⟨19, reduce2_last_lt⟩ (0 : Fin 2) * 1 = 0; rw [e0]
      | ⟨1, _⟩ => show win2_4.index ⟨19, reduce2_last_lt⟩ (1 : Fin 2) * 128 = 0; rw [e1]
  exact (Memref.read_access_unit_zero (Elt Ideal) main_v50_2 hz' (fun a => by rw [congrFun hz' a]; simp)
    (outsAt2 (F := Ideal) V c 19 reduce2_last_lt).2.2).symm

/-- The sum row after the region is what the last point left in its staging buffer: the last point's block covers it. -/
theorem reduce2_sum_final :
    (dat2 (F := Ideal) V c).arrAt 3 cfg2.N = (outsAt2 (F := Ideal) V c 19 reduce2_last_lt).2.1 :=
  (dat2 (F := Ideal) V c).arrAt_eq_of_cover 3 _ (reduce2_flushed_sum V c) fun i => by
    obtain ⟨-, -, -, -, -, -, e0, e1, -⟩ := reduce2_idx ⟨19, reduce2_last_lt⟩
    refine ⟨⟨19, reduce2_last_lt⟩, (flush2_3 _).mpr rfl, ?_⟩
    show i ∈ ((View.whole main_v50_1).slice (win2_3.rect ⟨19, reduce2_last_lt⟩)).set
    rw [View.set_slice_whole, Rect.mem_set_unit]
    intro a
    have h0 : (i 0 : Nat) < 1 := (i 0).isLt
    have h1 : (i 1 : Nat) < 128 := (i 1).isLt
    match a with
    | ⟨0, _⟩ =>
      show win2_3.index ⟨19, reduce2_last_lt⟩ (0 : Fin 2) * 1 ≤ (i 0 : Nat)
        ∧ (i 0 : Nat) < win2_3.index ⟨19, reduce2_last_lt⟩ (0 : Fin 2) * 1 + 1
      rw [e0]; omega
    | ⟨1, _⟩ =>
      show win2_3.index ⟨19, reduce2_last_lt⟩ (1 : Fin 2) * 128 ≤ (i 1 : Nat)
        ∧ (i 1 : Nat) < win2_3.index ⟨19, reduce2_last_lt⟩ (1 : Fin 2) * 128 + 128
      rw [e1]; omega

/-- The sum of squares row after the region, likewise. -/
theorem reduce2_sumsq_final :
    (dat2 (F := Ideal) V c).arrAt 4 cfg2.N = (outsAt2 (F := Ideal) V c 19 reduce2_last_lt).2.2 :=
  (dat2 (F := Ideal) V c).arrAt_eq_of_cover 4 _ (reduce2_flushed_sumsq V c) fun i => by
    obtain ⟨-, -, -, -, -, -, -, -, e0, e1⟩ := reduce2_idx ⟨19, reduce2_last_lt⟩
    refine ⟨⟨19, reduce2_last_lt⟩, (flush2_4 _).mpr rfl, ?_⟩
    show i ∈ ((View.whole main_v50_2).slice (win2_4.rect ⟨19, reduce2_last_lt⟩)).set
    rw [View.set_slice_whole, Rect.mem_set_unit]
    intro a
    have h0 : (i 0 : Nat) < 1 := (i 0).isLt
    have h1 : (i 1 : Nat) < 128 := (i 1).isLt
    match a with
    | ⟨0, _⟩ =>
      show win2_4.index ⟨19, reduce2_last_lt⟩ (0 : Fin 2) * 1 ≤ (i 0 : Nat)
        ∧ (i 0 : Nat) < win2_4.index ⟨19, reduce2_last_lt⟩ (0 : Fin 2) * 1 + 1
      rw [e0]; omega
    | ⟨1, _⟩ =>
      show win2_4.index ⟨19, reduce2_last_lt⟩ (1 : Fin 2) * 128 ≤ (i 1 : Nat)
        ∧ (i 1 : Nat) < win2_4.index ⟨19, reduce2_last_lt⟩ (1 : Fin 2) * 128 + 128
      rw [e1]; omega

end Values

/-! ## The region's three output arrays, entry by entry -/

/-- The first output after the region, at row r and column q: the input there plus the bias at column q. -/
theorem reduce2_agg (V : (c : Dev nD) → (b : Ref sig .tc) → Buf (Elt Ideal) ((c : Thread nD τ).loc b)) (c : Dev nD)
    (A0 : S100000x128.Idx → EReal) (A1 : S1x128.Idx → EReal)
    (h0 : V c (Pipeline.arrRef spec2 0) = A0) (h1 : V c (Pipeline.arrRef spec2 1) = A1)
    (r : Fin 100000) (q : Fin 128) :
    (dat2 (F := Ideal) V c).arrAt 2 cfg2.N (ix2 r q) = A0 (ix2 r q) + A1 (ix2 (0 : Fin 1) q) := by
  rw [reduce2_agg_final V c A0 A1 h0 h1]

/-- The sum row after the region, at column q: the sum over all 100000 rows of the input plus the bias. -/
theorem reduce2_sum (V : (c : Dev nD) → (b : Ref sig .tc) → Buf (Elt Ideal) ((c : Thread nD τ).loc b)) (c : Dev nD)
    (A0 : S100000x128.Idx → EReal) (A1 : S1x128.Idx → EReal)
    (h0 : V c (Pipeline.arrRef spec2 0) = A0) (h1 : V c (Pipeline.arrRef spec2 1) = A1)
    (q : Fin 128) :
    (dat2 (F := Ideal) V c).arrAt 3 cfg2.N (ix2 (0 : Fin 1) q) = ∑ r : Fin 100000, (A0 (ix2 r q) + A1 (ix2 (0 : Fin 1) q)) := by
  rw [reduce2_sum_final V c]
  refine (reduce2_sum_inv V c A0 A1 h0 h1 q 19 reduce2_last_lt).trans ?_
  exact reduce2_sum_rows fun r => (A0 (ix2 r q) + A1 (ix2 (0 : Fin 1) q))

/-- The sum of squares row after the region, at column q: the sum over all 100000 rows of the square of the input
    plus the bias. -/
theorem reduce2_sumsq (V : (c : Dev nD) → (b : Ref sig .tc) → Buf (Elt Ideal) ((c : Thread nD τ).loc b)) (c : Dev nD)
    (A0 : S100000x128.Idx → EReal) (A1 : S1x128.Idx → EReal)
    (h0 : V c (Pipeline.arrRef spec2 0) = A0) (h1 : V c (Pipeline.arrRef spec2 1) = A1)
    (q : Fin 128) :
    (dat2 (F := Ideal) V c).arrAt 4 cfg2.N (ix2 (0 : Fin 1) q) = ∑ r : Fin 100000, ((A0 (ix2 r q) + A1 (ix2 (0 : Fin 1) q)) * (A0 (ix2 r q) + A1 (ix2 (0 : Fin 1) q))) := by
  rw [reduce2_sumsq_final V c]
  refine (reduce2_sumsq_inv V c A0 A1 h0 h1 q 19 reduce2_last_lt).trans ?_
  exact reduce2_sum_rows fun r => ((A0 (ix2 r q) + A1 (ix2 (0 : Fin 1) q)) * (A0 (ix2 r q) + A1 (ix2 (0 : Fin 1) q)))

end Cert.KernelIdeal.RegValue

end
-- ==== Proof.KLayer1B.lean ====
/-
  Graph layer 1 in the idealized kernel program: the reduction region and the host arithmetic after it.
-/
import proofs.«110479_j25572235281175_1_alg».proof.Proof.KLayer1A
import proofs.«110479_j25572235281175_1_alg».proof.Proof.LayerRead2
import proofs.«110479_j25572235281175_1_alg».proof.Proof.RegReduce2

set_option maxRecDepth 16384

noncomputable section

namespace Cert.KernelIdeal.Stages

open Idealize.ShloMosaic Idealize.ShloMosaic.TcCoe Idealize.ShloMosaic.StableHlo Idealize.ShloMosaic.ValueIdx
open Cert.KernelIdeal Cert.KernelIdeal.Gen Cert.KernelIdeal.Carry

variable (m : (ℓ : Loc nD τ sig) → Buf (Elt Ideal) ℓ) (ρ : Dev nD → PrngReg)

/-- After the reduction region: the aggregated features plus the bias, the reference's convolution. -/
theorem L1_agg (c : Dev nD) : W8 m ρ c (Proc.devRef .tc main_v50_0) = (Cert.ReferenceIdeal.Layer.conv (F := Ideal) (m ((c : Thread nD τ).loc main_arg0)) (Cert.ReferenceIdeal.ReadP.val_main_v32 (F := Ideal) (m ((c : Thread nD τ).loc main_arg2))) (Cert.ReferenceIdeal.ReadP.val_main_v34 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))) := by
  refine (W8_arr m ρ c 2).trans ?_
  have key : ∀ i : S100000x128.Idx, (dat2 (F := Ideal) (V7 m ρ) c).arrAt 2 cfg2.N i = (Cert.ReferenceIdeal.Layer.conv (F := Ideal) (m ((c : Thread nD τ).loc main_arg0)) (Cert.ReferenceIdeal.ReadP.val_main_v32 (F := Ideal) (m ((c : Thread nD τ).loc main_arg2))) (Cert.ReferenceIdeal.ReadP.val_main_v34 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))) i := by
    intro i
    obtain ⟨r, q, rfl⟩ : ∃ (r : Fin 100000) (q : Fin 128), i = ix2 r q := ⟨i 0, i 1, eq_ix2 i⟩
    rw [Cert.KernelIdeal.RegValue.reduce2_agg (V7 m ρ) c _ _ (L1_seg m ρ c) (L1_brow m ρ c) r q,
      Cert.ReferenceIdeal.Layer.conv_apply, Cert.KernelIdeal.Layer.krow_apply]
  exact funext key

/-- After the reduction region: the row of column sums of the convolution. -/
theorem L1_s1 (c : Dev nD) : W8 m ρ c (Proc.devRef .tc main_v50_1) = (Cert.KernelIdeal.Layer.krow (F := Ideal) (Cert.ReferenceIdeal.Layer.csum (Cert.ReferenceIdeal.Layer.conv (F := Ideal) (m ((c : Thread nD τ).loc main_arg0)) (Cert.ReferenceIdeal.ReadP.val_main_v32 (F := Ideal) (m ((c : Thread nD τ).loc main_arg2))) (Cert.ReferenceIdeal.ReadP.val_main_v34 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))))) := by
  refine (W8_arr m ρ c 3).trans ?_
  have key : ∀ i : S1x128.Idx, (dat2 (F := Ideal) (V7 m ρ) c).arrAt 3 cfg2.N i = (Cert.KernelIdeal.Layer.krow (F := Ideal) (Cert.ReferenceIdeal.Layer.csum (Cert.ReferenceIdeal.Layer.conv (F := Ideal) (m ((c : Thread nD τ).loc main_arg0)) (Cert.ReferenceIdeal.ReadP.val_main_v32 (F := Ideal) (m ((c : Thread nD τ).loc main_arg2))) (Cert.ReferenceIdeal.ReadP.val_main_v34 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))))) i := by
    intro i
    obtain ⟨p, q, rfl⟩ : ∃ (p : Fin 1) (q : Fin 128), i = ix2 p q := ⟨i 0, i 1, eq_ix2 i⟩
    obtain rfl : p = 0 := Subsingleton.elim _ _
    rw [Cert.KernelIdeal.RegValue.reduce2_sum (V7 m ρ) c _ _ (L1_seg m ρ c) (L1_brow m ρ c) q,
      Cert.KernelIdeal.Layer.krow_apply (Cert.ReferenceIdeal.Layer.csum (Cert.ReferenceIdeal.Layer.conv (F := Ideal) (m ((c : Thread nD τ).loc main_arg0)) (Cert.ReferenceIdeal.ReadP.val_main_v32 (F := Ideal) (m ((c : Thread nD τ).loc main_arg2))) (Cert.ReferenceIdeal.ReadP.val_main_v34 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1))))) q, Cert.ReferenceIdeal.Layer.csum_apply]
    exact Finset.sum_congr (M := EReal) rfl fun r _ => by rw [Cert.ReferenceIdeal.Layer.conv_apply, Cert.KernelIdeal.Layer.krow_apply]
  exact funext key

/-- After the reduction region: the row of column sums of the squared convolution. -/
theorem L1_s2 (c : Dev nD) : W8 m ρ c (Proc.devRef .tc main_v50_2) = (Cert.KernelIdeal.Layer.krow (F := Ideal) (Cert.ReferenceIdeal.Layer.csumsq (Cert.ReferenceIdeal.Layer.conv (F := Ideal) (m ((c : Thread nD τ).loc main_arg0)) (Cert.ReferenceIdeal.ReadP.val_main_v32 (F := Ideal) (m ((c : Thread nD τ).loc main_arg2))) (Cert.ReferenceIdeal.ReadP.val_main_v34 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))))) := by
  refine (W8_arr m ρ c 4).trans ?_
  have key : ∀ i : S1x128.Idx, (dat2 (F := Ideal) (V7 m ρ) c).arrAt 4 cfg2.N i = (Cert.KernelIdeal.Layer.krow (F := Ideal) (Cert.ReferenceIdeal.Layer.csumsq (Cert.ReferenceIdeal.Layer.conv (F := Ideal) (m ((c : Thread nD τ).loc main_arg0)) (Cert.ReferenceIdeal.ReadP.val_main_v32 (F := Ideal) (m ((c : Thread nD τ).loc main_arg2))) (Cert.ReferenceIdeal.ReadP.val_main_v34 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))))) i := by
    intro i
    obtain ⟨p, q, rfl⟩ : ∃ (p : Fin 1) (q : Fin 128), i = ix2 p q := ⟨i 0, i 1, eq_ix2 i⟩
    obtain rfl : p = 0 := Subsingleton.elim _ _
    rw [Cert.KernelIdeal.RegValue.reduce2_sumsq (V7 m ρ) c _ _ (L1_seg m ρ c) (L1_brow m ρ c) q,
      Cert.KernelIdeal.Layer.krow_apply (Cert.ReferenceIdeal.Layer.csumsq (Cert.ReferenceIdeal.Layer.conv (F := Ideal) (m ((c : Thread nD τ).loc main_arg0)) (Cert.ReferenceIdeal.ReadP.val_main_v32 (F := Ideal) (m ((c : Thread nD τ).loc main_arg2))) (Cert.ReferenceIdeal.ReadP.val_main_v34 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1))))) q, Cert.ReferenceIdeal.Layer.csumsq_apply]
    exact Finset.sum_congr (M := EReal) rfl fun r _ => by rw [Cert.ReferenceIdeal.Layer.conv_apply, Cert.KernelIdeal.Layer.krow_apply]
  exact funext key

/-- At the normalisation region's entry: the row of means. -/
theorem L1_meanrow (c : Dev nD) : V9 m ρ c main_v72 = Cert.KernelIdeal.Layer.krow (F := Ideal) (Cert.KernelIdeal.Layer.kmeanv (F := Ideal) (Cert.KernelIdeal.Layer.krow (F := Ideal) (Cert.ReferenceIdeal.Layer.csum (Cert.ReferenceIdeal.Layer.conv (F := Ideal) (m ((c : Thread nD τ).loc main_arg0)) (Cert.ReferenceIdeal.ReadP.val_main_v32 (F := Ideal) (m ((c : Thread nD τ).loc main_arg2))) (Cert.ReferenceIdeal.ReadP.val_main_v34 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1))))))) := by
  show StableHlo.after hostOps3 (W8 m ρ c) (Proc.devRef .tc main_v72) = _
  try dsimp only [hostOps3]
  after_results_simp
  rw [L1_s1 m ρ c]
  rfl

/-- At the normalisation region's entry: the row of variances, in moment form. -/
theorem L1_varrow (c : Dev nD) : V9 m ρ c main_v73 = Cert.KernelIdeal.Layer.krow (F := Ideal) (Cert.KernelIdeal.Layer.kvarv (F := Ideal) (Cert.KernelIdeal.Layer.krow (F := Ideal) (Cert.ReferenceIdeal.Layer.csum (Cert.ReferenceIdeal.Layer.conv (F := Ideal) (m ((c : Thread nD τ).loc main_arg0)) (Cert.ReferenceIdeal.ReadP.val_main_v32 (F := Ideal) (m ((c : Thread nD τ).loc main_arg2))) (Cert.ReferenceIdeal.ReadP.val_main_v34 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))))) (Cert.KernelIdeal.Layer.krow (F := Ideal) (Cert.ReferenceIdeal.Layer.csumsq (Cert.ReferenceIdeal.Layer.conv (F := Ideal) (m ((c : Thread nD τ).loc main_arg0)) (Cert.ReferenceIdeal.ReadP.val_main_v32 (F := Ideal) (m ((c : Thread nD τ).loc main_arg2))) (Cert.ReferenceIdeal.ReadP.val_main_v34 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))))) (Cert.ReferenceIdeal.ReadP.val_main_v57 (F := Ideal) (m ((c : Thread nD τ).loc main_arg6)))) := by
  show StableHlo.after hostOps3 (W8 m ρ c) (Proc.devRef .tc main_v73) = _
  try dsimp only [hostOps3]
  after_results_simp
  rw [L1_s1 m ρ c, L1_s2 m ρ c, ((keepR2 m ρ c main_arg6 (by decide)).trans ((keepH2 (W6 m ρ c) main_arg6 (by decide)).trans ((keepR1 m ρ c main_arg6 (by decide)).trans ((keepH1 (W4 m ρ c) main_arg6 (by decide)).trans ((keepR0 m ρ c main_arg6 (by decide)).trans ((keepH0_2 (W2 m ρ c) main_arg6 (by decide)).trans ((keepH0_1 (W1 m ρ c) main_arg6 (by decide)).trans (keepH0 (W0 m ρ c) main_arg6 (by decide)))))))))]
  rfl

/-- At the normalisation region's entry: the gain, the shift and the mean scale as rows. -/
theorem L1_wrow (c : Dev nD) : V9 m ρ c main_v74 = Cert.KernelIdeal.Layer.krow (F := Ideal) (Cert.ReferenceIdeal.ReadP.val_main_v53 (F := Ideal) (m ((c : Thread nD τ).loc main_arg4))) := by
  show StableHlo.after hostOps3 (W8 m ρ c) (Proc.devRef .tc main_v74) = _
  try dsimp only [hostOps3]
  after_results_simp
  rw [((keepR2 m ρ c main_arg4 (by decide)).trans ((keepH2 (W6 m ρ c) main_arg4 (by decide)).trans ((keepR1 m ρ c main_arg4 (by decide)).trans ((keepH1 (W4 m ρ c) main_arg4 (by decide)).trans ((keepR0 m ρ c main_arg4 (by decide)).trans ((keepH0_2 (W2 m ρ c) main_arg4 (by decide)).trans ((keepH0_1 (W1 m ρ c) main_arg4 (by decide)).trans (keepH0 (W0 m ρ c) main_arg4 (by decide)))))))))]
  rfl
theorem L1_brow2 (c : Dev nD) : V9 m ρ c main_v75 = Cert.KernelIdeal.Layer.krow (F := Ideal) (Cert.ReferenceIdeal.ReadP.val_main_v55 (F := Ideal) (m ((c : Thread nD τ).loc main_arg5))) := by
  show StableHlo.after hostOps3 (W8 m ρ c) (Proc.devRef .tc main_v75) = _
  try dsimp only [hostOps3]
  after_results_simp
  rw [((keepR2 m ρ c main_arg5 (by decide)).trans ((keepH2 (W6 m ρ c) main_arg5 (by decide)).trans ((keepR1 m ρ c main_arg5 (by decide)).trans ((keepH1 (W4 m ρ c) main_arg5 (by decide)).trans ((keepR0 m ρ c main_arg5 (by decide)).trans ((keepH0_2 (W2 m ρ c) main_arg5 (by decide)).trans ((keepH0_1 (W1 m ρ c) main_arg5 (by decide)).trans (keepH0 (W0 m ρ c) main_arg5 (by decide)))))))))]
  rfl
theorem L1_msrow (c : Dev nD) : V9 m ρ c main_v76 = Cert.KernelIdeal.Layer.krow (F := Ideal) (Cert.ReferenceIdeal.ReadP.val_main_v57 (F := Ideal) (m ((c : Thread nD τ).loc main_arg6))) := by
  show StableHlo.after hostOps3 (W8 m ρ c) (Proc.devRef .tc main_v76) = _
  try dsimp only [hostOps3]
  after_results_simp
  rw [((keepR2 m ρ c main_arg6 (by decide)).trans ((keepH2 (W6 m ρ c) main_arg6 (by decide)).trans ((keepR1 m ρ c main_arg6 (by decide)).trans ((keepH1 (W4 m ρ c) main_arg6 (by decide)).trans ((keepR0 m ρ c main_arg6 (by decide)).trans ((keepH0_2 (W2 m ρ c) main_arg6 (by decide)).trans ((keepH0_1 (W1 m ρ c) main_arg6 (by decide)).trans (keepH0 (W0 m ρ c) main_arg6 (by decide)))))))))]
  rfl

/-- At the normalisation region's entry: the convolution and the skip input. -/
theorem L1_aggN (c : Dev nD) : V9 m ρ c main_v50_0 = (Cert.ReferenceIdeal.Layer.conv (F := Ideal) (m ((c : Thread nD τ).loc main_arg0)) (Cert.ReferenceIdeal.ReadP.val_main_v32 (F := Ideal) (m ((c : Thread nD τ).loc main_arg2))) (Cert.ReferenceIdeal.ReadP.val_main_v34 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))) :=
  (keepH3 (W8 m ρ c) main_v50_0 (by decide)).trans (L1_agg m ρ c)
theorem L1_resN (c : Dev nD) : V9 m ρ c main_v30 = (Cert.ReferenceIdeal.ReadP.val_main_v30 (F := Ideal) (m ((c : Thread nD τ).loc main_arg0)) (m ((c : Thread nD τ).loc main_arg7))) :=
  ((keepH3 (W8 m ρ c) main_v30 (by decide)).trans (((keepR2 m ρ c main_v30 (by decide)).trans ((keepH2 (W6 m ρ c) main_v30 (by decide)).trans ((keepR1 m ρ c main_v30 (by decide)).trans (keepH1 (W4 m ρ c) main_v30 (by decide))))).trans (W4_v30 m ρ c)))

end Cert.KernelIdeal.Stages

end
-- ==== Proof.LibReals.lean ====
/-
  Extended reals that are real numbers. At the ideal float values every float is an extended real; a
  value is FINITE when it is the image of a real number. This module collects, with no reference to any
  program: the predicate "every entry of a family is a real" and its closure under the exact operations
  (sum, product, difference, maximum, finite sums, division by a nonzero real, reciprocal square root
  of a positive real); the coercion of a finite real sum; and the identity between the two textbook
  forms of the variance of a finite family, (1/N) Σ (xᵢ − μ)² = (1/N) Σ xᵢ² − μ² with μ = (1/N) Σ xᵢ,
  first over the reals and then over real-valued extended reals, where each quotient is the ideal
  division and each sum may carry a leading zero summand; the variance is a real and is not negative.
-/
import Idealize.ShloMosaic.PureOps.Ideal

noncomputable section

namespace Cert.Reals

open Idealize.ShloMosaic
open scoped BigOperators

/-- An extended real that is (the image of) a real number. -/
def IsRealS (x : EReal) : Prop := ∃ r : ℝ, x = (r : EReal)

/-- Every entry of a family of extended reals is a real number. -/
def IsReal {ι : Type*} (f : ι → EReal) : Prop := ∀ i, ∃ r : ℝ, f i = (r : EReal)

/-- A family is real exactly when each entry is. -/
theorem isReal_iff {ι : Type*} (f : ι → EReal) : IsReal f ↔ ∀ i, IsRealS (f i) := Iff.rfl

/-- An entry of a real family is a real. -/
theorem IsReal.apply {ι : Type*} {f : ι → EReal} (h : IsReal f) (i : ι) : IsRealS (f i) := h i

/-- A real family is the coercion of a family of reals. -/
theorem IsReal.exists_eq {ι : Type*} {f : ι → EReal} (h : IsReal f) : ∃ r : ι → ℝ, f = fun i => (r i : EReal) := by
  choose r hr using h
  exact ⟨r, funext hr⟩

/-- The coercion of a family of reals is a real family. -/
theorem isReal_coe {ι : Type*} (r : ι → ℝ) : IsReal (fun i => (r i : EReal)) := fun i => ⟨r i, rfl⟩

/-- Re-indexing a real family gives a real family. -/
theorem IsReal.comp {ι κ : Type*} {f : ι → EReal} (h : IsReal f) (g : κ → ι) : IsReal (fun k => f (g k)) :=
  fun k => h (g k)

/-- A real number is a real. -/
theorem isRealS_coe (r : ℝ) : IsRealS (r : EReal) := ⟨r, rfl⟩

/-- Zero is a real. -/
theorem isRealS_zero : IsRealS 0 := ⟨0, rfl⟩

/-- One is a real. -/
theorem isRealS_one : IsRealS 1 := ⟨1, rfl⟩

/-- A real is not the upper infinity. -/
theorem IsRealS.ne_top {x : EReal} (h : IsRealS x) : x ≠ ⊤ := by
  obtain ⟨r, rfl⟩ := h; exact EReal.coe_ne_top r

/-- A real is not the lower infinity. -/
theorem IsRealS.ne_bot {x : EReal} (h : IsRealS x) : x ≠ ⊥ := by
  obtain ⟨r, rfl⟩ := h; exact EReal.coe_ne_bot r

/-- An extended real that is neither infinity is a real. -/
theorem isRealS_of_ne {x : EReal} (ht : x ≠ ⊤) (hb : x ≠ ⊥) : IsRealS x := by
  induction x using EReal.rec with
  | bot => exact absurd rfl hb
  | top => exact absurd rfl ht
  | coe r => exact ⟨r, rfl⟩

/-- The sum of two reals is a real. -/
theorem IsRealS.add {x y : EReal} (hx : IsRealS x) (hy : IsRealS y) : IsRealS (x + y) := by
  obtain ⟨a, rfl⟩ := hx; obtain ⟨b, rfl⟩ := hy
  exact ⟨a + b, (EReal.coe_add a b).symm⟩

/-- The product of two reals is a real. -/
theorem IsRealS.mul {x y : EReal} (hx : IsRealS x) (hy : IsRealS y) : IsRealS (x * y) := by
  obtain ⟨a, rfl⟩ := hx; obtain ⟨b, rfl⟩ := hy
  exact ⟨a * b, (EReal.coe_mul a b).symm⟩

/-- The negation of a real is a real. -/
theorem IsRealS.neg {x : EReal} (hx : IsRealS x) : IsRealS (-x) := by
  obtain ⟨a, rfl⟩ := hx
  exact ⟨-a, (EReal.coe_neg a).symm⟩

/-- The difference of two reals (the extended reals' subtraction, which the ideal values' subtraction is)
    is a real. -/
theorem IsRealS.sub {x y : EReal} (hx : IsRealS x) (hy : IsRealS y) : IsRealS (x - y) := by
  obtain ⟨a, rfl⟩ := hx; obtain ⟨b, rfl⟩ := hy
  exact ⟨a - b, (EReal.coe_sub a b).symm⟩

/-- The maximum of two reals is a real. -/
theorem IsRealS.max {x y : EReal} (hx : IsRealS x) (hy : IsRealS y) : IsRealS (max x y) := by
  rcases max_choice x y with h | h <;> rw [h] <;> assumption

/-- The minimum of two reals is a real. -/
theorem IsRealS.min {x y : EReal} (hx : IsRealS x) (hy : IsRealS y) : IsRealS (min x y) := by
  rcases min_choice x y with h | h <;> rw [h] <;> assumption

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_fintype_sum {ι : Type*} [Fintype ι] (f : ι → ℝ) :
    ((∑ i, f i : ℝ) : EReal) = ∑ i, (f i : EReal) := coe_finset_sum Finset.univ f

/-- A finite sum of reals is a real. -/
theorem isRealS_sum {ι : Type*} (s : Finset ι) (f : ι → EReal) (h : ∀ i ∈ s, IsRealS (f i)) :
    IsRealS (∑ i ∈ s, f i) := by
  classical
  induction s using Finset.induction_on with
  | empty => simpa using isRealS_zero
  | insert a s ha ih =>
    rw [Finset.sum_insert ha]
    exact (h a (Finset.mem_insert_self a s)).add (ih fun i hi => h i (Finset.mem_insert_of_mem hi))

/-- A sum over a finite set of entries of a real family is a real. -/
theorem IsReal.sum {ι : Type*} {f : ι → EReal} (h : IsReal f) (s : Finset ι) : IsRealS (∑ i ∈ s, f i) :=
  isRealS_sum s f fun i _ => h i

/-- A sum over a whole finite type of entries of a real family is a real. -/
theorem IsReal.sum_univ {ι : Type*} [Fintype ι] {f : ι → EReal} (h : IsReal f) : IsRealS (∑ i, f i) :=
  h.sum Finset.univ

/-- A finite sum of extended reals that are not negative is not negative. -/
theorem sum_nonneg {ι : Type*} (s : Finset ι) (f : ι → EReal) (h : ∀ i ∈ s, 0 ≤ f i) : 0 ≤ ∑ i ∈ s, f i :=
  Finset.sum_nonneg h

/-- The ideal quotient of two reals, the divisor not zero, is the real quotient. -/
theorem div_coe_coe (a : ℝ) {n : ℝ} (hn : n ≠ 0) : Ideal.div (a : EReal) (n : EReal) = ((a / n : ℝ) : EReal) := by
  rw [Ideal.div_coe hn, ← EReal.coe_mul, mul_one_div]

/-- The ideal quotient of a real by a nonzero real number is a real. -/
theorem IsRealS.div_coe {x : EReal} (hx : IsRealS x) {n : ℝ} (hn : n ≠ 0) : IsRealS (Ideal.div x (n : EReal)) := by
  obtain ⟨a, rfl⟩ := hx
  exact ⟨a / n, div_coe_coe a hn⟩

/-- The ideal quotient of a real by a real that is not zero is a real. -/
theorem IsRealS.div {x y : EReal} (hx : IsRealS x) (hy : IsRealS y) (hy0 : y ≠ 0) : IsRealS (Ideal.div x y) := by
  obtain ⟨n, rfl⟩ := hy
  exact hx.div_coe (by rintro rfl; exact hy0 rfl)

/-- The ideal quotient of a real that is not negative by a positive real is not negative. -/
theorem div_coe_nonneg {a n : ℝ} (ha : 0 ≤ a) (hn : 0 < n) : (0 : EReal) ≤ Ideal.div (a : EReal) (n : EReal) := by
  rw [div_coe_coe a hn.ne']
  exact EReal.coe_nonneg.mpr (div_nonneg ha hn.le)

/-- The ideal reciprocal square root of a positive real is the real reciprocal of its square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The ideal reciprocal square root of a positive real is a real. -/
theorem IsRealS.rsqrt {x : EReal} (hx : IsRealS x) (hpos : 0 < x) : IsRealS (Ideal.rsqrt x) := by
  obtain ⟨r, rfl⟩ := hx
  exact ⟨_, rsqrt_coe_pos (EReal.coe_pos.mp hpos)⟩

/-- The host's reciprocal square root at the ideal values is the same function. -/
theorem IsRealS.hostRsqrt {φ : FTy} {x : Ideal φ} (hx : IsRealS x) (hpos : (0 : EReal) < x) :
    IsRealS (FloatOps.hostUnary (F := Ideal) .rsqrt x) := by
  rw [Ideal.hostUnary_rsqrt_def]; exact hx.rsqrt hpos

/-- The ideal reciprocal square root of a positive real is positive. -/
theorem rsqrt_pos {x : EReal} (hx : IsRealS x) (hpos : 0 < x) : 0 < Ideal.rsqrt x := by
  obtain ⟨r, rfl⟩ := hx
  have hr : 0 < r := EReal.coe_pos.mp hpos
  rw [rsqrt_coe_pos hr]
  exact EReal.coe_pos.mpr (inv_pos.mpr (Real.sqrt_pos.mpr hr))

/-- An extended real that is not negative plus a positive one is positive. -/
theorem add_pos_of_nonneg_of_pos {v e : EReal} (hv : 0 ≤ v) (he : 0 < e) : 0 < v + e := by
  calc (0 : EReal) < e := he
    _ = 0 + e := (zero_add e).symm
    _ ≤ v + e := add_le_add hv le_rfl

/-- An extended real that is not negative, plus one, is at least one. -/
theorem one_le_add_one_of_nonneg {c : EReal} (hc : 0 ≤ c) : 1 ≤ c + 1 := by
  calc (1 : EReal) = 0 + 1 := (zero_add 1).symm
    _ ≤ c + 1 := add_le_add hc le_rfl

/-- An extended real that is at least one is positive. -/
theorem pos_of_one_le {x : EReal} (h : 1 ≤ x) : 0 < x := lt_of_lt_of_le zero_lt_one h

/-! ## The variance identity -/

/-- THE VARIANCE IDENTITY over the reals: for a finite family of N reals, N not zero, the mean of the
    squared deviations from the mean is the mean of the squares minus the square of the mean. -/
theorem variance_real {ι : Type*} [Fintype ι] (f : ι → ℝ) (N : ℝ) (hN : N = Fintype.card ι) (hN0 : N ≠ 0) :
    (∑ i, (f i - (∑ j, f j) / N) * (f i - (∑ j, f j) / N)) / N
      = (∑ i, f i * f i) / N - ((∑ j, f j) / N) * ((∑ j, f j) / N) := by
  have h1 : ∑ i, (f i - (∑ j, f j) / N) * (f i - (∑ j, f j) / N)
      = (∑ i, f i * f i) - 2 * ((∑ j, f j) / N) * (∑ j, f j) + N * (((∑ j, f j) / N) * ((∑ j, f j) / N)) := by
    have h2 : ∀ i, (f i - (∑ j, f j) / N) * (f i - (∑ j, f j) / N)
        = f i * f i - 2 * ((∑ j, f j) / N) * f i + ((∑ j, f j) / N) * ((∑ j, f j) / N) := fun i => by ring
    simp only [h2]
    rw [Finset.sum_add_distrib, Finset.sum_sub_distrib, ← Finset.mul_sum, Finset.sum_const, Finset.card_univ,
      nsmul_eq_mul, ← hN]
  rw [h1]
  field_simp
  ring

/-- The mean of the squared deviations is not negative. -/
theorem variance_real_nonneg {ι : Type*} [Fintype ι] (f : ι → ℝ) (N : ℝ) (hN0 : 0 < N) :
    0 ≤ (∑ i, (f i - (∑ j, f j) / N) * (f i - (∑ j, f j) / N)) / N :=
  div_nonneg (Finset.sum_nonneg fun i _ => mul_self_nonneg _) hN0.le

/-- The variance of a family of reals, in the deviation form. -/
def varR {ι : Type*} [Fintype ι] (f : ι → ℝ) (N : ℝ) : ℝ :=
  (∑ i, (f i - (∑ j, f j) / N) * (f i - (∑ j, f j) / N)) / N

/-- It is not negative. -/
theorem varR_nonneg {ι : Type*} [Fintype ι] (f : ι → ℝ) {N : ℝ} (hN0 : 0 < N) : 0 ≤ varR f N :=
  variance_real_nonneg f N hN0

/-- The deviation form of the variance over real-valued extended reals, each quotient the ideal division
    and each difference the extended reals' subtraction, is the coercion of the real variance. -/
theorem variance_dev_coe {ι : Type*} [Fintype ι] (r : ι → ℝ) {N : ℝ} (hN0 : N ≠ 0) :
    Ideal.div (∑ i, ((r i : EReal) - Ideal.div (∑ j, (r j : EReal)) (N : EReal))
        * ((r i : EReal) - Ideal.div (∑ j, (r j : EReal)) (N : EReal))) (N : EReal)
      = ((varR r N : ℝ) : EReal) := by
  rw [← coe_fintype_sum, div_coe_coe _ hN0]
  simp only [← EReal.coe_sub, ← EReal.coe_mul]
  rw [← coe_fintype_sum, div_coe_coe _ hN0]
  rfl

/-- The moment form of the variance over real-valued extended reals is the coercion of the real variance,
    when the divisor is the number of entries. -/
theorem variance_mom_coe {ι : Type*} [Fintype ι] (r : ι → ℝ) {N : ℝ} (hN : N = Fintype.card ι) (hN0 : N ≠ 0) :
    Ideal.div (∑ i, (r i : EReal) * (r i : EReal)) (N : EReal)
        - Ideal.div (∑ j, (r j : EReal)) (N : EReal) * Ideal.div (∑ j, (r j : EReal)) (N : EReal)
      = ((varR r N : ℝ) : EReal) := by
  simp only [← EReal.coe_mul]
  rw [← coe_fintype_sum, ← coe_fintype_sum, div_coe_coe _ hN0, div_coe_coe _ hN0, ← EReal.coe_mul, ← EReal.coe_sub,
    varR, variance_real r N hN hN0]

/-- THE VARIANCE IDENTITY over real-valued extended reals: the deviation form (the mean of the squared
    differences from the mean) is the moment form (the mean of the squares minus the squared mean); every
    quotient is the ideal division by the real N, the number of entries. -/
theorem variance_ereal {ι : Type*} [Fintype ι] (x : ι → EReal) (hx : IsReal x) {N : ℝ} (hN : N = Fintype.card ι)
    (hN0 : N ≠ 0) :
    Ideal.div (∑ i, (x i - Ideal.div (∑ j, x j) (N : EReal)) * (x i - Ideal.div (∑ j, x j) (N : EReal))) (N : EReal)
      = Ideal.div (∑ i, x i * x i) (N : EReal) - Ideal.div (∑ j, x j) (N : EReal) * Ideal.div (∑ j, x j) (N : EReal) := by
  obtain ⟨r, rfl⟩ := hx.exists_eq
  rw [variance_dev_coe r hN0, variance_mom_coe r hN hN0]

/-- The same with every sum carrying the leading zero summand of a host reduction. -/
theorem variance_ereal_zero_add {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (0 + ∑ i, x i * x i) (N : EReal)
          - Ideal.div (0 + ∑ j, x j) (N : EReal) * Ideal.div (0 + ∑ j, x j) (N : EReal) := by
  simp only [zero_add]
  exact variance_ereal x hx hN hN0

/-- The deviation form with the host's leading zeros is the moment form without them. -/
theorem variance_ereal_zero_add_left {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (∑ i, x i * x i) (N : EReal) - Ideal.div (∑ j, x j) (N : EReal) * Ideal.div (∑ j, x j) (N : EReal) := by
  simp only [zero_add]
  exact variance_ereal x hx hN hN0

/-- The deviation form of the variance of a real family is a real that is not negative (N positive). -/
theorem variance_dev_real_nonneg {ι : Type*} [Fintype ι] (x : ι → EReal) (hx : IsReal x) {N : ℝ} (hN0 : 0 < N) :
    ∃ v : ℝ, 0 ≤ v ∧
      Ideal.div (∑ i, (x i - Ideal.div (∑ j, x j) (N : EReal)) * (x i - Ideal.div (∑ j, x j) (N : EReal))) (N : EReal)
        = (v : EReal) := by
  obtain ⟨r, rfl⟩ := hx.exists_eq
  exact ⟨varR r N, varR_nonneg r hN0, variance_dev_coe r hN0.ne'⟩

/-- The moment form likewise, when N is the number of entries. -/
theorem variance_mom_real_nonneg {ι : Type*} [Fintype ι] (x : ι → EReal) (hx : IsReal x) {N : ℝ}
    (hN : N = Fintype.card ι) (hN0 : 0 < N) :
    ∃ v : ℝ, 0 ≤ v ∧
      Ideal.div (∑ i, x i * x i) (N : EReal) - Ideal.div (∑ j, x j) (N : EReal) * Ideal.div (∑ j, x j) (N : EReal)
        = (v : EReal) := by
  obtain ⟨r, rfl⟩ := hx.exists_eq
  exact ⟨varR r N, varR_nonneg r hN0, variance_mom_coe r hN hN0.ne'⟩

/-- A real that is not negative, as the two facts a later step uses. -/
theorem isRealS_and_nonneg_of_exists {y : EReal} (h : ∃ v : ℝ, 0 ≤ v ∧ y = (v : EReal)) : IsRealS y ∧ 0 ≤ y := by
  obtain ⟨v, hv, rfl⟩ := h
  exact ⟨⟨v, rfl⟩, EReal.coe_nonneg.mpr hv⟩

end Cert.Reals

end
-- ==== Proof.LayerMath.lean ====
/-
  The algebra that joins the two spellings of a graph-normalisation layer, on the extended reals at the ideal values.

  For a column of N real entries a, a real scale s and the mean μ = (Σ a) / N, the mean of the squared deviations
  from s·μ is the moment form Σ a² / N − 2·s·μ·μ + s·s·μ·μ: expand the square, and Σ (s·μ)² is N·(s·μ)².  This
  uses distributivity, so it needs every entry to be a real number.  And for a positive real v, dividing by the
  square root of v is multiplying by the reciprocal square root of v.
-/
import proofs.«110479_j25572235281175_1_alg».proof.Proof.LibReals

noncomputable section

namespace Cert.LayerMath

open Cert.Reals Idealize.ShloMosaic
open scoped BigOperators

variable {ι : Type*} [Fintype ι]

/-- Over the reals: the mean of the squared deviations from s·μ is the moment form. -/
theorem scaled_var_real (h : ι → ℝ) (s N : ℝ) (hN : N = Fintype.card ι) (hN0 : N ≠ 0) :
    (∑ r, (h r - s * ((∑ r, h r) / N)) * (h r - s * ((∑ r, h r) / N))) / N
      = (∑ r, h r * h r) / N - 2 * s * ((∑ r, h r) / N) * ((∑ r, h r) / N)
          + s * s * ((∑ r, h r) / N) * ((∑ r, h r) / N) := by
  have e : ∀ c : ℝ, ∑ r, (h r - c) * (h r - c) = (∑ r, h r * h r) - 2 * c * (∑ r, h r) + N * (c * c) := fun c => by
    have e' : ∀ r, (h r - c) * (h r - c) = h r * h r - 2 * c * h r + c * c := fun r => by ring
    simp only [e', Finset.sum_add_distrib, Finset.sum_sub_distrib, ← Finset.mul_sum, Finset.sum_const, Finset.card_univ,
      nsmul_eq_mul, ← hN]
    ring
  rw [e]
  field_simp

/-- The same on the extended reals, for real entries and a real scale, each quotient the ideal division by the real
    N and the deviation form's two sums carrying the leading zero of a host reduction. -/
theorem scaled_var (a : ι → EReal) (ha : IsReal a) (s : EReal) (hs : IsRealS s) {N : ℝ} (hN : N = Fintype.card ι)
    (hN0 : N ≠ 0) :
    Ideal.div (0 + ∑ r, (a r - s * Ideal.div (0 + ∑ r, a r) (N : EReal)) * (a r - s * Ideal.div (0 + ∑ r, a r) (N : EReal)))
        (N : EReal)
      = (Ideal.div (∑ r, a r * a r) (N : EReal)
            - ((((2 : ℝ) : EReal) * s) * Ideal.div (∑ r, a r) (N : EReal)) * Ideal.div (∑ r, a r) (N : EReal))
          + ((s * s) * Ideal.div (∑ r, a r) (N : EReal)) * Ideal.div (∑ r, a r) (N : EReal) := by
  obtain ⟨h, rfl⟩ := ha.exists_eq
  obtain ⟨t, rfl⟩ := hs
  simp only [zero_add, ← coe_fintype_sum, div_coe_coe _ hN0, ← EReal.coe_mul, ← EReal.coe_sub, ← EReal.coe_add]
  exact congrArg _ (scaled_var_real h t N hN hN0)

/-- The deviation form is a real that is not negative (N positive). -/
theorem scaled_var_nonneg (a : ι → EReal) (ha : IsReal a) (c : EReal) (hc : IsRealS c) {N : ℝ} (hN0 : 0 < N) :
    ∃ v : ℝ, 0 ≤ v ∧ Ideal.div (0 + ∑ r, (a r - c) * (a r - c)) (N : EReal) = (v : EReal) := by
  obtain ⟨h, rfl⟩ := ha.exists_eq
  obtain ⟨t, rfl⟩ := hc
  refine ⟨(∑ r, (h r - t) * (h r - t)) / N, div_nonneg (Finset.sum_nonneg fun r _ => mul_self_nonneg _) hN0.le, ?_⟩
  simp only [zero_add, ← coe_fintype_sum, div_coe_coe _ hN0.ne', ← EReal.coe_mul, ← EReal.coe_sub]

/-- Dividing by the square root of a positive real is multiplying by its reciprocal square root. -/
theorem div_sqrt_eq_mul_rsqrt (x : EReal) {v : ℝ} (hv : 0 < v) :
    Ideal.div x (Ideal.sqrt (v : EReal)) = x * Ideal.rsqrt (v : EReal) := by
  rw [Ideal.sqrt_coe, if_neg (not_lt.mpr hv.le), rsqrt_coe_pos hv, Ideal.div_coe (Real.sqrt_pos.mpr hv).ne', one_div]

end Cert.LayerMath

end
-- ==== Proof.LayerLaw.lean ====
/-
  One entry of a graph-normalisation layer, in the two spellings, on the extended reals at the ideal values.

  For a column a of N real entries (the aggregated features of one channel), a real scale s, gain w, shift b and skip
  value res: the spelling that takes the variance in moment form and multiplies by the reciprocal square root, and the
  spelling that takes it as the mean of the squared deviations from s·μ and divides by the square root, give the same
  value, a real number.  The variance is the same real by the scaled variance identity; it is not negative, so with the
  positive stabiliser added the square root is of a positive real, where dividing by it is multiplying by its reciprocal.
-/
import proofs.«110479_j25572235281175_1_alg».proof.Proof.LayerMath

noncomputable section

namespace Cert.LayerLaw

open Cert.Reals Cert.LayerMath Idealize.ShloMosaic
open scoped BigOperators

variable {ι : Type*} [Fintype ι]

/-- The two spellings of one entry agree and the entry is a real. `Nw`, `T`, `E`, `Z` are the literal words' values: the
    number of rows N, two, the positive stabiliser, zero. -/
theorem entry_eq (a : ι → EReal) (ha : IsReal a) (s w b res : EReal) (hs : IsRealS s) (hw : IsRealS w) (hb : IsRealS b)
    (hres : IsRealS res) (r : ι) {N : ℝ} (hN : N = Fintype.card ι) (hN0 : 0 < N) {e : ℝ} (he : 0 < e)
    (Nw T E Z : EReal) (hNw : Nw = (N : EReal)) (hT : T = ((2 : ℝ) : EReal)) (hE : E = (e : EReal)) (hZ : Z = 0) :
    max ((((a r - s * Ideal.div (∑ k, a k) Nw)
            * Ideal.rsqrt (((Ideal.div (∑ k, a k * a k) Nw - ((T * s) * Ideal.div (∑ k, a k) Nw) * Ideal.div (∑ k, a k) Nw)
                + ((s * s) * Ideal.div (∑ k, a k) Nw) * Ideal.div (∑ k, a k) Nw) + E)) * w) + b) Z + res
      = max ((Ideal.div (a r - s * Ideal.div (Z + ∑ k, a k) Nw)
              (Ideal.sqrt (Ideal.div (Z + ∑ k, (a k - s * Ideal.div (Z + ∑ k, a k) Nw) * (a k - s * Ideal.div (Z + ∑ k, a k) Nw)) Nw + E))
            * w) + b) Z + res
    ∧ IsRealS (max ((Ideal.div (a r - s * Ideal.div (Z + ∑ k, a k) Nw)
              (Ideal.sqrt (Ideal.div (Z + ∑ k, (a k - s * Ideal.div (Z + ∑ k, a k) Nw) * (a k - s * Ideal.div (Z + ∑ k, a k) Nw)) Nw + E))
            * w) + b) Z + res) := by
  subst hNw hT hE hZ
  have hv := scaled_var a ha s hs hN hN0.ne'
  have hμ : IsRealS (Ideal.div (∑ k, a k) (N : EReal)) := (ha.sum_univ).div_coe hN0.ne'
  obtain ⟨v, hv0, hvr⟩ := scaled_var_nonneg a ha (s * Ideal.div (∑ k, a k) (N : EReal)) (hs.mul hμ) hN0
  simp only [zero_add] at hv hvr ⊢
  have hpos : 0 < v + e := by positivity
  rw [← hv, hvr, ← EReal.coe_add, div_sqrt_eq_mul_rsqrt _ hpos]
  refine ⟨rfl, ?_⟩
  have hrs : IsRealS (Ideal.rsqrt ((v + e : ℝ) : EReal)) := (isRealS_coe _).rsqrt (EReal.coe_pos.mpr hpos)
  exact (((((ha.apply r).sub (hs.mul hμ)).mul hrs).mul hw).add hb).max isRealS_zero |>.add hres

end Cert.LayerLaw

end
-- ==== Proof.Consts.lean ====
/-
  The float literals of the two programs as the extended reals their words denote at the ideal values: the zero word
  is 0, 0x40000000 is 2, 0x47C35000 is 100000 (the number of rows), and 0x3727C5AC — the single-precision word
  nearest to 1e-5, the variance's stabiliser — is the positive real 10995116 / 2^40.
-/
import Idealize.ShloMosaic.PureOps.Ideal

noncomputable section

namespace Cert.Consts

open Idealize.ShloMosaic

/-- The zero word denotes 0. -/
theorem ofBits_zero : Ideal.ofBits .f32 0x00000000#32 = 0 := by
  simp [Ideal.ofBits, Ideal.ieee]

/-- The word 0x40000000 denotes 2. -/
theorem ofBits_two : Ideal.ofBits .f32 0x40000000#32 = ((2 : ℝ) : EReal) := by
  simp [Ideal.ofBits, Ideal.ieee, -EReal.coe_mul]; norm_num

/-- The word 0x47C35000 denotes 100000. -/
theorem ofBits_rows : Ideal.ofBits .f32 0x47C35000#32 = ((100000 : ℝ) : EReal) := by
  simp [Ideal.ofBits, Ideal.ieee, -EReal.coe_mul]; norm_num

/-- The word 0x3727C5AC denotes 10995116 / 2^40. -/
theorem ofBits_eps : Ideal.ofBits .f32 0x3727C5AC#32 = (((10995116 : ℝ) / 2 ^ 40 : ℝ) : EReal) := by
  simp [Ideal.ofBits, Ideal.ieee, -EReal.coe_mul]; norm_num

/-- It is positive. -/
theorem eps_pos : (0 : ℝ) < (10995116 : ℝ) / 2 ^ 40 := by positivity

end Cert.Consts

end
-- ==== Proof.LayerRead3.lean ====
/-
  An array whose entries are the kernel's spelling of the graph normalisation is the reference's normalisation, with real entries, on real inputs.
-/
import proofs.«110479_j25572235281175_1_alg».proof.Proof.LayerRead1
import proofs.«110479_j25572235281175_1_alg».proof.Proof.LayerLaw
import proofs.«110479_j25572235281175_1_alg».proof.Proof.Consts

noncomputable section

namespace Cert.ReferenceIdeal.Layer

open Cert.ReferenceIdeal Cert.ReferenceIdeal.Gen Idealize.ShloMosaic Idealize.ShloMosaic.TcCoe Idealize.ShloMosaic.ValueIdx
open Cert.Reals
open scoped BigOperators

/-- An array whose every entry is the kernel's spelling of the normalisation — the moment-form variance, the reciprocal
    square root — is the reference's normalisation of the same inputs, and its entries are real numbers, when the
    aggregated features, the three channel vectors and the skip input are. -/
theorem gnorm_of_entries (h res : (⟨S100000x128, .f32⟩ : BufTy).Contents (Elt Ideal)) (ms w b : (⟨S128, .f32⟩ : BufTy).Contents (Elt Ideal))
    (hh : IsReal h) (hms : IsReal ms) (hw : IsReal w) (hb : IsReal b) (hres : IsReal res)
    (out : (⟨S100000x128, .f32⟩ : BufTy).Contents (Elt Ideal))
    (hout : ∀ (r : Fin 100000) (q : Fin 128), out (ix2 r q)
      = max ((((h (ix2 r q) - ms (ix1 q) * Ideal.div (∑ k : Fin 100000, h (ix2 k q)) (Ideal.ofBits .f32 0x47C35000#32))
            * Ideal.rsqrt (((Ideal.div (∑ k : Fin 100000, h (ix2 k q) * h (ix2 k q)) (Ideal.ofBits .f32 0x47C35000#32)
                  - ((Ideal.ofBits .f32 0x40000000#32 * ms (ix1 q)) * Ideal.div (∑ k : Fin 100000, h (ix2 k q)) (Ideal.ofBits .f32 0x47C35000#32))
                      * Ideal.div (∑ k : Fin 100000, h (ix2 k q)) (Ideal.ofBits .f32 0x47C35000#32))
                + ((ms (ix1 q) * ms (ix1 q)) * Ideal.div (∑ k : Fin 100000, h (ix2 k q)) (Ideal.ofBits .f32 0x47C35000#32))
                    * Ideal.div (∑ k : Fin 100000, h (ix2 k q)) (Ideal.ofBits .f32 0x47C35000#32)) + Ideal.ofBits .f32 0x3727C5AC#32))
          * w (ix1 q)) + b (ix1 q)) (Ideal.ofBits .f32 0x00000000#32) + res (ix2 r q)) :
    out = gnorm (F := Ideal) h ms w b res ∧ IsReal (gnorm (F := Ideal) h ms w b res) := by
  have key : ∀ (r : Fin 100000) (q : Fin 128), out (ix2 r q) = gnorm (F := Ideal) h ms w b res (ix2 r q)
      ∧ IsRealS (gnorm (F := Ideal) h ms w b res (ix2 r q)) := fun r q => by
    rw [hout r q, gnorm_apply]
    exact Cert.LayerLaw.entry_eq (fun k : Fin 100000 => h (ix2 k q)) (fun k => hh (ix2 k q)) (ms (ix1 q)) (w (ix1 q)) (b (ix1 q))
      (res (ix2 r q)) (hms _) (hw _) (hb _) (hres _) r (N := 100000) (by simp) (by norm_num) Cert.Consts.eps_pos _ _ _ _
      Cert.Consts.ofBits_rows Cert.Consts.ofBits_two Cert.Consts.ofBits_eps Cert.Consts.ofBits_zero
  refine ⟨funext fun i => ?_, fun i => ?_⟩
  · obtain ⟨r, q, rfl⟩ : ∃ (r : Fin 100000) (q : Fin 128), i = ix2 r q := ⟨i 0, i 1, eq_ix2 i⟩
    exact (key r q).1
  · obtain ⟨r, q, rfl⟩ : ∃ (r : Fin 100000) (q : Fin 128), i = ix2 r q := ⟨i 0, i 1, eq_ix2 i⟩
    exact (key r q).2

end Cert.ReferenceIdeal.Layer

end
-- ==== Proof.LibScatterReal.lean ====
/-
  An accumulating scatter of real numbers is real.

  At the ideal values the host's accumulating scatter, read at an entry, is the operand's entry plus a finite
  sum of updates (those whose index names the entry). So if every entry of the operand and every update is a
  real number, so is every entry of the result — whatever the indices and the dimension numbers.
-/
import proofs.«110479_j25572235281175_1_alg».proof.Proof.LibReals
import Idealize.ShloMosaic.PureOps.Ideal

noncomputable section

namespace Cert.Lib.ScatterReal

open Idealize.ShloMosaic Cert.Reals
open scoped BigOperators

/-- The accumulating scatter of real updates into a real operand has real entries. -/
theorem scatterAdd_real {s si su : Shape} {φ : FTy} {w : Nat} (d : ScatterDims s si su) (x : FVec Ideal s φ)
    (idx : IVec si w) (upd : FVec Ideal su φ) (hx : ∀ i, IsRealS (x i)) (hu : ∀ j, IsRealS (upd j)) (i : s.Idx) :
    IsRealS (Host.scatterAdd d x idx upd i) := by
  show IsRealS (Ideal.hostScatterAdd d x idx upd i)
  unfold Ideal.hostScatterAdd
  exact IsRealS.add (hx i) (isRealS_sum _ _ fun j _ => hu j)

end Cert.Lib.ScatterReal

end
-- ==== Proof.LibRowGather.lean ====
/-
  Gathering whole rows of a table.  For a table `x : [N, C]` and a column of start indices `idx : [E, 1]`,
  the gather with offset axis 1, collapsed axis 0, start-index map [0], index-vector axis 1 and slices of one
  row ([1, C]) reads, at result index (e, j), the table at row `idx[e, 0]` — the index word read signed and
  clamped into [0, N - 1], as every gather clamps its start indices — and column j.  This is what `x[idx]`
  of a two-axis table at a flat integer array lowers to.
-/
import Idealize.ShloMosaic.Lib.ValueIdx

noncomputable section

namespace Idealize.ShloMosaic.RowGather

open Idealize.ShloMosaic Idealize.ShloMosaic.ValueIdx

variable {α : Type}

/-- The dimension numbers of a row gather from a table [N, C] at start indices [E, 1] into [E, C]; their
    conditions `wf` are decided on a program's literal shapes. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word names in a table of `N` rows: the word read signed, clamped into [0, N - 1]. -/
def clampRow (N : Nat) (hN : 0 < N) {w : Nat} (v : BitVec w) : Fin N :=
  ⟨min v.toInt.toNat (N - 1), by omega⟩

/-- THE ROW GATHER READ AT (e, j): the table at the clamped row `idx[e, 0]` and column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j)
      = x (ix2 (clampRow N hN (idx (ix2 e (0 : Fin 1)))) j) := by
  unfold Host.gather
  congr 1
  funext a
  refine Fin.ext ?_
  match a with
  | ⟨0, _⟩ =>
    show (rowDims N E C wf).start (ix2 e j) idx 0 + (rowDims N E C wf).batchCoord (ix2 e j) 0
      + (rowDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e j) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e j) idx 1 + (rowDims N E C wf).batchCoord (ix2 e j) 1
      + (rowDims N E C wf).offCoord (ix2 e j) 1 = j.val
    rw [GatherDims.batchCoord_eq_zero _ _ _ List.not_mem_nil]
    unfold GatherDims.start
    rw [dif_neg (show (1 : Fin 2) ∉ (rowDims N E C wf).startIndexMap from
      fun h => absurd (show (1 : Nat) = 0 from congrArg Fin.val (List.mem_singleton.mp h)) Nat.one_ne_zero)]
    unfold GatherDims.offCoord
    rw [dif_pos (show (1 : Fin 2) ∈ (rowDims N E C wf).sKept from (GatherDims.mem_sKept _ _).mpr
      ⟨fun h => absurd (show (1 : Nat) = 0 from congrArg Fin.val (List.mem_singleton.mp h)) Nat.one_ne_zero, List.not_mem_nil⟩)]
    simp only [Nat.zero_add]
    rfl

end Idealize.ShloMosaic.RowGather

end
-- ==== Proof.LibRealOps.lean ====
/-
  "Is a real number at every index" is kept by the host's layout operations, a gather and a matrix product.

  A transpose, a shape cast and a gather only re-index their operand: every entry of the result is an entry of
  the operand. Narrowing to a smaller float format is the identity at the ideal values. A host matrix product,
  at the ideal values, is at each output index the finite sum over the contraction index of products of an entry
  of the left operand and an entry of the right one, and finite sums and products of reals are reals.
-/
import Idealize.ShloMosaic.Lib.ValueIdx
import Idealize.ShloMosaic.Lib.Pipeline.Value
import Idealize.ShloMosaic.PureOps.Ideal.Laws
import proofs.«110479_j25572235281175_1_alg».proof.Proof.LibReals
import proofs.«110479_j25572235281175_1_alg».proof.Proof.LibRowGather

noncomputable section

namespace Cert.RealOps

open Idealize.ShloMosaic Cert.Reals
open scoped BigOperators

/-- A transposed real family is real: each entry is the operand's at the permuted index. -/
theorem isReal_transpose {s t : Shape} (perm : List (Fin s.rank)) (x : s.Idx → EReal) (h : s.Transposes perm t)
    (hx : IsReal x) : IsReal (transpose t perm x h) :=
  fun j => hx (h.src j)

/-- A shape-cast real family is real: each entry is the operand's at the index with the same row-major position. -/
theorem isReal_shapeCast {s t : Shape} (x : s.Idx → EReal) (h : s.ShapeCasts t) (hx : IsReal x) :
    IsReal (shapeCast t x h) :=
  fun j => hx (Shape.reshapeEquiv h j)

/-- Narrowing to a smaller float format is the identity at the ideal values, so it keeps a real family real. -/
theorem isReal_truncf {s : Shape} {φ ψ : FTy} (x : FVec Ideal s φ) (h : ψ.bits < φ.bits) (hx : IsReal x) :
    IsReal (truncf ψ x h : FVec Ideal s ψ) :=
  fun i => hx i

/-- A host matrix product of real families is real: at each output index it is a finite sum of products of
    entries of the two operands. -/
theorem isReal_dotGeneral {sl sr so : Shape} {φ₁ φ₂ : FTy} (d : DotDims sl sr so) (prec : Option ContractPrecision)
    (l : FVec Ideal sl φ₁) (r : FVec Ideal sr φ₂) (hl : IsReal l) (hr : IsReal r) :
    IsReal (Host.dotGeneral (F := Ideal) d prec l r) := fun j => by
  show IsRealS (FloatOps.dotGeneral d prec .single l r j)
  rw [Ideal.dotGeneral_apply]
  exact isRealS_sum Finset.univ _ fun k _ => (hl.apply _).mul (hr.apply _)

/-- A gather from a real family is real, whatever the dimension numbers and the index words: each entry is the
    operand's at the index the gather computes. -/
theorem isReal_gather {s si t : Shape} {w : Nat} (d : GatherDims s si t) (x : s.Idx → EReal) (idx : IVec si w)
    (hx : IsReal x) : IsReal (Host.gather d x idx) :=
  fun j => hx (d.operandIdx j idx)

/-- A row gather from a real table [N, C] at start indices [E, 1] is real, for any index words. -/
theorem isReal_rowGather {N E C w : Nat}
    (wf : GatherDims.WF ⟨2, ![N, C]⟩ ⟨2, ![E, 1]⟩ ⟨2, ![E, C]⟩ [1] [0] [] [0] [] 1 ![1, C])
    (x : (⟨2, ![N, C]⟩ : Shape).Idx → EReal) (idx : IVec ⟨2, ![E, 1]⟩ w) (hx : IsReal x) :
    IsReal (Host.gather (RowGather.rowDims N E C wf) x idx) :=
  isReal_gather _ x idx hx

end Cert.RealOps

end
-- ==== Proof.LayerRead4.lean ====
/-
  The reference's convolution of real inputs along real edge weights has real entries.
-/
import proofs.«110479_j25572235281175_1_alg».proof.Proof.LayerRead2
import proofs.«110479_j25572235281175_1_alg».proof.Proof.LibScatterReal
import proofs.«110479_j25572235281175_1_alg».proof.Proof.LibRealOps
import proofs.«110479_j25572235281175_1_alg».proof.Proof.Consts

noncomputable section

namespace Cert.ReferenceIdeal.Layer

open Cert.ReferenceIdeal Cert.ReferenceIdeal.Gen Idealize.ShloMosaic Idealize.ShloMosaic.TcCoe Idealize.ShloMosaic.ValueIdx
open Cert.Reals
open scoped BigOperators

/-- A broadcast of a real family is real: every entry is one of the operand's. -/
theorem isReal_broadcastInDim {s t : Shape} (dims : Fin s.rank → Fin t.rank) (h : s.BroadcastsInDim t dims) (x : s.Idx → EReal)
    (hx : IsReal x) : IsReal (broadcastInDim t dims h x) := fun j => hx _

/-- The entrywise product of two real families is real. -/
theorem isReal_mulf {s : Shape} {φ : FTy} (a b : FVec Ideal s φ) (ha : IsReal a) (hb : IsReal b) : IsReal (mulf a b) :=
  fun i => (ha.apply i).mul (hb.apply i)

/-- The aggregation along the edges of a real array with real edge weights has real entries: an accumulating scatter of
    real updates — gathered rows times weights — into zeros. -/
theorem isReal_seg (hw : (⟨S100000x128, .f32⟩ : BufTy).Contents (Elt Ideal)) (row col : (⟨S740000, .i32⟩ : BufTy).Contents (Elt Ideal)) (nrm : (⟨S740000, .f32⟩ : BufTy).Contents (Elt Ideal))
    (hhw : IsReal hw) (hn : IsReal nrm) : IsReal (seg (F := Ideal) hw row col nrm) := by
  unfold seg
  intro i
  refine Cert.Lib.ScatterReal.scatterAdd_real _ _ _ _ ?_ ?_ i
  · exact isReal_broadcastInDim _ _ _ (fun k => ⟨0, by rw [constant_apply]; exact Cert.Consts.ofBits_zero⟩)
  · exact isReal_mulf _ _ (Cert.RealOps.isReal_gather _ _ _ hhw)
      (isReal_broadcastInDim _ _ _ (isReal_broadcastInDim _ _ _ hn))

/-- The convolution of real inputs along real edge weights has real entries. -/
theorem isReal_conv (X : (⟨S100000x128, .f32⟩ : BufTy).Contents (Elt Ideal)) (Wt : (⟨S128x128, .f32⟩ : BufTy).Contents (Elt Ideal)) (bv : (⟨S128, .f32⟩ : BufTy).Contents (Elt Ideal))
    (row col : (⟨S740000, .i32⟩ : BufTy).Contents (Elt Ideal)) (nrm : (⟨S740000, .f32⟩ : BufTy).Contents (Elt Ideal))
    (hX : IsReal X) (hWt : IsReal Wt) (hbv : IsReal bv) (hn : IsReal nrm) :
    IsReal (conv (F := Ideal) X Wt bv row col nrm) := fun i => by
  obtain ⟨r, q, rfl⟩ : ∃ (r : Fin 100000) (q : Fin 128), i = ix2 r q := ⟨i 0, i 1, eq_ix2 i⟩
  rw [conv_apply]
  exact IsRealS.add (isReal_seg _ _ _ _ (Cert.RealOps.isReal_dotGeneral _ _ _ _ hX hWt) hn _) (hbv _)

end Cert.ReferenceIdeal.Layer

end
-- ==== Proof.LayerReal.lean ====
/-
  The reference's weight slices are real-valued when the stacked weights are: a slice and a reshape only re-index.
-/
import proofs.«110479_j25572235281175_1_alg».proof.Proof.RefReadP
import proofs.«110479_j25572235281175_1_alg».proof.Proof.LibReals
import proofs.«110479_j25572235281175_1_alg».proof.Proof.LibRealOps

noncomputable section

namespace Cert.ReferenceIdeal.Layer

open Cert.ReferenceIdeal Cert.ReferenceIdeal.Gen Cert.ReferenceIdeal.ReadP Idealize.ShloMosaic Idealize.ShloMosaic.TcCoe Idealize.ShloMosaic.ValueIdx
open Cert.Reals

/-- A unit-stride slice of a real family is real. -/
theorem isReal_slice {s t : Shape} (off : Fin s.rank → Nat) (x : s.Idx → EReal) (h : s.Slices off t) (hx : IsReal x) :
    IsReal (extractStridedSlice t off x h) := fun j => hx _

/-- A reshaped slice of a real family is real. -/
theorem isReal_cast_slice {s t u : Shape} (off : Fin s.rank → Nat) (x : s.Idx → EReal) (h : s.Slices off t) (hc : t.ShapeCasts u)
    (hx : IsReal x) : IsReal (shapeCast u (extractStridedSlice t off x h) hc) :=
  Cert.RealOps.isReal_shapeCast _ hc (isReal_slice off x h hx)

section
variable (x2 : (⟨S3x128x128, .f32⟩ : BufTy).Contents (Elt Ideal)) (x3 x4 x5 x6 : (⟨S3x128, .f32⟩ : BufTy).Contents (Elt Ideal))
theorem isReal_v32 (h : IsReal x2) : IsReal (val_main_v32 (F := Ideal) x2) := by
  unfold val_main_v32 val_main_v31; exact isReal_cast_slice _ _ _ _ h
theorem isReal_v84 (h : IsReal x2) : IsReal (val_main_v84 (F := Ideal) x2) := by
  unfold val_main_v84 val_main_v83; exact isReal_cast_slice _ _ _ _ h
theorem isReal_v136 (h : IsReal x2) : IsReal (val_main_v136 (F := Ideal) x2) := by
  unfold val_main_v136 val_main_v135; exact isReal_cast_slice _ _ _ _ h
theorem isReal_v34 (h : IsReal x3) : IsReal (val_main_v34 (F := Ideal) x3) := by
  unfold val_main_v34 val_main_v33; exact isReal_cast_slice _ _ _ _ h
theorem isReal_v86 (h : IsReal x3) : IsReal (val_main_v86 (F := Ideal) x3) := by
  unfold val_main_v86 val_main_v85; exact isReal_cast_slice _ _ _ _ h
theorem isReal_v138 (h : IsReal x3) : IsReal (val_main_v138 (F := Ideal) x3) := by
  unfold val_main_v138 val_main_v137; exact isReal_cast_slice _ _ _ _ h
theorem isReal_v53 (h : IsReal x4) : IsReal (val_main_v53 (F := Ideal) x4) := by
  unfold val_main_v53 val_main_v52; exact isReal_cast_slice _ _ _ _ h
theorem isReal_v105 (h : IsReal x4) : IsReal (val_main_v105 (F := Ideal) x4) := by
  unfold val_main_v105 val_main_v104; exact isReal_cast_slice _ _ _ _ h
theorem isReal_v157 (h : IsReal x4) : IsReal (val_main_v157 (F := Ideal) x4) := by
  unfold val_main_v157 val_main_v156; exact isReal_cast_slice _ _ _ _ h
theorem isReal_v55 (h : IsReal x5) : IsReal (val_main_v55 (F := Ideal) x5) := by
  unfold val_main_v55 val_main_v54; exact isReal_cast_slice _ _ _ _ h
theorem isReal_v107 (h : IsReal x5) : IsReal (val_main_v107 (F := Ideal) x5) := by
  unfold val_main_v107 val_main_v106; exact isReal_cast_slice _ _ _ _ h
theorem isReal_v159 (h : IsReal x5) : IsReal (val_main_v159 (F := Ideal) x5) := by
  unfold val_main_v159 val_main_v158; exact isReal_cast_slice _ _ _ _ h
theorem isReal_v57 (h : IsReal x6) : IsReal (val_main_v57 (F := Ideal) x6) := by
  unfold val_main_v57 val_main_v56; exact isReal_cast_slice _ _ _ _ h
theorem isReal_v109 (h : IsReal x6) : IsReal (val_main_v109 (F := Ideal) x6) := by
  unfold val_main_v109 val_main_v108; exact isReal_cast_slice _ _ _ _ h
theorem isReal_v161 (h : IsReal x6) : IsReal (val_main_v161 (F := Ideal) x6) := by
  unfold val_main_v161 val_main_v160; exact isReal_cast_slice _ _ _ _ h
end

end Cert.ReferenceIdeal.Layer

end
-- ==== Proof.LibGuardedRsqrt.lean ====
/-
  The guarded inverse square root of a number that is not negative.

  At the ideal values, "where(x > 0, rsqrt(x), 0)" of a real number x that is not negative is a real number that is
  not negative: 1/sqrt(x) when x is positive, and 0 when x is 0 — the guard keeps the infinity that the inverse
  square root of zero would be out of the result.  Stated on one entry, and on an entry of a vector through the
  host's whole-vector inverse square root.
-/
import Idealize.ShloMosaic.PureOps.Ideal
import Idealize.ShloMosaic.PureOps.Ideal.Laws
import Idealize.ShloMosaic.Lib.ValueIdx
import proofs.«110479_j25572235281175_1_alg».proof.Proof.LibReals

noncomputable section

namespace Cert.Lib.GuardedRsqrt

open Idealize.ShloMosaic Idealize.ShloMosaic.ValueIdx

/-- One entry: the select of the comparison "x > 0", the inverse square root of x, and 0. -/
theorem guarded_nonneg_real (x : Ideal .f32) (g : ℝ) (hg : 0 ≤ g) (eg : (x : EReal) = (g : EReal)) :
    ∃ r : ℝ, 0 ≤ r ∧ (Scalar.select (FloatOps.cmpf (F := Ideal) (φ := .f32) .ogt x (0 : EReal))
      (FloatOps.hostUnary (F := Ideal) (φ := .f32) .rsqrt x) (0 : EReal) : EReal) = (r : EReal) := by
  rw [Ideal.hostUnary_rsqrt_def, Ideal.cmpf_def, eg]
  by_cases hpos : 0 < g
  · have hc : Ideal.cmp .ogt (g : EReal) 0 = 1#1 := by
      unfold Ideal.cmp
      rw [decide_eq_true (EReal.coe_pos.mpr hpos)]; rfl
    rw [hc, select_one, Cert.Reals.rsqrt_coe_pos hpos]
    exact ⟨_, inv_nonneg.mpr (Real.sqrt_nonneg g), rfl⟩
  · have hc : Ideal.cmp .ogt (g : EReal) 0 = 0#1 := by
      unfold Ideal.cmp
      rw [decide_eq_false (fun h => hpos (EReal.coe_pos.mp h))]; rfl
    rw [hc, select_zero]
    exact ⟨0, le_rfl, rfl⟩

/-- An entry of a vector, the inverse square root taken of the whole vector. -/
theorem guarded_nonneg_real_at {s : Shape} (D : FVec Ideal s .f32) (j : s.Idx) (g : ℝ) (hg : 0 ≤ g) (eg : (D j : EReal) = (g : EReal)) :
    ∃ r : ℝ, 0 ≤ r ∧ (Scalar.select (FloatOps.cmpf (F := Ideal) (φ := .f32) .ogt (D j) (0 : EReal))
      (Host.rsqrt D j) (0 : EReal) : EReal) = (r : EReal) :=
  guarded_nonneg_real (D j) g hg eg

end Cert.Lib.GuardedRsqrt

end
-- ==== Proof.LibFiniteWord.lean ====
/-
  Float words that denote real numbers.  At the ideal values a float word is read as the extended real its
  IEEE pattern denotes.  Only an all-ones exponent field denotes an infinity (or a not-a-number pattern); every
  other word — a zero, a subnormal, a normal — denotes a real number, a dyadic rational, and when its sign bit is
  clear that real is not negative.  So a literal of a program is a real as soon as its exponent field is seen not
  to be all ones, which is decided on the literal word without computing the value.
-/
import Idealize.ShloMosaic.PureOps.Ideal

noncomputable section

namespace Idealize.ShloMosaic.FiniteWord

open Idealize.ShloMosaic

/-- A word with `e` exponent and `m` significand bits whose exponent field is not all ones and whose sign bit is
    clear denotes a real number that is not negative. -/
theorem ieee_nonneg_real (e m : Nat) {w : Nat} (b : BitVec w)
    (hex : (b.extractLsb' m e).toNat ≠ 2 ^ e - 1) (hs : (b.extractLsb' (e + m) 1 == 1#1) = false) :
    ∃ r : ℝ, 0 ≤ r ∧ Ideal.ieee e m b = (r : EReal) := by
  unfold Ideal.ieee
  simp only [hs, if_neg hex, Bool.false_eq_true, if_false]
  split
  · exact ⟨_, by positivity, rfl⟩
  · exact ⟨_, by positivity, rfl⟩

/-- A word whose exponent field is not all ones denotes a real number, whatever its sign. -/
theorem ieee_real (e m : Nat) {w : Nat} (b : BitVec w) (hex : (b.extractLsb' m e).toNat ≠ 2 ^ e - 1) :
    ∃ r : ℝ, Ideal.ieee e m b = (r : EReal) := by
  unfold Ideal.ieee
  simp only [if_neg hex]
  split
  · exact ⟨_, rfl⟩
  · exact ⟨_, rfl⟩

/-- The single-precision case: exponent field bits 23–30 not all ones, sign bit 31 clear. -/
theorem f32_nonneg_real (b : BitVec 32) (hex : (b.extractLsb' 23 8).toNat ≠ 2 ^ 8 - 1)
    (hs : (b.extractLsb' (8 + 23) 1 == 1#1) = false) : ∃ r : ℝ, 0 ≤ r ∧ Ideal.ofBits .f32 b = (r : EReal) :=
  ieee_nonneg_real 8 23 b hex hs

/-- The single-precision case, any sign. -/
theorem f32_real (b : BitVec 32) (hex : (b.extractLsb' 23 8).toNat ≠ 2 ^ 8 - 1) :
    ∃ r : ℝ, Ideal.ofBits .f32 b = (r : EReal) :=
  ieee_real 8 23 b hex

end Idealize.ShloMosaic.FiniteWord

end
-- ==== Proof.NormReal.lean ====
/-
  The edge weights of the reference are real numbers, whatever the edge list holds.

  The reference counts, for every node, the entries of the extended edge list that name it: an accumulating scatter of the
  vector of ones into the vector of zeros. At the ideal values such a scatter, read at an entry, is the operand's entry
  plus a finite sum of updates, so every count is a real number that is not negative — zero plus a sum of ones — whatever
  the index words are. The guarded inverse square root "where the count is positive, its inverse square root, else zero"
  of a real that is not negative is a real: the guard keeps the infinity that the inverse square root of zero would be
  out of the result. The two gathers only re-index that vector, and the edge weight is the product of the two gathered
  entries: a product of two reals.
-/
import proofs.«110479_j25572235281175_1_alg».proof.Proof.RefReadP
import proofs.«110479_j25572235281175_1_alg».proof.Proof.LibReals
import proofs.«110479_j25572235281175_1_alg».proof.Proof.LibRealOps
import proofs.«110479_j25572235281175_1_alg».proof.Proof.LibGuardedRsqrt
import proofs.«110479_j25572235281175_1_alg».proof.Proof.LibFiniteWord
import proofs.«110479_j25572235281175_1_alg».proof.Proof.Consts
import Idealize.ShloMosaic.PureOps.Ideal
import Idealize.ShloMosaic.Lib.ValueIdx

noncomputable section

namespace Cert.ReferenceIdeal.Layer

open Idealize.ShloMosaic Idealize.ShloMosaic.ValueIdx Cert.ReferenceIdeal Cert.ReferenceIdeal.ReadP Cert.Reals
open scoped BigOperators

/-- An accumulating scatter of updates that are reals and not negative into an operand whose entries are reals and not
    negative has, at every entry, a real that is not negative: the operand's entry plus a finite sum of updates — for
    any index words and any dimension numbers. -/
theorem scatterAdd_nonneg_real {s si su : Shape} {φ : FTy} {w : Nat} (d : ScatterDims s si su) (x : FVec Ideal s φ)
    (idx : IVec si w) (upd : FVec Ideal su φ) (hx : ∀ i, ∃ r : ℝ, 0 ≤ r ∧ (x i : EReal) = (r : EReal))
    (hu : ∀ j, ∃ r : ℝ, 0 ≤ r ∧ (upd j : EReal) = (r : EReal)) (i : s.Idx) :
    ∃ r : ℝ, 0 ≤ r ∧ (Host.scatterAdd d x idx upd i : EReal) = (r : EReal) := by
  show ∃ r : ℝ, 0 ≤ r ∧ Ideal.hostScatterAdd d x idx upd i = (r : EReal)
  unfold Ideal.hostScatterAdd
  obtain ⟨a, ha, ea⟩ := hx i
  choose u hu0 hue using hu
  refine ⟨a + ∑ j ∈ Finset.univ.filter (fun j => d.resultIdx? j idx = some i), u j,
    add_nonneg ha (Finset.sum_nonneg fun j _ => hu0 j), ?_⟩
  rw [ea, EReal.coe_add, coe_finset_sum]
  exact congrArg (fun z => (a : EReal) + z) (Finset.sum_congr rfl fun j _ => hue j)

/-- The count of the entries of the extended edge list that name a node is a real that is not negative, for any edge
    list: an accumulating scatter of ones into zeros. -/
theorem deg_nonneg_real (x1 : (⟨S2x640000, .i32⟩ : BufTy).Contents (Elt Ideal)) (i : S100000.Idx) :
    ∃ g : ℝ, 0 ≤ g ∧ (val_main_v10 (F := Ideal) x1 i : EReal) = (g : EReal) := by
  unfold val_main_v10
  refine scatterAdd_nonneg_real _ _ _ _ (fun i => ?_) (fun j => ?_) i
  · rw [val_main_v8_apply, val_main_cst_0_apply]
    exact FiniteWord.f32_nonneg_real 0x00000000#32 (by decide) (by decide)
  · rw [val_main_v7_apply, val_main_cst_apply]
    exact FiniteWord.f32_nonneg_real 0x3F800000#32 (by decide) (by decide)

/-- The guarded inverse square root of the counts is real at every node. -/
theorem isReal_v14 (x1 : (⟨S2x640000, .i32⟩ : BufTy).Contents (Elt Ideal)) :
    IsReal (val_main_v14 (F := Ideal) x1) := by
  intro i
  obtain ⟨g, hg, eg⟩ := deg_nonneg_real x1 i
  obtain ⟨r, -, er⟩ := Cert.Lib.GuardedRsqrt.guarded_nonneg_real (val_main_v10 (F := Ideal) x1 i) g hg eg
  refine ⟨r, ?_⟩
  rw [← er, val_main_v14_apply, val_main_v12_apply, val_main_v13_apply, val_main_v11_apply, val_main_cst_1_apply,
    val_main_call0_v1_apply, val_main_call0_v0_apply, val_main_cst_2_apply, Ideal.ofBits_def, Cert.Consts.ofBits_zero]

/-- The guarded inverse square root gathered at the edges' first ends is real. -/
theorem isReal_v21 (x1 : (⟨S2x640000, .i32⟩ : BufTy).Contents (Elt Ideal)) :
    IsReal (val_main_v21 (F := Ideal) x1) := by
  unfold val_main_v21
  exact Cert.RealOps.isReal_gather _ _ _ (isReal_v14 x1)

/-- The guarded inverse square root gathered at the edges' second ends is real. -/
theorem isReal_v28 (x1 : (⟨S2x640000, .i32⟩ : BufTy).Contents (Elt Ideal)) :
    IsReal (val_main_v28 (F := Ideal) x1) := by
  unfold val_main_v28
  exact Cert.RealOps.isReal_gather _ _ _ (isReal_v14 x1)

/-- The edge weights — the product of the two gathered entries — are real, for any edge list. -/
theorem isReal_v29 (x1 : (⟨S2x640000, .i32⟩ : BufTy).Contents (Elt Ideal)) :
    IsReal (val_main_v29 (F := Ideal) x1) := by
  intro i
  rw [val_main_v29_apply]
  exact IsRealS.mul (isReal_v21 x1 i) (isReal_v28 x1 i)

end Cert.ReferenceIdeal.Layer

end
-- ==== Proof.PreReal.lean ====
/-
  The precondition read back: every float argument holds only real numbers.

  The claim's precondition is a printed predicate: per float argument, the absolute value of every entry compared
  "less than" with the pattern of the upper infinity, the comparisons reduced by "and" over all axes from the word one,
  and the eleven results joined by "and"; the precondition says the outcome is one. At the ideal values an entry is an
  extended real, its absolute value is the larger of the entry and its negation, and the pattern denotes the upper
  infinity. So an "and" that came out one had every conjunct one, a reduction by "and" that came out one met a one at
  every entry, and an entry whose absolute value is below the upper infinity is neither infinity: it is a real number.
-/
import proofs.«110479_j25572235281175_1_alg».proof.Defs
import proofs.«110479_j25572235281175_1_alg».proof.Proof.Gen.Pre_finite_inputs
import proofs.«110479_j25572235281175_1_alg».proof.Proof.LibReals
import Idealize.ShloMosaic.Lib.ReduceAll
import Idealize.ShloMosaic.Lib.IdealHost
import Idealize.ShloMosaic.Lib.ValueIdx

set_option maxRecDepth 16384

noncomputable section

namespace Cert.Proof

open Idealize.ShloMosaic Idealize.ShloMosaic.ValueIdx Idealize.ShloMosaic.TcCoe

/-- The f32 pattern 0x7F800000 denotes the upper infinity. -/
theorem preReal_inf : Ideal.ofBits .f32 0x7F800000#32 = (⊤ : EReal) := by simp [Ideal.ofBits, Ideal.ieee]

/-- An extended real whose absolute value compares below the upper infinity's pattern is a real number: it is neither
    infinity, since the absolute value of either infinity is the upper infinity. -/
theorem preReal_of_abs_lt (x : EReal)
    (h : Ideal.cmp .olt (max x (-x)) (Ideal.ofBits .f32 0x7F800000#32) = 1#1) : ∃ r : ℝ, x = (r : EReal) := by
  rw [preReal_inf] at h
  induction x using EReal.rec with
  | bot => simp [Ideal.cmp] at h
  | top => simp [Ideal.cmp] at h
  | coe r => exact ⟨r, rfl⟩

/-- All-finite over any shape: if the reduction by "and" over all axes (into the one-entry result) of the entrywise
    test "the absolute value is below the upper infinity" comes out one, every entry of the array is a real number. -/
theorem preReal_of_all {s u : Shape} {axes : List (Fin s.rank)} (x : FVec Ideal s .f32)
    (hb : (⟨0, ![]⟩ : Shape).BroadcastsInDim s ![]) (init : u.Idx → BitVec 1)
    (h : s.ReducesTo axes ⟨0, ![]⟩) (hu : 0 < u.numel)
    (e : Host.reduce IntOp.andi
          (cmpf .olt (Host.absf x) (broadcastInDim s ![] hb (constant (F := Ideal) ⟨0, ![]⟩ .f32 0x7F800000#32)))
          init h hu ix0 = 1#1) :
    Cert.Reals.IsReal x := by
  intro i
  haveI : Subsingleton (⟨0, ![]⟩ : Shape).Idx := ⟨fun a b => funext fun d => d.elim0⟩
  have hi := Host.reduce_andi_all _ init h hu ix0 e i
  refine preReal_of_abs_lt (x i) ?_
  rw [← hi]
  show _ = Ideal.cmp .olt (max (x i) (-(x i))) (broadcastInDim s ![] hb (constant (F := Ideal) ⟨0, ![]⟩ .f32 0x7F800000#32) i)
  rw [broadcastInDim_scalar_apply]
  rfl

/-- The precondition, decoded: on every device each of the eleven float arguments holds only real numbers. The printed
    predicate's outcome is the "and" of eleven reductions, one per float argument (the integer edge list is not tested);
    an "and" that is one has both sides one, and each reduction that is one makes its argument real entry by entry. -/
theorem pre_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.Reals.IsReal (m ((c.tc : Thread Cert.KernelIdeal.nD Cert.KernelIdeal.τ).loc Cert.KernelIdeal.main_arg0))
      ∧ Cert.Reals.IsReal (m ((c.tc : Thread Cert.KernelIdeal.nD Cert.KernelIdeal.τ).loc Cert.KernelIdeal.main_arg2))
      ∧ Cert.Reals.IsReal (m ((c.tc : Thread Cert.KernelIdeal.nD Cert.KernelIdeal.τ).loc Cert.KernelIdeal.main_arg3))
      ∧ Cert.Reals.IsReal (m ((c.tc : Thread Cert.KernelIdeal.nD Cert.KernelIdeal.τ).loc Cert.KernelIdeal.main_arg4))
      ∧ Cert.Reals.IsReal (m ((c.tc : Thread Cert.KernelIdeal.nD Cert.KernelIdeal.τ).loc Cert.KernelIdeal.main_arg5))
      ∧ Cert.Reals.IsReal (m ((c.tc : Thread Cert.KernelIdeal.nD Cert.KernelIdeal.τ).loc Cert.KernelIdeal.main_arg6))
      ∧ Cert.Reals.IsReal (m ((c.tc : Thread Cert.KernelIdeal.nD Cert.KernelIdeal.τ).loc Cert.KernelIdeal.main_arg7))
      ∧ Cert.Reals.IsReal (m ((c.tc : Thread Cert.KernelIdeal.nD Cert.KernelIdeal.τ).loc Cert.KernelIdeal.main_arg8))
      ∧ Cert.Reals.IsReal (m ((c.tc : Thread Cert.KernelIdeal.nD Cert.KernelIdeal.τ).loc Cert.KernelIdeal.main_arg9))
      ∧ Cert.Reals.IsReal (m ((c.tc : Thread Cert.KernelIdeal.nD Cert.KernelIdeal.τ).loc Cert.KernelIdeal.main_arg10))
      ∧ Cert.Reals.IsReal (m ((c.tc : Thread Cert.KernelIdeal.nD Cert.KernelIdeal.τ).loc Cert.KernelIdeal.main_arg11)) := by
  have e := congrFun (h c) ix0
  dsimp only [Cert.Pre_finite_inputs.fn, Cert.Pre_finite_inputs.fn_part1, Cert.Pre_finite_inputs.fn_part2,
    Cert.Pre_finite_inputs.fn_part3] at e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  exact ⟨preReal_of_all _ _ _ _ _ e0, preReal_of_all _ _ _ _ _ e2, preReal_of_all _ _ _ _ _ e3,
    preReal_of_all _ _ _ _ _ e4, preReal_of_all _ _ _ _ _ e5, preReal_of_all _ _ _ _ _ e6,
    preReal_of_all _ _ _ _ _ e7, preReal_of_all _ _ _ _ _ e8, preReal_of_all _ _ _ _ _ e9,
    preReal_of_all _ _ _ _ _ e10, preReal_of_all _ _ _ _ _ e11⟩

end Cert.Proof

end
-- ==== Proof.KPre.lean ====
/-
  The precondition of the claim, as the hypothesis the layer lemmas take: every float argument holds real numbers.
-/
import proofs.«110479_j25572235281175_1_alg».proof.Proof.PreReal

noncomputable section

namespace Cert.KernelIdeal.Stages

open Idealize.ShloMosaic Cert.KernelIdeal

/-- The claim's precondition on the launch memory: every float input is finite. -/
abbrev PreOK (m : (ℓ : Loc nD τ sig) → Buf (Elt Ideal) ℓ) : Prop := Cert.Pre_KernelIdeal m

end Cert.KernelIdeal.Stages

end
-- ==== Proof.RegNorm3.lean ====
/- The value of the normalise–activate–residual region 3's output array after the region, as an explicit
   function of the region's input arrays, index by index, at the extended reals. -/
import proofs.«110479_j25572235281175_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.RegValue

open Idealize.ShloMosaic Idealize.ShloMosaic.ValueIdx Idealize.ShloMosaic.TcCoe Cert.KernelIdeal Cert.KernelIdeal.Gen
open Idealize.SL.Sem
open Idealize.ShloMosaic.Pipeline (Dat)

/-- The two zero offsets, however spelt. -/
theorem norm3_hz : (![0, 0] : Fin 2 → Nat) = fun _ => 0 := funext fun a => by fin_cases a <;> rfl

/-- The region's result at one index: the aggregate less the scaled mean, times the reciprocal root of the variance
    plus epsilon, times the weight, plus the bias, clamped below at zero, plus the residual. The five row operands
    are read at their one row. -/
def norm3G (A0 A1 : S100000x128.Idx → EReal) (A2 A3 A4 A5 A6 : S1x128.Idx → EReal) : S100000x128.Idx → EReal :=
  fun i => max ((((A0 i - A6 (ix2 (0 : Fin 1) (i 1)) * A2 (ix2 (0 : Fin 1) (i 1)))
      * Ideal.rsqrt (A3 (ix2 (0 : Fin 1) (i 1)) + Ideal.ofBits .f32 0x3727C5AC#32)) * A4 (ix2 (0 : Fin 1) (i 1)))
      + A5 (ix2 (0 : Fin 1) (i 1))) (Ideal.ofBits .f32 0x00000000#32) + A1 i

/-- The body's payload read at row `p`, column `q` of its block: pointwise in the two block operands, the five
    one-row operands broadcast over the rows. -/
theorem norm3_pay_apply (x0 : Vec Ideal S5000x128 .f32) (ms mean var w b : Vec Ideal S1x128 .f32)
    (res : Vec Ideal S5000x128 .f32) (p : Fin 5000) (q : Fin 128) :
    k3_pay1 x0 ms mean var w b res (ix2 p q)
      = max ((((x0 (ix2 p q) - ms (ix2 (0 : Fin 1) q) * mean (ix2 (0 : Fin 1) q))
          * Ideal.rsqrt (var (ix2 (0 : Fin 1) q) + Ideal.ofBits .f32 0x3727C5AC#32)) * w (ix2 (0 : Fin 1) q))
          + b (ix2 (0 : Fin 1) q)) (Ideal.ofBits .f32 0x00000000#32) + res (ix2 p q) := by
  unfold k3_pay1
  simp only [shapeCast_self]
  have e1 : broadcastTo S5000x128 (mulf (F := Ideal) (s := S1x128) (φ := .f32) ms mean) broadcasts_S1x128_S5000x128 (ix2 p q)
      = ms (ix2 (0 : Fin 1) q) * mean (ix2 (0 : Fin 1) q) :=
    broadcastTo_1b_ab_apply (mulf (F := Ideal) (s := S1x128) (φ := .f32) ms mean) broadcasts_S1x128_S5000x128 p q
  have e2 : broadcastTo S5000x128 (rsqrt (F := Ideal) (s := S1x128) (φ := .f32) (addf (F := Ideal) (s := S1x128) (φ := .f32) var (broadcast S1x128 (Scalar.ofBits (F := Ideal) .f32 0x3727C5AC#32)))) broadcasts_S1x128_S5000x128 (ix2 p q)
      = Ideal.rsqrt (var (ix2 (0 : Fin 1) q) + Ideal.ofBits .f32 0x3727C5AC#32) :=
    broadcastTo_1b_ab_apply (rsqrt (F := Ideal) (s := S1x128) (φ := .f32) (addf (F := Ideal) (s := S1x128) (φ := .f32) var (broadcast S1x128 (Scalar.ofBits (F := Ideal) .f32 0x3727C5AC#32)))) broadcasts_S1x128_S5000x128 p q
  have e3 : broadcastTo S5000x128 w broadcasts_S1x128_S5000x128 (ix2 p q) = w (ix2 (0 : Fin 1) q) :=
    broadcastTo_1b_ab_apply w broadcasts_S1x128_S5000x128 p q
  have e4 : broadcastTo S5000x128 b broadcasts_S1x128_S5000x128 (ix2 p q) = b (ix2 (0 : Fin 1) q) :=
    broadcastTo_1b_ab_apply b broadcasts_S1x128_S5000x128 p q
  show max ((((x0 (ix2 p q) - broadcastTo S5000x128 (mulf (F := Ideal) (s := S1x128) (φ := .f32) ms mean) broadcasts_S1x128_S5000x128 (ix2 p q))
      * broadcastTo S5000x128 (rsqrt (F := Ideal) (s := S1x128) (φ := .f32) (addf (F := Ideal) (s := S1x128) (φ := .f32) var (broadcast S1x128 (Scalar.ofBits (F := Ideal) .f32 0x3727C5AC#32)))) broadcasts_S1x128_S5000x128 (ix2 p q))
      * broadcastTo S5000x128 w broadcasts_S1x128_S5000x128 (ix2 p q))
      + broadcastTo S5000x128 b broadcasts_S1x128_S5000x128 (ix2 p q)) (Ideal.ofBits .f32 0x00000000#32) + res (ix2 p q) = _
  rw [e1, e2, e3, e4]

/-- The printed index maps over the grid: the two block operands and the result move with the grid point along the
    rows; the five one-row operands stay at block (0, 0). -/
theorem norm3_idx : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = t.val ∧ win3_7.index t (1 : Fin 2) = 0) :=
  (by decide +kernel : ∀ t : Fin grid3.N, _)

/-- An index of the result array is in point `t`'s block iff each coordinate is in the block's range on its axis. -/
theorem norm3_mem_blk (t : Fin cfg3.N) (i : S100000x128.Idx) :
    i ∈ ((cfg3.win 7).blk t).view.set ↔ ∀ a : Fin 2, win3_7.index t a * S5000x128.size a ≤ (i a).val
      ∧ (i a).val < win3_7.index t a * S5000x128.size a + S5000x128.size a := by
  show i ∈ ((View.whole main_v77).slice (win3_7.rect t)).set ↔ _
  rw [View.set_slice_whole, Rect.mem_set_unit]
  exact Iff.rfl

/-- Every index of the result array is in the block of the point its row names: row `r` is in block `r / 5000`. -/
theorem norm3_cover (i : S100000x128.Idx) :
    ∃ t : Fin cfg3.N, (cfg3.win 7).flush t = true ∧ i ∈ ((cfg3.win 7).blk t).view.set := by
  have hN : grid3.N = 20 := N_3
  have hi0 : (i 0).val < 100000 := (i 0).isLt
  have hi1 : (i 1).val < 128 := (i 1).isLt
  have ht : (i 0).val / 5000 < cfg3.N := by
    show (i 0).val / 5000 < grid3.N
    rw [hN]; omega
  refine ⟨⟨(i 0).val / 5000, ht⟩, flush3_7 _, ?_⟩
  rw [norm3_mem_blk]
  have e0 : win3_7.index ⟨(i 0).val / 5000, ht⟩ (0 : Fin 2) = (i 0).val / 5000 := (norm3_idx ⟨(i 0).val / 5000, ht⟩).2.2.2.2.2.2.2.1
  have e1 : win3_7.index ⟨(i 0).val / 5000, ht⟩ (1 : Fin 2) = 0 := (norm3_idx ⟨(i 0).val / 5000, ht⟩).2.2.2.2.2.2.2.2
  intro a
  match a with
  | ⟨0, _⟩ =>
    show win3_7.index ⟨(i 0).val / 5000, ht⟩ (0 : Fin 2) * 5000 ≤ (i 0).val
      ∧ (i 0).val < win3_7.index ⟨(i 0).val / 5000, ht⟩ (0 : Fin 2) * 5000 + 5000
    rw [e0]; omega
  | ⟨1, _⟩ =>
    show win3_7.index ⟨(i 0).val / 5000, ht⟩ (1 : Fin 2) * 128 ≤ (i 1).val
      ∧ (i 1).val < win3_7.index ⟨(i 0).val / 5000, ht⟩ (1 : Fin 2) * 128 + 128
    rw [e1]; omega

/-- Block operand 0's block at point `t`, read at row `p`, column `q`, is the operand array at row `5000 t + p`. -/
theorem norm3_blk0 (V : (c : Dev nD) → (b : Ref sig .tc) → Buf (Elt Ideal) ((c : Thread nD τ).loc b)) (c : Dev nD)
    (t : Fin cfg3.N) (p : Fin 5000) (q : Fin 128) (r : Fin 100000) (hr : r.val = t.val * 5000 + p.val) :
    (((cfg3.win 0).blk t).view.read (Elt Ideal) (V c (Pipeline.arrRef spec3 0)) : Vec Ideal S5000x128 .f32) (ix2 p q)
      = (V c (Pipeline.arrRef spec3 0) : S100000x128.Idx → EReal) (ix2 r q) := by
  rw [View.read_apply]
  show (V c (Pipeline.arrRef spec3 0) : S100000x128.Idx → EReal) _ = _
  congr 1
  funext a
  apply Fin.ext
  match a with
  | ⟨0, _⟩ =>
    show win3_0.index t (0 : Fin 2) * 5000 + 1 * p.val = r.val
    rw [(norm3_idx t).1.1, hr]; omega
  | ⟨1, _⟩ =>
    show win3_0.index t (1 : Fin 2) * 128 + 1 * q.val = q.val
    rw [(norm3_idx t).1.2]; omega

/-- Block operand 1's block at point `t`, read at row `p`, column `q`, is the operand array at row `5000 t + p`. -/
theorem norm3_blk1 (V : (c : Dev nD) → (b : Ref sig .tc) → Buf (Elt Ideal) ((c : Thread nD τ).loc b)) (c : Dev nD)
    (t : Fin cfg3.N) (p : Fin 5000) (q : Fin 128) (r : Fin 100000) (hr : r.val = t.val * 5000 + p.val) :
    (((cfg3.win 1).blk t).view.read (Elt Ideal) (V c (Pipeline.arrRef spec3 1)) : Vec Ideal S5000x128 .f32) (ix2 p q)
      = (V c (Pipeline.arrRef spec3 1) : S100000x128.Idx → EReal) (ix2 r q) := by
  rw [View.read_apply]
  show (V c (Pipeline.arrRef spec3 1) : S100000x128.Idx → EReal) _ = _
  congr 1
  funext a
  apply Fin.ext
  match a with
  | ⟨0, _⟩ =>
    show win3_1.index t (0 : Fin 2) * 5000 + 1 * p.val = r.val
    rw [(norm3_idx t).2.1.1, hr]; omega
  | ⟨1, _⟩ =>
    show win3_1.index t (1 : Fin 2) * 128 + 1 * q.val = q.val
    rw [(norm3_idx t).2.1.2]; omega

/-- Row operand 2's block at any point is the operand's one row. -/
theorem norm3_blk2 (V : (c : Dev nD) → (b : Ref sig .tc) → Buf (Elt Ideal) ((c : Thread nD τ).loc b)) (c : Dev nD)
    (t : Fin cfg3.N) (q : Fin 128) :
    (((cfg3.win 2).blk t).view.read (Elt Ideal) (V c (Pipeline.arrRef spec3 2)) : Vec Ideal S1x128 .f32) (ix2 (0 : Fin 1) q)
      = (V c (Pipeline.arrRef spec3 2) : S1x128.Idx → EReal) (ix2 (0 : Fin 1) q) := by
  rw [View.read_apply]
  show (V c (Pipeline.arrRef spec3 2) : S1x128.Idx → EReal) _ = _
  congr 1
  funext a
  apply Fin.ext
  match a with
  | ⟨0, _⟩ =>
    show win3_2.index t (0 : Fin 2) * 1 + 1 * 0 = 0
    rw [(norm3_idx t).2.2.1.1]
  | ⟨1, _⟩ =>
    show win3_2.index t (1 : Fin 2) * 128 + 1 * q.val = q.val
    rw [(norm3_idx t).2.2.1.2]; omega

/-- Row operand 3's block at any point is the operand's one row. -/
theorem norm3_blk3 (V : (c : Dev nD) → (b : Ref sig .tc) → Buf (Elt Ideal) ((c : Thread nD τ).loc b)) (c : Dev nD)
    (t : Fin cfg3.N) (q : Fin 128) :
    (((cfg3.win 3).blk t).view.read (Elt Ideal) (V c (Pipeline.arrRef spec3 3)) : Vec Ideal S1x128 .f32) (ix2 (0 : Fin 1) q)
      = (V c (Pipeline.arrRef spec3 3) : S1x128.Idx → EReal) (ix2 (0 : Fin 1) q) := by
  rw [View.read_apply]
  show (V c (Pipeline.arrRef spec3 3) : S1x128.Idx → EReal) _ = _
  congr 1
  funext a
  apply Fin.ext
  match a with
  | ⟨0, _⟩ =>
    show win3_3.index t (0 : Fin 2) * 1 + 1 * 0 = 0
    rw [(norm3_idx t).2.2.2.1.1]
  | ⟨1, _⟩ =>
    show win3_3.index t (1 : Fin 2) * 128 + 1 * q.val = q.val
    rw [(norm3_idx t).2.2.2.1.2]; omega

/-- Row operand 4's block at any point is the operand's one row. -/
theorem norm3_blk4 (V : (c : Dev nD) → (b : Ref sig .tc) → Buf (Elt Ideal) ((c : Thread nD τ).loc b)) (c : Dev nD)
    (t : Fin cfg3.N) (q : Fin 128) :
    (((cfg3.win 4).blk t).view.read (Elt Ideal) (V c (Pipeline.arrRef spec3 4)) : Vec Ideal S1x128 .f32) (ix2 (0 : Fin 1) q)
      = (V c (Pipeline.arrRef spec3 4) : S1x128.Idx → EReal) (ix2 (0 : Fin 1) q) := by
  rw [View.read_apply]
  show (V c (Pipeline.arrRef spec3 4) : S1x128.Idx → EReal) _ = _
  congr 1
  funext a
  apply Fin.ext
  match a with
  | ⟨0, _⟩ =>
    show win3_4.index t (0 : Fin 2) * 1 + 1 * 0 = 0
    rw [(norm3_idx t).2.2.2.2.1.1]
  | ⟨1, _⟩ =>
    show win3_4.index t (1 : Fin 2) * 128 + 1 * q.val = q.val
    rw [(norm3_idx t).2.2.2.2.1.2]; omega

/-- Row operand 5's block at any point is the operand's one row. -/
theorem norm3_blk5 (V : (c : Dev nD) → (b : Ref sig .tc) → Buf (Elt Ideal) ((c : Thread nD τ).loc b)) (c : Dev nD)
    (t : Fin cfg3.N) (q : Fin 128) :
    (((cfg3.win 5).blk t).view.read (Elt Ideal) (V c (Pipeline.arrRef spec3 5)) : Vec Ideal S1x128 .f32) (ix2 (0 : Fin 1) q)
      = (V c (Pipeline.arrRef spec3 5) : S1x128.Idx → EReal) (ix2 (0 : Fin 1) q) := by
  rw [View.read_apply]
  show (V c (Pipeline.arrRef spec3 5) : S1x128.Idx → EReal) _ = _
  congr 1
  funext a
  apply Fin.ext
  match a with
  | ⟨0, _⟩ =>
    show win3_5.index t (0 : Fin 2) * 1 + 1 * 0 = 0
    rw [(norm3_idx t).2.2.2.2.2.1.1]
  | ⟨1, _⟩ =>
    show win3_5.index t (1 : Fin 2) * 128 + 1 * q.val = q.val
    rw [(norm3_idx t).2.2.2.2.2.1.2]; omega

/-- Row operand 6's block at any point is the operand's one row. -/
theorem norm3_blk6 (V : (c : Dev nD) → (b : Ref sig .tc) → Buf (Elt Ideal) ((c : Thread nD τ).loc b)) (c : Dev nD)
    (t : Fin cfg3.N) (q : Fin 128) :
    (((cfg3.win 6).blk t).view.read (Elt Ideal) (V c (Pipeline.arrRef spec3 6)) : Vec Ideal S1x128 .f32) (ix2 (0 : Fin 1) q)
      = (V c (Pipeline.arrRef spec3 6) : S1x128.Idx → EReal) (ix2 (0 : Fin 1) q) := by
  rw [View.read_apply]
  show (V c (Pipeline.arrRef spec3 6) : S1x128.Idx → EReal) _ = _
  congr 1
  funext a
  apply Fin.ext
  match a with
  | ⟨0, _⟩ =>
    show win3_6.index t (0 : Fin 2) * 1 + 1 * 0 = 0
    rw [(norm3_idx t).2.2.2.2.2.2.1.1]
  | ⟨1, _⟩ =>
    show win3_6.index t (1 : Fin 2) * 128 + 1 * q.val = q.val
    rw [(norm3_idx t).2.2.2.2.2.2.1.2]; omega

/-- The payload at row `p`, column `q` of the block is the result function at row `r`, column `q` of the arrays, once each
    loaded block is known there to read its array. -/
theorem norm3_pay_eq (x0 res : Vec Ideal S5000x128 .f32) (ms mean var w b : Vec Ideal S1x128 .f32)
    (A0 A1 : S100000x128.Idx → EReal) (A2 A3 A4 A5 A6 : S1x128.Idx → EReal) (p : Fin 5000) (q : Fin 128) (r : Fin 100000)
    (h0 : x0 (ix2 p q) = A0 (ix2 r q)) (h1 : res (ix2 p q) = A1 (ix2 r q))
    (h2 : mean (ix2 (0 : Fin 1) q) = A2 (ix2 (0 : Fin 1) q)) (h3 : var (ix2 (0 : Fin 1) q) = A3 (ix2 (0 : Fin 1) q))
    (h4 : w (ix2 (0 : Fin 1) q) = A4 (ix2 (0 : Fin 1) q)) (h5 : b (ix2 (0 : Fin 1) q) = A5 (ix2 (0 : Fin 1) q))
    (h6 : ms (ix2 (0 : Fin 1) q) = A6 (ix2 (0 : Fin 1) q)) :
    k3_pay1 x0 ms mean var w b res (ix2 p q) = norm3G A0 A1 A2 A3 A4 A5 A6 (ix2 r q) := by
  rw [norm3_pay_apply, h0, h1, h2, h3, h4, h5, h6]
  rfl

/-- The body's payload of the input blocks at point `t`, read at row `p`, column `q` of the block, is the result
    function of the region's input arrays at row `5000 t + p`, column `q`. -/
theorem norm3_point (V : (c : Dev nD) → (b : Ref sig .tc) → Buf (Elt Ideal) ((c : Thread nD τ).loc b)) (c : Dev nD)
    (t : Fin cfg3.N) (p : Fin 5000) (q : Fin 128) (r : Fin 100000) (hr : r.val = t.val * 5000 + p.val) :
    k3_pay1 (iblk3 V c 0 t) (iblk3 V c 6 t) (iblk3 V c 2 t) (iblk3 V c 3 t) (iblk3 V c 4 t) (iblk3 V c 5 t) (iblk3 V c 1 t) (ix2 p q)
      = norm3G (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (ix2 r q) :=
  norm3_pay_eq (iblk3 V c 0 t) (iblk3 V c 1 t) (iblk3 V c 6 t) (iblk3 V c 2 t) (iblk3 V c 3 t) (iblk3 V c 4 t) (iblk3 V c 5 t)
    (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) p q r
    (norm3_blk0 V c t p q r hr) (norm3_blk1 V c t p q r hr) (norm3_blk2 V c t q) (norm3_blk3 V c t q)
    (norm3_blk4 V c t q) (norm3_blk5 V c t q) (norm3_blk6 V c t q)

/-- What point `t` writes back is block `t` of ANY function of the array's index that the body's payload of the input
    blocks agrees with, row `p` of the block against row `5000 t + p` of the array. -/
theorem norm3_flushed_of (V : (c : Dev nD) → (b : Ref sig .tc) → Buf (Elt Ideal) ((c : Thread nD τ).loc b)) (c : Dev nD)
    (t : Fin cfg3.N) (G : S100000x128.Idx → EReal)
    (hG : ∀ (p : Fin 5000) (q : Fin 128) (r : Fin 100000), r.val = t.val * 5000 + p.val →
      k3_pay1 (iblk3 V c 0 t) (iblk3 V c 6 t) (iblk3 V c 2 t) (iblk3 V c 3 t) (iblk3 V c 4 t) (iblk3 V c 5 t) (iblk3 V c 1 t) (ix2 p q) = G (ix2 r q)) :
    (dat3 (F := Ideal) V c).flushed 7 t = ((cfg3.win 7).blk t).view.read (Elt Ideal) G := by
  show (cfg3.win 7).cut (grid3.coords t) ((dat3 (F := Ideal) V c).after 7 t) = _
  rw [after3_7]
  unfold out3_7
  rw [View.canon_unit_zero norm3_hz]
  simp only [View.ld_unit_zero (S := S5000x128) norm3_hz, View.ld_unit_zero (S := S1x128) norm3_hz]
  funext j
  obtain ⟨p, q, rfl⟩ : ∃ (p : Fin 5000) (q : Fin 128), j = ix2 p q := ⟨j 0, j 1, eq_ix2 j⟩
  have htl : t.val < 20 := lt_of_lt_of_eq t.isLt N_3
  have hr : t.val * 5000 + p.val < 100000 := by have := p.isLt; omega
  -- where the block's element sits in the array: row `5000 t + p`, column `q`
  have he : ((cfg3.win 7).blk t).view.emb (ix2 p q) = (ix2 (⟨t.val * 5000 + p.val, hr⟩ : Fin 100000) q : S100000x128.Idx) := by
    funext a
    apply Fin.ext
    match a with
    | ⟨0, _⟩ =>
      show win3_7.index t (0 : Fin 2) * 5000 + 1 * p.val = t.val * 5000 + p.val
      rw [(norm3_idx t).2.2.2.2.2.2.2.1]; omega
    | ⟨1, _⟩ =>
      show win3_7.index t (1 : Fin 2) * 128 + 1 * q.val = q.val
      rw [(norm3_idx t).2.2.2.2.2.2.2.2]; omega
  rw [View.read_apply, he]
  exact hG p q ⟨t.val * 5000 + p.val, hr⟩ rfl

/-- What point `t` writes back is block `t` of the result function of the region's input arrays. -/
theorem norm3_flushed (V : (c : Dev nD) → (b : Ref sig .tc) → Buf (Elt Ideal) ((c : Thread nD τ).loc b)) (c : Dev nD)
    (t : Fin cfg3.N) :
    (dat3 (F := Ideal) V c).flushed 7 t
      = ((cfg3.win 7).blk t).view.read (Elt Ideal) (norm3G (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))) :=
  norm3_flushed_of V c t (norm3G (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))) (fun p q r hr => norm3_point V c t p q r hr)

/-- The result array after the region: the result function of the input arrays, whole. -/
theorem norm3_final (V : (c : Dev nD) → (b : Ref sig .tc) → Buf (Elt Ideal) ((c : Thread nD τ).loc b)) (c : Dev nD) :
    (dat3 (F := Ideal) V c).arrAt 7 cfg3.N = norm3G (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) :=
  (dat3 (F := Ideal) V c).arrAt_eq_of_cover 7 (norm3G (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)))
    (fun t _ => norm3_flushed V c t) norm3_cover

/-- The result function at row `r`, column `q`. -/
theorem norm3G_apply (A0 A1 : S100000x128.Idx → EReal) (A2 A3 A4 A5 A6 : S1x128.Idx → EReal) (r : Fin 100000) (q : Fin 128) :
    norm3G A0 A1 A2 A3 A4 A5 A6 (ix2 r q)
      = max ((((A0 (ix2 r q) - A6 (ix2 (0 : Fin 1) q) * A2 (ix2 (0 : Fin 1) q))
          * Ideal.rsqrt (A3 (ix2 (0 : Fin 1) q) + Ideal.ofBits .f32 0x3727C5AC#32)) * A4 (ix2 (0 : Fin 1) q))
          + A5 (ix2 (0 : Fin 1) q)) (Ideal.ofBits .f32 0x00000000#32) + A1 (ix2 r q) := rfl

/-- The result array after the region at row `r`, column `q`, the region's input arrays named `A0 … A6`. -/
theorem norm3_apply (V : (c : Dev nD) → (b : Ref sig .tc) → Buf (Elt Ideal) ((c : Thread nD τ).loc b)) (c : Dev nD)
    (A0 A1 : S100000x128.Idx → EReal) (A2 A3 A4 A5 A6 : S1x128.Idx → EReal)
    (h0 : V c (Pipeline.arrRef spec3 0) = A0) (h1 : V c (Pipeline.arrRef spec3 1) = A1)
    (h2 : V c (Pipeline.arrRef spec3 2) = A2) (h3 : V c (Pipeline.arrRef spec3 3) = A3)
    (h4 : V c (Pipeline.arrRef spec3 4) = A4) (h5 : V c (Pipeline.arrRef spec3 5) = A5)
    (h6 : V c (Pipeline.arrRef spec3 6) = A6) (r : Fin 100000) (q : Fin 128) :
    (dat3 (F := Ideal) V c).arrAt 7 cfg3.N (ix2 r q)
      = max ((((A0 (ix2 r q) - A6 (ix2 (0 : Fin 1) q) * A2 (ix2 (0 : Fin 1) q))
          * Ideal.rsqrt (A3 (ix2 (0 : Fin 1) q) + Ideal.ofBits .f32 0x3727C5AC#32)) * A4 (ix2 (0 : Fin 1) q))
          + A5 (ix2 (0 : Fin 1) q)) (Ideal.ofBits .f32 0x00000000#32) + A1 (ix2 r q) := by
  subst h0 h1 h2 h3 h4 h5 h6
  exact congrFun (norm3_final V c) (ix2 r q)

end Cert.KernelIdeal.RegValue

end
-- ==== Proof.KLayer1C.lean ====
/-
  Graph layer 1 in the idealized kernel program: the normalisation region, and the layer's output as the reference's.
-/
import proofs.«110479_j25572235281175_1_alg».proof.Proof.KLayer1B
import proofs.«110479_j25572235281175_1_alg».proof.Proof.LayerRead3
import proofs.«110479_j25572235281175_1_alg».proof.Proof.LayerRead4
import proofs.«110479_j25572235281175_1_alg».proof.Proof.LayerReal
import proofs.«110479_j25572235281175_1_alg».proof.Proof.NormReal
import proofs.«110479_j25572235281175_1_alg».proof.Proof.KPre
import proofs.«110479_j25572235281175_1_alg».proof.Proof.RegNorm3

set_option maxRecDepth 16384

noncomputable section

namespace Cert.KernelIdeal.Stages

open Idealize.ShloMosaic Idealize.ShloMosaic.TcCoe Idealize.ShloMosaic.StableHlo Idealize.ShloMosaic.ValueIdx
open Cert.KernelIdeal Cert.KernelIdeal.Gen Cert.KernelIdeal.Carry

variable (m : (ℓ : Loc nD τ sig) → Buf (Elt Ideal) ℓ) (ρ : Dev nD → PrngReg)

/-- THE LAYER: after the normalisation region its output buffer holds the reference's layer output, whose entries are
    real numbers. The region's entries are the kernel's spelling of the normalisation of the convolution (moment-form
    variance from the two rows of column sums, reciprocal square root), which on real inputs is the reference's. -/
theorem L1_pair (c : Dev nD) (hpre : PreOK m) :
    W10 m ρ c (Proc.devRef .tc main_v77) = (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) ∧ Cert.Reals.IsReal (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  obtain ⟨r0, r2, r3, r4, r5, r6, r7, -⟩ := Cert.Proof.pre_real m hpre c
  have hh : Cert.Reals.IsReal (Cert.ReferenceIdeal.Layer.conv (F := Ideal) (m ((c : Thread nD τ).loc main_arg0)) (Cert.ReferenceIdeal.ReadP.val_main_v32 (F := Ideal) (m ((c : Thread nD τ).loc main_arg2))) (Cert.ReferenceIdeal.ReadP.val_main_v34 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))) :=
    Cert.ReferenceIdeal.Layer.isReal_conv _ _ _ _ _ _ r0 (Cert.ReferenceIdeal.Layer.isReal_v32 _ r2) (Cert.ReferenceIdeal.Layer.isReal_v34 _ r3) (Cert.ReferenceIdeal.Layer.isReal_v29 _)
  have hg := Cert.ReferenceIdeal.Layer.gnorm_of_entries (Cert.ReferenceIdeal.Layer.conv (F := Ideal) (m ((c : Thread nD τ).loc main_arg0)) (Cert.ReferenceIdeal.ReadP.val_main_v32 (F := Ideal) (m ((c : Thread nD τ).loc main_arg2))) (Cert.ReferenceIdeal.ReadP.val_main_v34 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))) (Cert.ReferenceIdeal.ReadP.val_main_v30 (F := Ideal) (m ((c : Thread nD τ).loc main_arg0)) (m ((c : Thread nD τ).loc main_arg7))) (Cert.ReferenceIdeal.ReadP.val_main_v57 (F := Ideal) (m ((c : Thread nD τ).loc main_arg6))) (Cert.ReferenceIdeal.ReadP.val_main_v53 (F := Ideal) (m ((c : Thread nD τ).loc main_arg4))) (Cert.ReferenceIdeal.ReadP.val_main_v55 (F := Ideal) (m ((c : Thread nD τ).loc main_arg5))) hh
    (Cert.ReferenceIdeal.Layer.isReal_v57 _ r6) (Cert.ReferenceIdeal.Layer.isReal_v53 _ r4) (Cert.ReferenceIdeal.Layer.isReal_v55 _ r5) (Cert.RealOps.isReal_dotGeneral _ _ _ _ r0 r7)
    ((dat3 (F := Ideal) (V9 m ρ) c).arrAt 7 cfg3.N) (fun r q => by
      rw [Cert.KernelIdeal.RegValue.norm3_apply (V9 m ρ) c _ _ _ _ _ _ _ (L1_aggN m ρ c) (L1_resN m ρ c)
        (L1_meanrow m ρ c) (L1_varrow m ρ c) (L1_wrow m ρ c) (L1_brow2 m ρ c) (L1_msrow m ρ c) r q]
      simp only [Cert.KernelIdeal.Layer.krow_apply, Cert.KernelIdeal.Layer.kmeanv_apply, Cert.KernelIdeal.Layer.kvarv_apply, Cert.ReferenceIdeal.Layer.csum_apply, Cert.ReferenceIdeal.Layer.csumsq_apply])
  exact ⟨(W10_arr m ρ c 7).trans hg.1, hg.2⟩

theorem L1_out (c : Dev nD) (hpre : PreOK m) : W10 m ρ c (Proc.devRef .tc main_v77) = (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := (L1_pair m ρ c hpre).1
include ρ in
theorem L1_real (c : Dev nD) (hpre : PreOK m) : Cert.Reals.IsReal (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := (L1_pair m ρ c hpre).2

end Cert.KernelIdeal.Stages

end
-- ==== Proof.RegMatmul4.lean ====
/-
  The value of the output array of matrix-product region 4, at the ideal values.

  The region runs over 20 grid points. At point t the body multiplies block t of the rows' array — 5000 rows of a
  [100000, 128] array — by the whole [128, 128] weights into the zero accumulator and stores the product into block t of
  the output array. At the ideal values (floats extended reals, every operation exact) a product into the zero
  accumulator is the plain sum over the contraction index, so what point t writes back is block t of the product of the
  two arrays; the 20 blocks of 5000 rows tile the 100000 rows, so after the region the output array is the whole
  product: entry (r, q) is the sum over k of the rows' array at (r, k) times the weights at (k, q). The region's entry
  contents stay a parameter, so the statement serves whatever the arrays hold when the region is entered.
-/
import proofs.«110479_j25572235281175_1_alg».proof.Proof.Gen.KernelIdeal.Frame
import proofs.«110479_j25572235281175_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegValue

open Idealize.ShloMosaic Idealize.ShloMosaic.ValueIdx Idealize.ShloMosaic.TcCoe Cert.KernelIdeal Cert.KernelIdeal.Gen
open Idealize.ShloMosaic.Pipeline (Dat)

/-! ## The body's payload at a block-local index -/

/-- The zero offsets of a whole-buffer access, as the constant function. -/
theorem matmul4_offsets : (![0, 0] : Fin 2 → Nat) = fun _ => 0 := funext fun a => by fin_cases a <;> rfl

/-- The body's dimension numbers are the plain ones: rows × contraction by contraction × columns. -/
theorem matmul4_dims : dot_S5000x128_S128x128_S5000x128_1_0_0_1_n_n = DotDims.plain 5000 128 128 := rfl

/-- What the body stores, read at the block-local index (p, q): row p of the block of rows times column q of the
    weights, summed over the contraction index (the recasts of the two operands to their own shapes are the identity). When row p of the
    block is row r of an array X and the weights are W, that is entry (r, q) of the product of X and W. -/
theorem matmul4_payload (X : S100000x128.Idx → EReal) (W : S128x128.Idx → EReal)
    (x0 : Vec Ideal S5000x128 .f32) (x1 : Vec Ideal S128x128 .f32) (p : Fin 5000) (q : Fin 128) (r : Fin 100000)
    (h0 : ∀ k : Fin 128, x0 (ix2 p k) = X (ix2 r k)) (h1 : ∀ k : Fin 128, x1 (ix2 k q) = W (ix2 k q)) :
    k4_pay1 x0 x1 (ix2 p q) = ∑ k : Fin 128, X (ix2 r k) * W (ix2 k q) := by
  unfold k4_pay1
  show matmul dot_S5000x128_S128x128_S5000x128_1_0_0_1_n_n none (shapeCast S5000x128 x0 shapeCasts_S5000x128_S5000x128) (shapeCast S128x128 x1 shapeCasts_S128x128_S128x128) (constant (F := Ideal) S5000x128 .f32 0x00000000#32) (ix2 p q) = _
  rw [shapeCast_self x0 shapeCasts_S5000x128_S5000x128, shapeCast_self x1 shapeCasts_S128x128_S128x128]
  rw [matmul4_dims]
  refine (Cert.Lib.PlainDot.matmul_plain_zero_apply none x0 x1 p q).trans ?_
  exact Finset.sum_congr rfl fun k _ => by rw [h0 k, h1 k]

/-! ## Where a block's elements sit in their arrays -/

/-- The block index maps over the grid: the row blocks of the left operand and of the output move with the grid point,
    the weights stay at block (0, 0). -/
theorem matmul4_index : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Element (p, k) of the left operand's block at point t is element (r, k) of its array, r = 5000 t + p. -/
theorem matmul4_emb_lhs (t : Fin cfg4.N) (p : Fin 5000) (k : Fin 128) (r : Fin 100000) (hr : r.val = t.val * 5000 + p.val) :
    ((cfg4.win 0).blk t).view.emb (ix2 p k) = ix2 r k := by
  obtain ⟨e0, e1, -, -, -, -⟩ := matmul4_index t
  funext a; apply Fin.ext
  match a with
  | ⟨0, _⟩ => show win4_0.index t (0 : Fin 2) * 5000 + 1 * p.val = r.val; omega
  | ⟨1, _⟩ => show win4_0.index t (1 : Fin 2) * 128 + 1 * k.val = k.val; omega

/-- Element (k, q) of the weights' block at any point is element (k, q) of the weights. -/
theorem matmul4_emb_rhs (t : Fin cfg4.N) (k : Fin 128) (q : Fin 128) :
    ((cfg4.win 1).blk t).view.emb (ix2 k q) = ix2 k q := by
  obtain ⟨-, -, e2, e3, -, -⟩ := matmul4_index t
  funext a; apply Fin.ext
  match a with
  | ⟨0, _⟩ => show win4_1.index t (0 : Fin 2) * 128 + 1 * k.val = k.val; omega
  | ⟨1, _⟩ => show win4_1.index t (1 : Fin 2) * 128 + 1 * q.val = q.val; omega

/-- Element (p, q) of the output's block at point t is element (r, q) of its array, r = 5000 t + p. -/
theorem matmul4_emb_out (t : Fin cfg4.N) (p : Fin 5000) (q : Fin 128) (r : Fin 100000) (hr : r.val = t.val * 5000 + p.val) :
    ((cfg4.win 2).blk t).view.emb (ix2 p q) = ix2 r q := by
  obtain ⟨-, -, -, -, e4, e5⟩ := matmul4_index t
  funext a; apply Fin.ext
  match a with
  | ⟨0, _⟩ => show win4_2.index t (0 : Fin 2) * 5000 + 1 * p.val = r.val; omega
  | ⟨1, _⟩ => show win4_2.index t (1 : Fin 2) * 128 + 1 * q.val = q.val; omega

/-- An index of the output array is in point t's block iff each coordinate is in the block's range on its axis. -/
theorem matmul4_mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v80).slice (win4_2.rect t)).set ↔ _
  rw [View.set_slice_whole, Rect.mem_set_unit]
  exact Iff.rfl

/-- Every index of the output array is in the block of the point that its row number divided by 5000 names: the 20 blocks
    of 5000 rows tile the 100000 rows. -/
theorem matmul4_cover (i : S100000x128.Idx) :
    ∃ t : Fin cfg4.N, (cfg4.win 2).flush t = true ∧ i ∈ ((cfg4.win 2).blk t).view.set := by
  have hN : cfg4.N = 20 := N_4
  have hi0 : (i 0).val < 100000 := idx2_lt0 i
  have hi1 : (i 1).val < 128 := idx2_lt1 i
  refine ⟨⟨(i 0).val / 5000, by rw [hN]; omega⟩, flush4_2 _, ?_⟩
  rw [matmul4_mem_blk]
  obtain ⟨-, -, -, -, e4, e5⟩ := matmul4_index ⟨(i 0).val / 5000, by rw [hN]; omega⟩
  intro a
  match a with
  | ⟨0, _⟩ => show win4_2.index _ (0 : Fin 2) * 5000 ≤ (i 0).val ∧ (i 0).val < win4_2.index _ (0 : Fin 2) * 5000 + 5000; rw [e4]; show (i 0).val / 5000 * 5000 ≤ (i 0).val ∧ (i 0).val < (i 0).val / 5000 * 5000 + 5000; omega
  | ⟨1, _⟩ => show win4_2.index _ (1 : Fin 2) * 128 ≤ (i 1).val ∧ (i 1).val < win4_2.index _ (1 : Fin 2) * 128 + 128; rw [e5]; omega

/-! ## From the blocks to the array -/

variable (V : (c : Dev nD) → (b : Ref sig .tc) → Buf (Elt Ideal) ((c : Thread nD τ).loc b))

/-- What point t writes back to the output array is block t of the product of the region's two input arrays X (the
    rows) and W (the weights): entry (r, q) of the product is the sum over k of X at (r, k) times W at (k, q). -/
theorem matmul4_flushed (c : Dev nD) (X : S100000x128.Idx → EReal) (W : S128x128.Idx → EReal)
    (hX : V c (Pipeline.arrRef spec4 0) = X) (hW : V c (Pipeline.arrRef spec4 1) = W) (t : Fin cfg4.N) :
    (dat4 (F := Ideal) V c).flushed 2 t = ((cfg4.win 2).blk t).view.read (Elt Ideal)
      (fun i : S100000x128.Idx => (∑ k : Fin 128, X (ix2 (i 0 : Fin 100000) k) * W (ix2 k (i 1 : Fin 128)) : EReal)) := by
  show (cfg4.win 2).cut (grid4.coords t) ((dat4 V c).after 2 t) = _
  rw [after4_2]
  unfold out4_2
  rw [View.canon_unit_zero matmul4_offsets]
  simp only [View.ld_unit_zero (S := S5000x128) matmul4_offsets, View.ld_unit_zero (S := S128x128) matmul4_offsets]
  funext j
  obtain ⟨p, q, rfl⟩ : ∃ (p : Fin 5000) (q : Fin 128), j = ix2 p q := ⟨j 0, j 1, eq_ix2 j⟩
  have hN : cfg4.N = 20 := N_4
  have hr : t.val * 5000 + p.val < 100000 := by have := t.isLt; have := p.isLt; omega
  show k4_pay1 (iblk4 V c 0 t) (iblk4 V c 1 t) (ix2 p q)
    = (fun i : S100000x128.Idx => (∑ k : Fin 128, X (ix2 (i 0 : Fin 100000) k) * W (ix2 k (i 1 : Fin 128)) : EReal))
        (((cfg4.win 2).blk t).view.emb (ix2 p q))
  rw [matmul4_emb_out t p q ⟨t.val * 5000 + p.val, hr⟩ rfl]
  refine matmul4_payload X W (iblk4 V c 0 t) (iblk4 V c 1 t) p q ⟨t.val * 5000 + p.val, hr⟩ (fun k => ?_) (fun k => ?_)
  · show V c (Pipeline.arrRef spec4 0) (((cfg4.win 0).blk t).view.emb (ix2 p k)) = _
    rw [matmul4_emb_lhs t p k ⟨t.val * 5000 + p.val, hr⟩ rfl, hX]
  · show V c (Pipeline.arrRef spec4 1) (((cfg4.win 1).blk t).view.emb (ix2 k q)) = _
    rw [matmul4_emb_rhs t k q, hW]

/-- The output array after the region is the product of the two input arrays, whole: every point writes its block of the
    product, and the blocks cover the array. -/
theorem matmul4_array (c : Dev nD) (X : S100000x128.Idx → EReal) (W : S128x128.Idx → EReal)
    (hX : V c (Pipeline.arrRef spec4 0) = X) (hW : V c (Pipeline.arrRef spec4 1) = W) :
    (dat4 (F := Ideal) V c).arrAt 2 cfg4.N
      = (fun i : S100000x128.Idx => (∑ k : Fin 128, X (ix2 (i 0 : Fin 100000) k) * W (ix2 k (i 1 : Fin 128)) : EReal)) :=
  (dat4 (F := Ideal) V c).arrAt_eq_of_cover 2 _ (fun t _ => matmul4_flushed V c X W hX hW t) matmul4_cover

/-- The output array after the region at (r, q): the sum over k of the rows' array at (r, k) times the weights at (k, q). -/
theorem matmul4_apply (c : Dev nD) (X : S100000x128.Idx → EReal) (W : S128x128.Idx → EReal)
    (hX : V c (Pipeline.arrRef spec4 0) = X) (hW : V c (Pipeline.arrRef spec4 1) = W) (r : Fin 100000) (q : Fin 128) :
    (dat4 (F := Ideal) V c).arrAt 2 cfg4.N (ix2 r q) = ∑ k : Fin 128, X (ix2 r k) * W (ix2 k q) :=
  congrFun (matmul4_array V c X W hX hW) (ix2 r q)

end Cert.KernelIdeal.RegValue

end
-- ==== Proof.KLayer2A.lean ====
/-
  Graph layer 2 in the idealized kernel program, up to its aggregation.
-/
import proofs.«110479_j25572235281175_1_alg».proof.Proof.KLayer1C
import proofs.«110479_j25572235281175_1_alg».proof.Proof.RegMatmul4

set_option maxRecDepth 16384

noncomputable section

namespace Cert.KernelIdeal.Stages

open Idealize.ShloMosaic Idealize.ShloMosaic.TcCoe Idealize.ShloMosaic.StableHlo Idealize.ShloMosaic.ValueIdx
open Cert.KernelIdeal Cert.KernelIdeal.Gen Cert.KernelIdeal.Carry

variable (m : (ℓ : Loc nD τ sig) → Buf (Elt Ideal) ℓ) (ρ : Dev nD → PrngReg)

/-- The layer's input at the projection region's entry. -/
theorem L2_X (c : Dev nD) (hpre : PreOK m) : V11 m ρ c main_v77 = (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  ((keepH4 (W10 m ρ c) main_v77 (by decide)).trans (L1_out m ρ c hpre))

/-- The layer's weight matrix at the projection region's entry: the slice of the stacked weights, as the reference takes it. -/
theorem L2_Wt (c : Dev nD) : V11 m ρ c main_v79 = (Cert.ReferenceIdeal.ReadP.val_main_v84 (F := Ideal) (m ((c : Thread nD τ).loc main_arg2))) := by
  show StableHlo.after hostOps4 (W10 m ρ c) (Proc.devRef .tc main_v79) = _
  try dsimp only [hostOps4]
  after_results_simp
  rw [((keepR3 m ρ c main_arg2 (by decide)).trans ((keepH3 (W8 m ρ c) main_arg2 (by decide)).trans ((keepR2 m ρ c main_arg2 (by decide)).trans ((keepH2 (W6 m ρ c) main_arg2 (by decide)).trans ((keepR1 m ρ c main_arg2 (by decide)).trans ((keepH1 (W4 m ρ c) main_arg2 (by decide)).trans ((keepR0 m ρ c main_arg2 (by decide)).trans ((keepH0_2 (W2 m ρ c) main_arg2 (by decide)).trans ((keepH0_1 (W1 m ρ c) main_arg2 (by decide)).trans (keepH0 (W0 m ρ c) main_arg2 (by decide)))))))))))]
  rfl

/-- After the projection region: the projected features, the reference's x · W. -/
theorem L2_hw (c : Dev nD) (hpre : PreOK m) :
    W12 m ρ c (Proc.devRef .tc main_v80) = Cert.ReferenceIdeal.Layer.proj (F := Ideal) (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v84 (F := Ideal) (m ((c : Thread nD τ).loc main_arg2))) := by
  refine (W12_arr m ρ c 2).trans ?_
  have key : ∀ i : S100000x128.Idx, (dat4 (F := Ideal) (V11 m ρ) c).arrAt 2 cfg4.N i
      = Cert.ReferenceIdeal.Layer.proj (F := Ideal) (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v84 (F := Ideal) (m ((c : Thread nD τ).loc main_arg2))) i := by
    intro i
    obtain ⟨r, q, rfl⟩ : ∃ (r : Fin 100000) (q : Fin 128), i = ix2 r q := ⟨i 0, i 1, eq_ix2 i⟩
    rw [Cert.KernelIdeal.RegValue.matmul4_apply (V11 m ρ) c _ _ (L2_X m ρ c hpre) (L2_Wt m ρ c) r q]
    exact (Cert.ReferenceIdeal.Layer.proj_apply _ _ r q).symm
  exact funext key

/-- At the reduction region's entry: the aggregation along the edges of the projected features, the reference's. -/
theorem L2_seg (c : Dev nD) (hpre : PreOK m) :
    V13 m ρ c main_v93 = Cert.ReferenceIdeal.Layer.seg (F := Ideal) (Cert.ReferenceIdeal.Layer.proj (F := Ideal) (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v84 (F := Ideal) (m ((c : Thread nD τ).loc main_arg2))))
      (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1))) := by
  show StableHlo.after hostOps5 (W12 m ρ c) (Proc.devRef .tc main_v93) = _
  try dsimp only [hostOps5]
  after_results_simp
  rw [L2_hw m ρ c hpre, ((keepR4 m ρ c main_v3 (by decide)).trans ((keepH4 (W10 m ρ c) main_v3 (by decide)).trans ((keepR3 m ρ c main_v3 (by decide)).trans ((keepH3 (W8 m ρ c) main_v3 (by decide)).trans ((keepR2 m ρ c main_v3 (by decide)).trans ((keepH2 (W6 m ρ c) main_v3 (by decide)).trans ((keepR1 m ρ c main_v3 (by decide)).trans ((keepH1 (W4 m ρ c) main_v3 (by decide)).trans (keepR0 m ρ c main_v3 (by decide)))))))))).trans (W3_v3 m ρ c),
    ((keepR4 m ρ c main_v6 (by decide)).trans ((keepH4 (W10 m ρ c) main_v6 (by decide)).trans ((keepR3 m ρ c main_v6 (by decide)).trans ((keepH3 (W8 m ρ c) main_v6 (by decide)).trans ((keepR2 m ρ c main_v6 (by decide)).trans ((keepH2 (W6 m ρ c) main_v6 (by decide)).trans ((keepR1 m ρ c main_v6 (by decide)).trans ((keepH1 (W4 m ρ c) main_v6 (by decide)).trans (keepR0 m ρ c main_v6 (by decide)))))))))).trans (W3_v6 m ρ c),
    ((keepR4 m ρ c main_v29 (by decide)).trans ((keepH4 (W10 m ρ c) main_v29 (by decide)).trans ((keepR3 m ρ c main_v29 (by decide)).trans ((keepH3 (W8 m ρ c) main_v29 (by decide)).trans ((keepR2 m ρ c main_v29 (by decide)).trans ((keepH2 (W6 m ρ c) main_v29 (by decide)).trans ((keepR1 m ρ c main_v29 (by decide)).trans ((keepH1 (W4 m ρ c) main_v29 (by decide)).trans (keepR0 m ρ c main_v29 (by decide)))))))))).trans (W3_v29 m ρ c)]
  rfl

/-- At the reduction region's entry: the layer's bias as a one-row matrix. -/
theorem L2_brow (c : Dev nD) :
    V13 m ρ c main_v96 = Cert.KernelIdeal.Layer.krow (F := Ideal) (Cert.ReferenceIdeal.ReadP.val_main_v86 (F := Ideal) (m ((c : Thread nD τ).loc main_arg3))) := by
  show StableHlo.after hostOps5 (W12 m ρ c) (Proc.devRef .tc main_v96) = _
  try dsimp only [hostOps5]
  after_results_simp
  rw [((keepR4 m ρ c main_arg3 (by decide)).trans ((keepH4 (W10 m ρ c) main_arg3 (by decide)).trans ((keepR3 m ρ c main_arg3 (by decide)).trans ((keepH3 (W8 m ρ c) main_arg3 (by decide)).trans ((keepR2 m ρ c main_arg3 (by decide)).trans ((keepH2 (W6 m ρ c) main_arg3 (by decide)).trans ((keepR1 m ρ c main_arg3 (by decide)).trans ((keepH1 (W4 m ρ c) main_arg3 (by decide)).trans ((keepR0 m ρ c main_arg3 (by decide)).trans ((keepH0_2 (W2 m ρ c) main_arg3 (by decide)).trans ((keepH0_1 (W1 m ρ c) main_arg3 (by decide)).trans (keepH0 (W0 m ρ c) main_arg3 (by decide)))))))))))))]
  rfl

end Cert.KernelIdeal.Stages

end
-- ==== Proof.RegReduce5.lean ====
/-
  The three output arrays of the second bias-and-reduce region, entry by entry.

  The region walks the 100000 rows of its [100000,128] input in 20 blocks of 5000 rows. At each block it adds the
  [1,128] bias row to every row of the block and writes the result to the matching block of its first output; it
  also keeps two [1,128] running rows, zeroed at the first block, to which each block adds the column sums of that
  result and of its square. After the region the first output is, at row r and column q, the input plus the bias;
  the two running rows are, at column q, the sum over all 100000 rows of that value and of its square. The order
  of the additions does not matter: the values are extended reals, whose addition is commutative and associative.
-/
import proofs.«110479_j25572235281175_1_alg».proof.Proof.Gen.KernelIdeal.Frame
import proofs.«110479_j25572235281175_1_alg».proof.Proof.LibColumnReduce
import proofs.«110479_j25572235281175_1_alg».proof.Proof.LibBlockSumGen
import proofs.«110479_j25572235281175_1_alg».proof.Proof.LibRows
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.RegValue

open Idealize.ShloMosaic Idealize.ShloMosaic.ValueIdx Idealize.ShloMosaic.TcCoe Idealize.ShloMosaic.Tactic
open Idealize.SL.Sem
open Cert.KernelIdeal Cert.KernelIdeal.Gen
open Idealize.ShloMosaic.Pipeline (Dat)
open scoped BigOperators

/-! ## What each case of the body leaves in its outputs, as values of the loaded blocks -/

section Pieces
variable {F : FTy → Type} [FloatOps F]

theorem reduce5_hz : (![0, 0] : Fin 2 → Nat) = fun _ => 0 := funext fun a => by fin_cases a <;> rfl

/-- First point: the output block holds the input block plus the bias row. -/
theorem reduce5_A_2 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond5_0 i)
    (x0 : Vec F S5000x128 .f32) (x1 : Vec F S1x128 .f32) :
    out5_A_2 c i arg1 harg1 arg2 harg2 arg3 harg3 arg4 harg4 arg5 harg5 hc0 x0 x1 = k5_pay1 x0 x1 := by
  unfold out5_A_2
  rw [View.read_writes_eq_canon _ _ _ (cover5_A_2 c i arg1 harg1 arg2 harg2 arg3 harg3 arg4 harg4 arg5 harg5 hc0 x0 x1)]
  unfold kernelRun5_A
  dsimp only
  sl_unfold_words
  rw [View.canon_unit_zero reduce5_hz]
  simp only [View.readAt_eq_ld, harg1.read_unread, harg2.read_unread, View.ld_unit_zero (S := S5000x128) reduce5_hz,
    View.ld_unit_zero (S := S1x128) reduce5_hz]

/-- Later points: the same. -/
theorem reduce5_B_2 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond5_0 i)
    (x0 : Vec F S5000x128 .f32) (x1 : Vec F S1x128 .f32) (xo3 xo4 : Vec F S1x128 .f32) :
    out5_B_2 c i arg1 harg1 arg2 harg2 arg3 harg3 arg4 harg4 arg5 harg5 hc0 x0 x1 xo3 xo4 = k5_pay1 x0 x1 := by
  unfold out5_B_2
  rw [View.read_writes_eq_canon _ _ _ (cover5_B_2 c i arg1 harg1 arg2 harg2 arg3 harg3 arg4 harg4 arg5 harg5 hc0 x0 x1 xo3 xo4)]
  unfold kernelRun5_B
  dsimp only
  sl_unfold_words
  rw [View.canon_unit_zero reduce5_hz]
  simp only [View.readAt_eq_ld, harg1.read_unread, harg2.read_unread, View.ld_unit_zero (S := S5000x128) reduce5_hz,
    View.ld_unit_zero (S := S1x128) reduce5_hz]

/-- First point: the running sum is zeroed, read back, and the block's column sums are added to it. -/
theorem reduce5_A_3 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond5_0 i)
    (x0 : Vec F S5000x128 .f32) (x1 : Vec F S1x128 .f32) :
    out5_A_3 c i arg1 harg1 arg2 harg2 arg3 harg3 arg4 harg4 arg5 harg5 hc0 x0 x1 = k5_pay4 x0 x1 (k5_pay2 (F := F)) := by
  unfold out5_A_3
  rw [View.read_writes_eq_canon _ _ _ (cover5_A_3 c i arg1 harg1 arg2 harg2 arg3 harg3 arg4 harg4 arg5 harg5 hc0 x0 x1)]
  unfold kernelRun5_A
  dsimp only
  sl_unfold_words
  rw [View.canon_cons_unit_zero (S := S1x128) reduce5_hz]
  simp only [View.readCov_unit_zero (S := S1x128) _ reduce5_hz, View.readAt_eq_ld, harg1.read_unread, harg2.read_unread,
    View.ld_unit_zero (S := S5000x128) reduce5_hz, View.ld_unit_zero (S := S1x128) reduce5_hz]

/-- First point: likewise the running sum of squares. -/
theorem reduce5_A_4 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond5_0 i)
    (x0 : Vec F S5000x128 .f32) (x1 : Vec F S1x128 .f32) :
    out5_A_4 c i arg1 harg1 arg2 harg2 arg3 harg3 arg4 harg4 arg5 harg5 hc0 x0 x1 = k5_pay5 x0 x1 (k5_pay3 (F := F)) := by
  unfold out5_A_4
  rw [View.read_writes_eq_canon _ _ _ (cover5_A_4 c i arg1 harg1 arg2 harg2 arg3 harg3 arg4 harg4 arg5 harg5 hc0 x0 x1)]
  unfold kernelRun5_A
  dsimp only
  sl_unfold_words
  rw [View.canon_cons_unit_zero (S := S1x128) reduce5_hz]
  simp only [View.readCov_unit_zero (S := S1x128) _ reduce5_hz, View.readAt_eq_ld, harg1.read_unread, harg2.read_unread,
    View.ld_unit_zero (S := S5000x128) reduce5_hz, View.ld_unit_zero (S := S1x128) reduce5_hz]

/-- Later points: the block's column sums are added to the running sum the point before left. -/
theorem reduce5_B_3 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond5_0 i)
    (x0 : Vec F S5000x128 .f32) (x1 : Vec F S1x128 .f32) (xo3 xo4 : Vec F S1x128 .f32) :
    out5_B_3 c i arg1 harg1 arg2 harg2 arg3 harg3 arg4 harg4 arg5 harg5 hc0 x0 x1 xo3 xo4 = k5_pay4 x0 x1 xo3 := by
  unfold out5_B_3
  rw [View.read_writes_eq_canon _ _ _ (cover5_B_3 c i arg1 harg1 arg2 harg2 arg3 harg3 arg4 harg4 arg5 harg5 hc0 x0 x1 xo3 xo4)]
  unfold kernelRun5_B
  dsimp only
  sl_unfold_words
  rw [View.canon_unit_zero reduce5_hz]
  simp only [View.readAt_eq_ld, harg1.read_unread, harg2.read_unread, harg4.read_unread, harg5.read_unread,
    View.ld_unit_zero (S := S5000x128) reduce5_hz, View.ld_unit_zero (S := S1x128) reduce5_hz]

/-- Later points: likewise the running sum of squares. -/
theorem reduce5_B_4 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond5_0 i)
    (x0 : Vec F S5000x128 .f32) (x1 : Vec F S1x128 .f32) (xo3 xo4 : Vec F S1x128 .f32) :
    out5_B_4 c i arg1 harg1 arg2 harg2 arg3 harg3 arg4 harg4 arg5 harg5 hc0 x0 x1 xo3 xo4 = k5_pay5 x0 x1 xo4 := by
  unfold out5_B_4
  rw [View.read_writes_eq_canon _ _ _ (cover5_B_4 c i arg1 harg1 arg2 harg2 arg3 harg3 arg4 harg4 arg5 harg5 hc0 x0 x1 xo3 xo4)]
  unfold kernelRun5_B
  dsimp only
  sl_unfold_words
  rw [View.canon_unit_zero reduce5_hz]
  simp only [View.readAt_eq_ld, harg1.read_unread, harg2.read_unread, harg4.read_unread, harg5.read_unread,
    View.ld_unit_zero (S := S5000x128) reduce5_hz, View.ld_unit_zero (S := S1x128) reduce5_hz]

/-! ## The outputs after each point, over the blocks at that point -/

variable (V : (c : Dev nD) → (b : Ref sig .tc) → Buf (Elt F) ((c : Thread nD τ).loc b))

/-- After any point the output block holds that point's input block plus the bias row. -/
theorem reduce5_outs_agg (c : Dev nD) (t : Fin cfg5.N) :
    (outsAt5 V c t.val t.isLt).1 = k5_pay1 (iblk5 V c 0 t) (iblk5 V c 1 t) := by
  by_cases h0 : t.val % 20 = 0
  · rw [outsAt5_A V c t h0]
    dsimp only
    exact reduce5_A_2 c (grid5.coords t) (ms5_0 t) (hs5_0 t) (ms5_1 t) (hs5_1 t) (ms5_2 t) (hs5_2 t) (ms5_3 t) (hs5_3 t) (ms5_4 t) (hs5_4 t) ((hcond5_0 t).mpr h0) (iblk5 V c 0 t) (iblk5 V c 1 t)
  · rw [outsAt5_B V c t h0]
    dsimp only
    exact reduce5_B_2 c (grid5.coords t) (ms5_0 t) (hs5_0 t) (ms5_1 t) (hs5_1 t) (ms5_2 t) (hs5_2 t) (ms5_3 t) (hs5_3 t) (ms5_4 t) (hs5_4 t) (fun h => h0 ((hcond5_0 t).mp h)) (iblk5 V c 0 t) (iblk5 V c 1 t)
      (outsAt5 V c (t.val - 1) (Nat.lt_of_le_of_lt (Nat.sub_le _ _) t.isLt)).2.1 (outsAt5 V c (t.val - 1) (Nat.lt_of_le_of_lt (Nat.sub_le _ _) t.isLt)).2.2

/-- After the first point the running sum is the zero row plus the first block's column sums. -/
theorem reduce5_outs_sum_zero (c : Dev nD) (h : 0 < cfg5.N) :
    (outsAt5 V c 0 h).2.1 = k5_pay4 (iblk5 V c 0 ⟨0, h⟩) (iblk5 V c 1 ⟨0, h⟩) (k5_pay2 (F := F)) := by
  rw [outsAt5_A V c ⟨0, h⟩ rfl]
  dsimp only
  exact reduce5_A_3 c (grid5.coords ⟨0, h⟩) (ms5_0 ⟨0, h⟩) (hs5_0 ⟨0, h⟩) (ms5_1 ⟨0, h⟩) (hs5_1 ⟨0, h⟩) (ms5_2 ⟨0, h⟩) (hs5_2 ⟨0, h⟩) (ms5_3 ⟨0, h⟩) (hs5_3 ⟨0, h⟩) (ms5_4 ⟨0, h⟩) (hs5_4 ⟨0, h⟩) ((hcond5_0 ⟨0, h⟩).mpr rfl) (iblk5 V c 0 ⟨0, h⟩) (iblk5 V c 1 ⟨0, h⟩)

/-- After the first point the running sum of squares is the zero row plus the first block's column sums of squares. -/
theorem reduce5_outs_sumsq_zero (c : Dev nD) (h : 0 < cfg5.N) :
    (outsAt5 V c 0 h).2.2 = k5_pay5 (iblk5 V c 0 ⟨0, h⟩) (iblk5 V c 1 ⟨0, h⟩) (k5_pay3 (F := F)) := by
  rw [outsAt5_A V c ⟨0, h⟩ rfl]
  dsimp only
  exact reduce5_A_4 c (grid5.coords ⟨0, h⟩) (ms5_0 ⟨0, h⟩) (hs5_0 ⟨0, h⟩) (ms5_1 ⟨0, h⟩) (hs5_1 ⟨0, h⟩) (ms5_2 ⟨0, h⟩) (hs5_2 ⟨0, h⟩) (ms5_3 ⟨0, h⟩) (hs5_3 ⟨0, h⟩) (ms5_4 ⟨0, h⟩) (hs5_4 ⟨0, h⟩) ((hcond5_0 ⟨0, h⟩).mpr rfl) (iblk5 V c 0 ⟨0, h⟩) (iblk5 V c 1 ⟨0, h⟩)

/-- After a later point the running sum is what the point before left plus this block's column sums. -/
theorem reduce5_outs_sum_succ (c : Dev nD) (n : ℕ) (h : n + 1 < cfg5.N) :
    (outsAt5 V c (n + 1) h).2.1
      = k5_pay4 (iblk5 V c 0 ⟨n + 1, h⟩) (iblk5 V c 1 ⟨n + 1, h⟩) (outsAt5 V c n (Nat.lt_of_succ_lt h)).2.1 := by
  have hN : cfg5.N = 20 := N_5
  have hB : ¬(⟨n + 1, h⟩ : Fin cfg5.N).val % 20 = 0 := by dsimp only; omega
  rw [outsAt5_B V c ⟨n + 1, h⟩ hB]
  dsimp only
  exact reduce5_B_3 c (grid5.coords ⟨n + 1, h⟩) (ms5_0 ⟨n + 1, h⟩) (hs5_0 ⟨n + 1, h⟩) (ms5_1 ⟨n + 1, h⟩) (hs5_1 ⟨n + 1, h⟩) (ms5_2 ⟨n + 1, h⟩) (hs5_2 ⟨n + 1, h⟩) (ms5_3 ⟨n + 1, h⟩) (hs5_3 ⟨n + 1, h⟩) (ms5_4 ⟨n + 1, h⟩) (hs5_4 ⟨n + 1, h⟩) (fun h' => hB ((hcond5_0 ⟨n + 1, h⟩).mp h')) (iblk5 V c 0 ⟨n + 1, h⟩) (iblk5 V c 1 ⟨n + 1, h⟩)
    (outsAt5 V c n (Nat.lt_of_succ_lt h)).2.1 (outsAt5 V c n (Nat.lt_of_succ_lt h)).2.2

/-- After a later point the running sum of squares is what the point before left plus this block's column sums of squares. -/
theorem reduce5_outs_sumsq_succ (c : Dev nD) (n : ℕ) (h : n + 1 < cfg5.N) :
    (outsAt5 V c (n + 1) h).2.2
      = k5_pay5 (iblk5 V c 0 ⟨n + 1, h⟩) (iblk5 V c 1 ⟨n + 1, h⟩) (outsAt5 V c n (Nat.lt_of_succ_lt h)).2.2 := by
  have hN : cfg5.N = 20 := N_5
  have hB : ¬(⟨n + 1, h⟩ : Fin cfg5.N).val % 20 = 0 := by dsimp only; omega
  rw [outsAt5_B V c ⟨n + 1, h⟩ hB]
  dsimp only
  exact reduce5_B_4 c (grid5.coords ⟨n + 1, h⟩) (ms5_0 ⟨n + 1, h⟩) (hs5_0 ⟨n + 1, h⟩) (ms5_1 ⟨n + 1, h⟩) (hs5_1 ⟨n + 1, h⟩) (ms5_2 ⟨n + 1, h⟩) (hs5_2 ⟨n + 1, h⟩) (ms5_3 ⟨n + 1, h⟩) (hs5_3 ⟨n + 1, h⟩) (ms5_4 ⟨n + 1, h⟩) (hs5_4 ⟨n + 1, h⟩) (fun h' => hB ((hcond5_0 ⟨n + 1, h⟩).mp h')) (iblk5 V c 0 ⟨n + 1, h⟩) (iblk5 V c 1 ⟨n + 1, h⟩)
    (outsAt5 V c n (Nat.lt_of_succ_lt h)).2.1 (outsAt5 V c n (Nat.lt_of_succ_lt h)).2.2

end Pieces

/-! ## The body's values at an index, at the ideal values -/

section Payloads

/-- The first value the body computes, at row p and column q of a block: the block's entry plus the bias row's
    entry in that column (the [1,128] row is broadcast down the 5000 rows). -/
theorem reduce5_pay1_apply (x0 : Vec Ideal S5000x128 .f32) (x1 : Vec Ideal S1x128 .f32) (p : Fin 5000) (q : Fin 128) :
    k5_pay1 (F := Ideal) x0 x1 (ix2 p q) = x0 (ix2 p q) + x1 (ix2 (0 : Fin 1) q) := by
  unfold k5_pay1
  show shapeCast S5000x128 x0 shapeCasts_S5000x128_S5000x128 (ix2 p q)
      + broadcastTo S5000x128 (shapeCast S1x128 x1 shapeCasts_S1x128_S1x128) broadcasts_S1x128_S5000x128 (ix2 p q) = _
  rw [shapeCast_self, shapeCast_self]
  exact congrArg (fun z => x0 (ix2 p q) + z)
    (Cert.Lib.Rows.broadcastTo_row_apply (R := 5000) (C := 128) x1 broadcasts_S1x128_S5000x128 p q)

/-- The zero row the first point stores into the running sum reads zero. -/
theorem reduce5_pay2_apply (q : Fin 128) : k5_pay2 (F := Ideal) (ix2 (0 : Fin 1) q) = 0 := by
  unfold k5_pay2
  show Ideal.ofBits .f32 0x00000000#32 = 0
  exact Ideal.ofBits_zero_f32

/-- The zero row the first point stores into the running sum of squares reads zero. -/
theorem reduce5_pay3_apply (q : Fin 128) : k5_pay3 (F := Ideal) (ix2 (0 : Fin 1) q) = 0 := by
  unfold k5_pay3
  show Ideal.ofBits .f32 0x00000000#32 = 0
  exact Ideal.ofBits_zero_f32

/-- The running sum after a point, at column q: what it held before plus the sum down column q of the block's
    5000 rows of the first value. -/
theorem reduce5_pay4_apply (x0 : Vec Ideal S5000x128 .f32) (x1 : Vec Ideal S1x128 .f32) (v10 : Vec Ideal S1x128 .f32)
    (q : Fin 128) :
    k5_pay4 (F := Ideal) x0 x1 v10 (ix2 (0 : Fin 1) q)
      = v10 (ix2 (0 : Fin 1) q) + ∑ p : Fin 5000, (x0 (ix2 p q) + x1 (ix2 (0 : Fin 1) q)) := by
  unfold k5_pay4
  show shapeCast S1x128 v10 shapeCasts_S1x128_S1x128 (ix2 (0 : Fin 1) q)
      + shapeCast S1x128 (multiReduction (F := Ideal) .add [0] S128 (k5_pay1 x0 x1) 0x00000000#32 reduces_S5000x128_S128 (.inl rfl) rfl)
          shapeCasts_S128_S1x128 (ix2 (0 : Fin 1) q) = _
  rw [shapeCast_self]
  refine congrArg (fun z => v10 (ix2 (0 : Fin 1) q) + z) ?_
  refine (Cert.Lib.Rows.shapeCast_vec_row_apply (C := 128) _ shapeCasts_S128_S1x128 q).trans ?_
  refine (Cert.Lib.ColumnReduce.multiReduction_rows_apply (a := 5000) (b := 128) (k5_pay1 x0 x1) reduces_S5000x128_S128 q).trans ?_
  exact Finset.sum_congr rfl fun p _ => reduce5_pay1_apply x0 x1 p q

/-- The running sum of squares after a point, at column q: what it held before plus the sum down column q of the
    block's 5000 rows of the first value's square. -/
theorem reduce5_pay5_apply (x0 : Vec Ideal S5000x128 .f32) (x1 : Vec Ideal S1x128 .f32) (v16 : Vec Ideal S1x128 .f32)
    (q : Fin 128) :
    k5_pay5 (F := Ideal) x0 x1 v16 (ix2 (0 : Fin 1) q)
      = v16 (ix2 (0 : Fin 1) q)
        + ∑ p : Fin 5000, ((x0 (ix2 p q) + x1 (ix2 (0 : Fin 1) q)) * (x0 (ix2 p q) + x1 (ix2 (0 : Fin 1) q))) := by
  unfold k5_pay5
  show shapeCast S1x128 v16 shapeCasts_S1x128_S1x128 (ix2 (0 : Fin 1) q)
      + shapeCast S1x128 (multiReduction (F := Ideal) .add [0] S128 (mulf (k5_pay1 x0 x1) (k5_pay1 x0 x1)) 0x00000000#32
            reduces_S5000x128_S128 (.inl rfl) rfl)
          shapeCasts_S128_S1x128 (ix2 (0 : Fin 1) q) = _
  rw [shapeCast_self]
  refine congrArg (fun z => v16 (ix2 (0 : Fin 1) q) + z) ?_
  refine (Cert.Lib.Rows.shapeCast_vec_row_apply (C := 128) _ shapeCasts_S128_S1x128 q).trans ?_
  refine (Cert.Lib.ColumnReduce.multiReduction_rows_apply (a := 5000) (b := 128) (mulf (k5_pay1 x0 x1) (k5_pay1 x0 x1))
    reduces_S5000x128_S128 q).trans ?_
  refine Finset.sum_congr rfl fun p _ => ?_
  show k5_pay1 (F := Ideal) x0 x1 (ix2 p q) * k5_pay1 (F := Ideal) x0 x1 (ix2 p q) = _
  rw [reduce5_pay1_apply]

end Payloads

/-! ## The blocks the windows read, as entries of the region's input arrays -/

section Values
variable (V : (c : Dev nD) → (b : Ref sig .tc) → Buf (Elt Ideal) ((c : Thread nD τ).loc b)) (c : Dev nD)
variable (A0 : S100000x128.Idx → EReal) (A1 : S1x128.Idx → EReal)

/-- Where the windows' blocks sit at each grid point, decided over the 20 points: the row blocks of the input and of
    the first output are block t of the rows; the bias row and the two running rows never move. -/
theorem reduce5_idx : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Row l of block k of the 20 blocks of 5000 rows is a row of the array. -/
theorem reduce5_row_lt {n : ℕ} (hn : n < cfg5.N) (k : Fin (n + 1)) (l : Fin 5000) : 5000 * k.val + l.val < 100000 := by
  have hN : cfg5.N = 20 := N_5
  have := k.isLt
  have := l.isLt
  omega

/-- The input block at point t, at (p, q), is the input array at row 5000 t + p, column q. -/
theorem reduce5_iblk0_apply (h0 : V c (Pipeline.arrRef spec5 0) = A0) (t : Fin cfg5.N) (p : Fin 5000) (q : Fin 128)
    (hr : 5000 * t.val + p.val < 100000) :
    (iblk5 (F := Ideal) V c 0 t : Vec Ideal S5000x128 .f32) (ix2 p q) = A0 (ix2 ⟨5000 * t.val + p.val, hr⟩ q) := by
  subst h0
  obtain ⟨e0, e1, -⟩ := reduce5_idx t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 5000 + 1 * p.val = 5000 * t.val + p.val; rw [e0]; omega
  | ⟨1, _⟩ => show win5_0.index t (1 : Fin 2) * 128 + 1 * q.val = q.val; rw [e1]; omega

/-- The bias block at every point, at (0, q), is the bias row at column q. -/
theorem reduce5_iblk1_apply (h1 : V c (Pipeline.arrRef spec5 1) = A1) (t : Fin cfg5.N) (q : Fin 128) :
    (iblk5 (F := Ideal) V c 1 t : Vec Ideal S1x128 .f32) (ix2 (0 : Fin 1) q) = A1 (ix2 (0 : Fin 1) q) := by
  subst h1
  obtain ⟨-, -, e0, e1, -⟩ := reduce5_idx t
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 1 + 1 * 0 = 0; rw [e0]
  | ⟨1, _⟩ => show win5_1.index t (1 : Fin 2) * 128 + 1 * q.val = q.val; rw [e1]; omega

/-! ## The running sums after each point -/

/-- What a point adds to the running sum at column q: the sum, down column q, of the point's 5000 rows of the input
    plus the bias. -/
theorem reduce5_block_sum (h0 : V c (Pipeline.arrRef spec5 0) = A0) (h1 : V c (Pipeline.arrRef spec5 1) = A1)
    (t : Fin cfg5.N) (xo : Vec Ideal S1x128 .f32) (q : Fin 128)
    (hr : ∀ l : Fin 5000, 5000 * t.val + l.val < 100000) :
    k5_pay4 (F := Ideal) (iblk5 V c 0 t) (iblk5 V c 1 t) xo (ix2 (0 : Fin 1) q)
      = xo (ix2 (0 : Fin 1) q) + ∑ l : Fin 5000, (A0 (ix2 ⟨5000 * t.val + l.val, hr l⟩ q) + A1 (ix2 (0 : Fin 1) q)) := by
  refine (reduce5_pay4_apply (iblk5 V c 0 t) (iblk5 V c 1 t) xo q).trans ?_
  refine congrArg (fun z => xo (ix2 (0 : Fin 1) q) + z) (Finset.sum_congr rfl fun l _ => ?_)
  rw [reduce5_iblk0_apply V c A0 h0 t l q (hr l), reduce5_iblk1_apply V c A1 h1 t q]

/-- What a point adds to the running sum of squares at column q. -/
theorem reduce5_block_sumsq (h0 : V c (Pipeline.arrRef spec5 0) = A0) (h1 : V c (Pipeline.arrRef spec5 1) = A1)
    (t : Fin cfg5.N) (xo : Vec Ideal S1x128 .f32) (q : Fin 128)
    (hr : ∀ l : Fin 5000, 5000 * t.val + l.val < 100000) :
    k5_pay5 (F := Ideal) (iblk5 V c 0 t) (iblk5 V c 1 t) xo (ix2 (0 : Fin 1) q)
      = xo (ix2 (0 : Fin 1) q) + ∑ l : Fin 5000, ((A0 (ix2 ⟨5000 * t.val + l.val, hr l⟩ q) + A1 (ix2 (0 : Fin 1) q)) * (A0 (ix2 ⟨5000 * t.val + l.val, hr l⟩ q) + A1 (ix2 (0 : Fin 1) q))) := by
  refine (reduce5_pay5_apply (iblk5 V c 0 t) (iblk5 V c 1 t) xo q).trans ?_
  refine congrArg (fun z => xo (ix2 (0 : Fin 1) q) + z) (Finset.sum_congr rfl fun l _ => ?_)
  rw [reduce5_iblk0_apply V c A0 h0 t l q (hr l), reduce5_iblk1_apply V c A1 h1 t q]

/-- THE RUNNING SUM: after point n the sum row holds, at column q, the sum over the first n + 1 blocks of 5000 rows of
    the input plus the bias — by induction on the point: the first point starts from the zero row, each later point
    adds its block's column sum to what the point before left. -/
theorem reduce5_sum_inv (h0 : V c (Pipeline.arrRef spec5 0) = A0) (h1 : V c (Pipeline.arrRef spec5 1) = A1)
    (q : Fin 128) : ∀ (n : ℕ) (hn : n < cfg5.N),
    (outsAt5 (F := Ideal) V c n hn).2.1 (ix2 (0 : Fin 1) q)
      = ∑ k : Fin (n + 1), ∑ l : Fin 5000, (A0 (ix2 ⟨5000 * k.val + l.val, reduce5_row_lt hn k l⟩ q) + A1 (ix2 (0 : Fin 1) q))
  | 0, hn => by
    rw [reduce5_outs_sum_zero V c hn]
    refine (reduce5_block_sum V c A0 A1 h0 h1 ⟨0, hn⟩ (k5_pay2 (F := Ideal)) q (fun l => reduce5_row_lt hn 0 l)).trans ?_
    rw [reduce5_pay2_apply, zero_add, Fin.sum_univ_one]
    rfl
  | n + 1, hn => by
    rw [reduce5_outs_sum_succ V c n hn]
    refine (reduce5_block_sum V c A0 A1 h0 h1 ⟨n + 1, hn⟩ _ q (fun l => reduce5_row_lt hn (Fin.last (n + 1)) l)).trans ?_
    rw [reduce5_sum_inv h0 h1 q n (Nat.lt_of_succ_lt hn), Fin.sum_univ_castSucc (n := n + 1)]
    rfl

/-- THE RUNNING SUM OF SQUARES, likewise. -/
theorem reduce5_sumsq_inv (h0 : V c (Pipeline.arrRef spec5 0) = A0) (h1 : V c (Pipeline.arrRef spec5 1) = A1)
    (q : Fin 128) : ∀ (n : ℕ) (hn : n < cfg5.N),
    (outsAt5 (F := Ideal) V c n hn).2.2 (ix2 (0 : Fin 1) q)
      = ∑ k : Fin (n + 1), ∑ l : Fin 5000, ((A0 (ix2 ⟨5000 * k.val + l.val, reduce5_row_lt hn k l⟩ q) + A1 (ix2 (0 : Fin 1) q)) * (A0 (ix2 ⟨5000 * k.val + l.val, reduce5_row_lt hn k l⟩ q) + A1 (ix2 (0 : Fin 1) q)))
  | 0, hn => by
    rw [reduce5_outs_sumsq_zero V c hn]
    refine (reduce5_block_sumsq V c A0 A1 h0 h1 ⟨0, hn⟩ (k5_pay3 (F := Ideal)) q (fun l => reduce5_row_lt hn 0 l)).trans ?_
    rw [reduce5_pay3_apply, zero_add, Fin.sum_univ_one]
    rfl
  | n + 1, hn => by
    rw [reduce5_outs_sumsq_succ V c n hn]
    refine (reduce5_block_sumsq V c A0 A1 h0 h1 ⟨n + 1, hn⟩ _ q (fun l => reduce5_row_lt hn (Fin.last (n + 1)) l)).trans ?_
    rw [reduce5_sumsq_inv h0 h1 q n (Nat.lt_of_succ_lt hn), Fin.sum_univ_castSucc (n := n + 1)]
    rfl

/-- The last point. -/
theorem reduce5_last_lt : 19 < cfg5.N := by rw [show cfg5.N = 20 from N_5]; decide

/-- The 20 blocks of 5000 rows are all 100000 rows: a sum over the blocks of the sums inside each is the sum over
    the rows. -/
theorem reduce5_sum_rows {M : Type*} [AddCommMonoid M] (f : Fin 100000 → M) :
    ∑ k : Fin (19 + 1), ∑ l : Fin 5000, f ⟨5000 * k.val + l.val, reduce5_row_lt reduce5_last_lt k l⟩ = ∑ r : Fin 100000, f r :=
  (Cert.LibBlockSumGen.sum_blocks (n := 100000) (K := 20) (B := 5000) rfl f).symm

/-! ## From the blocks written back to the arrays after the region -/

/-- The first output array after the region, as one function of the input arrays: the input plus the bias row. -/
abbrev reduce5_agg_fn : S100000x128.Idx → EReal :=
  fun i => A0 i + A1 (ix2 (0 : Fin 1) (i 1))

/-- What point t writes back to the first output is block t of that function. -/
theorem reduce5_flushed_agg (h0 : V c (Pipeline.arrRef spec5 0) = A0) (h1 : V c (Pipeline.arrRef spec5 1) = A1)
    (t : Fin cfg5.N) :
    (dat5 (F := Ideal) V c).flushed 2 t = ((cfg5.win 2).blk t).view.read (Elt Ideal) (reduce5_agg_fn A0 A1) := by
  show (cfg5.win 2).cut (grid5.coords t) ((dat5 (F := Ideal) V c).after 2 t) = _
  rw [after5_2, reduce5_outs_agg V c t]
  obtain ⟨-, -, -, -, e0, e1, -⟩ := reduce5_idx t
  have hN : cfg5.N = 20 := N_5
  show (k5_pay1 (F := Ideal) (iblk5 V c 0 t) (iblk5 V c 1 t) : S5000x128.Idx → EReal)
    = fun j : S5000x128.Idx => reduce5_agg_fn A0 A1 (((cfg5.win 2).blk t).view.emb j)
  funext j
  obtain ⟨p, q, rfl⟩ : ∃ (p : Fin 5000) (q : Fin 128), j = ix2 p q := ⟨j 0, j 1, eq_ix2 j⟩
  have hr : 5000 * t.val + p.val < 100000 := by have := t.isLt; have := p.isLt; omega
  have he : ((cfg5.win 2).blk t).view.emb (ix2 p q) = (ix2 ⟨5000 * t.val + p.val, hr⟩ q : S100000x128.Idx) := by
    funext a
    apply Fin.ext
    match a with
    | ⟨0, _⟩ => show win5_2.index t (0 : Fin 2) * 5000 + 1 * p.val = 5000 * t.val + p.val; rw [e0]; omega
    | ⟨1, _⟩ => show win5_2.index t (1 : Fin 2) * 128 + 1 * q.val = q.val; rw [e1]; omega
  rw [he]
  refine (reduce5_pay1_apply (iblk5 V c 0 t) (iblk5 V c 1 t) p q).trans ?_
  rw [reduce5_iblk0_apply V c A0 h0 t p q hr, reduce5_iblk1_apply V c A1 h1 t q]

/-- An index of the first output array is in point t's block iff each coordinate is in the block's range. -/
theorem reduce5_mem_blk_agg (t : Fin cfg5.N) (i : S100000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v97_0).slice (win5_2.rect t)).set ↔ _
  rw [View.set_slice_whole, Rect.mem_set_unit]
  exact Iff.rfl

/-- THE FIRST OUTPUT ARRAY after the region: every row r lies in the block of point r / 5000, which is written back. -/
theorem reduce5_agg_final (h0 : V c (Pipeline.arrRef spec5 0) = A0) (h1 : V c (Pipeline.arrRef spec5 1) = A1) :
    (dat5 (F := Ideal) V c).arrAt 2 cfg5.N = reduce5_agg_fn A0 A1 :=
  (dat5 (F := Ideal) V c).arrAt_eq_of_cover 2 (reduce5_agg_fn A0 A1) (fun t _ => reduce5_flushed_agg V c A0 A1 h0 h1 t) fun i => by
    have hN : cfg5.N = 20 := N_5
    have hi0 : (i 0).val < 100000 := (i 0).isLt
    have hi1 : (i 1).val < 128 := (i 1).isLt
    have ht : (i 0).val / 5000 < cfg5.N := by omega
    obtain ⟨-, -, -, -, e0, e1, -⟩ := reduce5_idx ⟨(i 0).val / 5000, ht⟩
    refine ⟨⟨(i 0).val / 5000, ht⟩, flush5_2 _, ?_⟩
    rw [reduce5_mem_blk_agg]
    intro a
    match a with
    | ⟨0, _⟩ =>
      show win5_2.index ⟨(i 0).val / 5000, ht⟩ (0 : Fin 2) * 5000 ≤ (i 0).val
        ∧ (i 0).val < win5_2.index ⟨(i 0).val / 5000, ht⟩ (0 : Fin 2) * 5000 + 5000
      rw [e0]; dsimp only; omega
    | ⟨1, _⟩ =>
      show win5_2.index ⟨(i 0).val / 5000, ht⟩ (1 : Fin 2) * 128 ≤ (i 1).val
        ∧ (i 1).val < win5_2.index ⟨(i 0).val / 5000, ht⟩ (1 : Fin 2) * 128 + 128
      rw [e1]; omega

/-- The sum row's one write-back, at the last point, writes what the last point left: the row's one block is the
    whole [1,128] array. -/
theorem reduce5_flushed_sum (t : Fin cfg5.N) (hf : (cfg5.win 3).flush t = true) :
    (dat5 (F := Ideal) V c).flushed 3 t
      = ((cfg5.win 3).blk t).view.read (Elt Ideal) (outsAt5 (F := Ideal) V c 19 reduce5_last_lt).2.1 := by
  have hN : cfg5.N = 20 := N_5
  have h19 : t.val = 19 := by have := (flush5_3 t).mp hf; have := t.isLt; omega
  obtain rfl : t = ⟨19, reduce5_last_lt⟩ := Fin.ext h19
  obtain ⟨-, -, -, -, -, -, e0, e1, -⟩ := reduce5_idx ⟨19, reduce5_last_lt⟩
  show (cfg5.win 3).cut (grid5.coords ⟨19, reduce5_last_lt⟩) ((dat5 (F := Ideal) V c).after 3 ⟨19, reduce5_last_lt⟩) = _
  rw [after5_3]
  have hz' : (fun a => win5_3.index ⟨19, reduce5_last_lt⟩ a * main_v97_1.ty.shape.size a) = fun _ => 0 :=
    funext fun a => by
      match a with
      | ⟨0, _⟩ => show win5_3.index ⟨19, reduce5_last_lt⟩ (0 : Fin 2) * 1 = 0; rw [e0]
      | ⟨1, _⟩ => show win5_3.index ⟨19, reduce5_last_lt⟩ (1 : Fin 2) * 128 = 0; rw [e1]
  exact (Memref.read_access_unit_zero (Elt Ideal) main_v97_1 hz' (fun a => by rw [congrFun hz' a]; simp)
    (outsAt5 (F := Ideal) V c 19 reduce5_last_lt).2.1).symm

/-- The sum of squares row's one write-back, likewise. -/
theorem reduce5_flushed_sumsq (t : Fin cfg5.N) (hf : (cfg5.win 4).flush t = true) :
    (dat5 (F := Ideal) V c).flushed 4 t
      = ((cfg5.win 4).blk t).view.read (Elt Ideal) (outsAt5 (F := Ideal) V c 19 reduce5_last_lt).2.2 := by
  have hN : cfg5.N = 20 := N_5
  have h19 : t.val = 19 := by have := (flush5_4 t).mp hf; have := t.isLt; omega
  obtain rfl : t = ⟨19, reduce5_last_lt⟩ := Fin.ext h19
  obtain ⟨-, -, -, -, -, -, -, -, e0, e1⟩ := reduce5_idx ⟨19, reduce5_last_lt⟩
  show (cfg5.win 4).cut (grid5.coords ⟨19, reduce5_last_lt⟩) ((dat5 (F := Ideal) V c).after 4 ⟨19, reduce5_last_lt⟩) = _
  rw [after5_4]
  have hz' : (fun a => win5_4.index ⟨19, reduce5_last_lt⟩ a * main_v97_2.ty.shape.size a) = fun _ => 0 :=
    funext fun a => by
      match a with
      | ⟨0, _⟩ => show win5_4.index ⟨19, reduce5_last_lt⟩ (0 : Fin 2) * 1 = 0; rw [e0]
      | ⟨1, _⟩ => show win5_4.index ⟨19, reduce5_last_lt⟩ (1 : Fin 2) * 128 = 0; rw [e1]
  exact (Memref.read_access_unit_zero (Elt Ideal) main_v97_2 hz' (fun a => by rw [congrFun hz' a]; simp)
    (outsAt5 (F := Ideal) V c 19 reduce5_last_lt).2.2).symm

/-- The sum row after the region is what the last point left in its staging buffer: the last point's block covers it. -/
theorem reduce5_sum_final :
    (dat5 (F := Ideal) V c).arrAt 3 cfg5.N = (outsAt5 (F := Ideal) V c 19 reduce5_last_lt).2.1 :=
  (dat5 (F := Ideal) V c).arrAt_eq_of_cover 3 _ (reduce5_flushed_sum V c) fun i => by
    obtain ⟨-, -, -, -, -, -, e0, e1, -⟩ := reduce5_idx ⟨19, reduce5_last_lt⟩
    refine ⟨⟨19, reduce5_last_lt⟩, (flush5_3 _).mpr rfl, ?_⟩
    show i ∈ ((View.whole main_v97_1).slice (win5_3.rect ⟨19, reduce5_last_lt⟩)).set
    rw [View.set_slice_whole, Rect.mem_set_unit]
    intro a
    have h0 : (i 0 : Nat) < 1 := (i 0).isLt
    have h1 : (i 1 : Nat) < 128 := (i 1).isLt
    match a with
    | ⟨0, _⟩ =>
      show win5_3.index ⟨19, reduce5_last_lt⟩ (0 : Fin 2) * 1 ≤ (i 0 : Nat)
        ∧ (i 0 : Nat) < win5_3.index ⟨19, reduce5_last_lt⟩ (0 : Fin 2) * 1 + 1
      rw [e0]; omega
    | ⟨1, _⟩ =>
      show win5_3.index ⟨19, reduce5_last_lt⟩ (1 : Fin 2) * 128 ≤ (i 1 : Nat)
        ∧ (i 1 : Nat) < win5_3.index ⟨19, reduce5_last_lt⟩ (1 : Fin 2) * 128 + 128
      rw [e1]; omega

/-- The sum of squares row after the region, likewise. -/
theorem reduce5_sumsq_final :
    (dat5 (F := Ideal) V c).arrAt 4 cfg5.N = (outsAt5 (F := Ideal) V c 19 reduce5_last_lt).2.2 :=
  (dat5 (F := Ideal) V c).arrAt_eq_of_cover 4 _ (reduce5_flushed_sumsq V c) fun i => by
    obtain ⟨-, -, -, -, -, -, -, -, e0, e1⟩ := reduce5_idx ⟨19, reduce5_last_lt⟩
    refine ⟨⟨19, reduce5_last_lt⟩, (flush5_4 _).mpr rfl, ?_⟩
    show i ∈ ((View.whole main_v97_2).slice (win5_4.rect ⟨19, reduce5_last_lt⟩)).set
    rw [View.set_slice_whole, Rect.mem_set_unit]
    intro a
    have h0 : (i 0 : Nat) < 1 := (i 0).isLt
    have h1 : (i 1 : Nat) < 128 := (i 1).isLt
    match a with
    | ⟨0, _⟩ =>
      show win5_4.index ⟨19, reduce5_last_lt⟩ (0 : Fin 2) * 1 ≤ (i 0 : Nat)
        ∧ (i 0 : Nat) < win5_4.index ⟨19, reduce5_last_lt⟩ (0 : Fin 2) * 1 + 1
      rw [e0]; omega
    | ⟨1, _⟩ =>
      show win5_4.index ⟨19, reduce5_last_lt⟩ (1 : Fin 2) * 128 ≤ (i 1 : Nat)
        ∧ (i 1 : Nat) < win5_4.index ⟨19, reduce5_last_lt⟩ (1 : Fin 2) * 128 + 128
      rw [e1]; omega

end Values

/-! ## The region's three output arrays, entry by entry -/

/-- The first output after the region, at row r and column q: the input there plus the bias at column q. -/
theorem reduce5_agg (V : (c : Dev nD) → (b : Ref sig .tc) → Buf (Elt Ideal) ((c : Thread nD τ).loc b)) (c : Dev nD)
    (A0 : S100000x128.Idx → EReal) (A1 : S1x128.Idx → EReal)
    (h0 : V c (Pipeline.arrRef spec5 0) = A0) (h1 : V c (Pipeline.arrRef spec5 1) = A1)
    (r : Fin 100000) (q : Fin 128) :
    (dat5 (F := Ideal) V c).arrAt 2 cfg5.N (ix2 r q) = A0 (ix2 r q) + A1 (ix2 (0 : Fin 1) q) := by
  rw [reduce5_agg_final V c A0 A1 h0 h1]

/-- The sum row after the region, at column q: the sum over all 100000 rows of the input plus the bias. -/
theorem reduce5_sum (V : (c : Dev nD) → (b : Ref sig .tc) → Buf (Elt Ideal) ((c : Thread nD τ).loc b)) (c : Dev nD)
    (A0 : S100000x128.Idx → EReal) (A1 : S1x128.Idx → EReal)
    (h0 : V c (Pipeline.arrRef spec5 0) = A0) (h1 : V c (Pipeline.arrRef spec5 1) = A1)
    (q : Fin 128) :
    (dat5 (F := Ideal) V c).arrAt 3 cfg5.N (ix2 (0 : Fin 1) q) = ∑ r : Fin 100000, (A0 (ix2 r q) + A1 (ix2 (0 : Fin 1) q)) := by
  rw [reduce5_sum_final V c]
  refine (reduce5_sum_inv V c A0 A1 h0 h1 q 19 reduce5_last_lt).trans ?_
  exact reduce5_sum_rows fun r => (A0 (ix2 r q) + A1 (ix2 (0 : Fin 1) q))

/-- The sum of squares row after the region, at column q: the sum over all 100000 rows of the square of the input
    plus the bias. -/
theorem reduce5_sumsq (V : (c : Dev nD) → (b : Ref sig .tc) → Buf (Elt Ideal) ((c : Thread nD τ).loc b)) (c : Dev nD)
    (A0 : S100000x128.Idx → EReal) (A1 : S1x128.Idx → EReal)
    (h0 : V c (Pipeline.arrRef spec5 0) = A0) (h1 : V c (Pipeline.arrRef spec5 1) = A1)
    (q : Fin 128) :
    (dat5 (F := Ideal) V c).arrAt 4 cfg5.N (ix2 (0 : Fin 1) q) = ∑ r : Fin 100000, ((A0 (ix2 r q) + A1 (ix2 (0 : Fin 1) q)) * (A0 (ix2 r q) + A1 (ix2 (0 : Fin 1) q))) := by
  rw [reduce5_sumsq_final V c]
  refine (reduce5_sumsq_inv V c A0 A1 h0 h1 q 19 reduce5_last_lt).trans ?_
  exact reduce5_sum_rows fun r => ((A0 (ix2 r q) + A1 (ix2 (0 : Fin 1) q)) * (A0 (ix2 r q) + A1 (ix2 (0 : Fin 1) q)))

end Cert.KernelIdeal.RegValue

end
-- ==== Proof.KLayer2B.lean ====
/-
  Graph layer 2 in the idealized kernel program: the reduction region and the host arithmetic after it.
-/
import proofs.«110479_j25572235281175_1_alg».proof.Proof.KLayer2A
import proofs.«110479_j25572235281175_1_alg».proof.Proof.LayerRead2
import proofs.«110479_j25572235281175_1_alg».proof.Proof.RegReduce5

set_option maxRecDepth 16384

noncomputable section

namespace Cert.KernelIdeal.Stages

open Idealize.ShloMosaic Idealize.ShloMosaic.TcCoe Idealize.ShloMosaic.StableHlo Idealize.ShloMosaic.ValueIdx
open Cert.KernelIdeal Cert.KernelIdeal.Gen Cert.KernelIdeal.Carry

variable (m : (ℓ : Loc nD τ sig) → Buf (Elt Ideal) ℓ) (ρ : Dev nD → PrngReg)

/-- After the reduction region: the aggregated features plus the bias, the reference's convolution. -/
theorem L2_agg (c : Dev nD) (hpre : PreOK m) : W14 m ρ c (Proc.devRef .tc main_v97_0) = (Cert.ReferenceIdeal.Layer.conv (F := Ideal) (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v84 (F := Ideal) (m ((c : Thread nD τ).loc main_arg2))) (Cert.ReferenceIdeal.ReadP.val_main_v86 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))) := by
  refine (W14_arr m ρ c 2).trans ?_
  have key : ∀ i : S100000x128.Idx, (dat5 (F := Ideal) (V13 m ρ) c).arrAt 2 cfg5.N i = (Cert.ReferenceIdeal.Layer.conv (F := Ideal) (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v84 (F := Ideal) (m ((c : Thread nD τ).loc main_arg2))) (Cert.ReferenceIdeal.ReadP.val_main_v86 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))) i := by
    intro i
    obtain ⟨r, q, rfl⟩ : ∃ (r : Fin 100000) (q : Fin 128), i = ix2 r q := ⟨i 0, i 1, eq_ix2 i⟩
    rw [Cert.KernelIdeal.RegValue.reduce5_agg (V13 m ρ) c _ _ (L2_seg m ρ c hpre) (L2_brow m ρ c) r q,
      Cert.ReferenceIdeal.Layer.conv_apply, Cert.KernelIdeal.Layer.krow_apply]
  exact funext key

/-- After the reduction region: the row of column sums of the convolution. -/
theorem L2_s1 (c : Dev nD) (hpre : PreOK m) : W14 m ρ c (Proc.devRef .tc main_v97_1) = (Cert.KernelIdeal.Layer.krow (F := Ideal) (Cert.ReferenceIdeal.Layer.csum (Cert.ReferenceIdeal.Layer.conv (F := Ideal) (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v84 (F := Ideal) (m ((c : Thread nD τ).loc main_arg2))) (Cert.ReferenceIdeal.ReadP.val_main_v86 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))))) := by
  refine (W14_arr m ρ c 3).trans ?_
  have key : ∀ i : S1x128.Idx, (dat5 (F := Ideal) (V13 m ρ) c).arrAt 3 cfg5.N i = (Cert.KernelIdeal.Layer.krow (F := Ideal) (Cert.ReferenceIdeal.Layer.csum (Cert.ReferenceIdeal.Layer.conv (F := Ideal) (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v84 (F := Ideal) (m ((c : Thread nD τ).loc main_arg2))) (Cert.ReferenceIdeal.ReadP.val_main_v86 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))))) i := by
    intro i
    obtain ⟨p, q, rfl⟩ : ∃ (p : Fin 1) (q : Fin 128), i = ix2 p q := ⟨i 0, i 1, eq_ix2 i⟩
    obtain rfl : p = 0 := Subsingleton.elim _ _
    rw [Cert.KernelIdeal.RegValue.reduce5_sum (V13 m ρ) c _ _ (L2_seg m ρ c hpre) (L2_brow m ρ c) q,
      Cert.KernelIdeal.Layer.krow_apply (Cert.ReferenceIdeal.Layer.csum (Cert.ReferenceIdeal.Layer.conv (F := Ideal) (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v84 (F := Ideal) (m ((c : Thread nD τ).loc main_arg2))) (Cert.ReferenceIdeal.ReadP.val_main_v86 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1))))) q, Cert.ReferenceIdeal.Layer.csum_apply]
    exact Finset.sum_congr (M := EReal) rfl fun r _ => by rw [Cert.ReferenceIdeal.Layer.conv_apply, Cert.KernelIdeal.Layer.krow_apply]
  exact funext key

/-- After the reduction region: the row of column sums of the squared convolution. -/
theorem L2_s2 (c : Dev nD) (hpre : PreOK m) : W14 m ρ c (Proc.devRef .tc main_v97_2) = (Cert.KernelIdeal.Layer.krow (F := Ideal) (Cert.ReferenceIdeal.Layer.csumsq (Cert.ReferenceIdeal.Layer.conv (F := Ideal) (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v84 (F := Ideal) (m ((c : Thread nD τ).loc main_arg2))) (Cert.ReferenceIdeal.ReadP.val_main_v86 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))))) := by
  refine (W14_arr m ρ c 4).trans ?_
  have key : ∀ i : S1x128.Idx, (dat5 (F := Ideal) (V13 m ρ) c).arrAt 4 cfg5.N i = (Cert.KernelIdeal.Layer.krow (F := Ideal) (Cert.ReferenceIdeal.Layer.csumsq (Cert.ReferenceIdeal.Layer.conv (F := Ideal) (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v84 (F := Ideal) (m ((c : Thread nD τ).loc main_arg2))) (Cert.ReferenceIdeal.ReadP.val_main_v86 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))))) i := by
    intro i
    obtain ⟨p, q, rfl⟩ : ∃ (p : Fin 1) (q : Fin 128), i = ix2 p q := ⟨i 0, i 1, eq_ix2 i⟩
    obtain rfl : p = 0 := Subsingleton.elim _ _
    rw [Cert.KernelIdeal.RegValue.reduce5_sumsq (V13 m ρ) c _ _ (L2_seg m ρ c hpre) (L2_brow m ρ c) q,
      Cert.KernelIdeal.Layer.krow_apply (Cert.ReferenceIdeal.Layer.csumsq (Cert.ReferenceIdeal.Layer.conv (F := Ideal) (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v84 (F := Ideal) (m ((c : Thread nD τ).loc main_arg2))) (Cert.ReferenceIdeal.ReadP.val_main_v86 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1))))) q, Cert.ReferenceIdeal.Layer.csumsq_apply]
    exact Finset.sum_congr (M := EReal) rfl fun r _ => by rw [Cert.ReferenceIdeal.Layer.conv_apply, Cert.KernelIdeal.Layer.krow_apply]
  exact funext key

/-- At the normalisation region's entry: the row of means. -/
theorem L2_meanrow (c : Dev nD) (hpre : PreOK m) : V15 m ρ c main_v119 = Cert.KernelIdeal.Layer.krow (F := Ideal) (Cert.KernelIdeal.Layer.kmeanv (F := Ideal) (Cert.KernelIdeal.Layer.krow (F := Ideal) (Cert.ReferenceIdeal.Layer.csum (Cert.ReferenceIdeal.Layer.conv (F := Ideal) (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v84 (F := Ideal) (m ((c : Thread nD τ).loc main_arg2))) (Cert.ReferenceIdeal.ReadP.val_main_v86 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1))))))) := by
  show StableHlo.after hostOps6 (W14 m ρ c) (Proc.devRef .tc main_v119) = _
  try dsimp only [hostOps6]
  after_results_simp
  rw [L2_s1 m ρ c hpre]
  rfl

/-- At the normalisation region's entry: the row of variances, in moment form. -/
theorem L2_varrow (c : Dev nD) (hpre : PreOK m) : V15 m ρ c main_v120 = Cert.KernelIdeal.Layer.krow (F := Ideal) (Cert.KernelIdeal.Layer.kvarv (F := Ideal) (Cert.KernelIdeal.Layer.krow (F := Ideal) (Cert.ReferenceIdeal.Layer.csum (Cert.ReferenceIdeal.Layer.conv (F := Ideal) (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v84 (F := Ideal) (m ((c : Thread nD τ).loc main_arg2))) (Cert.ReferenceIdeal.ReadP.val_main_v86 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))))) (Cert.KernelIdeal.Layer.krow (F := Ideal) (Cert.ReferenceIdeal.Layer.csumsq (Cert.ReferenceIdeal.Layer.conv (F := Ideal) (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v84 (F := Ideal) (m ((c : Thread nD τ).loc main_arg2))) (Cert.ReferenceIdeal.ReadP.val_main_v86 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))))) (Cert.ReferenceIdeal.ReadP.val_main_v109 (F := Ideal) (m ((c : Thread nD τ).loc main_arg6)))) := by
  show StableHlo.after hostOps6 (W14 m ρ c) (Proc.devRef .tc main_v120) = _
  try dsimp only [hostOps6]
  after_results_simp
  rw [L2_s1 m ρ c hpre, L2_s2 m ρ c hpre, ((keepR5 m ρ c main_arg6 (by decide)).trans ((keepH5 (W12 m ρ c) main_arg6 (by decide)).trans ((keepR4 m ρ c main_arg6 (by decide)).trans ((keepH4 (W10 m ρ c) main_arg6 (by decide)).trans ((keepR3 m ρ c main_arg6 (by decide)).trans ((keepH3 (W8 m ρ c) main_arg6 (by decide)).trans ((keepR2 m ρ c main_arg6 (by decide)).trans ((keepH2 (W6 m ρ c) main_arg6 (by decide)).trans ((keepR1 m ρ c main_arg6 (by decide)).trans ((keepH1 (W4 m ρ c) main_arg6 (by decide)).trans ((keepR0 m ρ c main_arg6 (by decide)).trans ((keepH0_2 (W2 m ρ c) main_arg6 (by decide)).trans ((keepH0_1 (W1 m ρ c) main_arg6 (by decide)).trans (keepH0 (W0 m ρ c) main_arg6 (by decide)))))))))))))))]
  rfl

/-- At the normalisation region's entry: the gain, the shift and the mean scale as rows. -/
theorem L2_wrow (c : Dev nD) : V15 m ρ c main_v121 = Cert.KernelIdeal.Layer.krow (F := Ideal) (Cert.ReferenceIdeal.ReadP.val_main_v105 (F := Ideal) (m ((c : Thread nD τ).loc main_arg4))) := by
  show StableHlo.after hostOps6 (W14 m ρ c) (Proc.devRef .tc main_v121) = _
  try dsimp only [hostOps6]
  after_results_simp
  rw [((keepR5 m ρ c main_arg4 (by decide)).trans ((keepH5 (W12 m ρ c) main_arg4 (by decide)).trans ((keepR4 m ρ c main_arg4 (by decide)).trans ((keepH4 (W10 m ρ c) main_arg4 (by decide)).trans ((keepR3 m ρ c main_arg4 (by decide)).trans ((keepH3 (W8 m ρ c) main_arg4 (by decide)).trans ((keepR2 m ρ c main_arg4 (by decide)).trans ((keepH2 (W6 m ρ c) main_arg4 (by decide)).trans ((keepR1 m ρ c main_arg4 (by decide)).trans ((keepH1 (W4 m ρ c) main_arg4 (by decide)).trans ((keepR0 m ρ c main_arg4 (by decide)).trans ((keepH0_2 (W2 m ρ c) main_arg4 (by decide)).trans ((keepH0_1 (W1 m ρ c) main_arg4 (by decide)).trans (keepH0 (W0 m ρ c) main_arg4 (by decide)))))))))))))))]
  rfl
theorem L2_brow2 (c : Dev nD) : V15 m ρ c main_v122 = Cert.KernelIdeal.Layer.krow (F := Ideal) (Cert.ReferenceIdeal.ReadP.val_main_v107 (F := Ideal) (m ((c : Thread nD τ).loc main_arg5))) := by
  show StableHlo.after hostOps6 (W14 m ρ c) (Proc.devRef .tc main_v122) = _
  try dsimp only [hostOps6]
  after_results_simp
  rw [((keepR5 m ρ c main_arg5 (by decide)).trans ((keepH5 (W12 m ρ c) main_arg5 (by decide)).trans ((keepR4 m ρ c main_arg5 (by decide)).trans ((keepH4 (W10 m ρ c) main_arg5 (by decide)).trans ((keepR3 m ρ c main_arg5 (by decide)).trans ((keepH3 (W8 m ρ c) main_arg5 (by decide)).trans ((keepR2 m ρ c main_arg5 (by decide)).trans ((keepH2 (W6 m ρ c) main_arg5 (by decide)).trans ((keepR1 m ρ c main_arg5 (by decide)).trans ((keepH1 (W4 m ρ c) main_arg5 (by decide)).trans ((keepR0 m ρ c main_arg5 (by decide)).trans ((keepH0_2 (W2 m ρ c) main_arg5 (by decide)).trans ((keepH0_1 (W1 m ρ c) main_arg5 (by decide)).trans (keepH0 (W0 m ρ c) main_arg5 (by decide)))))))))))))))]
  rfl
theorem L2_msrow (c : Dev nD) : V15 m ρ c main_v123 = Cert.KernelIdeal.Layer.krow (F := Ideal) (Cert.ReferenceIdeal.ReadP.val_main_v109 (F := Ideal) (m ((c : Thread nD τ).loc main_arg6))) := by
  show StableHlo.after hostOps6 (W14 m ρ c) (Proc.devRef .tc main_v123) = _
  try dsimp only [hostOps6]
  after_results_simp
  rw [((keepR5 m ρ c main_arg6 (by decide)).trans ((keepH5 (W12 m ρ c) main_arg6 (by decide)).trans ((keepR4 m ρ c main_arg6 (by decide)).trans ((keepH4 (W10 m ρ c) main_arg6 (by decide)).trans ((keepR3 m ρ c main_arg6 (by decide)).trans ((keepH3 (W8 m ρ c) main_arg6 (by decide)).trans ((keepR2 m ρ c main_arg6 (by decide)).trans ((keepH2 (W6 m ρ c) main_arg6 (by decide)).trans ((keepR1 m ρ c main_arg6 (by decide)).trans ((keepH1 (W4 m ρ c) main_arg6 (by decide)).trans ((keepR0 m ρ c main_arg6 (by decide)).trans ((keepH0_2 (W2 m ρ c) main_arg6 (by decide)).trans ((keepH0_1 (W1 m ρ c) main_arg6 (by decide)).trans (keepH0 (W0 m ρ c) main_arg6 (by decide)))))))))))))))]
  rfl

/-- At the normalisation region's entry: the convolution and the skip input. -/
theorem L2_aggN (c : Dev nD) (hpre : PreOK m) : V15 m ρ c main_v97_0 = (Cert.ReferenceIdeal.Layer.conv (F := Ideal) (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v84 (F := Ideal) (m ((c : Thread nD τ).loc main_arg2))) (Cert.ReferenceIdeal.ReadP.val_main_v86 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))) :=
  (keepH6 (W14 m ρ c) main_v97_0 (by decide)).trans (L2_agg m ρ c hpre)
theorem L2_resN (c : Dev nD) (hpre : PreOK m) : V15 m ρ c main_v77 = (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  ((keepH6 (W14 m ρ c) main_v77 (by decide)).trans (((keepR5 m ρ c main_v77 (by decide)).trans ((keepH5 (W12 m ρ c) main_v77 (by decide)).trans ((keepIn4_0 m ρ c).trans (keepH4 (W10 m ρ c) main_v77 (by decide))))).trans (L1_out m ρ c hpre)))

end Cert.KernelIdeal.Stages

end
-- ==== Proof.RegNorm6.lean ====
/- The value of the normalise–activate–residual region 6's output array after the region, as an explicit
   function of the region's input arrays, index by index, at the extended reals. -/
import proofs.«110479_j25572235281175_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.RegValue

open Idealize.ShloMosaic Idealize.ShloMosaic.ValueIdx Idealize.ShloMosaic.TcCoe Cert.KernelIdeal Cert.KernelIdeal.Gen
open Idealize.SL.Sem
open Idealize.ShloMosaic.Pipeline (Dat)

/-- The two zero offsets, however spelt. -/
theorem norm6_hz : (![0, 0] : Fin 2 → Nat) = fun _ => 0 := funext fun a => by fin_cases a <;> rfl

/-- The region's result at one index: the aggregate less the scaled mean, times the reciprocal root of the variance
    plus epsilon, times the weight, plus the bias, clamped below at zero, plus the residual. The five row operands
    are read at their one row. -/
def norm6G (A0 A1 : S100000x128.Idx → EReal) (A2 A3 A4 A5 A6 : S1x128.Idx → EReal) : S100000x128.Idx → EReal :=
  fun i => max ((((A0 i - A6 (ix2 (0 : Fin 1) (i 1)) * A2 (ix2 (0 : Fin 1) (i 1)))
      * Ideal.rsqrt (A3 (ix2 (0 : Fin 1) (i 1)) + Ideal.ofBits .f32 0x3727C5AC#32)) * A4 (ix2 (0 : Fin 1) (i 1)))
      + A5 (ix2 (0 : Fin 1) (i 1))) (Ideal.ofBits .f32 0x00000000#32) + A1 i

/-- The body's payload read at row `p`, column `q` of its block: pointwise in the two block operands, the five
    one-row operands broadcast over the rows. -/
theorem norm6_pay_apply (x0 : Vec Ideal S5000x128 .f32) (ms mean var w b : Vec Ideal S1x128 .f32)
    (res : Vec Ideal S5000x128 .f32) (p : Fin 5000) (q : Fin 128) :
    k6_pay1 x0 ms mean var w b res (ix2 p q)
      = max ((((x0 (ix2 p q) - ms (ix2 (0 : Fin 1) q) * mean (ix2 (0 : Fin 1) q))
          * Ideal.rsqrt (var (ix2 (0 : Fin 1) q) + Ideal.ofBits .f32 0x3727C5AC#32)) * w (ix2 (0 : Fin 1) q))
          + b (ix2 (0 : Fin 1) q)) (Ideal.ofBits .f32 0x00000000#32) + res (ix2 p q) := by
  unfold k6_pay1
  simp only [shapeCast_self]
  have e1 : broadcastTo S5000x128 (mulf (F := Ideal) (s := S1x128) (φ := .f32) ms mean) broadcasts_S1x128_S5000x128 (ix2 p q)
      = ms (ix2 (0 : Fin 1) q) * mean (ix2 (0 : Fin 1) q) :=
    broadcastTo_1b_ab_apply (mulf (F := Ideal) (s := S1x128) (φ := .f32) ms mean) broadcasts_S1x128_S5000x128 p q
  have e2 : broadcastTo S5000x128 (rsqrt (F := Ideal) (s := S1x128) (φ := .f32) (addf (F := Ideal) (s := S1x128) (φ := .f32) var (broadcast S1x128 (Scalar.ofBits (F := Ideal) .f32 0x3727C5AC#32)))) broadcasts_S1x128_S5000x128 (ix2 p q)
      = Ideal.rsqrt (var (ix2 (0 : Fin 1) q) + Ideal.ofBits .f32 0x3727C5AC#32) :=
    broadcastTo_1b_ab_apply (rsqrt (F := Ideal) (s := S1x128) (φ := .f32) (addf (F := Ideal) (s := S1x128) (φ := .f32) var (broadcast S1x128 (Scalar.ofBits (F := Ideal) .f32 0x3727C5AC#32)))) broadcasts_S1x128_S5000x128 p q
  have e3 : broadcastTo S5000x128 w broadcasts_S1x128_S5000x128 (ix2 p q) = w (ix2 (0 : Fin 1) q) :=
    broadcastTo_1b_ab_apply w broadcasts_S1x128_S5000x128 p q
  have e4 : broadcastTo S5000x128 b broadcasts_S1x128_S5000x128 (ix2 p q) = b (ix2 (0 : Fin 1) q) :=
    broadcastTo_1b_ab_apply b broadcasts_S1x128_S5000x128 p q
  show max ((((x0 (ix2 p q) - broadcastTo S5000x128 (mulf (F := Ideal) (s := S1x128) (φ := .f32) ms mean) broadcasts_S1x128_S5000x128 (ix2 p q))
      * broadcastTo S5000x128 (rsqrt (F := Ideal) (s := S1x128) (φ := .f32) (addf (F := Ideal) (s := S1x128) (φ := .f32) var (broadcast S1x128 (Scalar.ofBits (F := Ideal) .f32 0x3727C5AC#32)))) broadcasts_S1x128_S5000x128 (ix2 p q))
      * broadcastTo S5000x128 w broadcasts_S1x128_S5000x128 (ix2 p q))
      + broadcastTo S5000x128 b broadcasts_S1x128_S5000x128 (ix2 p q)) (Ideal.ofBits .f32 0x00000000#32) + res (ix2 p q) = _
  rw [e1, e2, e3, e4]

/-- The printed index maps over the grid: the two block operands and the result move with the grid point along the
    rows; the five one-row operands stay at block (0, 0). -/
theorem norm6_idx : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = 0 ∧ win6_2.index t (1 : Fin 2) = 0)
    ∧ (win6_3.index t (0 : Fin 2) = 0 ∧ win6_3.index t (1 : Fin 2) = 0)
    ∧ (win6_4.index t (0 : Fin 2) = 0 ∧ win6_4.index t (1 : Fin 2) = 0)
    ∧ (win6_5.index t (0 : Fin 2) = 0 ∧ win6_5.index t (1 : Fin 2) = 0)
    ∧ (win6_6.index t (0 : Fin 2) = 0 ∧ win6_6.index t (1 : Fin 2) = 0)
    ∧ (win6_7.index t (0 : Fin 2) = t.val ∧ win6_7.index t (1 : Fin 2) = 0) :=
  (by decide +kernel : ∀ t : Fin grid6.N, _)

/-- An index of the result array is in point `t`'s block iff each coordinate is in the block's range on its axis. -/
theorem norm6_mem_blk (t : Fin cfg6.N) (i : S100000x128.Idx) :
    i ∈ ((cfg6.win 7).blk t).view.set ↔ ∀ a : Fin 2, win6_7.index t a * S5000x128.size a ≤ (i a).val
      ∧ (i a).val < win6_7.index t a * S5000x128.size a + S5000x128.size a := by
  show i ∈ ((View.whole main_v124).slice (win6_7.rect t)).set ↔ _
  rw [View.set_slice_whole, Rect.mem_set_unit]
  exact Iff.rfl

/-- Every index of the result array is in the block of the point its row names: row `r` is in block `r / 5000`. -/
theorem norm6_cover (i : S100000x128.Idx) :
    ∃ t : Fin cfg6.N, (cfg6.win 7).flush t = true ∧ i ∈ ((cfg6.win 7).blk t).view.set := by
  have hN : grid6.N = 20 := N_6
  have hi0 : (i 0).val < 100000 := (i 0).isLt
  have hi1 : (i 1).val < 128 := (i 1).isLt
  have ht : (i 0).val / 5000 < cfg6.N := by
    show (i 0).val / 5000 < grid6.N
    rw [hN]; omega
  refine ⟨⟨(i 0).val / 5000, ht⟩, flush6_7 _, ?_⟩
  rw [norm6_mem_blk]
  have e0 : win6_7.index ⟨(i 0).val / 5000, ht⟩ (0 : Fin 2) = (i 0).val / 5000 := (norm6_idx ⟨(i 0).val / 5000, ht⟩).2.2.2.2.2.2.2.1
  have e1 : win6_7.index ⟨(i 0).val / 5000, ht⟩ (1 : Fin 2) = 0 := (norm6_idx ⟨(i 0).val / 5000, ht⟩).2.2.2.2.2.2.2.2
  intro a
  match a with
  | ⟨0, _⟩ =>
    show win6_7.index ⟨(i 0).val / 5000, ht⟩ (0 : Fin 2) * 5000 ≤ (i 0).val
      ∧ (i 0).val < win6_7.index ⟨(i 0).val / 5000, ht⟩ (0 : Fin 2) * 5000 + 5000
    rw [e0]; omega
  | ⟨1, _⟩ =>
    show win6_7.index ⟨(i 0).val / 5000, ht⟩ (1 : Fin 2) * 128 ≤ (i 1).val
      ∧ (i 1).val < win6_7.index ⟨(i 0).val / 5000, ht⟩ (1 : Fin 2) * 128 + 128
    rw [e1]; omega

/-- Block operand 0's block at point `t`, read at row `p`, column `q`, is the operand array at row `5000 t + p`. -/
theorem norm6_blk0 (V : (c : Dev nD) → (b : Ref sig .tc) → Buf (Elt Ideal) ((c : Thread nD τ).loc b)) (c : Dev nD)
    (t : Fin cfg6.N) (p : Fin 5000) (q : Fin 128) (r : Fin 100000) (hr : r.val = t.val * 5000 + p.val) :
    (((cfg6.win 0).blk t).view.read (Elt Ideal) (V c (Pipeline.arrRef spec6 0)) : Vec Ideal S5000x128 .f32) (ix2 p q)
      = (V c (Pipeline.arrRef spec6 0) : S100000x128.Idx → EReal) (ix2 r q) := by
  rw [View.read_apply]
  show (V c (Pipeline.arrRef spec6 0) : S100000x128.Idx → EReal) _ = _
  congr 1
  funext a
  apply Fin.ext
  match a with
  | ⟨0, _⟩ =>
    show win6_0.index t (0 : Fin 2) * 5000 + 1 * p.val = r.val
    rw [(norm6_idx t).1.1, hr]; omega
  | ⟨1, _⟩ =>
    show win6_0.index t (1 : Fin 2) * 128 + 1 * q.val = q.val
    rw [(norm6_idx t).1.2]; omega

/-- Block operand 1's block at point `t`, read at row `p`, column `q`, is the operand array at row `5000 t + p`. -/
theorem norm6_blk1 (V : (c : Dev nD) → (b : Ref sig .tc) → Buf (Elt Ideal) ((c : Thread nD τ).loc b)) (c : Dev nD)
    (t : Fin cfg6.N) (p : Fin 5000) (q : Fin 128) (r : Fin 100000) (hr : r.val = t.val * 5000 + p.val) :
    (((cfg6.win 1).blk t).view.read (Elt Ideal) (V c (Pipeline.arrRef spec6 1)) : Vec Ideal S5000x128 .f32) (ix2 p q)
      = (V c (Pipeline.arrRef spec6 1) : S100000x128.Idx → EReal) (ix2 r q) := by
  rw [View.read_apply]
  show (V c (Pipeline.arrRef spec6 1) : S100000x128.Idx → EReal) _ = _
  congr 1
  funext a
  apply Fin.ext
  match a with
  | ⟨0, _⟩ =>
    show win6_1.index t (0 : Fin 2) * 5000 + 1 * p.val = r.val
    rw [(norm6_idx t).2.1.1, hr]; omega
  | ⟨1, _⟩ =>
    show win6_1.index t (1 : Fin 2) * 128 + 1 * q.val = q.val
    rw [(norm6_idx t).2.1.2]; omega

/-- Row operand 2's block at any point is the operand's one row. -/
theorem norm6_blk2 (V : (c : Dev nD) → (b : Ref sig .tc) → Buf (Elt Ideal) ((c : Thread nD τ).loc b)) (c : Dev nD)
    (t : Fin cfg6.N) (q : Fin 128) :
    (((cfg6.win 2).blk t).view.read (Elt Ideal) (V c (Pipeline.arrRef spec6 2)) : Vec Ideal S1x128 .f32) (ix2 (0 : Fin 1) q)
      = (V c (Pipeline.arrRef spec6 2) : S1x128.Idx → EReal) (ix2 (0 : Fin 1) q) := by
  rw [View.read_apply]
  show (V c (Pipeline.arrRef spec6 2) : S1x128.Idx → EReal) _ = _
  congr 1
  funext a
  apply Fin.ext
  match a with
  | ⟨0, _⟩ =>
    show win6_2.index t (0 : Fin 2) * 1 + 1 * 0 = 0
    rw [(norm6_idx t).2.2.1.1]
  | ⟨1, _⟩ =>
    show win6_2.index t (1 : Fin 2) * 128 + 1 * q.val = q.val
    rw [(norm6_idx t).2.2.1.2]; omega

/-- Row operand 3's block at any point is the operand's one row. -/
theorem norm6_blk3 (V : (c : Dev nD) → (b : Ref sig .tc) → Buf (Elt Ideal) ((c : Thread nD τ).loc b)) (c : Dev nD)
    (t : Fin cfg6.N) (q : Fin 128) :
    (((cfg6.win 3).blk t).view.read (Elt Ideal) (V c (Pipeline.arrRef spec6 3)) : Vec Ideal S1x128 .f32) (ix2 (0 : Fin 1) q)
      = (V c (Pipeline.arrRef spec6 3) : S1x128.Idx → EReal) (ix2 (0 : Fin 1) q) := by
  rw [View.read_apply]
  show (V c (Pipeline.arrRef spec6 3) : S1x128.Idx → EReal) _ = _
  congr 1
  funext a
  apply Fin.ext
  match a with
  | ⟨0, _⟩ =>
    show win6_3.index t (0 : Fin 2) * 1 + 1 * 0 = 0
    rw [(norm6_idx t).2.2.2.1.1]
  | ⟨1, _⟩ =>
    show win6_3.index t (1 : Fin 2) * 128 + 1 * q.val = q.val
    rw [(norm6_idx t).2.2.2.1.2]; omega

/-- Row operand 4's block at any point is the operand's one row. -/
theorem norm6_blk4 (V : (c : Dev nD) → (b : Ref sig .tc) → Buf (Elt Ideal) ((c : Thread nD τ).loc b)) (c : Dev nD)
    (t : Fin cfg6.N) (q : Fin 128) :
    (((cfg6.win 4).blk t).view.read (Elt Ideal) (V c (Pipeline.arrRef spec6 4)) : Vec Ideal S1x128 .f32) (ix2 (0 : Fin 1) q)
      = (V c (Pipeline.arrRef spec6 4) : S1x128.Idx → EReal) (ix2 (0 : Fin 1) q) := by
  rw [View.read_apply]
  show (V c (Pipeline.arrRef spec6 4) : S1x128.Idx → EReal) _ = _
  congr 1
  funext a
  apply Fin.ext
  match a with
  | ⟨0, _⟩ =>
    show win6_4.index t (0 : Fin 2) * 1 + 1 * 0 = 0
    rw [(norm6_idx t).2.2.2.2.1.1]
  | ⟨1, _⟩ =>
    show win6_4.index t (1 : Fin 2) * 128 + 1 * q.val = q.val
    rw [(norm6_idx t).2.2.2.2.1.2]; omega

/-- Row operand 5's block at any point is the operand's one row. -/
theorem norm6_blk5 (V : (c : Dev nD) → (b : Ref sig .tc) → Buf (Elt Ideal) ((c : Thread nD τ).loc b)) (c : Dev nD)
    (t : Fin cfg6.N) (q : Fin 128) :
    (((cfg6.win 5).blk t).view.read (Elt Ideal) (V c (Pipeline.arrRef spec6 5)) : Vec Ideal S1x128 .f32) (ix2 (0 : Fin 1) q)
      = (V c (Pipeline.arrRef spec6 5) : S1x128.Idx → EReal) (ix2 (0 : Fin 1) q) := by
  rw [View.read_apply]
  show (V c (Pipeline.arrRef spec6 5) : S1x128.Idx → EReal) _ = _
  congr 1
  funext a
  apply Fin.ext
  match a with
  | ⟨0, _⟩ =>
    show win6_5.index t (0 : Fin 2) * 1 + 1 * 0 = 0
    rw [(norm6_idx t).2.2.2.2.2.1.1]
  | ⟨1, _⟩ =>
    show win6_5.index t (1 : Fin 2) * 128 + 1 * q.val = q.val
    rw [(norm6_idx t).2.2.2.2.2.1.2]; omega

/-- Row operand 6's block at any point is the operand's one row. -/
theorem norm6_blk6 (V : (c : Dev nD) → (b : Ref sig .tc) → Buf (Elt Ideal) ((c : Thread nD τ).loc b)) (c : Dev nD)
    (t : Fin cfg6.N) (q : Fin 128) :
    (((cfg6.win 6).blk t).view.read (Elt Ideal) (V c (Pipeline.arrRef spec6 6)) : Vec Ideal S1x128 .f32) (ix2 (0 : Fin 1) q)
      = (V c (Pipeline.arrRef spec6 6) : S1x128.Idx → EReal) (ix2 (0 : Fin 1) q) := by
  rw [View.read_apply]
  show (V c (Pipeline.arrRef spec6 6) : S1x128.Idx → EReal) _ = _
  congr 1
  funext a
  apply Fin.ext
  match a with
  | ⟨0, _⟩ =>
    show win6_6.index t (0 : Fin 2) * 1 + 1 * 0 = 0
    rw [(norm6_idx t).2.2.2.2.2.2.1.1]
  | ⟨1, _⟩ =>
    show win6_6.index t (1 : Fin 2) * 128 + 1 * q.val = q.val
    rw [(norm6_idx t).2.2.2.2.2.2.1.2]; omega

/-- The payload at row `p`, column `q` of the block is the result function at row `r`, column `q` of the arrays, once each
    loaded block is known there to read its array. -/
theorem norm6_pay_eq (x0 res : Vec Ideal S5000x128 .f32) (ms mean var w b : Vec Ideal S1x128 .f32)
    (A0 A1 : S100000x128.Idx → EReal) (A2 A3 A4 A5 A6 : S1x128.Idx → EReal) (p : Fin 5000) (q : Fin 128) (r : Fin 100000)
    (h0 : x0 (ix2 p q) = A0 (ix2 r q)) (h1 : res (ix2 p q) = A1 (ix2 r q))
    (h2 : mean (ix2 (0 : Fin 1) q) = A2 (ix2 (0 : Fin 1) q)) (h3 : var (ix2 (0 : Fin 1) q) = A3 (ix2 (0 : Fin 1) q))
    (h4 : w (ix2 (0 : Fin 1) q) = A4 (ix2 (0 : Fin 1) q)) (h5 : b (ix2 (0 : Fin 1) q) = A5 (ix2 (0 : Fin 1) q))
    (h6 : ms (ix2 (0 : Fin 1) q) = A6 (ix2 (0 : Fin 1) q)) :
    k6_pay1 x0 ms mean var w b res (ix2 p q) = norm6G A0 A1 A2 A3 A4 A5 A6 (ix2 r q) := by
  rw [norm6_pay_apply, h0, h1, h2, h3, h4, h5, h6]
  rfl

/-- The body's payload of the input blocks at point `t`, read at row `p`, column `q` of the block, is the result
    function of the region's input arrays at row `5000 t + p`, column `q`. -/
theorem norm6_point (V : (c : Dev nD) → (b : Ref sig .tc) → Buf (Elt Ideal) ((c : Thread nD τ).loc b)) (c : Dev nD)
    (t : Fin cfg6.N) (p : Fin 5000) (q : Fin 128) (r : Fin 100000) (hr : r.val = t.val * 5000 + p.val) :
    k6_pay1 (iblk6 V c 0 t) (iblk6 V c 6 t) (iblk6 V c 2 t) (iblk6 V c 3 t) (iblk6 V c 4 t) (iblk6 V c 5 t) (iblk6 V c 1 t) (ix2 p q)
      = norm6G (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (ix2 r q) :=
  norm6_pay_eq (iblk6 V c 0 t) (iblk6 V c 1 t) (iblk6 V c 6 t) (iblk6 V c 2 t) (iblk6 V c 3 t) (iblk6 V c 4 t) (iblk6 V c 5 t)
    (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) p q r
    (norm6_blk0 V c t p q r hr) (norm6_blk1 V c t p q r hr) (norm6_blk2 V c t q) (norm6_blk3 V c t q)
    (norm6_blk4 V c t q) (norm6_blk5 V c t q) (norm6_blk6 V c t q)

/-- What point `t` writes back is block `t` of ANY function of the array's index that the body's payload of the input
    blocks agrees with, row `p` of the block against row `5000 t + p` of the array. -/
theorem norm6_flushed_of (V : (c : Dev nD) → (b : Ref sig .tc) → Buf (Elt Ideal) ((c : Thread nD τ).loc b)) (c : Dev nD)
    (t : Fin cfg6.N) (G : S100000x128.Idx → EReal)
    (hG : ∀ (p : Fin 5000) (q : Fin 128) (r : Fin 100000), r.val = t.val * 5000 + p.val →
      k6_pay1 (iblk6 V c 0 t) (iblk6 V c 6 t) (iblk6 V c 2 t) (iblk6 V c 3 t) (iblk6 V c 4 t) (iblk6 V c 5 t) (iblk6 V c 1 t) (ix2 p q) = G (ix2 r q)) :
    (dat6 (F := Ideal) V c).flushed 7 t = ((cfg6.win 7).blk t).view.read (Elt Ideal) G := by
  show (cfg6.win 7).cut (grid6.coords t) ((dat6 (F := Ideal) V c).after 7 t) = _
  rw [after6_7]
  unfold out6_7
  rw [View.canon_unit_zero norm6_hz]
  simp only [View.ld_unit_zero (S := S5000x128) norm6_hz, View.ld_unit_zero (S := S1x128) norm6_hz]
  funext j
  obtain ⟨p, q, rfl⟩ : ∃ (p : Fin 5000) (q : Fin 128), j = ix2 p q := ⟨j 0, j 1, eq_ix2 j⟩
  have htl : t.val < 20 := lt_of_lt_of_eq t.isLt N_6
  have hr : t.val * 5000 + p.val < 100000 := by have := p.isLt; omega
  -- where the block's element sits in the array: row `5000 t + p`, column `q`
  have he : ((cfg6.win 7).blk t).view.emb (ix2 p q) = (ix2 (⟨t.val * 5000 + p.val, hr⟩ : Fin 100000) q : S100000x128.Idx) := by
    funext a
    apply Fin.ext
    match a with
    | ⟨0, _⟩ =>
      show win6_7.index t (0 : Fin 2) * 5000 + 1 * p.val = t.val * 5000 + p.val
      rw [(norm6_idx t).2.2.2.2.2.2.2.1]; omega
    | ⟨1, _⟩ =>
      show win6_7.index t (1 : Fin 2) * 128 + 1 * q.val = q.val
      rw [(norm6_idx t).2.2.2.2.2.2.2.2]; omega
  rw [View.read_apply, he]
  exact hG p q ⟨t.val * 5000 + p.val, hr⟩ rfl

/-- What point `t` writes back is block `t` of the result function of the region's input arrays. -/
theorem norm6_flushed (V : (c : Dev nD) → (b : Ref sig .tc) → Buf (Elt Ideal) ((c : Thread nD τ).loc b)) (c : Dev nD)
    (t : Fin cfg6.N) :
    (dat6 (F := Ideal) V c).flushed 7 t
      = ((cfg6.win 7).blk t).view.read (Elt Ideal) (norm6G (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))) :=
  norm6_flushed_of V c t (norm6G (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))) (fun p q r hr => norm6_point V c t p q r hr)

/-- The result array after the region: the result function of the input arrays, whole. -/
theorem norm6_final (V : (c : Dev nD) → (b : Ref sig .tc) → Buf (Elt Ideal) ((c : Thread nD τ).loc b)) (c : Dev nD) :
    (dat6 (F := Ideal) V c).arrAt 7 cfg6.N = norm6G (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) :=
  (dat6 (F := Ideal) V c).arrAt_eq_of_cover 7 (norm6G (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)))
    (fun t _ => norm6_flushed V c t) norm6_cover

/-- The result function at row `r`, column `q`. -/
theorem norm6G_apply (A0 A1 : S100000x128.Idx → EReal) (A2 A3 A4 A5 A6 : S1x128.Idx → EReal) (r : Fin 100000) (q : Fin 128) :
    norm6G A0 A1 A2 A3 A4 A5 A6 (ix2 r q)
      = max ((((A0 (ix2 r q) - A6 (ix2 (0 : Fin 1) q) * A2 (ix2 (0 : Fin 1) q))
          * Ideal.rsqrt (A3 (ix2 (0 : Fin 1) q) + Ideal.ofBits .f32 0x3727C5AC#32)) * A4 (ix2 (0 : Fin 1) q))
          + A5 (ix2 (0 : Fin 1) q)) (Ideal.ofBits .f32 0x00000000#32) + A1 (ix2 r q) := rfl

/-- The result array after the region at row `r`, column `q`, the region's input arrays named `A0 … A6`. -/
theorem norm6_apply (V : (c : Dev nD) → (b : Ref sig .tc) → Buf (Elt Ideal) ((c : Thread nD τ).loc b)) (c : Dev nD)
    (A0 A1 : S100000x128.Idx → EReal) (A2 A3 A4 A5 A6 : S1x128.Idx → EReal)
    (h0 : V c (Pipeline.arrRef spec6 0) = A0) (h1 : V c (Pipeline.arrRef spec6 1) = A1)
    (h2 : V c (Pipeline.arrRef spec6 2) = A2) (h3 : V c (Pipeline.arrRef spec6 3) = A3)
    (h4 : V c (Pipeline.arrRef spec6 4) = A4) (h5 : V c (Pipeline.arrRef spec6 5) = A5)
    (h6 : V c (Pipeline.arrRef spec6 6) = A6) (r : Fin 100000) (q : Fin 128) :
    (dat6 (F := Ideal) V c).arrAt 7 cfg6.N (ix2 r q)
      = max ((((A0 (ix2 r q) - A6 (ix2 (0 : Fin 1) q) * A2 (ix2 (0 : Fin 1) q))
          * Ideal.rsqrt (A3 (ix2 (0 : Fin 1) q) + Ideal.ofBits .f32 0x3727C5AC#32)) * A4 (ix2 (0 : Fin 1) q))
          + A5 (ix2 (0 : Fin 1) q)) (Ideal.ofBits .f32 0x00000000#32) + A1 (ix2 r q) := by
  subst h0 h1 h2 h3 h4 h5 h6
  exact congrFun (norm6_final V c) (ix2 r q)

end Cert.KernelIdeal.RegValue

end
-- ==== Proof.KLayer2C.lean ====
/-
  Graph layer 2 in the idealized kernel program: the normalisation region, and the layer's output as the reference's.
-/
import proofs.«110479_j25572235281175_1_alg».proof.Proof.KLayer2B
import proofs.«110479_j25572235281175_1_alg».proof.Proof.LayerRead3
import proofs.«110479_j25572235281175_1_alg».proof.Proof.LayerRead4
import proofs.«110479_j25572235281175_1_alg».proof.Proof.LayerReal
import proofs.«110479_j25572235281175_1_alg».proof.Proof.NormReal
import proofs.«110479_j25572235281175_1_alg».proof.Proof.KPre
import proofs.«110479_j25572235281175_1_alg».proof.Proof.RegNorm6

set_option maxRecDepth 16384

noncomputable section

namespace Cert.KernelIdeal.Stages

open Idealize.ShloMosaic Idealize.ShloMosaic.TcCoe Idealize.ShloMosaic.StableHlo Idealize.ShloMosaic.ValueIdx
open Cert.KernelIdeal Cert.KernelIdeal.Gen Cert.KernelIdeal.Carry

variable (m : (ℓ : Loc nD τ sig) → Buf (Elt Ideal) ℓ) (ρ : Dev nD → PrngReg)

/-- THE LAYER: after the normalisation region its output buffer holds the reference's layer output, whose entries are
    real numbers. The region's entries are the kernel's spelling of the normalisation of the convolution (moment-form
    variance from the two rows of column sums, reciprocal square root), which on real inputs is the reference's. -/
theorem L2_pair (c : Dev nD) (hpre : PreOK m) :
    W16 m ρ c (Proc.devRef .tc main_v124) = (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) ∧ Cert.Reals.IsReal (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  obtain ⟨r0, r2, r3, r4, r5, r6, r7, -⟩ := Cert.Proof.pre_real m hpre c
  have hh : Cert.Reals.IsReal (Cert.ReferenceIdeal.Layer.conv (F := Ideal) (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v84 (F := Ideal) (m ((c : Thread nD τ).loc main_arg2))) (Cert.ReferenceIdeal.ReadP.val_main_v86 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))) :=
    Cert.ReferenceIdeal.Layer.isReal_conv _ _ _ _ _ _ (L1_real m ρ c hpre) (Cert.ReferenceIdeal.Layer.isReal_v84 _ r2) (Cert.ReferenceIdeal.Layer.isReal_v86 _ r3) (Cert.ReferenceIdeal.Layer.isReal_v29 _)
  have hg := Cert.ReferenceIdeal.Layer.gnorm_of_entries (Cert.ReferenceIdeal.Layer.conv (F := Ideal) (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v84 (F := Ideal) (m ((c : Thread nD τ).loc main_arg2))) (Cert.ReferenceIdeal.ReadP.val_main_v86 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))) (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v109 (F := Ideal) (m ((c : Thread nD τ).loc main_arg6))) (Cert.ReferenceIdeal.ReadP.val_main_v105 (F := Ideal) (m ((c : Thread nD τ).loc main_arg4))) (Cert.ReferenceIdeal.ReadP.val_main_v107 (F := Ideal) (m ((c : Thread nD τ).loc main_arg5))) hh
    (Cert.ReferenceIdeal.Layer.isReal_v109 _ r6) (Cert.ReferenceIdeal.Layer.isReal_v105 _ r4) (Cert.ReferenceIdeal.Layer.isReal_v107 _ r5) (L1_real m ρ c hpre)
    ((dat6 (F := Ideal) (V15 m ρ) c).arrAt 7 cfg6.N) (fun r q => by
      rw [Cert.KernelIdeal.RegValue.norm6_apply (V15 m ρ) c _ _ _ _ _ _ _ (L2_aggN m ρ c hpre) (L2_resN m ρ c hpre)
        (L2_meanrow m ρ c hpre) (L2_varrow m ρ c hpre) (L2_wrow m ρ c) (L2_brow2 m ρ c) (L2_msrow m ρ c) r q]
      simp only [Cert.KernelIdeal.Layer.krow_apply, Cert.KernelIdeal.Layer.kmeanv_apply, Cert.KernelIdeal.Layer.kvarv_apply, Cert.ReferenceIdeal.Layer.csum_apply, Cert.ReferenceIdeal.Layer.csumsq_apply])
  exact ⟨(W16_arr m ρ c 7).trans hg.1, hg.2⟩

theorem L2_out (c : Dev nD) (hpre : PreOK m) : W16 m ρ c (Proc.devRef .tc main_v124) = (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := (L2_pair m ρ c hpre).1
include ρ in
theorem L2_real (c : Dev nD) (hpre : PreOK m) : Cert.Reals.IsReal (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := (L2_pair m ρ c hpre).2

end Cert.KernelIdeal.Stages

end
-- ==== Proof.RegMatmul7.lean ====
/-
  The value of the output array of matrix-product region 7, at the ideal values.

  The region runs over 20 grid points. At point t the body multiplies block t of the rows' array — 5000 rows of a
  [100000, 128] array — by the whole [128, 128] weights into the zero accumulator and stores the product into block t of
  the output array. At the ideal values (floats extended reals, every operation exact) a product into the zero
  accumulator is the plain sum over the contraction index, so what point t writes back is block t of the product of the
  two arrays; the 20 blocks of 5000 rows tile the 100000 rows, so after the region the output array is the whole
  product: entry (r, q) is the sum over k of the rows' array at (r, k) times the weights at (k, q). The region's entry
  contents stay a parameter, so the statement serves whatever the arrays hold when the region is entered.
-/
import proofs.«110479_j25572235281175_1_alg».proof.Proof.Gen.KernelIdeal.Frame
import proofs.«110479_j25572235281175_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegValue

open Idealize.ShloMosaic Idealize.ShloMosaic.ValueIdx Idealize.ShloMosaic.TcCoe Cert.KernelIdeal Cert.KernelIdeal.Gen
open Idealize.ShloMosaic.Pipeline (Dat)

/-! ## The body's payload at a block-local index -/

/-- The zero offsets of a whole-buffer access, as the constant function. -/
theorem matmul7_offsets : (![0, 0] : Fin 2 → Nat) = fun _ => 0 := funext fun a => by fin_cases a <;> rfl

/-- The body's dimension numbers are the plain ones: rows × contraction by contraction × columns. -/
theorem matmul7_dims : dot_S5000x128_S128x128_S5000x128_1_0_0_1_n_n = DotDims.plain 5000 128 128 := rfl

/-- What the body stores, read at the block-local index (p, q): row p of the block of rows times column q of the
    weights, summed over the contraction index (the recasts of the two operands to their own shapes are the identity). When row p of the
    block is row r of an array X and the weights are W, that is entry (r, q) of the product of X and W. -/
theorem matmul7_payload (X : S100000x128.Idx → EReal) (W : S128x128.Idx → EReal)
    (x0 : Vec Ideal S5000x128 .f32) (x1 : Vec Ideal S128x128 .f32) (p : Fin 5000) (q : Fin 128) (r : Fin 100000)
    (h0 : ∀ k : Fin 128, x0 (ix2 p k) = X (ix2 r k)) (h1 : ∀ k : Fin 128, x1 (ix2 k q) = W (ix2 k q)) :
    k7_pay1 x0 x1 (ix2 p q) = ∑ k : Fin 128, X (ix2 r k) * W (ix2 k q) := by
  unfold k7_pay1
  show matmul dot_S5000x128_S128x128_S5000x128_1_0_0_1_n_n none (shapeCast S5000x128 x0 shapeCasts_S5000x128_S5000x128) (shapeCast S128x128 x1 shapeCasts_S128x128_S128x128) (constant (F := Ideal) S5000x128 .f32 0x00000000#32) (ix2 p q) = _
  rw [shapeCast_self x0 shapeCasts_S5000x128_S5000x128, shapeCast_self x1 shapeCasts_S128x128_S128x128]
  rw [matmul7_dims]
  refine (Cert.Lib.PlainDot.matmul_plain_zero_apply none x0 x1 p q).trans ?_
  exact Finset.sum_congr rfl fun k _ => by rw [h0 k, h1 k]

/-! ## Where a block's elements sit in their arrays -/

/-- The block index maps over the grid: the row blocks of the left operand and of the output move with the grid point,
    the weights stay at block (0, 0). -/
theorem matmul7_index : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- Element (p, k) of the left operand's block at point t is element (r, k) of its array, r = 5000 t + p. -/
theorem matmul7_emb_lhs (t : Fin cfg7.N) (p : Fin 5000) (k : Fin 128) (r : Fin 100000) (hr : r.val = t.val * 5000 + p.val) :
    ((cfg7.win 0).blk t).view.emb (ix2 p k) = ix2 r k := by
  obtain ⟨e0, e1, -, -, -, -⟩ := matmul7_index t
  funext a; apply Fin.ext
  match a with
  | ⟨0, _⟩ => show win7_0.index t (0 : Fin 2) * 5000 + 1 * p.val = r.val; omega
  | ⟨1, _⟩ => show win7_0.index t (1 : Fin 2) * 128 + 1 * k.val = k.val; omega

/-- Element (k, q) of the weights' block at any point is element (k, q) of the weights. -/
theorem matmul7_emb_rhs (t : Fin cfg7.N) (k : Fin 128) (q : Fin 128) :
    ((cfg7.win 1).blk t).view.emb (ix2 k q) = ix2 k q := by
  obtain ⟨-, -, e2, e3, -, -⟩ := matmul7_index t
  funext a; apply Fin.ext
  match a with
  | ⟨0, _⟩ => show win7_1.index t (0 : Fin 2) * 128 + 1 * k.val = k.val; omega
  | ⟨1, _⟩ => show win7_1.index t (1 : Fin 2) * 128 + 1 * q.val = q.val; omega

/-- Element (p, q) of the output's block at point t is element (r, q) of its array, r = 5000 t + p. -/
theorem matmul7_emb_out (t : Fin cfg7.N) (p : Fin 5000) (q : Fin 128) (r : Fin 100000) (hr : r.val = t.val * 5000 + p.val) :
    ((cfg7.win 2).blk t).view.emb (ix2 p q) = ix2 r q := by
  obtain ⟨-, -, -, -, e4, e5⟩ := matmul7_index t
  funext a; apply Fin.ext
  match a with
  | ⟨0, _⟩ => show win7_2.index t (0 : Fin 2) * 5000 + 1 * p.val = r.val; omega
  | ⟨1, _⟩ => show win7_2.index t (1 : Fin 2) * 128 + 1 * q.val = q.val; omega

/-- An index of the output array is in point t's block iff each coordinate is in the block's range on its axis. -/
theorem matmul7_mem_blk (t : Fin cfg7.N) (i : S100000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v127).slice (win7_2.rect t)).set ↔ _
  rw [View.set_slice_whole, Rect.mem_set_unit]
  exact Iff.rfl

/-- Every index of the output array is in the block of the point that its row number divided by 5000 names: the 20 blocks
    of 5000 rows tile the 100000 rows. -/
theorem matmul7_cover (i : S100000x128.Idx) :
    ∃ t : Fin cfg7.N, (cfg7.win 2).flush t = true ∧ i ∈ ((cfg7.win 2).blk t).view.set := by
  have hN : cfg7.N = 20 := N_7
  have hi0 : (i 0).val < 100000 := idx2_lt0 i
  have hi1 : (i 1).val < 128 := idx2_lt1 i
  refine ⟨⟨(i 0).val / 5000, by rw [hN]; omega⟩, flush7_2 _, ?_⟩
  rw [matmul7_mem_blk]
  obtain ⟨-, -, -, -, e4, e5⟩ := matmul7_index ⟨(i 0).val / 5000, by rw [hN]; omega⟩
  intro a
  match a with
  | ⟨0, _⟩ => show win7_2.index _ (0 : Fin 2) * 5000 ≤ (i 0).val ∧ (i 0).val < win7_2.index _ (0 : Fin 2) * 5000 + 5000; rw [e4]; show (i 0).val / 5000 * 5000 ≤ (i 0).val ∧ (i 0).val < (i 0).val / 5000 * 5000 + 5000; omega
  | ⟨1, _⟩ => show win7_2.index _ (1 : Fin 2) * 128 ≤ (i 1).val ∧ (i 1).val < win7_2.index _ (1 : Fin 2) * 128 + 128; rw [e5]; omega

/-! ## From the blocks to the array -/

variable (V : (c : Dev nD) → (b : Ref sig .tc) → Buf (Elt Ideal) ((c : Thread nD τ).loc b))

/-- What point t writes back to the output array is block t of the product of the region's two input arrays X (the
    rows) and W (the weights): entry (r, q) of the product is the sum over k of X at (r, k) times W at (k, q). -/
theorem matmul7_flushed (c : Dev nD) (X : S100000x128.Idx → EReal) (W : S128x128.Idx → EReal)
    (hX : V c (Pipeline.arrRef spec7 0) = X) (hW : V c (Pipeline.arrRef spec7 1) = W) (t : Fin cfg7.N) :
    (dat7 (F := Ideal) V c).flushed 2 t = ((cfg7.win 2).blk t).view.read (Elt Ideal)
      (fun i : S100000x128.Idx => (∑ k : Fin 128, X (ix2 (i 0 : Fin 100000) k) * W (ix2 k (i 1 : Fin 128)) : EReal)) := by
  show (cfg7.win 2).cut (grid7.coords t) ((dat7 V c).after 2 t) = _
  rw [after7_2]
  unfold out7_2
  rw [View.canon_unit_zero matmul7_offsets]
  simp only [View.ld_unit_zero (S := S5000x128) matmul7_offsets, View.ld_unit_zero (S := S128x128) matmul7_offsets]
  funext j
  obtain ⟨p, q, rfl⟩ : ∃ (p : Fin 5000) (q : Fin 128), j = ix2 p q := ⟨j 0, j 1, eq_ix2 j⟩
  have hN : cfg7.N = 20 := N_7
  have hr : t.val * 5000 + p.val < 100000 := by have := t.isLt; have := p.isLt; omega
  show k7_pay1 (iblk7 V c 0 t) (iblk7 V c 1 t) (ix2 p q)
    = (fun i : S100000x128.Idx => (∑ k : Fin 128, X (ix2 (i 0 : Fin 100000) k) * W (ix2 k (i 1 : Fin 128)) : EReal))
        (((cfg7.win 2).blk t).view.emb (ix2 p q))
  rw [matmul7_emb_out t p q ⟨t.val * 5000 + p.val, hr⟩ rfl]
  refine matmul7_payload X W (iblk7 V c 0 t) (iblk7 V c 1 t) p q ⟨t.val * 5000 + p.val, hr⟩ (fun k => ?_) (fun k => ?_)
  · show V c (Pipeline.arrRef spec7 0) (((cfg7.win 0).blk t).view.emb (ix2 p k)) = _
    rw [matmul7_emb_lhs t p k ⟨t.val * 5000 + p.val, hr⟩ rfl, hX]
  · show V c (Pipeline.arrRef spec7 1) (((cfg7.win 1).blk t).view.emb (ix2 k q)) = _
    rw [matmul7_emb_rhs t k q, hW]

/-- The output array after the region is the product of the two input arrays, whole: every point writes its block of the
    product, and the blocks cover the array. -/
theorem matmul7_array (c : Dev nD) (X : S100000x128.Idx → EReal) (W : S128x128.Idx → EReal)
    (hX : V c (Pipeline.arrRef spec7 0) = X) (hW : V c (Pipeline.arrRef spec7 1) = W) :
    (dat7 (F := Ideal) V c).arrAt 2 cfg7.N
      = (fun i : S100000x128.Idx => (∑ k : Fin 128, X (ix2 (i 0 : Fin 100000) k) * W (ix2 k (i 1 : Fin 128)) : EReal)) :=
  (dat7 (F := Ideal) V c).arrAt_eq_of_cover 2 _ (fun t _ => matmul7_flushed V c X W hX hW t) matmul7_cover

/-- The output array after the region at (r, q): the sum over k of the rows' array at (r, k) times the weights at (k, q). -/
theorem matmul7_apply (c : Dev nD) (X : S100000x128.Idx → EReal) (W : S128x128.Idx → EReal)
    (hX : V c (Pipeline.arrRef spec7 0) = X) (hW : V c (Pipeline.arrRef spec7 1) = W) (r : Fin 100000) (q : Fin 128) :
    (dat7 (F := Ideal) V c).arrAt 2 cfg7.N (ix2 r q) = ∑ k : Fin 128, X (ix2 r k) * W (ix2 k q) :=
  congrFun (matmul7_array V c X W hX hW) (ix2 r q)

end Cert.KernelIdeal.RegValue

end
-- ==== Proof.KLayer3A.lean ====
/-
  Graph layer 3 in the idealized kernel program, up to its aggregation.
-/
import proofs.«110479_j25572235281175_1_alg».proof.Proof.KLayer2C
import proofs.«110479_j25572235281175_1_alg».proof.Proof.RegMatmul7

set_option maxRecDepth 16384

noncomputable section

namespace Cert.KernelIdeal.Stages

open Idealize.ShloMosaic Idealize.ShloMosaic.TcCoe Idealize.ShloMosaic.StableHlo Idealize.ShloMosaic.ValueIdx
open Cert.KernelIdeal Cert.KernelIdeal.Gen Cert.KernelIdeal.Carry

variable (m : (ℓ : Loc nD τ sig) → Buf (Elt Ideal) ℓ) (ρ : Dev nD → PrngReg)

/-- The layer's input at the projection region's entry. -/
theorem L3_X (c : Dev nD) (hpre : PreOK m) : V17 m ρ c main_v124 = (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  ((keepH7 (W16 m ρ c) main_v124 (by decide)).trans (L2_out m ρ c hpre))

/-- The layer's weight matrix at the projection region's entry: the slice of the stacked weights, as the reference takes it. -/
theorem L3_Wt (c : Dev nD) : V17 m ρ c main_v126 = (Cert.ReferenceIdeal.ReadP.val_main_v136 (F := Ideal) (m ((c : Thread nD τ).loc main_arg2))) := by
  show StableHlo.after hostOps7 (W16 m ρ c) (Proc.devRef .tc main_v126) = _
  try dsimp only [hostOps7]
  after_results_simp
  rw [((keepR6 m ρ c main_arg2 (by decide)).trans ((keepH6 (W14 m ρ c) main_arg2 (by decide)).trans ((keepR5 m ρ c main_arg2 (by decide)).trans ((keepH5 (W12 m ρ c) main_arg2 (by decide)).trans ((keepR4 m ρ c main_arg2 (by decide)).trans ((keepH4 (W10 m ρ c) main_arg2 (by decide)).trans ((keepR3 m ρ c main_arg2 (by decide)).trans ((keepH3 (W8 m ρ c) main_arg2 (by decide)).trans ((keepR2 m ρ c main_arg2 (by decide)).trans ((keepH2 (W6 m ρ c) main_arg2 (by decide)).trans ((keepR1 m ρ c main_arg2 (by decide)).trans ((keepH1 (W4 m ρ c) main_arg2 (by decide)).trans ((keepR0 m ρ c main_arg2 (by decide)).trans ((keepH0_2 (W2 m ρ c) main_arg2 (by decide)).trans ((keepH0_1 (W1 m ρ c) main_arg2 (by decide)).trans (keepH0 (W0 m ρ c) main_arg2 (by decide)))))))))))))))))]
  rfl

/-- After the projection region: the projected features, the reference's x · W. -/
theorem L3_hw (c : Dev nD) (hpre : PreOK m) :
    W18 m ρ c (Proc.devRef .tc main_v127) = Cert.ReferenceIdeal.Layer.proj (F := Ideal) (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v136 (F := Ideal) (m ((c : Thread nD τ).loc main_arg2))) := by
  refine (W18_arr m ρ c 2).trans ?_
  have key : ∀ i : S100000x128.Idx, (dat7 (F := Ideal) (V17 m ρ) c).arrAt 2 cfg7.N i
      = Cert.ReferenceIdeal.Layer.proj (F := Ideal) (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v136 (F := Ideal) (m ((c : Thread nD τ).loc main_arg2))) i := by
    intro i
    obtain ⟨r, q, rfl⟩ : ∃ (r : Fin 100000) (q : Fin 128), i = ix2 r q := ⟨i 0, i 1, eq_ix2 i⟩
    rw [Cert.KernelIdeal.RegValue.matmul7_apply (V17 m ρ) c _ _ (L3_X m ρ c hpre) (L3_Wt m ρ c) r q]
    exact (Cert.ReferenceIdeal.Layer.proj_apply _ _ r q).symm
  exact funext key

/-- At the reduction region's entry: the aggregation along the edges of the projected features, the reference's. -/
theorem L3_seg (c : Dev nD) (hpre : PreOK m) :
    V19 m ρ c main_v140 = Cert.ReferenceIdeal.Layer.seg (F := Ideal) (Cert.ReferenceIdeal.Layer.proj (F := Ideal) (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v136 (F := Ideal) (m ((c : Thread nD τ).loc main_arg2))))
      (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1))) := by
  show StableHlo.after hostOps8 (W18 m ρ c) (Proc.devRef .tc main_v140) = _
  try dsimp only [hostOps8]
  after_results_simp
  rw [L3_hw m ρ c hpre, ((keepR7 m ρ c main_v3 (by decide)).trans ((keepH7 (W16 m ρ c) main_v3 (by decide)).trans ((keepR6 m ρ c main_v3 (by decide)).trans ((keepH6 (W14 m ρ c) main_v3 (by decide)).trans ((keepR5 m ρ c main_v3 (by decide)).trans ((keepH5 (W12 m ρ c) main_v3 (by decide)).trans ((keepR4 m ρ c main_v3 (by decide)).trans ((keepH4 (W10 m ρ c) main_v3 (by decide)).trans ((keepR3 m ρ c main_v3 (by decide)).trans ((keepH3 (W8 m ρ c) main_v3 (by decide)).trans ((keepR2 m ρ c main_v3 (by decide)).trans ((keepH2 (W6 m ρ c) main_v3 (by decide)).trans ((keepR1 m ρ c main_v3 (by decide)).trans ((keepH1 (W4 m ρ c) main_v3 (by decide)).trans (keepR0 m ρ c main_v3 (by decide)))))))))))))))).trans (W3_v3 m ρ c),
    ((keepR7 m ρ c main_v6 (by decide)).trans ((keepH7 (W16 m ρ c) main_v6 (by decide)).trans ((keepR6 m ρ c main_v6 (by decide)).trans ((keepH6 (W14 m ρ c) main_v6 (by decide)).trans ((keepR5 m ρ c main_v6 (by decide)).trans ((keepH5 (W12 m ρ c) main_v6 (by decide)).trans ((keepR4 m ρ c main_v6 (by decide)).trans ((keepH4 (W10 m ρ c) main_v6 (by decide)).trans ((keepR3 m ρ c main_v6 (by decide)).trans ((keepH3 (W8 m ρ c) main_v6 (by decide)).trans ((keepR2 m ρ c main_v6 (by decide)).trans ((keepH2 (W6 m ρ c) main_v6 (by decide)).trans ((keepR1 m ρ c main_v6 (by decide)).trans ((keepH1 (W4 m ρ c) main_v6 (by decide)).trans (keepR0 m ρ c main_v6 (by decide)))))))))))))))).trans (W3_v6 m ρ c),
    ((keepR7 m ρ c main_v29 (by decide)).trans ((keepH7 (W16 m ρ c) main_v29 (by decide)).trans ((keepR6 m ρ c main_v29 (by decide)).trans ((keepH6 (W14 m ρ c) main_v29 (by decide)).trans ((keepR5 m ρ c main_v29 (by decide)).trans ((keepH5 (W12 m ρ c) main_v29 (by decide)).trans ((keepR4 m ρ c main_v29 (by decide)).trans ((keepH4 (W10 m ρ c) main_v29 (by decide)).trans ((keepR3 m ρ c main_v29 (by decide)).trans ((keepH3 (W8 m ρ c) main_v29 (by decide)).trans ((keepR2 m ρ c main_v29 (by decide)).trans ((keepH2 (W6 m ρ c) main_v29 (by decide)).trans ((keepR1 m ρ c main_v29 (by decide)).trans ((keepH1 (W4 m ρ c) main_v29 (by decide)).trans (keepR0 m ρ c main_v29 (by decide)))))))))))))))).trans (W3_v29 m ρ c)]
  rfl

/-- At the reduction region's entry: the layer's bias as a one-row matrix. -/
theorem L3_brow (c : Dev nD) :
    V19 m ρ c main_v143 = Cert.KernelIdeal.Layer.krow (F := Ideal) (Cert.ReferenceIdeal.ReadP.val_main_v138 (F := Ideal) (m ((c : Thread nD τ).loc main_arg3))) := by
  show StableHlo.after hostOps8 (W18 m ρ c) (Proc.devRef .tc main_v143) = _
  try dsimp only [hostOps8]
  after_results_simp
  rw [((keepR7 m ρ c main_arg3 (by decide)).trans ((keepH7 (W16 m ρ c) main_arg3 (by decide)).trans ((keepR6 m ρ c main_arg3 (by decide)).trans ((keepH6 (W14 m ρ c) main_arg3 (by decide)).trans ((keepR5 m ρ c main_arg3 (by decide)).trans ((keepH5 (W12 m ρ c) main_arg3 (by decide)).trans ((keepR4 m ρ c main_arg3 (by decide)).trans ((keepH4 (W10 m ρ c) main_arg3 (by decide)).trans ((keepR3 m ρ c main_arg3 (by decide)).trans ((keepH3 (W8 m ρ c) main_arg3 (by decide)).trans ((keepR2 m ρ c main_arg3 (by decide)).trans ((keepH2 (W6 m ρ c) main_arg3 (by decide)).trans ((keepR1 m ρ c main_arg3 (by decide)).trans ((keepH1 (W4 m ρ c) main_arg3 (by decide)).trans ((keepR0 m ρ c main_arg3 (by decide)).trans ((keepH0_2 (W2 m ρ c) main_arg3 (by decide)).trans ((keepH0_1 (W1 m ρ c) main_arg3 (by decide)).trans (keepH0 (W0 m ρ c) main_arg3 (by decide)))))))))))))))))))]
  rfl

end Cert.KernelIdeal.Stages

end
-- ==== Proof.RegReduce8.lean ====
/-
  The three output arrays of the third bias-and-reduce region, entry by entry.

  The region walks the 100000 rows of its [100000,128] input in 20 blocks of 5000 rows. At each block it adds the
  [1,128] bias row to every row of the block and writes the result to the matching block of its first output; it
  also keeps two [1,128] running rows, zeroed at the first block, to which each block adds the column sums of that
  result and of its square. After the region the first output is, at row r and column q, the input plus the bias;
  the two running rows are, at column q, the sum over all 100000 rows of that value and of its square. The order
  of the additions does not matter: the values are extended reals, whose addition is commutative and associative.
-/
import proofs.«110479_j25572235281175_1_alg».proof.Proof.Gen.KernelIdeal.Frame
import proofs.«110479_j25572235281175_1_alg».proof.Proof.LibColumnReduce
import proofs.«110479_j25572235281175_1_alg».proof.Proof.LibBlockSumGen
import proofs.«110479_j25572235281175_1_alg».proof.Proof.LibRows
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.RegValue

open Idealize.ShloMosaic Idealize.ShloMosaic.ValueIdx Idealize.ShloMosaic.TcCoe Idealize.ShloMosaic.Tactic
open Idealize.SL.Sem
open Cert.KernelIdeal Cert.KernelIdeal.Gen
open Idealize.ShloMosaic.Pipeline (Dat)
open scoped BigOperators

/-! ## What each case of the body leaves in its outputs, as values of the loaded blocks -/

section Pieces
variable {F : FTy → Type} [FloatOps F]

theorem reduce8_hz : (![0, 0] : Fin 2 → Nat) = fun _ => 0 := funext fun a => by fin_cases a <;> rfl

/-- First point: the output block holds the input block plus the bias row. -/
theorem reduce8_A_2 (c : Dev nD) (i : grid8.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond8_0 i)
    (x0 : Vec F S5000x128 .f32) (x1 : Vec F S1x128 .f32) :
    out8_A_2 c i arg1 harg1 arg2 harg2 arg3 harg3 arg4 harg4 arg5 harg5 hc0 x0 x1 = k8_pay1 x0 x1 := by
  unfold out8_A_2
  rw [View.read_writes_eq_canon _ _ _ (cover8_A_2 c i arg1 harg1 arg2 harg2 arg3 harg3 arg4 harg4 arg5 harg5 hc0 x0 x1)]
  unfold kernelRun8_A
  dsimp only
  sl_unfold_words
  rw [View.canon_unit_zero reduce8_hz]
  simp only [View.readAt_eq_ld, harg1.read_unread, harg2.read_unread, View.ld_unit_zero (S := S5000x128) reduce8_hz,
    View.ld_unit_zero (S := S1x128) reduce8_hz]

/-- Later points: the same. -/
theorem reduce8_B_2 (c : Dev nD) (i : grid8.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond8_0 i)
    (x0 : Vec F S5000x128 .f32) (x1 : Vec F S1x128 .f32) (xo3 xo4 : Vec F S1x128 .f32) :
    out8_B_2 c i arg1 harg1 arg2 harg2 arg3 harg3 arg4 harg4 arg5 harg5 hc0 x0 x1 xo3 xo4 = k8_pay1 x0 x1 := by
  unfold out8_B_2
  rw [View.read_writes_eq_canon _ _ _ (cover8_B_2 c i arg1 harg1 arg2 harg2 arg3 harg3 arg4 harg4 arg5 harg5 hc0 x0 x1 xo3 xo4)]
  unfold kernelRun8_B
  dsimp only
  sl_unfold_words
  rw [View.canon_unit_zero reduce8_hz]
  simp only [View.readAt_eq_ld, harg1.read_unread, harg2.read_unread, View.ld_unit_zero (S := S5000x128) reduce8_hz,
    View.ld_unit_zero (S := S1x128) reduce8_hz]

/-- First point: the running sum is zeroed, read back, and the block's column sums are added to it. -/
theorem reduce8_A_3 (c : Dev nD) (i : grid8.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond8_0 i)
    (x0 : Vec F S5000x128 .f32) (x1 : Vec F S1x128 .f32) :
    out8_A_3 c i arg1 harg1 arg2 harg2 arg3 harg3 arg4 harg4 arg5 harg5 hc0 x0 x1 = k8_pay4 x0 x1 (k8_pay2 (F := F)) := by
  unfold out8_A_3
  rw [View.read_writes_eq_canon _ _ _ (cover8_A_3 c i arg1 harg1 arg2 harg2 arg3 harg3 arg4 harg4 arg5 harg5 hc0 x0 x1)]
  unfold kernelRun8_A
  dsimp only
  sl_unfold_words
  rw [View.canon_cons_unit_zero (S := S1x128) reduce8_hz]
  simp only [View.readCov_unit_zero (S := S1x128) _ reduce8_hz, View.readAt_eq_ld, harg1.read_unread, harg2.read_unread,
    View.ld_unit_zero (S := S5000x128) reduce8_hz, View.ld_unit_zero (S := S1x128) reduce8_hz]

/-- First point: likewise the running sum of squares. -/
theorem reduce8_A_4 (c : Dev nD) (i : grid8.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond8_0 i)
    (x0 : Vec F S5000x128 .f32) (x1 : Vec F S1x128 .f32) :
    out8_A_4 c i arg1 harg1 arg2 harg2 arg3 harg3 arg4 harg4 arg5 harg5 hc0 x0 x1 = k8_pay5 x0 x1 (k8_pay3 (F := F)) := by
  unfold out8_A_4
  rw [View.read_writes_eq_canon _ _ _ (cover8_A_4 c i arg1 harg1 arg2 harg2 arg3 harg3 arg4 harg4 arg5 harg5 hc0 x0 x1)]
  unfold kernelRun8_A
  dsimp only
  sl_unfold_words
  rw [View.canon_cons_unit_zero (S := S1x128) reduce8_hz]
  simp only [View.readCov_unit_zero (S := S1x128) _ reduce8_hz, View.readAt_eq_ld, harg1.read_unread, harg2.read_unread,
    View.ld_unit_zero (S := S5000x128) reduce8_hz, View.ld_unit_zero (S := S1x128) reduce8_hz]

/-- Later points: the block's column sums are added to the running sum the point before left. -/
theorem reduce8_B_3 (c : Dev nD) (i : grid8.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond8_0 i)
    (x0 : Vec F S5000x128 .f32) (x1 : Vec F S1x128 .f32) (xo3 xo4 : Vec F S1x128 .f32) :
    out8_B_3 c i arg1 harg1 arg2 harg2 arg3 harg3 arg4 harg4 arg5 harg5 hc0 x0 x1 xo3 xo4 = k8_pay4 x0 x1 xo3 := by
  unfold out8_B_3
  rw [View.read_writes_eq_canon _ _ _ (cover8_B_3 c i arg1 harg1 arg2 harg2 arg3 harg3 arg4 harg4 arg5 harg5 hc0 x0 x1 xo3 xo4)]
  unfold kernelRun8_B
  dsimp only
  sl_unfold_words
  rw [View.canon_unit_zero reduce8_hz]
  simp only [View.readAt_eq_ld, harg1.read_unread, harg2.read_unread, harg4.read_unread, harg5.read_unread,
    View.ld_unit_zero (S := S5000x128) reduce8_hz, View.ld_unit_zero (S := S1x128) reduce8_hz]

/-- Later points: likewise the running sum of squares. -/
theorem reduce8_B_4 (c : Dev nD) (i : grid8.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond8_0 i)
    (x0 : Vec F S5000x128 .f32) (x1 : Vec F S1x128 .f32) (xo3 xo4 : Vec F S1x128 .f32) :
    out8_B_4 c i arg1 harg1 arg2 harg2 arg3 harg3 arg4 harg4 arg5 harg5 hc0 x0 x1 xo3 xo4 = k8_pay5 x0 x1 xo4 := by
  unfold out8_B_4
  rw [View.read_writes_eq_canon _ _ _ (cover8_B_4 c i arg1 harg1 arg2 harg2 arg3 harg3 arg4 harg4 arg5 harg5 hc0 x0 x1 xo3 xo4)]
  unfold kernelRun8_B
  dsimp only
  sl_unfold_words
  rw [View.canon_unit_zero reduce8_hz]
  simp only [View.readAt_eq_ld, harg1.read_unread, harg2.read_unread, harg4.read_unread, harg5.read_unread,
    View.ld_unit_zero (S := S5000x128) reduce8_hz, View.ld_unit_zero (S := S1x128) reduce8_hz]

/-! ## The outputs after each point, over the blocks at that point -/

variable (V : (c : Dev nD) → (b : Ref sig .tc) → Buf (Elt F) ((c : Thread nD τ).loc b))

/-- After any point the output block holds that point's input block plus the bias row. -/
theorem reduce8_outs_agg (c : Dev nD) (t : Fin cfg8.N) :
    (outsAt8 V c t.val t.isLt).1 = k8_pay1 (iblk8 V c 0 t) (iblk8 V c 1 t) := by
  by_cases h0 : t.val % 20 = 0
  · rw [outsAt8_A V c t h0]
    dsimp only
    exact reduce8_A_2 c (grid8.coords t) (ms8_0 t) (hs8_0 t) (ms8_1 t) (hs8_1 t) (ms8_2 t) (hs8_2 t) (ms8_3 t) (hs8_3 t) (ms8_4 t) (hs8_4 t) ((hcond8_0 t).mpr h0) (iblk8 V c 0 t) (iblk8 V c 1 t)
  · rw [outsAt8_B V c t h0]
    dsimp only
    exact reduce8_B_2 c (grid8.coords t) (ms8_0 t) (hs8_0 t) (ms8_1 t) (hs8_1 t) (ms8_2 t) (hs8_2 t) (ms8_3 t) (hs8_3 t) (ms8_4 t) (hs8_4 t) (fun h => h0 ((hcond8_0 t).mp h)) (iblk8 V c 0 t) (iblk8 V c 1 t)
      (outsAt8 V c (t.val - 1) (Nat.lt_of_le_of_lt (Nat.sub_le _ _) t.isLt)).2.1 (outsAt8 V c (t.val - 1) (Nat.lt_of_le_of_lt (Nat.sub_le _ _) t.isLt)).2.2

/-- After the first point the running sum is the zero row plus the first block's column sums. -/
theorem reduce8_outs_sum_zero (c : Dev nD) (h : 0 < cfg8.N) :
    (outsAt8 V c 0 h).2.1 = k8_pay4 (iblk8 V c 0 ⟨0, h⟩) (iblk8 V c 1 ⟨0, h⟩) (k8_pay2 (F := F)) := by
  rw [outsAt8_A V c ⟨0, h⟩ rfl]
  dsimp only
  exact reduce8_A_3 c (grid8.coords ⟨0, h⟩) (ms8_0 ⟨0, h⟩) (hs8_0 ⟨0, h⟩) (ms8_1 ⟨0, h⟩) (hs8_1 ⟨0, h⟩) (ms8_2 ⟨0, h⟩) (hs8_2 ⟨0, h⟩) (ms8_3 ⟨0, h⟩) (hs8_3 ⟨0, h⟩) (ms8_4 ⟨0, h⟩) (hs8_4 ⟨0, h⟩) ((hcond8_0 ⟨0, h⟩).mpr rfl) (iblk8 V c 0 ⟨0, h⟩) (iblk8 V c 1 ⟨0, h⟩)

/-- After the first point the running sum of squares is the zero row plus the first block's column sums of squares. -/
theorem reduce8_outs_sumsq_zero (c : Dev nD) (h : 0 < cfg8.N) :
    (outsAt8 V c 0 h).2.2 = k8_pay5 (iblk8 V c 0 ⟨0, h⟩) (iblk8 V c 1 ⟨0, h⟩) (k8_pay3 (F := F)) := by
  rw [outsAt8_A V c ⟨0, h⟩ rfl]
  dsimp only
  exact reduce8_A_4 c (grid8.coords ⟨0, h⟩) (ms8_0 ⟨0, h⟩) (hs8_0 ⟨0, h⟩) (ms8_1 ⟨0, h⟩) (hs8_1 ⟨0, h⟩) (ms8_2 ⟨0, h⟩) (hs8_2 ⟨0, h⟩) (ms8_3 ⟨0, h⟩) (hs8_3 ⟨0, h⟩) (ms8_4 ⟨0, h⟩) (hs8_4 ⟨0, h⟩) ((hcond8_0 ⟨0, h⟩).mpr rfl) (iblk8 V c 0 ⟨0, h⟩) (iblk8 V c 1 ⟨0, h⟩)

/-- After a later point the running sum is what the point before left plus this block's column sums. -/
theorem reduce8_outs_sum_succ (c : Dev nD) (n : ℕ) (h : n + 1 < cfg8.N) :
    (outsAt8 V c (n + 1) h).2.1
      = k8_pay4 (iblk8 V c 0 ⟨n + 1, h⟩) (iblk8 V c 1 ⟨n + 1, h⟩) (outsAt8 V c n (Nat.lt_of_succ_lt h)).2.1 := by
  have hN : cfg8.N = 20 := N_8
  have hB : ¬(⟨n + 1, h⟩ : Fin cfg8.N).val % 20 = 0 := by dsimp only; omega
  rw [outsAt8_B V c ⟨n + 1, h⟩ hB]
  dsimp only
  exact reduce8_B_3 c (grid8.coords ⟨n + 1, h⟩) (ms8_0 ⟨n + 1, h⟩) (hs8_0 ⟨n + 1, h⟩) (ms8_1 ⟨n + 1, h⟩) (hs8_1 ⟨n + 1, h⟩) (ms8_2 ⟨n + 1, h⟩) (hs8_2 ⟨n + 1, h⟩) (ms8_3 ⟨n + 1, h⟩) (hs8_3 ⟨n + 1, h⟩) (ms8_4 ⟨n + 1, h⟩) (hs8_4 ⟨n + 1, h⟩) (fun h' => hB ((hcond8_0 ⟨n + 1, h⟩).mp h')) (iblk8 V c 0 ⟨n + 1, h⟩) (iblk8 V c 1 ⟨n + 1, h⟩)
    (outsAt8 V c n (Nat.lt_of_succ_lt h)).2.1 (outsAt8 V c n (Nat.lt_of_succ_lt h)).2.2

/-- After a later point the running sum of squares is what the point before left plus this block's column sums of squares. -/
theorem reduce8_outs_sumsq_succ (c : Dev nD) (n : ℕ) (h : n + 1 < cfg8.N) :
    (outsAt8 V c (n + 1) h).2.2
      = k8_pay5 (iblk8 V c 0 ⟨n + 1, h⟩) (iblk8 V c 1 ⟨n + 1, h⟩) (outsAt8 V c n (Nat.lt_of_succ_lt h)).2.2 := by
  have hN : cfg8.N = 20 := N_8
  have hB : ¬(⟨n + 1, h⟩ : Fin cfg8.N).val % 20 = 0 := by dsimp only; omega
  rw [outsAt8_B V c ⟨n + 1, h⟩ hB]
  dsimp only
  exact reduce8_B_4 c (grid8.coords ⟨n + 1, h⟩) (ms8_0 ⟨n + 1, h⟩) (hs8_0 ⟨n + 1, h⟩) (ms8_1 ⟨n + 1, h⟩) (hs8_1 ⟨n + 1, h⟩) (ms8_2 ⟨n + 1, h⟩) (hs8_2 ⟨n + 1, h⟩) (ms8_3 ⟨n + 1, h⟩) (hs8_3 ⟨n + 1, h⟩) (ms8_4 ⟨n + 1, h⟩) (hs8_4 ⟨n + 1, h⟩) (fun h' => hB ((hcond8_0 ⟨n + 1, h⟩).mp h')) (iblk8 V c 0 ⟨n + 1, h⟩) (iblk8 V c 1 ⟨n + 1, h⟩)
    (outsAt8 V c n (Nat.lt_of_succ_lt h)).2.1 (outsAt8 V c n (Nat.lt_of_succ_lt h)).2.2

end Pieces

/-! ## The body's values at an index, at the ideal values -/

section Payloads

/-- The first value the body computes, at row p and column q of a block: the block's entry plus the bias row's
    entry in that column (the [1,128] row is broadcast down the 5000 rows). -/
theorem reduce8_pay1_apply (x0 : Vec Ideal S5000x128 .f32) (x1 : Vec Ideal S1x128 .f32) (p : Fin 5000) (q : Fin 128) :
    k8_pay1 (F := Ideal) x0 x1 (ix2 p q) = x0 (ix2 p q) + x1 (ix2 (0 : Fin 1) q) := by
  unfold k8_pay1
  show shapeCast S5000x128 x0 shapeCasts_S5000x128_S5000x128 (ix2 p q)
      + broadcastTo S5000x128 (shapeCast S1x128 x1 shapeCasts_S1x128_S1x128) broadcasts_S1x128_S5000x128 (ix2 p q) = _
  rw [shapeCast_self, shapeCast_self]
  exact congrArg (fun z => x0 (ix2 p q) + z)
    (Cert.Lib.Rows.broadcastTo_row_apply (R := 5000) (C := 128) x1 broadcasts_S1x128_S5000x128 p q)

/-- The zero row the first point stores into the running sum reads zero. -/
theorem reduce8_pay2_apply (q : Fin 128) : k8_pay2 (F := Ideal) (ix2 (0 : Fin 1) q) = 0 := by
  unfold k8_pay2
  show Ideal.ofBits .f32 0x00000000#32 = 0
  exact Ideal.ofBits_zero_f32

/-- The zero row the first point stores into the running sum of squares reads zero. -/
theorem reduce8_pay3_apply (q : Fin 128) : k8_pay3 (F := Ideal) (ix2 (0 : Fin 1) q) = 0 := by
  unfold k8_pay3
  show Ideal.ofBits .f32 0x00000000#32 = 0
  exact Ideal.ofBits_zero_f32

/-- The running sum after a point, at column q: what it held before plus the sum down column q of the block's
    5000 rows of the first value. -/
theorem reduce8_pay4_apply (x0 : Vec Ideal S5000x128 .f32) (x1 : Vec Ideal S1x128 .f32) (v10 : Vec Ideal S1x128 .f32)
    (q : Fin 128) :
    k8_pay4 (F := Ideal) x0 x1 v10 (ix2 (0 : Fin 1) q)
      = v10 (ix2 (0 : Fin 1) q) + ∑ p : Fin 5000, (x0 (ix2 p q) + x1 (ix2 (0 : Fin 1) q)) := by
  unfold k8_pay4
  show shapeCast S1x128 v10 shapeCasts_S1x128_S1x128 (ix2 (0 : Fin 1) q)
      + shapeCast S1x128 (multiReduction (F := Ideal) .add [0] S128 (k8_pay1 x0 x1) 0x00000000#32 reduces_S5000x128_S128 (.inl rfl) rfl)
          shapeCasts_S128_S1x128 (ix2 (0 : Fin 1) q) = _
  rw [shapeCast_self]
  refine congrArg (fun z => v10 (ix2 (0 : Fin 1) q) + z) ?_
  refine (Cert.Lib.Rows.shapeCast_vec_row_apply (C := 128) _ shapeCasts_S128_S1x128 q).trans ?_
  refine (Cert.Lib.ColumnReduce.multiReduction_rows_apply (a := 5000) (b := 128) (k8_pay1 x0 x1) reduces_S5000x128_S128 q).trans ?_
  exact Finset.sum_congr rfl fun p _ => reduce8_pay1_apply x0 x1 p q

/-- The running sum of squares after a point, at column q: what it held before plus the sum down column q of the
    block's 5000 rows of the first value's square. -/
theorem reduce8_pay5_apply (x0 : Vec Ideal S5000x128 .f32) (x1 : Vec Ideal S1x128 .f32) (v16 : Vec Ideal S1x128 .f32)
    (q : Fin 128) :
    k8_pay5 (F := Ideal) x0 x1 v16 (ix2 (0 : Fin 1) q)
      = v16 (ix2 (0 : Fin 1) q)
        + ∑ p : Fin 5000, ((x0 (ix2 p q) + x1 (ix2 (0 : Fin 1) q)) * (x0 (ix2 p q) + x1 (ix2 (0 : Fin 1) q))) := by
  unfold k8_pay5
  show shapeCast S1x128 v16 shapeCasts_S1x128_S1x128 (ix2 (0 : Fin 1) q)
      + shapeCast S1x128 (multiReduction (F := Ideal) .add [0] S128 (mulf (k8_pay1 x0 x1) (k8_pay1 x0 x1)) 0x00000000#32
            reduces_S5000x128_S128 (.inl rfl) rfl)
          shapeCasts_S128_S1x128 (ix2 (0 : Fin 1) q) = _
  rw [shapeCast_self]
  refine congrArg (fun z => v16 (ix2 (0 : Fin 1) q) + z) ?_
  refine (Cert.Lib.Rows.shapeCast_vec_row_apply (C := 128) _ shapeCasts_S128_S1x128 q).trans ?_
  refine (Cert.Lib.ColumnReduce.multiReduction_rows_apply (a := 5000) (b := 128) (mulf (k8_pay1 x0 x1) (k8_pay1 x0 x1))
    reduces_S5000x128_S128 q).trans ?_
  refine Finset.sum_congr rfl fun p _ => ?_
  show k8_pay1 (F := Ideal) x0 x1 (ix2 p q) * k8_pay1 (F := Ideal) x0 x1 (ix2 p q) = _
  rw [reduce8_pay1_apply]

end Payloads

/-! ## The blocks the windows read, as entries of the region's input arrays -/

section Values
variable (V : (c : Dev nD) → (b : Ref sig .tc) → Buf (Elt Ideal) ((c : Thread nD τ).loc b)) (c : Dev nD)
variable (A0 : S100000x128.Idx → EReal) (A1 : S1x128.Idx → EReal)

/-- Where the windows' blocks sit at each grid point, decided over the 20 points: the row blocks of the input and of
    the first output are block t of the rows; the bias row and the two running rows never move. -/
theorem reduce8_idx : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

/-- Row l of block k of the 20 blocks of 5000 rows is a row of the array. -/
theorem reduce8_row_lt {n : ℕ} (hn : n < cfg8.N) (k : Fin (n + 1)) (l : Fin 5000) : 5000 * k.val + l.val < 100000 := by
  have hN : cfg8.N = 20 := N_8
  have := k.isLt
  have := l.isLt
  omega

/-- The input block at point t, at (p, q), is the input array at row 5000 t + p, column q. -/
theorem reduce8_iblk0_apply (h0 : V c (Pipeline.arrRef spec8 0) = A0) (t : Fin cfg8.N) (p : Fin 5000) (q : Fin 128)
    (hr : 5000 * t.val + p.val < 100000) :
    (iblk8 (F := Ideal) V c 0 t : Vec Ideal S5000x128 .f32) (ix2 p q) = A0 (ix2 ⟨5000 * t.val + p.val, hr⟩ q) := by
  subst h0
  obtain ⟨e0, e1, -⟩ := reduce8_idx t
  unfold iblk8
  rw [View.read_apply]
  show V c (Pipeline.arrRef spec8 0) _ = V c (Pipeline.arrRef spec8 0) _
  congr 1
  funext a
  apply Fin.ext
  match a with
  | ⟨0, _⟩ => show win8_0.index t (0 : Fin 2) * 5000 + 1 * p.val = 5000 * t.val + p.val; rw [e0]; omega
  | ⟨1, _⟩ => show win8_0.index t (1 : Fin 2) * 128 + 1 * q.val = q.val; rw [e1]; omega

/-- The bias block at every point, at (0, q), is the bias row at column q. -/
theorem reduce8_iblk1_apply (h1 : V c (Pipeline.arrRef spec8 1) = A1) (t : Fin cfg8.N) (q : Fin 128) :
    (iblk8 (F := Ideal) V c 1 t : Vec Ideal S1x128 .f32) (ix2 (0 : Fin 1) q) = A1 (ix2 (0 : Fin 1) q) := by
  subst h1
  obtain ⟨-, -, e0, e1, -⟩ := reduce8_idx t
  unfold iblk8
  rw [View.read_apply]
  show V c (Pipeline.arrRef spec8 1) _ = V c (Pipeline.arrRef spec8 1) _
  congr 1
  funext a
  apply Fin.ext
  match a with
  | ⟨0, _⟩ => show win8_1.index t (0 : Fin 2) * 1 + 1 * 0 = 0; rw [e0]
  | ⟨1, _⟩ => show win8_1.index t (1 : Fin 2) * 128 + 1 * q.val = q.val; rw [e1]; omega

/-! ## The running sums after each point -/

/-- What a point adds to the running sum at column q: the sum, down column q, of the point's 5000 rows of the input
    plus the bias. -/
theorem reduce8_block_sum (h0 : V c (Pipeline.arrRef spec8 0) = A0) (h1 : V c (Pipeline.arrRef spec8 1) = A1)
    (t : Fin cfg8.N) (xo : Vec Ideal S1x128 .f32) (q : Fin 128)
    (hr : ∀ l : Fin 5000, 5000 * t.val + l.val < 100000) :
    k8_pay4 (F := Ideal) (iblk8 V c 0 t) (iblk8 V c 1 t) xo (ix2 (0 : Fin 1) q)
      = xo (ix2 (0 : Fin 1) q) + ∑ l : Fin 5000, (A0 (ix2 ⟨5000 * t.val + l.val, hr l⟩ q) + A1 (ix2 (0 : Fin 1) q)) := by
  refine (reduce8_pay4_apply (iblk8 V c 0 t) (iblk8 V c 1 t) xo q).trans ?_
  refine congrArg (fun z => xo (ix2 (0 : Fin 1) q) + z) (Finset.sum_congr rfl fun l _ => ?_)
  rw [reduce8_iblk0_apply V c A0 h0 t l q (hr l), reduce8_iblk1_apply V c A1 h1 t q]

/-- What a point adds to the running sum of squares at column q. -/
theorem reduce8_block_sumsq (h0 : V c (Pipeline.arrRef spec8 0) = A0) (h1 : V c (Pipeline.arrRef spec8 1) = A1)
    (t : Fin cfg8.N) (xo : Vec Ideal S1x128 .f32) (q : Fin 128)
    (hr : ∀ l : Fin 5000, 5000 * t.val + l.val < 100000) :
    k8_pay5 (F := Ideal) (iblk8 V c 0 t) (iblk8 V c 1 t) xo (ix2 (0 : Fin 1) q)
      = xo (ix2 (0 : Fin 1) q) + ∑ l : Fin 5000, ((A0 (ix2 ⟨5000 * t.val + l.val, hr l⟩ q) + A1 (ix2 (0 : Fin 1) q)) * (A0 (ix2 ⟨5000 * t.val + l.val, hr l⟩ q) + A1 (ix2 (0 : Fin 1) q))) := by
  refine (reduce8_pay5_apply (iblk8 V c 0 t) (iblk8 V c 1 t) xo q).trans ?_
  refine congrArg (fun z => xo (ix2 (0 : Fin 1) q) + z) (Finset.sum_congr rfl fun l _ => ?_)
  rw [reduce8_iblk0_apply V c A0 h0 t l q (hr l), reduce8_iblk1_apply V c A1 h1 t q]

/-- THE RUNNING SUM: after point n the sum row holds, at column q, the sum over the first n + 1 blocks of 5000 rows of
    the input plus the bias — by induction on the point: the first point starts from the zero row, each later point
    adds its block's column sum to what the point before left. -/
theorem reduce8_sum_inv (h0 : V c (Pipeline.arrRef spec8 0) = A0) (h1 : V c (Pipeline.arrRef spec8 1) = A1)
    (q : Fin 128) : ∀ (n : ℕ) (hn : n < cfg8.N),
    (outsAt8 (F := Ideal) V c n hn).2.1 (ix2 (0 : Fin 1) q)
      = ∑ k : Fin (n + 1), ∑ l : Fin 5000, (A0 (ix2 ⟨5000 * k.val + l.val, reduce8_row_lt hn k l⟩ q) + A1 (ix2 (0 : Fin 1) q))
  | 0, hn => by
    rw [reduce8_outs_sum_zero V c hn]
    refine (reduce8_block_sum V c A0 A1 h0 h1 ⟨0, hn⟩ (k8_pay2 (F := Ideal)) q (fun l => reduce8_row_lt hn 0 l)).trans ?_
    rw [reduce8_pay2_apply, zero_add, Fin.sum_univ_one]
    rfl
  | n + 1, hn => by
    rw [reduce8_outs_sum_succ V c n hn]
    refine (reduce8_block_sum V c A0 A1 h0 h1 ⟨n + 1, hn⟩ _ q (fun l => reduce8_row_lt hn (Fin.last (n + 1)) l)).trans ?_
    rw [reduce8_sum_inv h0 h1 q n (Nat.lt_of_succ_lt hn), Fin.sum_univ_castSucc (n := n + 1)]
    rfl

/-- THE RUNNING SUM OF SQUARES, likewise. -/
theorem reduce8_sumsq_inv (h0 : V c (Pipeline.arrRef spec8 0) = A0) (h1 : V c (Pipeline.arrRef spec8 1) = A1)
    (q : Fin 128) : ∀ (n : ℕ) (hn : n < cfg8.N),
    (outsAt8 (F := Ideal) V c n hn).2.2 (ix2 (0 : Fin 1) q)
      = ∑ k : Fin (n + 1), ∑ l : Fin 5000, ((A0 (ix2 ⟨5000 * k.val + l.val, reduce8_row_lt hn k l⟩ q) + A1 (ix2 (0 : Fin 1) q)) * (A0 (ix2 ⟨5000 * k.val + l.val, reduce8_row_lt hn k l⟩ q) + A1 (ix2 (0 : Fin 1) q)))
  | 0, hn => by
    rw [reduce8_outs_sumsq_zero V c hn]
    refine (reduce8_block_sumsq V c A0 A1 h0 h1 ⟨0, hn⟩ (k8_pay3 (F := Ideal)) q (fun l => reduce8_row_lt hn 0 l)).trans ?_
    rw [reduce8_pay3_apply, zero_add, Fin.sum_univ_one]
    rfl
  | n + 1, hn => by
    rw [reduce8_outs_sumsq_succ V c n hn]
    refine (reduce8_block_sumsq V c A0 A1 h0 h1 ⟨n + 1, hn⟩ _ q (fun l => reduce8_row_lt hn (Fin.last (n + 1)) l)).trans ?_
    rw [reduce8_sumsq_inv h0 h1 q n (Nat.lt_of_succ_lt hn), Fin.sum_univ_castSucc (n := n + 1)]
    rfl

/-- The last point. -/
theorem reduce8_last_lt : 19 < cfg8.N := by rw [show cfg8.N = 20 from N_8]; decide

/-- The 20 blocks of 5000 rows are all 100000 rows: a sum over the blocks of the sums inside each is the sum over
    the rows. -/
theorem reduce8_sum_rows {M : Type*} [AddCommMonoid M] (f : Fin 100000 → M) :
    ∑ k : Fin (19 + 1), ∑ l : Fin 5000, f ⟨5000 * k.val + l.val, reduce8_row_lt reduce8_last_lt k l⟩ = ∑ r : Fin 100000, f r :=
  (Cert.LibBlockSumGen.sum_blocks (n := 100000) (K := 20) (B := 5000) rfl f).symm

/-! ## From the blocks written back to the arrays after the region -/

/-- The first output array after the region, as one function of the input arrays: the input plus the bias row. -/
abbrev reduce8_agg_fn : S100000x128.Idx → EReal :=
  fun i => A0 i + A1 (ix2 (0 : Fin 1) (i 1))

/-- What point t writes back to the first output is block t of that function. -/
theorem reduce8_flushed_agg (h0 : V c (Pipeline.arrRef spec8 0) = A0) (h1 : V c (Pipeline.arrRef spec8 1) = A1)
    (t : Fin cfg8.N) :
    (dat8 (F := Ideal) V c).flushed 2 t = ((cfg8.win 2).blk t).view.read (Elt Ideal) (reduce8_agg_fn A0 A1) := by
  show (cfg8.win 2).cut (grid8.coords t) ((dat8 (F := Ideal) V c).after 2 t) = _
  rw [after8_2, reduce8_outs_agg V c t]
  obtain ⟨-, -, -, -, e0, e1, -⟩ := reduce8_idx t
  have hN : cfg8.N = 20 := N_8
  show (k8_pay1 (F := Ideal) (iblk8 V c 0 t) (iblk8 V c 1 t) : S5000x128.Idx → EReal)
    = fun j : S5000x128.Idx => reduce8_agg_fn A0 A1 (((cfg8.win 2).blk t).view.emb j)
  funext j
  obtain ⟨p, q, rfl⟩ : ∃ (p : Fin 5000) (q : Fin 128), j = ix2 p q := ⟨j 0, j 1, eq_ix2 j⟩
  have hr : 5000 * t.val + p.val < 100000 := by have := t.isLt; have := p.isLt; omega
  have he : ((cfg8.win 2).blk t).view.emb (ix2 p q) = (ix2 ⟨5000 * t.val + p.val, hr⟩ q : S100000x128.Idx) := by
    funext a
    apply Fin.ext
    match a with
    | ⟨0, _⟩ => show win8_2.index t (0 : Fin 2) * 5000 + 1 * p.val = 5000 * t.val + p.val; rw [e0]; omega
    | ⟨1, _⟩ => show win8_2.index t (1 : Fin 2) * 128 + 1 * q.val = q.val; rw [e1]; omega
  rw [he]
  refine (reduce8_pay1_apply (iblk8 V c 0 t) (iblk8 V c 1 t) p q).trans ?_
  rw [reduce8_iblk0_apply V c A0 h0 t p q hr, reduce8_iblk1_apply V c A1 h1 t q]

/-- An index of the first output array is in point t's block iff each coordinate is in the block's range. -/
theorem reduce8_mem_blk_agg (t : Fin cfg8.N) (i : S100000x128.Idx) :
    i ∈ ((cfg8.win 2).blk t).view.set ↔ ∀ a : Fin 2, win8_2.index t a * S5000x128.size a ≤ (i a).val
      ∧ (i a).val < win8_2.index t a * S5000x128.size a + S5000x128.size a := by
  show i ∈ ((View.whole main_v144_0).slice (win8_2.rect t)).set ↔ _
  rw [View.set_slice_whole, Rect.mem_set_unit]
  exact Iff.rfl

/-- THE FIRST OUTPUT ARRAY after the region: every row r lies in the block of point r / 5000, which is written back. -/
theorem reduce8_agg_final (h0 : V c (Pipeline.arrRef spec8 0) = A0) (h1 : V c (Pipeline.arrRef spec8 1) = A1) :
    (dat8 (F := Ideal) V c).arrAt 2 cfg8.N = reduce8_agg_fn A0 A1 :=
  (dat8 (F := Ideal) V c).arrAt_eq_of_cover 2 (reduce8_agg_fn A0 A1) (fun t _ => reduce8_flushed_agg V c A0 A1 h0 h1 t) fun i => by
    have hN : cfg8.N = 20 := N_8
    have hi0 : (i 0).val < 100000 := (i 0).isLt
    have hi1 : (i 1).val < 128 := (i 1).isLt
    have ht : (i 0).val / 5000 < cfg8.N := by omega
    obtain ⟨-, -, -, -, e0, e1, -⟩ := reduce8_idx ⟨(i 0).val / 5000, ht⟩
    refine ⟨⟨(i 0).val / 5000, ht⟩, flush8_2 _, ?_⟩
    rw [reduce8_mem_blk_agg]
    intro a
    match a with
    | ⟨0, _⟩ =>
      show win8_2.index ⟨(i 0).val / 5000, ht⟩ (0 : Fin 2) * 5000 ≤ (i 0).val
        ∧ (i 0).val < win8_2.index ⟨(i 0).val / 5000, ht⟩ (0 : Fin 2) * 5000 + 5000
      rw [e0]; dsimp only; omega
    | ⟨1, _⟩ =>
      show win8_2.index ⟨(i 0).val / 5000, ht⟩ (1 : Fin 2) * 128 ≤ (i 1).val
        ∧ (i 1).val < win8_2.index ⟨(i 0).val / 5000, ht⟩ (1 : Fin 2) * 128 + 128
      rw [e1]; omega

/-- The sum row's one write-back, at the last point, writes what the last point left: the row's one block is the
    whole [1,128] array. -/
theorem reduce8_flushed_sum (t : Fin cfg8.N) (hf : (cfg8.win 3).flush t = true) :
    (dat8 (F := Ideal) V c).flushed 3 t
      = ((cfg8.win 3).blk t).view.read (Elt Ideal) (outsAt8 (F := Ideal) V c 19 reduce8_last_lt).2.1 := by
  have hN : cfg8.N = 20 := N_8
  have h19 : t.val = 19 := by have := (flush8_3 t).mp hf; have := t.isLt; omega
  obtain rfl : t = ⟨19, reduce8_last_lt⟩ := Fin.ext h19
  obtain ⟨-, -, -, -, -, -, e0, e1, -⟩ := reduce8_idx ⟨19, reduce8_last_lt⟩
  show (cfg8.win 3).cut (grid8.coords ⟨19, reduce8_last_lt⟩) ((dat8 (F := Ideal) V c).after 3 ⟨19, reduce8_last_lt⟩) = _
  rw [after8_3]
  have hz' : (fun a => win8_3.index ⟨19, reduce8_last_lt⟩ a * main_v144_1.ty.shape.size a) = fun _ => 0 :=
    funext fun a => by
      match a with
      | ⟨0, _⟩ => show win8_3.index ⟨19, reduce8_last_lt⟩ (0 : Fin 2) * 1 = 0; rw [e0]
      | ⟨1, _⟩ => show win8_3.index ⟨19, reduce8_last_lt⟩ (1 : Fin 2) * 128 = 0; rw [e1]
  exact (Memref.read_access_unit_zero (Elt Ideal) main_v144_1 hz' (fun a => by rw [congrFun hz' a]; simp)
    (outsAt8 (F := Ideal) V c 19 reduce8_last_lt).2.1).symm

/-- The sum of squares row's one write-back, likewise. -/
theorem reduce8_flushed_sumsq (t : Fin cfg8.N) (hf : (cfg8.win 4).flush t = true) :
    (dat8 (F := Ideal) V c).flushed 4 t
      = ((cfg8.win 4).blk t).view.read (Elt Ideal) (outsAt8 (F := Ideal) V c 19 reduce8_last_lt).2.2 := by
  have hN : cfg8.N = 20 := N_8
  have h19 : t.val = 19 := by have := (flush8_4 t).mp hf; have := t.isLt; omega
  obtain rfl : t = ⟨19, reduce8_last_lt⟩ := Fin.ext h19
  obtain ⟨-, -, -, -, -, -, -, -, e0, e1⟩ := reduce8_idx ⟨19, reduce8_last_lt⟩
  show (cfg8.win 4).cut (grid8.coords ⟨19, reduce8_last_lt⟩) ((dat8 (F := Ideal) V c).after 4 ⟨19, reduce8_last_lt⟩) = _
  rw [after8_4]
  have hz' : (fun a => win8_4.index ⟨19, reduce8_last_lt⟩ a * main_v144_2.ty.shape.size a) = fun _ => 0 :=
    funext fun a => by
      match a with
      | ⟨0, _⟩ => show win8_4.index ⟨19, reduce8_last_lt⟩ (0 : Fin 2) * 1 = 0; rw [e0]
      | ⟨1, _⟩ => show win8_4.index ⟨19, reduce8_last_lt⟩ (1 : Fin 2) * 128 = 0; rw [e1]
  exact (Memref.read_access_unit_zero (Elt Ideal) main_v144_2 hz' (fun a => by rw [congrFun hz' a]; simp)
    (outsAt8 (F := Ideal) V c 19 reduce8_last_lt).2.2).symm

/-- The sum row after the region is what the last point left in its staging buffer: the last point's block covers it. -/
theorem reduce8_sum_final :
    (dat8 (F := Ideal) V c).arrAt 3 cfg8.N = (outsAt8 (F := Ideal) V c 19 reduce8_last_lt).2.1 :=
  (dat8 (F := Ideal) V c).arrAt_eq_of_cover 3 _ (reduce8_flushed_sum V c) fun i => by
    obtain ⟨-, -, -, -, -, -, e0, e1, -⟩ := reduce8_idx ⟨19, reduce8_last_lt⟩
    refine ⟨⟨19, reduce8_last_lt⟩, (flush8_3 _).mpr rfl, ?_⟩
    show i ∈ ((View.whole main_v144_1).slice (win8_3.rect ⟨19, reduce8_last_lt⟩)).set
    rw [View.set_slice_whole, Rect.mem_set_unit]
    intro a
    have h0 : (i 0 : Nat) < 1 := (i 0).isLt
    have h1 : (i 1 : Nat) < 128 := (i 1).isLt
    match a with
    | ⟨0, _⟩ =>
      show win8_3.index ⟨19, reduce8_last_lt⟩ (0 : Fin 2) * 1 ≤ (i 0 : Nat)
        ∧ (i 0 : Nat) < win8_3.index ⟨19, reduce8_last_lt⟩ (0 : Fin 2) * 1 + 1
      rw [e0]; omega
    | ⟨1, _⟩ =>
      show win8_3.index ⟨19, reduce8_last_lt⟩ (1 : Fin 2) * 128 ≤ (i 1 : Nat)
        ∧ (i 1 : Nat) < win8_3.index ⟨19, reduce8_last_lt⟩ (1 : Fin 2) * 128 + 128
      rw [e1]; omega

/-- The sum of squares row after the region, likewise. -/
theorem reduce8_sumsq_final :
    (dat8 (F := Ideal) V c).arrAt 4 cfg8.N = (outsAt8 (F := Ideal) V c 19 reduce8_last_lt).2.2 :=
  (dat8 (F := Ideal) V c).arrAt_eq_of_cover 4 _ (reduce8_flushed_sumsq V c) fun i => by
    obtain ⟨-, -, -, -, -, -, -, -, e0, e1⟩ := reduce8_idx ⟨19, reduce8_last_lt⟩
    refine ⟨⟨19, reduce8_last_lt⟩, (flush8_4 _).mpr rfl, ?_⟩
    show i ∈ ((View.whole main_v144_2).slice (win8_4.rect ⟨19, reduce8_last_lt⟩)).set
    rw [View.set_slice_whole, Rect.mem_set_unit]
    intro a
    have h0 : (i 0 : Nat) < 1 := (i 0).isLt
    have h1 : (i 1 : Nat) < 128 := (i 1).isLt
    match a with
    | ⟨0, _⟩ =>
      show win8_4.index ⟨19, reduce8_last_lt⟩ (0 : Fin 2) * 1 ≤ (i 0 : Nat)
        ∧ (i 0 : Nat) < win8_4.index ⟨19, reduce8_last_lt⟩ (0 : Fin 2) * 1 + 1
      rw [e0]; omega
    | ⟨1, _⟩ =>
      show win8_4.index ⟨19, reduce8_last_lt⟩ (1 : Fin 2) * 128 ≤ (i 1 : Nat)
        ∧ (i 1 : Nat) < win8_4.index ⟨19, reduce8_last_lt⟩ (1 : Fin 2) * 128 + 128
      rw [e1]; omega

end Values

/-! ## The region's three output arrays, entry by entry -/

/-- The first output after the region, at row r and column q: the input there plus the bias at column q. -/
theorem reduce8_agg (V : (c : Dev nD) → (b : Ref sig .tc) → Buf (Elt Ideal) ((c : Thread nD τ).loc b)) (c : Dev nD)
    (A0 : S100000x128.Idx → EReal) (A1 : S1x128.Idx → EReal)
    (h0 : V c (Pipeline.arrRef spec8 0) = A0) (h1 : V c (Pipeline.arrRef spec8 1) = A1)
    (r : Fin 100000) (q : Fin 128) :
    (dat8 (F := Ideal) V c).arrAt 2 cfg8.N (ix2 r q) = A0 (ix2 r q) + A1 (ix2 (0 : Fin 1) q) := by
  rw [reduce8_agg_final V c A0 A1 h0 h1]

/-- The sum row after the region, at column q: the sum over all 100000 rows of the input plus the bias. -/
theorem reduce8_sum (V : (c : Dev nD) → (b : Ref sig .tc) → Buf (Elt Ideal) ((c : Thread nD τ).loc b)) (c : Dev nD)
    (A0 : S100000x128.Idx → EReal) (A1 : S1x128.Idx → EReal)
    (h0 : V c (Pipeline.arrRef spec8 0) = A0) (h1 : V c (Pipeline.arrRef spec8 1) = A1)
    (q : Fin 128) :
    (dat8 (F := Ideal) V c).arrAt 3 cfg8.N (ix2 (0 : Fin 1) q) = ∑ r : Fin 100000, (A0 (ix2 r q) + A1 (ix2 (0 : Fin 1) q)) := by
  rw [reduce8_sum_final V c]
  refine (reduce8_sum_inv V c A0 A1 h0 h1 q 19 reduce8_last_lt).trans ?_
  exact reduce8_sum_rows fun r => (A0 (ix2 r q) + A1 (ix2 (0 : Fin 1) q))

/-- The sum of squares row after the region, at column q: the sum over all 100000 rows of the square of the input
    plus the bias. -/
theorem reduce8_sumsq (V : (c : Dev nD) → (b : Ref sig .tc) → Buf (Elt Ideal) ((c : Thread nD τ).loc b)) (c : Dev nD)
    (A0 : S100000x128.Idx → EReal) (A1 : S1x128.Idx → EReal)
    (h0 : V c (Pipeline.arrRef spec8 0) = A0) (h1 : V c (Pipeline.arrRef spec8 1) = A1)
    (q : Fin 128) :
    (dat8 (F := Ideal) V c).arrAt 4 cfg8.N (ix2 (0 : Fin 1) q) = ∑ r : Fin 100000, ((A0 (ix2 r q) + A1 (ix2 (0 : Fin 1) q)) * (A0 (ix2 r q) + A1 (ix2 (0 : Fin 1) q))) := by
  rw [reduce8_sumsq_final V c]
  refine (reduce8_sumsq_inv V c A0 A1 h0 h1 q 19 reduce8_last_lt).trans ?_
  exact reduce8_sum_rows fun r => ((A0 (ix2 r q) + A1 (ix2 (0 : Fin 1) q)) * (A0 (ix2 r q) + A1 (ix2 (0 : Fin 1) q)))

end Cert.KernelIdeal.RegValue

end
-- ==== Proof.KLayer3B.lean ====
/-
  Graph layer 3 in the idealized kernel program: the reduction region and the host arithmetic after it.
-/
import proofs.«110479_j25572235281175_1_alg».proof.Proof.KLayer3A
import proofs.«110479_j25572235281175_1_alg».proof.Proof.LayerRead2
import proofs.«110479_j25572235281175_1_alg».proof.Proof.RegReduce8

set_option maxRecDepth 16384

noncomputable section

namespace Cert.KernelIdeal.Stages

open Idealize.ShloMosaic Idealize.ShloMosaic.TcCoe Idealize.ShloMosaic.StableHlo Idealize.ShloMosaic.ValueIdx
open Cert.KernelIdeal Cert.KernelIdeal.Gen Cert.KernelIdeal.Carry

variable (m : (ℓ : Loc nD τ sig) → Buf (Elt Ideal) ℓ) (ρ : Dev nD → PrngReg)

/-- After the reduction region: the aggregated features plus the bias, the reference's convolution. -/
theorem L3_agg (c : Dev nD) (hpre : PreOK m) : W20 m ρ c (Proc.devRef .tc main_v144_0) = (Cert.ReferenceIdeal.Layer.conv (F := Ideal) (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v136 (F := Ideal) (m ((c : Thread nD τ).loc main_arg2))) (Cert.ReferenceIdeal.ReadP.val_main_v138 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))) := by
  refine (W20_arr m ρ c 2).trans ?_
  have key : ∀ i : S100000x128.Idx, (dat8 (F := Ideal) (V19 m ρ) c).arrAt 2 cfg8.N i = (Cert.ReferenceIdeal.Layer.conv (F := Ideal) (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v136 (F := Ideal) (m ((c : Thread nD τ).loc main_arg2))) (Cert.ReferenceIdeal.ReadP.val_main_v138 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))) i := by
    intro i
    obtain ⟨r, q, rfl⟩ : ∃ (r : Fin 100000) (q : Fin 128), i = ix2 r q := ⟨i 0, i 1, eq_ix2 i⟩
    rw [Cert.KernelIdeal.RegValue.reduce8_agg (V19 m ρ) c _ _ (L3_seg m ρ c hpre) (L3_brow m ρ c) r q,
      Cert.ReferenceIdeal.Layer.conv_apply, Cert.KernelIdeal.Layer.krow_apply]
  exact funext key

/-- After the reduction region: the row of column sums of the convolution. -/
theorem L3_s1 (c : Dev nD) (hpre : PreOK m) : W20 m ρ c (Proc.devRef .tc main_v144_1) = (Cert.KernelIdeal.Layer.krow (F := Ideal) (Cert.ReferenceIdeal.Layer.csum (Cert.ReferenceIdeal.Layer.conv (F := Ideal) (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v136 (F := Ideal) (m ((c : Thread nD τ).loc main_arg2))) (Cert.ReferenceIdeal.ReadP.val_main_v138 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))))) := by
  refine (W20_arr m ρ c 3).trans ?_
  have key : ∀ i : S1x128.Idx, (dat8 (F := Ideal) (V19 m ρ) c).arrAt 3 cfg8.N i = (Cert.KernelIdeal.Layer.krow (F := Ideal) (Cert.ReferenceIdeal.Layer.csum (Cert.ReferenceIdeal.Layer.conv (F := Ideal) (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v136 (F := Ideal) (m ((c : Thread nD τ).loc main_arg2))) (Cert.ReferenceIdeal.ReadP.val_main_v138 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))))) i := by
    intro i
    obtain ⟨p, q, rfl⟩ : ∃ (p : Fin 1) (q : Fin 128), i = ix2 p q := ⟨i 0, i 1, eq_ix2 i⟩
    obtain rfl : p = 0 := Subsingleton.elim _ _
    rw [Cert.KernelIdeal.RegValue.reduce8_sum (V19 m ρ) c _ _ (L3_seg m ρ c hpre) (L3_brow m ρ c) q,
      Cert.KernelIdeal.Layer.krow_apply (Cert.ReferenceIdeal.Layer.csum (Cert.ReferenceIdeal.Layer.conv (F := Ideal) (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v136 (F := Ideal) (m ((c : Thread nD τ).loc main_arg2))) (Cert.ReferenceIdeal.ReadP.val_main_v138 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1))))) q, Cert.ReferenceIdeal.Layer.csum_apply]
    exact Finset.sum_congr (M := EReal) rfl fun r _ => by rw [Cert.ReferenceIdeal.Layer.conv_apply, Cert.KernelIdeal.Layer.krow_apply]
  exact funext key

/-- After the reduction region: the row of column sums of the squared convolution. -/
theorem L3_s2 (c : Dev nD) (hpre : PreOK m) : W20 m ρ c (Proc.devRef .tc main_v144_2) = (Cert.KernelIdeal.Layer.krow (F := Ideal) (Cert.ReferenceIdeal.Layer.csumsq (Cert.ReferenceIdeal.Layer.conv (F := Ideal) (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v136 (F := Ideal) (m ((c : Thread nD τ).loc main_arg2))) (Cert.ReferenceIdeal.ReadP.val_main_v138 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))))) := by
  refine (W20_arr m ρ c 4).trans ?_
  have key : ∀ i : S1x128.Idx, (dat8 (F := Ideal) (V19 m ρ) c).arrAt 4 cfg8.N i = (Cert.KernelIdeal.Layer.krow (F := Ideal) (Cert.ReferenceIdeal.Layer.csumsq (Cert.ReferenceIdeal.Layer.conv (F := Ideal) (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v136 (F := Ideal) (m ((c : Thread nD τ).loc main_arg2))) (Cert.ReferenceIdeal.ReadP.val_main_v138 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))))) i := by
    intro i
    obtain ⟨p, q, rfl⟩ : ∃ (p : Fin 1) (q : Fin 128), i = ix2 p q := ⟨i 0, i 1, eq_ix2 i⟩
    obtain rfl : p = 0 := Subsingleton.elim _ _
    rw [Cert.KernelIdeal.RegValue.reduce8_sumsq (V19 m ρ) c _ _ (L3_seg m ρ c hpre) (L3_brow m ρ c) q,
      Cert.KernelIdeal.Layer.krow_apply (Cert.ReferenceIdeal.Layer.csumsq (Cert.ReferenceIdeal.Layer.conv (F := Ideal) (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v136 (F := Ideal) (m ((c : Thread nD τ).loc main_arg2))) (Cert.ReferenceIdeal.ReadP.val_main_v138 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1))))) q, Cert.ReferenceIdeal.Layer.csumsq_apply]
    exact Finset.sum_congr (M := EReal) rfl fun r _ => by rw [Cert.ReferenceIdeal.Layer.conv_apply, Cert.KernelIdeal.Layer.krow_apply]
  exact funext key

/-- At the normalisation region's entry: the row of means. -/
theorem L3_meanrow (c : Dev nD) (hpre : PreOK m) : V21 m ρ c main_v166 = Cert.KernelIdeal.Layer.krow (F := Ideal) (Cert.KernelIdeal.Layer.kmeanv (F := Ideal) (Cert.KernelIdeal.Layer.krow (F := Ideal) (Cert.ReferenceIdeal.Layer.csum (Cert.ReferenceIdeal.Layer.conv (F := Ideal) (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v136 (F := Ideal) (m ((c : Thread nD τ).loc main_arg2))) (Cert.ReferenceIdeal.ReadP.val_main_v138 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1))))))) := by
  show StableHlo.after hostOps9 (W20 m ρ c) (Proc.devRef .tc main_v166) = _
  try dsimp only [hostOps9]
  after_results_simp
  rw [L3_s1 m ρ c hpre]
  rfl

/-- At the normalisation region's entry: the row of variances, in moment form. -/
theorem L3_varrow (c : Dev nD) (hpre : PreOK m) : V21 m ρ c main_v167 = Cert.KernelIdeal.Layer.krow (F := Ideal) (Cert.KernelIdeal.Layer.kvarv (F := Ideal) (Cert.KernelIdeal.Layer.krow (F := Ideal) (Cert.ReferenceIdeal.Layer.csum (Cert.ReferenceIdeal.Layer.conv (F := Ideal) (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v136 (F := Ideal) (m ((c : Thread nD τ).loc main_arg2))) (Cert.ReferenceIdeal.ReadP.val_main_v138 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))))) (Cert.KernelIdeal.Layer.krow (F := Ideal) (Cert.ReferenceIdeal.Layer.csumsq (Cert.ReferenceIdeal.Layer.conv (F := Ideal) (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v136 (F := Ideal) (m ((c : Thread nD τ).loc main_arg2))) (Cert.ReferenceIdeal.ReadP.val_main_v138 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))))) (Cert.ReferenceIdeal.ReadP.val_main_v161 (F := Ideal) (m ((c : Thread nD τ).loc main_arg6)))) := by
  show StableHlo.after hostOps9 (W20 m ρ c) (Proc.devRef .tc main_v167) = _
  try dsimp only [hostOps9]
  after_results_simp
  rw [L3_s1 m ρ c hpre, L3_s2 m ρ c hpre, ((keepR8 m ρ c main_arg6 (by decide)).trans ((keepH8 (W18 m ρ c) main_arg6 (by decide)).trans ((keepR7 m ρ c main_arg6 (by decide)).trans ((keepH7 (W16 m ρ c) main_arg6 (by decide)).trans ((keepR6 m ρ c main_arg6 (by decide)).trans ((keepH6 (W14 m ρ c) main_arg6 (by decide)).trans ((keepR5 m ρ c main_arg6 (by decide)).trans ((keepH5 (W12 m ρ c) main_arg6 (by decide)).trans ((keepR4 m ρ c main_arg6 (by decide)).trans ((keepH4 (W10 m ρ c) main_arg6 (by decide)).trans ((keepR3 m ρ c main_arg6 (by decide)).trans ((keepH3 (W8 m ρ c) main_arg6 (by decide)).trans ((keepR2 m ρ c main_arg6 (by decide)).trans ((keepH2 (W6 m ρ c) main_arg6 (by decide)).trans ((keepR1 m ρ c main_arg6 (by decide)).trans ((keepH1 (W4 m ρ c) main_arg6 (by decide)).trans ((keepR0 m ρ c main_arg6 (by decide)).trans ((keepH0_2 (W2 m ρ c) main_arg6 (by decide)).trans ((keepH0_1 (W1 m ρ c) main_arg6 (by decide)).trans (keepH0 (W0 m ρ c) main_arg6 (by decide)))))))))))))))))))))]
  rfl

/-- At the normalisation region's entry: the gain, the shift and the mean scale as rows. -/
theorem L3_wrow (c : Dev nD) : V21 m ρ c main_v168 = Cert.KernelIdeal.Layer.krow (F := Ideal) (Cert.ReferenceIdeal.ReadP.val_main_v157 (F := Ideal) (m ((c : Thread nD τ).loc main_arg4))) := by
  show StableHlo.after hostOps9 (W20 m ρ c) (Proc.devRef .tc main_v168) = _
  try dsimp only [hostOps9]
  after_results_simp
  rw [((keepR8 m ρ c main_arg4 (by decide)).trans ((keepH8 (W18 m ρ c) main_arg4 (by decide)).trans ((keepR7 m ρ c main_arg4 (by decide)).trans ((keepH7 (W16 m ρ c) main_arg4 (by decide)).trans ((keepR6 m ρ c main_arg4 (by decide)).trans ((keepH6 (W14 m ρ c) main_arg4 (by decide)).trans ((keepR5 m ρ c main_arg4 (by decide)).trans ((keepH5 (W12 m ρ c) main_arg4 (by decide)).trans ((keepR4 m ρ c main_arg4 (by decide)).trans ((keepH4 (W10 m ρ c) main_arg4 (by decide)).trans ((keepR3 m ρ c main_arg4 (by decide)).trans ((keepH3 (W8 m ρ c) main_arg4 (by decide)).trans ((keepR2 m ρ c main_arg4 (by decide)).trans ((keepH2 (W6 m ρ c) main_arg4 (by decide)).trans ((keepR1 m ρ c main_arg4 (by decide)).trans ((keepH1 (W4 m ρ c) main_arg4 (by decide)).trans ((keepR0 m ρ c main_arg4 (by decide)).trans ((keepH0_2 (W2 m ρ c) main_arg4 (by decide)).trans ((keepH0_1 (W1 m ρ c) main_arg4 (by decide)).trans (keepH0 (W0 m ρ c) main_arg4 (by decide)))))))))))))))))))))]
  rfl
theorem L3_brow2 (c : Dev nD) : V21 m ρ c main_v169 = Cert.KernelIdeal.Layer.krow (F := Ideal) (Cert.ReferenceIdeal.ReadP.val_main_v159 (F := Ideal) (m ((c : Thread nD τ).loc main_arg5))) := by
  show StableHlo.after hostOps9 (W20 m ρ c) (Proc.devRef .tc main_v169) = _
  try dsimp only [hostOps9]
  after_results_simp
  rw [((keepR8 m ρ c main_arg5 (by decide)).trans ((keepH8 (W18 m ρ c) main_arg5 (by decide)).trans ((keepR7 m ρ c main_arg5 (by decide)).trans ((keepH7 (W16 m ρ c) main_arg5 (by decide)).trans ((keepR6 m ρ c main_arg5 (by decide)).trans ((keepH6 (W14 m ρ c) main_arg5 (by decide)).trans ((keepR5 m ρ c main_arg5 (by decide)).trans ((keepH5 (W12 m ρ c) main_arg5 (by decide)).trans ((keepR4 m ρ c main_arg5 (by decide)).trans ((keepH4 (W10 m ρ c) main_arg5 (by decide)).trans ((keepR3 m ρ c main_arg5 (by decide)).trans ((keepH3 (W8 m ρ c) main_arg5 (by decide)).trans ((keepR2 m ρ c main_arg5 (by decide)).trans ((keepH2 (W6 m ρ c) main_arg5 (by decide)).trans ((keepR1 m ρ c main_arg5 (by decide)).trans ((keepH1 (W4 m ρ c) main_arg5 (by decide)).trans ((keepR0 m ρ c main_arg5 (by decide)).trans ((keepH0_2 (W2 m ρ c) main_arg5 (by decide)).trans ((keepH0_1 (W1 m ρ c) main_arg5 (by decide)).trans (keepH0 (W0 m ρ c) main_arg5 (by decide)))))))))))))))))))))]
  rfl
theorem L3_msrow (c : Dev nD) : V21 m ρ c main_v170 = Cert.KernelIdeal.Layer.krow (F := Ideal) (Cert.ReferenceIdeal.ReadP.val_main_v161 (F := Ideal) (m ((c : Thread nD τ).loc main_arg6))) := by
  show StableHlo.after hostOps9 (W20 m ρ c) (Proc.devRef .tc main_v170) = _
  try dsimp only [hostOps9]
  after_results_simp
  rw [((keepR8 m ρ c main_arg6 (by decide)).trans ((keepH8 (W18 m ρ c) main_arg6 (by decide)).trans ((keepR7 m ρ c main_arg6 (by decide)).trans ((keepH7 (W16 m ρ c) main_arg6 (by decide)).trans ((keepR6 m ρ c main_arg6 (by decide)).trans ((keepH6 (W14 m ρ c) main_arg6 (by decide)).trans ((keepR5 m ρ c main_arg6 (by decide)).trans ((keepH5 (W12 m ρ c) main_arg6 (by decide)).trans ((keepR4 m ρ c main_arg6 (by decide)).trans ((keepH4 (W10 m ρ c) main_arg6 (by decide)).trans ((keepR3 m ρ c main_arg6 (by decide)).trans ((keepH3 (W8 m ρ c) main_arg6 (by decide)).trans ((keepR2 m ρ c main_arg6 (by decide)).trans ((keepH2 (W6 m ρ c) main_arg6 (by decide)).trans ((keepR1 m ρ c main_arg6 (by decide)).trans ((keepH1 (W4 m ρ c) main_arg6 (by decide)).trans ((keepR0 m ρ c main_arg6 (by decide)).trans ((keepH0_2 (W2 m ρ c) main_arg6 (by decide)).trans ((keepH0_1 (W1 m ρ c) main_arg6 (by decide)).trans (keepH0 (W0 m ρ c) main_arg6 (by decide)))))))))))))))))))))]
  rfl

/-- At the normalisation region's entry: the convolution and the skip input. -/
theorem L3_aggN (c : Dev nD) (hpre : PreOK m) : V21 m ρ c main_v144_0 = (Cert.ReferenceIdeal.Layer.conv (F := Ideal) (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v136 (F := Ideal) (m ((c : Thread nD τ).loc main_arg2))) (Cert.ReferenceIdeal.ReadP.val_main_v138 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))) :=
  (keepH9 (W20 m ρ c) main_v144_0 (by decide)).trans (L3_agg m ρ c hpre)
theorem L3_resN (c : Dev nD) (hpre : PreOK m) : V21 m ρ c main_v124 = (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  ((keepH9 (W20 m ρ c) main_v124 (by decide)).trans (((keepR8 m ρ c main_v124 (by decide)).trans ((keepH8 (W18 m ρ c) main_v124 (by decide)).trans ((keepIn7_0 m ρ c).trans (keepH7 (W16 m ρ c) main_v124 (by decide))))).trans (L2_out m ρ c hpre)))

end Cert.KernelIdeal.Stages

end
-- ==== Proof.RegNorm9.lean ====
/- The value of the normalise–activate–residual region 9's output array after the region, as an explicit
   function of the region's input arrays, index by index, at the extended reals. -/
import proofs.«110479_j25572235281175_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.RegValue

open Idealize.ShloMosaic Idealize.ShloMosaic.ValueIdx Idealize.ShloMosaic.TcCoe Cert.KernelIdeal Cert.KernelIdeal.Gen
open Idealize.SL.Sem
open Idealize.ShloMosaic.Pipeline (Dat)

/-- The two zero offsets, however spelt. -/
theorem norm9_hz : (![0, 0] : Fin 2 → Nat) = fun _ => 0 := funext fun a => by fin_cases a <;> rfl

/-- The region's result at one index: the aggregate less the scaled mean, times the reciprocal root of the variance
    plus epsilon, times the weight, plus the bias, clamped below at zero, plus the residual. The five row operands
    are read at their one row. -/
def norm9G (A0 A1 : S100000x128.Idx → EReal) (A2 A3 A4 A5 A6 : S1x128.Idx → EReal) : S100000x128.Idx → EReal :=
  fun i => max ((((A0 i - A6 (ix2 (0 : Fin 1) (i 1)) * A2 (ix2 (0 : Fin 1) (i 1)))
      * Ideal.rsqrt (A3 (ix2 (0 : Fin 1) (i 1)) + Ideal.ofBits .f32 0x3727C5AC#32)) * A4 (ix2 (0 : Fin 1) (i 1)))
      + A5 (ix2 (0 : Fin 1) (i 1))) (Ideal.ofBits .f32 0x00000000#32) + A1 i

/-- The body's payload read at row `p`, column `q` of its block: pointwise in the two block operands, the five
    one-row operands broadcast over the rows. -/
theorem norm9_pay_apply (x0 : Vec Ideal S5000x128 .f32) (ms mean var w b : Vec Ideal S1x128 .f32)
    (res : Vec Ideal S5000x128 .f32) (p : Fin 5000) (q : Fin 128) :
    k9_pay1 x0 ms mean var w b res (ix2 p q)
      = max ((((x0 (ix2 p q) - ms (ix2 (0 : Fin 1) q) * mean (ix2 (0 : Fin 1) q))
          * Ideal.rsqrt (var (ix2 (0 : Fin 1) q) + Ideal.ofBits .f32 0x3727C5AC#32)) * w (ix2 (0 : Fin 1) q))
          + b (ix2 (0 : Fin 1) q)) (Ideal.ofBits .f32 0x00000000#32) + res (ix2 p q) := by
  unfold k9_pay1
  simp only [shapeCast_self]
  have e1 : broadcastTo S5000x128 (mulf (F := Ideal) (s := S1x128) (φ := .f32) ms mean) broadcasts_S1x128_S5000x128 (ix2 p q)
      = ms (ix2 (0 : Fin 1) q) * mean (ix2 (0 : Fin 1) q) :=
    broadcastTo_1b_ab_apply (mulf (F := Ideal) (s := S1x128) (φ := .f32) ms mean) broadcasts_S1x128_S5000x128 p q
  have e2 : broadcastTo S5000x128 (rsqrt (F := Ideal) (s := S1x128) (φ := .f32) (addf (F := Ideal) (s := S1x128) (φ := .f32) var (broadcast S1x128 (Scalar.ofBits (F := Ideal) .f32 0x3727C5AC#32)))) broadcasts_S1x128_S5000x128 (ix2 p q)
      = Ideal.rsqrt (var (ix2 (0 : Fin 1) q) + Ideal.ofBits .f32 0x3727C5AC#32) :=
    broadcastTo_1b_ab_apply (rsqrt (F := Ideal) (s := S1x128) (φ := .f32) (addf (F := Ideal) (s := S1x128) (φ := .f32) var (broadcast S1x128 (Scalar.ofBits (F := Ideal) .f32 0x3727C5AC#32)))) broadcasts_S1x128_S5000x128 p q
  have e3 : broadcastTo S5000x128 w broadcasts_S1x128_S5000x128 (ix2 p q) = w (ix2 (0 : Fin 1) q) :=
    broadcastTo_1b_ab_apply w broadcasts_S1x128_S5000x128 p q
  have e4 : broadcastTo S5000x128 b broadcasts_S1x128_S5000x128 (ix2 p q) = b (ix2 (0 : Fin 1) q) :=
    broadcastTo_1b_ab_apply b broadcasts_S1x128_S5000x128 p q
  show max ((((x0 (ix2 p q) - broadcastTo S5000x128 (mulf (F := Ideal) (s := S1x128) (φ := .f32) ms mean) broadcasts_S1x128_S5000x128 (ix2 p q))
      * broadcastTo S5000x128 (rsqrt (F := Ideal) (s := S1x128) (φ := .f32) (addf (F := Ideal) (s := S1x128) (φ := .f32) var (broadcast S1x128 (Scalar.ofBits (F := Ideal) .f32 0x3727C5AC#32)))) broadcasts_S1x128_S5000x128 (ix2 p q))
      * broadcastTo S5000x128 w broadcasts_S1x128_S5000x128 (ix2 p q))
      + broadcastTo S5000x128 b broadcasts_S1x128_S5000x128 (ix2 p q)) (Ideal.ofBits .f32 0x00000000#32) + res (ix2 p q) = _
  rw [e1, e2, e3, e4]

/-- The printed index maps over the grid: the two block operands and the result move with the grid point along the
    rows; the five one-row operands stay at block (0, 0). -/
theorem norm9_idx : ∀ t : Fin cfg9.N,
    (win9_0.index t (0 : Fin 2) = t.val ∧ win9_0.index t (1 : Fin 2) = 0)
    ∧ (win9_1.index t (0 : Fin 2) = t.val ∧ win9_1.index t (1 : Fin 2) = 0)
    ∧ (win9_2.index t (0 : Fin 2) = 0 ∧ win9_2.index t (1 : Fin 2) = 0)
    ∧ (win9_3.index t (0 : Fin 2) = 0 ∧ win9_3.index t (1 : Fin 2) = 0)
    ∧ (win9_4.index t (0 : Fin 2) = 0 ∧ win9_4.index t (1 : Fin 2) = 0)
    ∧ (win9_5.index t (0 : Fin 2) = 0 ∧ win9_5.index t (1 : Fin 2) = 0)
    ∧ (win9_6.index t (0 : Fin 2) = 0 ∧ win9_6.index t (1 : Fin 2) = 0)
    ∧ (win9_7.index t (0 : Fin 2) = t.val ∧ win9_7.index t (1 : Fin 2) = 0) :=
  (by decide +kernel : ∀ t : Fin grid9.N, _)

/-- An index of the result array is in point `t`'s block iff each coordinate is in the block's range on its axis. -/
theorem norm9_mem_blk (t : Fin cfg9.N) (i : S100000x128.Idx) :
    i ∈ ((cfg9.win 7).blk t).view.set ↔ ∀ a : Fin 2, win9_7.index t a * S5000x128.size a ≤ (i a).val
      ∧ (i a).val < win9_7.index t a * S5000x128.size a + S5000x128.size a := by
  show i ∈ ((View.whole main_v171).slice (win9_7.rect t)).set ↔ _
  rw [View.set_slice_whole, Rect.mem_set_unit]
  exact Iff.rfl

/-- Every index of the result array is in the block of the point its row names: row `r` is in block `r / 5000`. -/
theorem norm9_cover (i : S100000x128.Idx) :
    ∃ t : Fin cfg9.N, (cfg9.win 7).flush t = true ∧ i ∈ ((cfg9.win 7).blk t).view.set := by
  have hN : grid9.N = 20 := N_9
  have hi0 : (i 0).val < 100000 := (i 0).isLt
  have hi1 : (i 1).val < 128 := (i 1).isLt
  have ht : (i 0).val / 5000 < cfg9.N := by
    show (i 0).val / 5000 < grid9.N
    rw [hN]; omega
  refine ⟨⟨(i 0).val / 5000, ht⟩, flush9_7 _, ?_⟩
  rw [norm9_mem_blk]
  have e0 : win9_7.index ⟨(i 0).val / 5000, ht⟩ (0 : Fin 2) = (i 0).val / 5000 := (norm9_idx ⟨(i 0).val / 5000, ht⟩).2.2.2.2.2.2.2.1
  have e1 : win9_7.index ⟨(i 0).val / 5000, ht⟩ (1 : Fin 2) = 0 := (norm9_idx ⟨(i 0).val / 5000, ht⟩).2.2.2.2.2.2.2.2
  intro a
  match a with
  | ⟨0, _⟩ =>
    show win9_7.index ⟨(i 0).val / 5000, ht⟩ (0 : Fin 2) * 5000 ≤ (i 0).val
      ∧ (i 0).val < win9_7.index ⟨(i 0).val / 5000, ht⟩ (0 : Fin 2) * 5000 + 5000
    rw [e0]; omega
  | ⟨1, _⟩ =>
    show win9_7.index ⟨(i 0).val / 5000, ht⟩ (1 : Fin 2) * 128 ≤ (i 1).val
      ∧ (i 1).val < win9_7.index ⟨(i 0).val / 5000, ht⟩ (1 : Fin 2) * 128 + 128
    rw [e1]; omega

/-- Block operand 0's block at point `t`, read at row `p`, column `q`, is the operand array at row `5000 t + p`. -/
theorem norm9_blk0 (V : (c : Dev nD) → (b : Ref sig .tc) → Buf (Elt Ideal) ((c : Thread nD τ).loc b)) (c : Dev nD)
    (t : Fin cfg9.N) (p : Fin 5000) (q : Fin 128) (r : Fin 100000) (hr : r.val = t.val * 5000 + p.val) :
    (((cfg9.win 0).blk t).view.read (Elt Ideal) (V c (Pipeline.arrRef spec9 0)) : Vec Ideal S5000x128 .f32) (ix2 p q)
      = (V c (Pipeline.arrRef spec9 0) : S100000x128.Idx → EReal) (ix2 r q) := by
  rw [View.read_apply]
  show (V c (Pipeline.arrRef spec9 0) : S100000x128.Idx → EReal) _ = _
  congr 1
  funext a
  apply Fin.ext
  match a with
  | ⟨0, _⟩ =>
    show win9_0.index t (0 : Fin 2) * 5000 + 1 * p.val = r.val
    rw [(norm9_idx t).1.1, hr]; omega
  | ⟨1, _⟩ =>
    show win9_0.index t (1 : Fin 2) * 128 + 1 * q.val = q.val
    rw [(norm9_idx t).1.2]; omega

/-- Block operand 1's block at point `t`, read at row `p`, column `q`, is the operand array at row `5000 t + p`. -/
theorem norm9_blk1 (V : (c : Dev nD) → (b : Ref sig .tc) → Buf (Elt Ideal) ((c : Thread nD τ).loc b)) (c : Dev nD)
    (t : Fin cfg9.N) (p : Fin 5000) (q : Fin 128) (r : Fin 100000) (hr : r.val = t.val * 5000 + p.val) :
    (((cfg9.win 1).blk t).view.read (Elt Ideal) (V c (Pipeline.arrRef spec9 1)) : Vec Ideal S5000x128 .f32) (ix2 p q)
      = (V c (Pipeline.arrRef spec9 1) : S100000x128.Idx → EReal) (ix2 r q) := by
  rw [View.read_apply]
  show (V c (Pipeline.arrRef spec9 1) : S100000x128.Idx → EReal) _ = _
  congr 1
  funext a
  apply Fin.ext
  match a with
  | ⟨0, _⟩ =>
    show win9_1.index t (0 : Fin 2) * 5000 + 1 * p.val = r.val
    rw [(norm9_idx t).2.1.1, hr]; omega
  | ⟨1, _⟩ =>
    show win9_1.index t (1 : Fin 2) * 128 + 1 * q.val = q.val
    rw [(norm9_idx t).2.1.2]; omega

/-- Row operand 2's block at any point is the operand's one row. -/
theorem norm9_blk2 (V : (c : Dev nD) → (b : Ref sig .tc) → Buf (Elt Ideal) ((c : Thread nD τ).loc b)) (c : Dev nD)
    (t : Fin cfg9.N) (q : Fin 128) :
    (((cfg9.win 2).blk t).view.read (Elt Ideal) (V c (Pipeline.arrRef spec9 2)) : Vec Ideal S1x128 .f32) (ix2 (0 : Fin 1) q)
      = (V c (Pipeline.arrRef spec9 2) : S1x128.Idx → EReal) (ix2 (0 : Fin 1) q) := by
  rw [View.read_apply]
  show (V c (Pipeline.arrRef spec9 2) : S1x128.Idx → EReal) _ = _
  congr 1
  funext a
  apply Fin.ext
  match a with
  | ⟨0, _⟩ =>
    show win9_2.index t (0 : Fin 2) * 1 + 1 * 0 = 0
    rw [(norm9_idx t).2.2.1.1]
  | ⟨1, _⟩ =>
    show win9_2.index t (1 : Fin 2) * 128 + 1 * q.val = q.val
    rw [(norm9_idx t).2.2.1.2]; omega

/-- Row operand 3's block at any point is the operand's one row. -/
theorem norm9_blk3 (V : (c : Dev nD) → (b : Ref sig .tc) → Buf (Elt Ideal) ((c : Thread nD τ).loc b)) (c : Dev nD)
    (t : Fin cfg9.N) (q : Fin 128) :
    (((cfg9.win 3).blk t).view.read (Elt Ideal) (V c (Pipeline.arrRef spec9 3)) : Vec Ideal S1x128 .f32) (ix2 (0 : Fin 1) q)
      = (V c (Pipeline.arrRef spec9 3) : S1x128.Idx → EReal) (ix2 (0 : Fin 1) q) := by
  rw [View.read_apply]
  show (V c (Pipeline.arrRef spec9 3) : S1x128.Idx → EReal) _ = _
  congr 1
  funext a
  apply Fin.ext
  match a with
  | ⟨0, _⟩ =>
    show win9_3.index t (0 : Fin 2) * 1 + 1 * 0 = 0
    rw [(norm9_idx t).2.2.2.1.1]
  | ⟨1, _⟩ =>
    show win9_3.index t (1 : Fin 2) * 128 + 1 * q.val = q.val
    rw [(norm9_idx t).2.2.2.1.2]; omega

/-- Row operand 4's block at any point is the operand's one row. -/
theorem norm9_blk4 (V : (c : Dev nD) → (b : Ref sig .tc) → Buf (Elt Ideal) ((c : Thread nD τ).loc b)) (c : Dev nD)
    (t : Fin cfg9.N) (q : Fin 128) :
    (((cfg9.win 4).blk t).view.read (Elt Ideal) (V c (Pipeline.arrRef spec9 4)) : Vec Ideal S1x128 .f32) (ix2 (0 : Fin 1) q)
      = (V c (Pipeline.arrRef spec9 4) : S1x128.Idx → EReal) (ix2 (0 : Fin 1) q) := by
  rw [View.read_apply]
  show (V c (Pipeline.arrRef spec9 4) : S1x128.Idx → EReal) _ = _
  congr 1
  funext a
  apply Fin.ext
  match a with
  | ⟨0, _⟩ =>
    show win9_4.index t (0 : Fin 2) * 1 + 1 * 0 = 0
    rw [(norm9_idx t).2.2.2.2.1.1]
  | ⟨1, _⟩ =>
    show win9_4.index t (1 : Fin 2) * 128 + 1 * q.val = q.val
    rw [(norm9_idx t).2.2.2.2.1.2]; omega

/-- Row operand 5's block at any point is the operand's one row. -/
theorem norm9_blk5 (V : (c : Dev nD) → (b : Ref sig .tc) → Buf (Elt Ideal) ((c : Thread nD τ).loc b)) (c : Dev nD)
    (t : Fin cfg9.N) (q : Fin 128) :
    (((cfg9.win 5).blk t).view.read (Elt Ideal) (V c (Pipeline.arrRef spec9 5)) : Vec Ideal S1x128 .f32) (ix2 (0 : Fin 1) q)
      = (V c (Pipeline.arrRef spec9 5) : S1x128.Idx → EReal) (ix2 (0 : Fin 1) q) := by
  rw [View.read_apply]
  show (V c (Pipeline.arrRef spec9 5) : S1x128.Idx → EReal) _ = _
  congr 1
  funext a
  apply Fin.ext
  match a with
  | ⟨0, _⟩ =>
    show win9_5.index t (0 : Fin 2) * 1 + 1 * 0 = 0
    rw [(norm9_idx t).2.2.2.2.2.1.1]
  | ⟨1, _⟩ =>
    show win9_5.index t (1 : Fin 2) * 128 + 1 * q.val = q.val
    rw [(norm9_idx t).2.2.2.2.2.1.2]; omega

/-- Row operand 6's block at any point is the operand's one row. -/
theorem norm9_blk6 (V : (c : Dev nD) → (b : Ref sig .tc) → Buf (Elt Ideal) ((c : Thread nD τ).loc b)) (c : Dev nD)
    (t : Fin cfg9.N) (q : Fin 128) :
    (((cfg9.win 6).blk t).view.read (Elt Ideal) (V c (Pipeline.arrRef spec9 6)) : Vec Ideal S1x128 .f32) (ix2 (0 : Fin 1) q)
      = (V c (Pipeline.arrRef spec9 6) : S1x128.Idx → EReal) (ix2 (0 : Fin 1) q) := by
  rw [View.read_apply]
  show (V c (Pipeline.arrRef spec9 6) : S1x128.Idx → EReal) _ = _
  congr 1
  funext a
  apply Fin.ext
  match a with
  | ⟨0, _⟩ =>
    show win9_6.index t (0 : Fin 2) * 1 + 1 * 0 = 0
    rw [(norm9_idx t).2.2.2.2.2.2.1.1]
  | ⟨1, _⟩ =>
    show win9_6.index t (1 : Fin 2) * 128 + 1 * q.val = q.val
    rw [(norm9_idx t).2.2.2.2.2.2.1.2]; omega

/-- The payload at row `p`, column `q` of the block is the result function at row `r`, column `q` of the arrays, once each
    loaded block is known there to read its array. -/
theorem norm9_pay_eq (x0 res : Vec Ideal S5000x128 .f32) (ms mean var w b : Vec Ideal S1x128 .f32)
    (A0 A1 : S100000x128.Idx → EReal) (A2 A3 A4 A5 A6 : S1x128.Idx → EReal) (p : Fin 5000) (q : Fin 128) (r : Fin 100000)
    (h0 : x0 (ix2 p q) = A0 (ix2 r q)) (h1 : res (ix2 p q) = A1 (ix2 r q))
    (h2 : mean (ix2 (0 : Fin 1) q) = A2 (ix2 (0 : Fin 1) q)) (h3 : var (ix2 (0 : Fin 1) q) = A3 (ix2 (0 : Fin 1) q))
    (h4 : w (ix2 (0 : Fin 1) q) = A4 (ix2 (0 : Fin 1) q)) (h5 : b (ix2 (0 : Fin 1) q) = A5 (ix2 (0 : Fin 1) q))
    (h6 : ms (ix2 (0 : Fin 1) q) = A6 (ix2 (0 : Fin 1) q)) :
    k9_pay1 x0 ms mean var w b res (ix2 p q) = norm9G A0 A1 A2 A3 A4 A5 A6 (ix2 r q) := by
  rw [norm9_pay_apply, h0, h1, h2, h3, h4, h5, h6]
  rfl

/-- The body's payload of the input blocks at point `t`, read at row `p`, column `q` of the block, is the result
    function of the region's input arrays at row `5000 t + p`, column `q`. -/
theorem norm9_point (V : (c : Dev nD) → (b : Ref sig .tc) → Buf (Elt Ideal) ((c : Thread nD τ).loc b)) (c : Dev nD)
    (t : Fin cfg9.N) (p : Fin 5000) (q : Fin 128) (r : Fin 100000) (hr : r.val = t.val * 5000 + p.val) :
    k9_pay1 (iblk9 V c 0 t) (iblk9 V c 6 t) (iblk9 V c 2 t) (iblk9 V c 3 t) (iblk9 V c 4 t) (iblk9 V c 5 t) (iblk9 V c 1 t) (ix2 p q)
      = norm9G (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) (ix2 r q) :=
  norm9_pay_eq (iblk9 V c 0 t) (iblk9 V c 1 t) (iblk9 V c 6 t) (iblk9 V c 2 t) (iblk9 V c 3 t) (iblk9 V c 4 t) (iblk9 V c 5 t)
    (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) p q r
    (norm9_blk0 V c t p q r hr) (norm9_blk1 V c t p q r hr) (norm9_blk2 V c t q) (norm9_blk3 V c t q)
    (norm9_blk4 V c t q) (norm9_blk5 V c t q) (norm9_blk6 V c t q)

/-- What point `t` writes back is block `t` of ANY function of the array's index that the body's payload of the input
    blocks agrees with, row `p` of the block against row `5000 t + p` of the array. -/
theorem norm9_flushed_of (V : (c : Dev nD) → (b : Ref sig .tc) → Buf (Elt Ideal) ((c : Thread nD τ).loc b)) (c : Dev nD)
    (t : Fin cfg9.N) (G : S100000x128.Idx → EReal)
    (hG : ∀ (p : Fin 5000) (q : Fin 128) (r : Fin 100000), r.val = t.val * 5000 + p.val →
      k9_pay1 (iblk9 V c 0 t) (iblk9 V c 6 t) (iblk9 V c 2 t) (iblk9 V c 3 t) (iblk9 V c 4 t) (iblk9 V c 5 t) (iblk9 V c 1 t) (ix2 p q) = G (ix2 r q)) :
    (dat9 (F := Ideal) V c).flushed 7 t = ((cfg9.win 7).blk t).view.read (Elt Ideal) G := by
  show (cfg9.win 7).cut (grid9.coords t) ((dat9 (F := Ideal) V c).after 7 t) = _
  rw [after9_7]
  unfold out9_7
  rw [View.canon_unit_zero norm9_hz]
  simp only [View.ld_unit_zero (S := S5000x128) norm9_hz, View.ld_unit_zero (S := S1x128) norm9_hz]
  funext j
  obtain ⟨p, q, rfl⟩ : ∃ (p : Fin 5000) (q : Fin 128), j = ix2 p q := ⟨j 0, j 1, eq_ix2 j⟩
  have htl : t.val < 20 := lt_of_lt_of_eq t.isLt N_9
  have hr : t.val * 5000 + p.val < 100000 := by have := p.isLt; omega
  -- where the block's element sits in the array: row `5000 t + p`, column `q`
  have he : ((cfg9.win 7).blk t).view.emb (ix2 p q) = (ix2 (⟨t.val * 5000 + p.val, hr⟩ : Fin 100000) q : S100000x128.Idx) := by
    funext a
    apply Fin.ext
    match a with
    | ⟨0, _⟩ =>
      show win9_7.index t (0 : Fin 2) * 5000 + 1 * p.val = t.val * 5000 + p.val
      rw [(norm9_idx t).2.2.2.2.2.2.2.1]; omega
    | ⟨1, _⟩ =>
      show win9_7.index t (1 : Fin 2) * 128 + 1 * q.val = q.val
      rw [(norm9_idx t).2.2.2.2.2.2.2.2]; omega
  rw [View.read_apply, he]
  exact hG p q ⟨t.val * 5000 + p.val, hr⟩ rfl

/-- What point `t` writes back is block `t` of the result function of the region's input arrays. -/
theorem norm9_flushed (V : (c : Dev nD) → (b : Ref sig .tc) → Buf (Elt Ideal) ((c : Thread nD τ).loc b)) (c : Dev nD)
    (t : Fin cfg9.N) :
    (dat9 (F := Ideal) V c).flushed 7 t
      = ((cfg9.win 7).blk t).view.read (Elt Ideal) (norm9G (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6))) :=
  norm9_flushed_of V c t (norm9G (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6))) (fun p q r hr => norm9_point V c t p q r hr)

/-- The result array after the region: the result function of the input arrays, whole. -/
theorem norm9_final (V : (c : Dev nD) → (b : Ref sig .tc) → Buf (Elt Ideal) ((c : Thread nD τ).loc b)) (c : Dev nD) :
    (dat9 (F := Ideal) V c).arrAt 7 cfg9.N = norm9G (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) :=
  (dat9 (F := Ideal) V c).arrAt_eq_of_cover 7 (norm9G (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)))
    (fun t _ => norm9_flushed V c t) norm9_cover

/-- The result function at row `r`, column `q`. -/
theorem norm9G_apply (A0 A1 : S100000x128.Idx → EReal) (A2 A3 A4 A5 A6 : S1x128.Idx → EReal) (r : Fin 100000) (q : Fin 128) :
    norm9G A0 A1 A2 A3 A4 A5 A6 (ix2 r q)
      = max ((((A0 (ix2 r q) - A6 (ix2 (0 : Fin 1) q) * A2 (ix2 (0 : Fin 1) q))
          * Ideal.rsqrt (A3 (ix2 (0 : Fin 1) q) + Ideal.ofBits .f32 0x3727C5AC#32)) * A4 (ix2 (0 : Fin 1) q))
          + A5 (ix2 (0 : Fin 1) q)) (Ideal.ofBits .f32 0x00000000#32) + A1 (ix2 r q) := rfl

/-- The result array after the region at row `r`, column `q`, the region's input arrays named `A0 … A6`. -/
theorem norm9_apply (V : (c : Dev nD) → (b : Ref sig .tc) → Buf (Elt Ideal) ((c : Thread nD τ).loc b)) (c : Dev nD)
    (A0 A1 : S100000x128.Idx → EReal) (A2 A3 A4 A5 A6 : S1x128.Idx → EReal)
    (h0 : V c (Pipeline.arrRef spec9 0) = A0) (h1 : V c (Pipeline.arrRef spec9 1) = A1)
    (h2 : V c (Pipeline.arrRef spec9 2) = A2) (h3 : V c (Pipeline.arrRef spec9 3) = A3)
    (h4 : V c (Pipeline.arrRef spec9 4) = A4) (h5 : V c (Pipeline.arrRef spec9 5) = A5)
    (h6 : V c (Pipeline.arrRef spec9 6) = A6) (r : Fin 100000) (q : Fin 128) :
    (dat9 (F := Ideal) V c).arrAt 7 cfg9.N (ix2 r q)
      = max ((((A0 (ix2 r q) - A6 (ix2 (0 : Fin 1) q) * A2 (ix2 (0 : Fin 1) q))
          * Ideal.rsqrt (A3 (ix2 (0 : Fin 1) q) + Ideal.ofBits .f32 0x3727C5AC#32)) * A4 (ix2 (0 : Fin 1) q))
          + A5 (ix2 (0 : Fin 1) q)) (Ideal.ofBits .f32 0x00000000#32) + A1 (ix2 r q) := by
  subst h0 h1 h2 h3 h4 h5 h6
  exact congrFun (norm9_final V c) (ix2 r q)

end Cert.KernelIdeal.RegValue

end
-- ==== Proof.KLayer3C.lean ====
/-
  Graph layer 3 in the idealized kernel program: the normalisation region, and the layer's output as the reference's.
-/
import proofs.«110479_j25572235281175_1_alg».proof.Proof.KLayer3B
import proofs.«110479_j25572235281175_1_alg».proof.Proof.LayerRead3
import proofs.«110479_j25572235281175_1_alg».proof.Proof.LayerRead4
import proofs.«110479_j25572235281175_1_alg».proof.Proof.LayerReal
import proofs.«110479_j25572235281175_1_alg».proof.Proof.NormReal
import proofs.«110479_j25572235281175_1_alg».proof.Proof.KPre
import proofs.«110479_j25572235281175_1_alg».proof.Proof.RegNorm9

set_option maxRecDepth 16384

noncomputable section

namespace Cert.KernelIdeal.Stages

open Idealize.ShloMosaic Idealize.ShloMosaic.TcCoe Idealize.ShloMosaic.StableHlo Idealize.ShloMosaic.ValueIdx
open Cert.KernelIdeal Cert.KernelIdeal.Gen Cert.KernelIdeal.Carry

variable (m : (ℓ : Loc nD τ sig) → Buf (Elt Ideal) ℓ) (ρ : Dev nD → PrngReg)

/-- THE LAYER: after the normalisation region its output buffer holds the reference's layer output, whose entries are
    real numbers. The region's entries are the kernel's spelling of the normalisation of the convolution (moment-form
    variance from the two rows of column sums, reciprocal square root), which on real inputs is the reference's. -/
theorem L3_pair (c : Dev nD) (hpre : PreOK m) :
    W22 m ρ c (Proc.devRef .tc main_v171) = (Cert.ReferenceIdeal.ReadP.val_main_v186 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) ∧ Cert.Reals.IsReal (Cert.ReferenceIdeal.ReadP.val_main_v186 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  obtain ⟨r0, r2, r3, r4, r5, r6, r7, -⟩ := Cert.Proof.pre_real m hpre c
  have hh : Cert.Reals.IsReal (Cert.ReferenceIdeal.Layer.conv (F := Ideal) (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v136 (F := Ideal) (m ((c : Thread nD τ).loc main_arg2))) (Cert.ReferenceIdeal.ReadP.val_main_v138 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))) :=
    Cert.ReferenceIdeal.Layer.isReal_conv _ _ _ _ _ _ (L2_real m ρ c hpre) (Cert.ReferenceIdeal.Layer.isReal_v136 _ r2) (Cert.ReferenceIdeal.Layer.isReal_v138 _ r3) (Cert.ReferenceIdeal.Layer.isReal_v29 _)
  have hg := Cert.ReferenceIdeal.Layer.gnorm_of_entries (Cert.ReferenceIdeal.Layer.conv (F := Ideal) (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v136 (F := Ideal) (m ((c : Thread nD τ).loc main_arg2))) (Cert.ReferenceIdeal.ReadP.val_main_v138 (F := Ideal) (m ((c : Thread nD τ).loc main_arg3))) (Cert.ReferenceIdeal.ReadP.val_main_v3 (F := Ideal) (m ((c : Thread nD τ).loc main_arg1))) (Cert.ReferenceIdeal.ReadP.val_main_v6 (F := Ideal) (m ((c : Thread nD τ).loc main_arg1))) (Cert.ReferenceIdeal.ReadP.val_main_v29 (F := Ideal) (m ((c : Thread nD τ).loc main_arg1)))) (Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.ReadP.val_main_v161 (F := Ideal) (m ((c : Thread nD τ).loc main_arg6))) (Cert.ReferenceIdeal.ReadP.val_main_v157 (F := Ideal) (m ((c : Thread nD τ).loc main_arg4))) (Cert.ReferenceIdeal.ReadP.val_main_v159 (F := Ideal) (m ((c : Thread nD τ).loc main_arg5))) hh
    (Cert.ReferenceIdeal.Layer.isReal_v161 _ r6) (Cert.ReferenceIdeal.Layer.isReal_v157 _ r4) (Cert.ReferenceIdeal.Layer.isReal_v159 _ r5) (L2_real m ρ c hpre)
    ((dat9 (F := Ideal) (V21 m ρ) c).arrAt 7 cfg9.N) (fun r q => by
      rw [Cert.KernelIdeal.RegValue.norm9_apply (V21 m ρ) c _ _ _ _ _ _ _ (L3_aggN m ρ c hpre) (L3_resN m ρ c hpre)
        (L3_meanrow m ρ c hpre) (L3_varrow m ρ c hpre) (L3_wrow m ρ c) (L3_brow2 m ρ c) (L3_msrow m ρ c) r q]
      simp only [Cert.KernelIdeal.Layer.krow_apply, Cert.KernelIdeal.Layer.kmeanv_apply, Cert.KernelIdeal.Layer.kvarv_apply, Cert.ReferenceIdeal.Layer.csum_apply, Cert.ReferenceIdeal.Layer.csumsq_apply])
  exact ⟨(W22_arr m ρ c 7).trans hg.1, hg.2⟩

theorem L3_out (c : Dev nD) (hpre : PreOK m) : W22 m ρ c (Proc.devRef .tc main_v171) = (Cert.ReferenceIdeal.ReadP.val_main_v186 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := (L3_pair m ρ c hpre).1
include ρ in
theorem L3_real (c : Dev nD) (hpre : PreOK m) : Cert.Reals.IsReal (Cert.ReferenceIdeal.ReadP.val_main_v186 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := (L3_pair m ρ c hpre).2

end Cert.KernelIdeal.Stages

end
-- ==== Proof.RegHead10.lean ====
/-
  The value of the output array of the two-layer head region, at the ideal values.

  The region runs over 20 grid points. At point t the body takes block t of the input — 5000 rows of a [100000, 128]
  array — and the whole of two [128, 128] weight matrices and two [1, 128] bias rows; it multiplies the block by the first
  weights into the zero accumulator, adds the first bias row to every row, takes the maximum with zero, multiplies by the
  second weights into the zero accumulator, adds the second bias row to every row, and stores the result into block t of
  the output array. At the ideal values (floats extended reals, every operation exact) each product is the plain sum over
  its contraction index, so what point t writes back is block t of one function of the five arrays; the 20 blocks of 5000
  rows tile the 100000 rows, so after the region the output array is that function whole. The region's entry contents stay a
  parameter, so the statement serves whatever the arrays hold when the region is entered.
-/
import proofs.«110479_j25572235281175_1_alg».proof.Proof.Gen.KernelIdeal.Frame
import proofs.«110479_j25572235281175_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegValue

open Idealize.ShloMosaic Idealize.ShloMosaic.ValueIdx Idealize.ShloMosaic.TcCoe Cert.KernelIdeal Cert.KernelIdeal.Gen
open Idealize.ShloMosaic.Pipeline (Dat)

/-! ## The body's payload at a block-local index -/

/-- The zero offsets of a whole-buffer access, as the constant function. -/
theorem head10_offsets : (![0, 0] : Fin 2 → Nat) = fun _ => 0 := funext fun a => by fin_cases a <;> rfl

/-- The body's dimension numbers are the plain ones: rows × contraction by contraction × columns. -/
theorem head10_dims : dot_S5000x128_S128x128_S5000x128_1_0_0_1_n_n = DotDims.plain 5000 128 128 := rfl

/-- What the body stores, read at the block-local index (p, q). The hidden layer at (p, k) is the maximum of zero and
    row p of the block times column k of the first weights plus the first bias at k (the bias row broadcast over the
    rows); the output at (p, q) is the hidden row p times column q of the second weights plus the second bias at q.
    The recasts of operands to their own shapes are the identity. When row p of the block is row r of an array X and the
    small operands are W1, B1, W2, B2, this is the two-layer head of row r of X. -/
theorem head10_payload (X : S100000x128.Idx → EReal) (W1 : S128x128.Idx → EReal) (B1 : S1x128.Idx → EReal)
    (W2 : S128x128.Idx → EReal) (B2 : S1x128.Idx → EReal)
    (x0 : Vec Ideal S5000x128 .f32) (x1 : Vec Ideal S128x128 .f32) (x2 : Vec Ideal S1x128 .f32)
    (x3 : Vec Ideal S128x128 .f32) (x4 : Vec Ideal S1x128 .f32) (p : Fin 5000) (q : Fin 128) (r : Fin 100000)
    (h0 : ∀ j : Fin 128, x0 (ix2 p j) = X (ix2 r j)) (h1 : ∀ j k : Fin 128, x1 (ix2 j k) = W1 (ix2 j k))
    (h2 : ∀ k : Fin 128, x2 (ix2 (0 : Fin 1) k) = B1 (ix2 (0 : Fin 1) k))
    (h3 : ∀ k : Fin 128, x3 (ix2 k q) = W2 (ix2 k q)) (h4 : x4 (ix2 (0 : Fin 1) q) = B2 (ix2 (0 : Fin 1) q)) :
    k10_pay1 x0 x1 x2 x3 x4 (ix2 p q)
      = (∑ k : Fin 128, max ((∑ j : Fin 128, X (ix2 r j) * W1 (ix2 j k)) + B1 (ix2 (0 : Fin 1) k)) (Ideal.ofBits .f32 0x00000000#32)
          * W2 (ix2 k q)) + B2 (ix2 (0 : Fin 1) q) := by
  unfold k10_pay1
  rw [shapeCast_self x0 shapeCasts_S5000x128_S5000x128, shapeCast_self x2 shapeCasts_S1x128_S1x128,
    shapeCast_self x3 shapeCasts_S128x128_S128x128, shapeCast_self x4 shapeCasts_S1x128_S1x128, head10_dims]
  refine congrArg₂ (· + ·) ?_ ((broadcastTo_1b_ab_apply x4 broadcasts_S1x128_S5000x128 p q).trans h4)
  refine (Cert.Lib.PlainDot.matmul_plain_zero_apply none _ x3 p q).trans ?_
  refine Finset.sum_congr rfl fun k _ => ?_
  rw [h3 k]
  refine congrArg (· * W2 (ix2 k q)) ?_
  refine congrArg₂ max ?_ rfl
  refine congrArg₂ (· + ·) ?_ ((broadcastTo_1b_ab_apply x2 broadcasts_S1x128_S5000x128 p k).trans (h2 k))
  refine (Cert.Lib.PlainDot.matmul_plain_zero_apply none x0 x1 p k).trans ?_
  exact Finset.sum_congr rfl fun j _ => by rw [h0 j, h1 j k]

/-! ## Where a block's elements sit in their arrays -/

/-- The block index maps over the grid: the row blocks of the input and of the output move with the grid point, the four
    small operands stay at block (0, 0). -/
theorem head10_index : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

/-- Element (p, k) of the input's block at point t is element (r, k) of its array, r = 5000 t + p. -/
theorem head10_emb_x (t : Fin cfg10.N) (p : Fin 5000) (k : Fin 128) (r : Fin 100000) (hr : r.val = t.val * 5000 + p.val) :
    ((cfg10.win 0).blk t).view.emb (ix2 p k) = ix2 r k := by
  obtain ⟨e0, e1, -⟩ := head10_index t
  funext a; apply Fin.ext
  match a with
  | ⟨0, _⟩ => show win10_0.index t (0 : Fin 2) * 5000 + 1 * p.val = r.val; omega
  | ⟨1, _⟩ => show win10_0.index t (1 : Fin 2) * 128 + 1 * k.val = k.val; omega

/-- Element (j, k) of the first weights' block at any point is element (j, k) of the first weights. -/
theorem head10_emb_w1 (t : Fin cfg10.N) (j : Fin 128) (k : Fin 128) :
    ((cfg10.win 1).blk t).view.emb (ix2 j k) = ix2 j k := by
  obtain ⟨-, -, e2, e3, -⟩ := head10_index t
  funext a; apply Fin.ext
  match a with
  | ⟨0, _⟩ => show win10_1.index t (0 : Fin 2) * 128 + 1 * j.val = j.val; omega
  | ⟨1, _⟩ => show win10_1.index t (1 : Fin 2) * 128 + 1 * k.val = k.val; omega

/-- Element (0, k) of the first bias row's block at any point is element (0, k) of the first bias row. -/
theorem head10_emb_b1 (t : Fin cfg10.N) (z : Fin 1) (k : Fin 128) :
    ((cfg10.win 2).blk t).view.emb (ix2 z k) = ix2 z k := by
  obtain ⟨-, -, -, -, e4, e5, -⟩ := head10_index t
  funext a; apply Fin.ext
  match a with
  | ⟨0, _⟩ => show win10_2.index t (0 : Fin 2) * 1 + 1 * z.val = z.val; omega
  | ⟨1, _⟩ => show win10_2.index t (1 : Fin 2) * 128 + 1 * k.val = k.val; omega

/-- Element (k, q) of the second weights' block at any point is element (k, q) of the second weights. -/
theorem head10_emb_w2 (t : Fin cfg10.N) (k : Fin 128) (q : Fin 128) :
    ((cfg10.win 3).blk t).view.emb (ix2 k q) = ix2 k q := by
  obtain ⟨-, -, -, -, -, -, e6, e7, -⟩ := head10_index t
  funext a; apply Fin.ext
  match a with
  | ⟨0, _⟩ => show win10_3.index t (0 : Fin 2) * 128 + 1 * k.val = k.val; omega
  | ⟨1, _⟩ => show win10_3.index t (1 : Fin 2) * 128 + 1 * q.val = q.val; omega

/-- Element (0, q) of the second bias row's block at any point is element (0, q) of the second bias row. -/
theorem head10_emb_b2 (t : Fin cfg10.N) (z : Fin 1) (q : Fin 128) :
    ((cfg10.win 4).blk t).view.emb (ix2 z q) = ix2 z q := by
  obtain ⟨-, -, -, -, -, -, -, -, e8, e9, -⟩ := head10_index t
  funext a; apply Fin.ext
  match a with
  | ⟨0, _⟩ => show win10_4.index t (0 : Fin 2) * 1 + 1 * z.val = z.val; omega
  | ⟨1, _⟩ => show win10_4.index t (1 : Fin 2) * 128 + 1 * q.val = q.val; omega

/-- Element (p, q) of the output's block at point t is element (r, q) of its array, r = 5000 t + p. -/
theorem head10_emb_out (t : Fin cfg10.N) (p : Fin 5000) (q : Fin 128) (r : Fin 100000) (hr : r.val = t.val * 5000 + p.val) :
    ((cfg10.win 5).blk t).view.emb (ix2 p q) = ix2 r q := by
  obtain ⟨-, -, -, -, -, -, -, -, -, -, e10, e11⟩ := head10_index t
  funext a; apply Fin.ext
  match a with
  | ⟨0, _⟩ => show win10_5.index t (0 : Fin 2) * 5000 + 1 * p.val = r.val; omega
  | ⟨1, _⟩ => show win10_5.index t (1 : Fin 2) * 128 + 1 * q.val = q.val; omega

/-- An index of the output array is in point t's block iff each coordinate is in the block's range on its axis. -/
theorem head10_mem_blk (t : Fin cfg10.N) (i : S100000x128.Idx) :
    i ∈ ((cfg10.win 5).blk t).view.set ↔ ∀ a : Fin 2, win10_5.index t a * S5000x128.size a ≤ (i a).val ∧ (i a).val < win10_5.index t a * S5000x128.size a + S5000x128.size a := by
  show i ∈ ((View.whole main_v180).slice (win10_5.rect t)).set ↔ _
  rw [View.set_slice_whole, Rect.mem_set_unit]
  exact Iff.rfl

/-- Every index of the output array is in the block of the point that its row number divided by 5000 names: the 20 blocks
    of 5000 rows tile the 100000 rows. -/
theorem head10_cover (i : S100000x128.Idx) :
    ∃ t : Fin cfg10.N, (cfg10.win 5).flush t = true ∧ i ∈ ((cfg10.win 5).blk t).view.set := by
  have hN : cfg10.N = 20 := N_10
  have hi0 : (i 0).val < 100000 := idx2_lt0 i
  have hi1 : (i 1).val < 128 := idx2_lt1 i
  refine ⟨⟨(i 0).val / 5000, by rw [hN]; omega⟩, flush10_5 _, ?_⟩
  rw [head10_mem_blk]
  obtain ⟨-, -, -, -, -, -, -, -, -, -, e10, e11⟩ := head10_index ⟨(i 0).val / 5000, by rw [hN]; omega⟩
  intro a
  match a with
  | ⟨0, _⟩ => show win10_5.index _ (0 : Fin 2) * 5000 ≤ (i 0).val ∧ (i 0).val < win10_5.index _ (0 : Fin 2) * 5000 + 5000; rw [e10]; show (i 0).val / 5000 * 5000 ≤ (i 0).val ∧ (i 0).val < (i 0).val / 5000 * 5000 + 5000; omega
  | ⟨1, _⟩ => show win10_5.index _ (1 : Fin 2) * 128 ≤ (i 1).val ∧ (i 1).val < win10_5.index _ (1 : Fin 2) * 128 + 128; rw [e11]; omega

/-! ## From the blocks to the array -/

variable (V : (c : Dev nD) → (b : Ref sig .tc) → Buf (Elt Ideal) ((c : Thread nD τ).loc b))

/-- The input's block at point t, read at (p, j), is the input array at (r, j), r = 5000 t + p. -/
theorem head10_read_x (c : Dev nD) (X : S100000x128.Idx → EReal) (hX : V c (Pipeline.arrRef spec10 0) = X)
    (t : Fin cfg10.N) (p : Fin 5000) (j : Fin 128) (r : Fin 100000) (hr : r.val = t.val * 5000 + p.val) :
    iblk10 V c 0 t (ix2 p j) = X (ix2 r j) := by
  show V c (Pipeline.arrRef spec10 0) (((cfg10.win 0).blk t).view.emb (ix2 p j)) = _
  rw [head10_emb_x t p j r hr, hX]

/-- The first weights' block at any point is the first weights. -/
theorem head10_read_w1 (c : Dev nD) (W1 : S128x128.Idx → EReal) (hW1 : V c (Pipeline.arrRef spec10 1) = W1)
    (t : Fin cfg10.N) (j k : Fin 128) : iblk10 V c 1 t (ix2 j k) = W1 (ix2 j k) := by
  show V c (Pipeline.arrRef spec10 1) (((cfg10.win 1).blk t).view.emb (ix2 j k)) = _
  rw [head10_emb_w1 t j k, hW1]

/-- The first bias row's block at any point is the first bias row. -/
theorem head10_read_b1 (c : Dev nD) (B1 : S1x128.Idx → EReal) (hB1 : V c (Pipeline.arrRef spec10 2) = B1)
    (t : Fin cfg10.N) (k : Fin 128) : iblk10 V c 2 t (ix2 (0 : Fin 1) k) = B1 (ix2 (0 : Fin 1) k) := by
  show V c (Pipeline.arrRef spec10 2) (((cfg10.win 2).blk t).view.emb (ix2 (0 : Fin 1) k)) = _
  rw [head10_emb_b1 t 0 k, hB1]

/-- The second weights' block at any point is the second weights. -/
theorem head10_read_w2 (c : Dev nD) (W2 : S128x128.Idx → EReal) (hW2 : V c (Pipeline.arrRef spec10 3) = W2)
    (t : Fin cfg10.N) (k q : Fin 128) : iblk10 V c 3 t (ix2 k q) = W2 (ix2 k q) := by
  show V c (Pipeline.arrRef spec10 3) (((cfg10.win 3).blk t).view.emb (ix2 k q)) = _
  rw [head10_emb_w2 t k q, hW2]

/-- The second bias row's block at any point is the second bias row. -/
theorem head10_read_b2 (c : Dev nD) (B2 : S1x128.Idx → EReal) (hB2 : V c (Pipeline.arrRef spec10 4) = B2)
    (t : Fin cfg10.N) (q : Fin 128) : iblk10 V c 4 t (ix2 (0 : Fin 1) q) = B2 (ix2 (0 : Fin 1) q) := by
  show V c (Pipeline.arrRef spec10 4) (((cfg10.win 4).blk t).view.emb (ix2 (0 : Fin 1) q)) = _
  rw [head10_emb_b2 t 0 q, hB2]

/-- What point t writes back to the output array is block t of the two-layer head of the region's input arrays: X the
    rows, W1 and B1 the first layer's weights and bias row, W2 and B2 the second layer's. -/
theorem head10_flushed (c : Dev nD) (X : S100000x128.Idx → EReal) (W1 : S128x128.Idx → EReal) (B1 : S1x128.Idx → EReal)
    (W2 : S128x128.Idx → EReal) (B2 : S1x128.Idx → EReal)
    (hX : V c (Pipeline.arrRef spec10 0) = X) (hW1 : V c (Pipeline.arrRef spec10 1) = W1) (hB1 : V c (Pipeline.arrRef spec10 2) = B1)
    (hW2 : V c (Pipeline.arrRef spec10 3) = W2) (hB2 : V c (Pipeline.arrRef spec10 4) = B2) (t : Fin cfg10.N) :
    (dat10 (F := Ideal) V c).flushed 5 t = ((cfg10.win 5).blk t).view.read (Elt Ideal)
      (fun i : S100000x128.Idx => ((∑ k : Fin 128, max ((∑ j : Fin 128, X (ix2 (i 0 : Fin 100000) j) * W1 (ix2 j k)) + B1 (ix2 (0 : Fin 1) k)) (Ideal.ofBits .f32 0x00000000#32)
          * W2 (ix2 k (i 1 : Fin 128))) + B2 (ix2 (0 : Fin 1) (i 1 : Fin 128)) : EReal)) := by
  show (cfg10.win 5).cut (grid10.coords t) ((dat10 V c).after 5 t) = _
  rw [after10_5]
  unfold out10_5
  rw [View.canon_unit_zero head10_offsets]
  simp only [View.ld_unit_zero (S := S5000x128) head10_offsets, View.ld_unit_zero (S := S128x128) head10_offsets,
    View.ld_unit_zero (S := S1x128) head10_offsets]
  funext j
  obtain ⟨p, q, rfl⟩ : ∃ (p : Fin 5000) (q : Fin 128), j = ix2 p q := ⟨j 0, j 1, eq_ix2 j⟩
  have hN : cfg10.N = 20 := N_10
  have hr : t.val * 5000 + p.val < 100000 := by have := t.isLt; have := p.isLt; omega
  show k10_pay1 (iblk10 V c 0 t) (iblk10 V c 1 t) (iblk10 V c 2 t) (iblk10 V c 3 t) (iblk10 V c 4 t) (ix2 p q)
    = (fun i : S100000x128.Idx => ((∑ k : Fin 128, max ((∑ j : Fin 128, X (ix2 (i 0 : Fin 100000) j) * W1 (ix2 j k)) + B1 (ix2 (0 : Fin 1) k)) (Ideal.ofBits .f32 0x00000000#32)
          * W2 (ix2 k (i 1 : Fin 128))) + B2 (ix2 (0 : Fin 1) (i 1 : Fin 128)) : EReal))
        (((cfg10.win 5).blk t).view.emb (ix2 p q))
  rw [head10_emb_out t p q ⟨t.val * 5000 + p.val, hr⟩ rfl]
  exact head10_payload X W1 B1 W2 B2 (iblk10 V c 0 t) (iblk10 V c 1 t) (iblk10 V c 2 t) (iblk10 V c 3 t) (iblk10 V c 4 t)
    p q ⟨t.val * 5000 + p.val, hr⟩
    (fun j => head10_read_x V c X hX t p j ⟨t.val * 5000 + p.val, hr⟩ rfl)
    (fun j k => head10_read_w1 V c W1 hW1 t j k)
    (fun k => head10_read_b1 V c B1 hB1 t k)
    (fun k => head10_read_w2 V c W2 hW2 t k q)
    (head10_read_b2 V c B2 hB2 t q)
/-- The output array after the region is the two-layer head of the input arrays, whole: every point writes its block of
    it, and the blocks cover the array. -/
theorem head10_array (c : Dev nD) (X : S100000x128.Idx → EReal) (W1 : S128x128.Idx → EReal) (B1 : S1x128.Idx → EReal)
    (W2 : S128x128.Idx → EReal) (B2 : S1x128.Idx → EReal)
    (hX : V c (Pipeline.arrRef spec10 0) = X) (hW1 : V c (Pipeline.arrRef spec10 1) = W1) (hB1 : V c (Pipeline.arrRef spec10 2) = B1)
    (hW2 : V c (Pipeline.arrRef spec10 3) = W2) (hB2 : V c (Pipeline.arrRef spec10 4) = B2) :
    (dat10 (F := Ideal) V c).arrAt 5 cfg10.N
      = (fun i : S100000x128.Idx => ((∑ k : Fin 128, max ((∑ j : Fin 128, X (ix2 (i 0 : Fin 100000) j) * W1 (ix2 j k)) + B1 (ix2 (0 : Fin 1) k)) (Ideal.ofBits .f32 0x00000000#32)
          * W2 (ix2 k (i 1 : Fin 128))) + B2 (ix2 (0 : Fin 1) (i 1 : Fin 128)) : EReal)) :=
  (dat10 (F := Ideal) V c).arrAt_eq_of_cover 5 _ (fun t _ => head10_flushed V c X W1 B1 W2 B2 hX hW1 hB1 hW2 hB2 t) head10_cover

/-- The output array after the region at (r, q): the hidden layer at (r, k) is the maximum of zero and row r of X times
    column k of W1 plus B1 at k; the output is the hidden row r times column q of W2 plus B2 at q. -/
theorem head10_apply (c : Dev nD) (X : S100000x128.Idx → EReal) (W1 : S128x128.Idx → EReal) (B1 : S1x128.Idx → EReal)
    (W2 : S128x128.Idx → EReal) (B2 : S1x128.Idx → EReal)
    (hX : V c (Pipeline.arrRef spec10 0) = X) (hW1 : V c (Pipeline.arrRef spec10 1) = W1) (hB1 : V c (Pipeline.arrRef spec10 2) = B1)
    (hW2 : V c (Pipeline.arrRef spec10 3) = W2) (hB2 : V c (Pipeline.arrRef spec10 4) = B2) (r : Fin 100000) (q : Fin 128) :
    (dat10 (F := Ideal) V c).arrAt 5 cfg10.N (ix2 r q)
      = (∑ k : Fin 128, max ((∑ j : Fin 128, X (ix2 r j) * W1 (ix2 j k)) + B1 (ix2 (0 : Fin 1) k)) (Ideal.ofBits .f32 0x00000000#32)
          * W2 (ix2 k q)) + B2 (ix2 (0 : Fin 1) q) :=
  congrFun (head10_array V c X W1 B1 W2 B2 hX hW1 hB1 hW2 hB2) (ix2 r q)

end Cert.KernelIdeal.RegValue

end
-- ==== Proof.LibScatterSet.lean ====
/-
  A scatter whose body returns the update ("set"), read at an index.

  The host's scatter takes the update indices one after the other, in row-major order, and each one that lands
  inside the operand replaces the element at its landing index by the body's value, here the update's element
  itself.  When exactly one update index lands at a given index of the operand, the result there is that update's
  element, whatever the operand held and whatever the other updates wrote elsewhere: later steps leave the index
  alone because no other update lands on it.  For any shapes, dimension numbers, index width and entry type.
-/
import Idealize.ShloMosaic.PureOps.ShapeOps

namespace Cert.Lib.ScatterSet

open Idealize.ShloMosaic

/-- If update index `j` lands at `i'` and no other update index does, a "set" scatter holds `upd j` at `i'`. -/
theorem scatter_set_apply {s si u : Shape} {α : Type} {w : Nat} (d : ScatterDims s si u) (x : s.Idx → α)
    (idx : IVec si w) (upd : u.Idx → α) (i' : s.Idx) (j : u.Idx) (hres : d.resultIdx? j idx = some i')
    (huniq : ∀ j', d.resultIdx? j' idx = some i' → j' = j) :
    Host.scatter d (fun _ b => b) x idx upd i' = upd j := by
  unfold Host.scatter
  refine (?_ : ∀ l : List (Fin u.numel), u.rowMajor j ∈ l → List.foldl _ x l i' = upd j) _ (List.mem_finRange _)
  intro l
  induction l using List.reverseRecOn with
  | nil => intro h; cases h
  | append_singleton l a ih =>
    intro hj
    rw [List.foldl_append, List.foldl_cons, List.foldl_nil]
    by_cases ha : d.resultIdx? (u.rowMajor.symm a) idx = some i'
    · have hja : u.rowMajor.symm a = j := huniq _ ha
      subst hja
      cases hra : d.resultIdx? (u.rowMajor.symm a) idx with
      | none => rw [hra] at ha; cases ha
      | some i =>
        have hi : i = i' := by rw [hra] at ha; exact Option.some.inj ha
        subst hi
        show (if i = i then _ else _) = _
        rw [if_pos rfl]
    · have hjl : u.rowMajor j ∈ l := by
        rcases List.mem_append.1 hj with h | h
        · exact h
        · exfalso
          have h1 : u.rowMajor j = a := by simpa using h
          apply ha
          rw [← h1, Equiv.symm_apply_apply]
          exact hres
      have ih' := ih hjl
      cases hra : d.resultIdx? (u.rowMajor.symm a) idx with
      | none => exact ih'
      | some i =>
        have hne : i' ≠ i := fun h => ha (by rw [hra, h])
        show (if i' = i then _ else _) = _
        rw [if_neg hne]; exact ih'

end Cert.Lib.ScatterSet
-- ==== Proof.LibColSlices.lean ====
/-
  A block of consecutive columns cut out of a matrix, read at an index.

  Columns o … o + C' − 1 of a matrix [R, C], as a unit-stride slice at offsets (0, o), read at (p, q) the matrix at
  (p, o + q).  General: any extents, offset and entry type.  (The twin for a block of rows is a slice at offsets
  (o, 0), read at (q, k) as the matrix at (o + q, k).)
-/
import Idealize.ShloMosaic.Lib.ValueIdx
import Idealize.ShloMosaic.Lib.Pipeline.Value

noncomputable section

namespace Cert.Lib.ColSlices

open Idealize.ShloMosaic Idealize.ShloMosaic.ValueIdx

variable {α : Type}

/-- Columns o … o + C' − 1 of a matrix [R, C], read at (p, q), are the matrix at (p, o + q). -/
theorem slice_cols_apply {R C C' o : Nat} (x : (⟨2, ![R, C]⟩ : Shape).Idx → α)
    (h : (⟨2, ![R, C]⟩ : Shape).Slices ![0, o] ⟨2, ![R, C']⟩) (p : Fin R) (q : Fin C') (hq : o + q.val < C) :
    extractStridedSlice ⟨2, ![R, C']⟩ ![0, o] x h (ix2 p q) = x (ix2 p ⟨o + q.val, hq⟩) :=
  extractStridedSlice_apply ![0, o] x h (ix2 p q) (ix2 p ⟨o + q.val, hq⟩) (fun a => by
    match a with
    | ⟨0, _⟩ => show p.val = 0 + p.val; omega
    | ⟨1, _⟩ => rfl)

end Cert.Lib.ColSlices

end
-- ==== Proof.KHead.lean ====
/-
  The end of the idealized kernel program: the two-layer head, and the program's result.

  After the last graph layer the program pads the head's second weights, a [128,1] column, and its second bias, a
  single number, with zeros to 128 columns (each is set into a zero array at column 0), runs the head region on the
  [100000,128] features — first weights, bias, maximum with zero, padded second weights, padded bias — and keeps
  column 0 of the region's [100000,128] output. At column 0 the padded weights are the weight column and the padded
  bias is the bias, so the kept column is, row by row, the head function of the features and of the four head
  arguments; the other 127 columns are never read. The reference computes the same function with a [128,1] product,
  so when the head region is entered with the reference's features the program's result is the reference's last
  stage. Both sides are the same expression of the same entries: no finiteness is needed.
-/
import proofs.«110479_j25572235281175_1_alg».proof.Proof.Carry
import proofs.«110479_j25572235281175_1_alg».proof.Proof.KStage0
import proofs.«110479_j25572235281175_1_alg».proof.Proof.RefReadP
import proofs.«110479_j25572235281175_1_alg».proof.Proof.RegHead10
import proofs.«110479_j25572235281175_1_alg».proof.Proof.LibScatterSet
import proofs.«110479_j25572235281175_1_alg».proof.Proof.LibRows
import proofs.«110479_j25572235281175_1_alg».proof.Proof.LibColSlices
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Stages

open Idealize.ShloMosaic Idealize.ShloMosaic.TcCoe Idealize.ShloMosaic.StableHlo Idealize.ShloMosaic.ValueIdx
open Cert.KernelIdeal Cert.KernelIdeal.Gen Cert.KernelIdeal.Carry
open scoped BigOperators

/-! ## The head as one function of a row -/

/-- The two-layer head at row r: the hidden layer at channel k is the maximum of zero and row r of the features
    times column k of the first weights plus the first bias at k; the result is the hidden row times the one column
    of the second weights plus the second bias. -/
def headFn (Y : S100000x128.Idx → EReal) (w8 : S128x128.Idx → EReal) (b9 : S128.Idx → EReal) (w10 : S128x1.Idx → EReal)
    (b11 : S1.Idx → EReal) (r : Fin 100000) : EReal :=
  (∑ k : Fin 128, max ((∑ j : Fin 128, Y (ix2 r j) * w8 (ix2 j k)) + b9 (ix1 k)) (Ideal.ofBits .f32 0x00000000#32)
      * w10 (ix2 k (0 : Fin 1))) + b11 (ix1 (0 : Fin 1))

/-! ## The second weights and bias padded to 128 columns -/

/-- The [128,1] weight column set into a [128,128] matrix of zeros at column 0. -/
def headWPad (w : (⟨S128x1, .f32⟩ : BufTy).Contents (Elt Ideal)) : (⟨S128x128, .f32⟩ : BufTy).Contents (Elt Ideal) :=
  Host.scatter scatter_S128x128_S1_S128x1_01_n_1_0 (fun _ b => b)
    (broadcastInDim S128x128 ![] bcast_S_S128x128 (constant (F := Ideal) S_ .f32 0x00000000#32))
    (broadcastInDim S1 ![] bcast_S_S1 (constantI S_ 32 0#32)) w

/-- The [1,1] bias set into a [1,128] row of zeros at column 0. -/
def headBPad (b : (⟨S1x1, .f32⟩ : BufTy).Contents (Elt Ideal)) : (⟨S1x128, .f32⟩ : BufTy).Contents (Elt Ideal) :=
  Host.scatter scatter_S1x128_S1_S1x1_01_n_1_0 (fun _ b => b)
    (broadcastInDim S1x128 ![] bcast_S_S1x128 (constant (F := Ideal) S_ .f32 0x00000000#32))
    (broadcastInDim S1 ![] bcast_S_S1 (constantI S_ 32 0#32)) b

/-- The one update window of the weight column starts at column index 0: entry (k, u) of the column lands at (k, 0). -/
theorem head_w_lands : ∀ (k : Fin 128) (u : Fin 1),
    scatter_S128x128_S1_S128x1_01_n_1_0.resultIdx? (ix2 k u : S128x1.Idx)
      (broadcastInDim S1 ![] bcast_S_S1 (constantI S_ 32 0#32) : IVec S1 32) = some (ix2 k (0 : Fin 128) : S128x128.Idx) := by
  decide +kernel

/-- The one update window of the bias starts at column index 0: its one entry lands at (0, 0). -/
theorem head_b_lands : ∀ (k : Fin 1) (u : Fin 1),
    scatter_S1x128_S1_S1x1_01_n_1_0.resultIdx? (ix2 k u : S1x1.Idx)
      (broadcastInDim S1 ![] bcast_S_S1 (constantI S_ 32 0#32) : IVec S1 32) = some (ix2 (0 : Fin 1) (0 : Fin 128) : S1x128.Idx) := by
  decide +kernel

/-- Column 0 of the padded weights is the weight column. -/
theorem headWPad_col0 (w : (⟨S128x1, .f32⟩ : BufTy).Contents (Elt Ideal)) (k : Fin 128) :
    headWPad w (ix2 k (0 : Fin 128)) = w (ix2 k (0 : Fin 1)) := by
  unfold headWPad
  refine Cert.Lib.ScatterSet.scatter_set_apply scatter_S128x128_S1_S128x1_01_n_1_0 _ _ w (ix2 k (0 : Fin 128)) (ix2 k (0 : Fin 1))
    (head_w_lands k 0) (fun j' hj' => ?_)
  obtain ⟨k', u', rfl⟩ : ∃ (k' : Fin 128) (u' : Fin 1), j' = ix2 k' u' := ⟨j' 0, j' 1, eq_ix2 j'⟩
  rw [head_w_lands k' u'] at hj'
  have e : (ix2 k' (0 : Fin 128) : S128x128.Idx) = ix2 k (0 : Fin 128) := Option.some.inj hj'
  have hk : k' = k := congrFun e 0
  obtain rfl : u' = 0 := Subsingleton.elim _ _
  rw [hk]

/-- Entry (0, 0) of the padded bias is the bias. -/
theorem headBPad_00 (b : (⟨S1x1, .f32⟩ : BufTy).Contents (Elt Ideal)) :
    headBPad b (ix2 (0 : Fin 1) (0 : Fin 128)) = b (ix2 (0 : Fin 1) (0 : Fin 1)) := by
  unfold headBPad
  refine Cert.Lib.ScatterSet.scatter_set_apply scatter_S1x128_S1_S1x1_01_n_1_0 _ _ b (ix2 (0 : Fin 1) (0 : Fin 128)) (ix2 (0 : Fin 1) (0 : Fin 1))
    (head_b_lands 0 0) (fun j' _ => ?_)
  obtain ⟨k', u', rfl⟩ : ∃ (k' : Fin 1) (u' : Fin 1), j' = ix2 k' u' := ⟨j' 0, j' 1, eq_ix2 j'⟩
  obtain rfl : k' = 0 := Subsingleton.elim _ _
  obtain rfl : u' = 0 := Subsingleton.elim _ _
  rfl

/-- A vector of 128 channels as a one-row matrix, read at (0, k). -/
theorem head_row_apply (v : (⟨S128, .f32⟩ : BufTy).Contents (Elt Ideal)) (k : Fin 128) :
    shapeCast S1x128 v shapeCasts_S128_S1x128 (ix2 (0 : Fin 1) k) = v (ix1 k) :=
  Cert.Lib.Rows.shapeCast_vec_row_apply v shapeCasts_S128_S1x128 k

/-- A one-entry vector as a [1,1] matrix, read at (0, 0). -/
theorem head_one_apply (v : (⟨S1, .f32⟩ : BufTy).Contents (Elt Ideal)) :
    shapeCast S1x1 v shapeCasts_S1_S1x1 (ix2 (0 : Fin 1) (0 : Fin 1)) = v (ix1 (0 : Fin 1)) :=
  Cert.Lib.Rows.shapeCast_vec_row_apply v shapeCasts_S1_S1x1 0

/-! ## The reference's head at column 0 -/

/-- The reference's last stage at (r, 0) is the head function of its features stage and of the four head arguments:
    its two products are the plain sums over the contraction index, its bias rows read the bias at the column, its
    rectifier is the maximum with the zero word. -/
theorem head_ref_apply (x0 : (⟨Cert.ReferenceIdeal.S100000x128, .f32⟩ : BufTy).Contents (Elt Ideal)) (x1 : (⟨Cert.ReferenceIdeal.S2x640000, .i32⟩ : BufTy).Contents (Elt Ideal)) (x2 : (⟨Cert.ReferenceIdeal.S3x128x128, .f32⟩ : BufTy).Contents (Elt Ideal)) (x3 x4 x5 x6 : (⟨Cert.ReferenceIdeal.S3x128, .f32⟩ : BufTy).Contents (Elt Ideal)) (x7 x8 : (⟨Cert.ReferenceIdeal.S128x128, .f32⟩ : BufTy).Contents (Elt Ideal)) (x9 : (⟨Cert.ReferenceIdeal.S128, .f32⟩ : BufTy).Contents (Elt Ideal)) (x10 : (⟨Cert.ReferenceIdeal.S128x1, .f32⟩ : BufTy).Contents (Elt Ideal)) (x11 : (⟨Cert.ReferenceIdeal.S1, .f32⟩ : BufTy).Contents (Elt Ideal)) (r : Fin 100000) :
    Cert.ReferenceIdeal.ReadP.val_main_v195 (F := Ideal) x0 x1 x2 x3 x4 x5 x6 x7 x8 x9 x10 x11 (ix2 r (0 : Fin 1))
      = headFn (Cert.ReferenceIdeal.ReadP.val_main_v186 (F := Ideal) x0 x1 x2 x3 x4 x5 x6 x7) x8 x9 x10 x11 r := by
  rw [Cert.ReferenceIdeal.ReadP.val_main_v195_apply, Cert.ReferenceIdeal.ReadP.val_main_v192_apply,
    Cert.ReferenceIdeal.ReadP.val_main_v194_apply, Cert.ReferenceIdeal.ReadP.val_main_v193_apply]
  unfold headFn
  refine congrArg₂ (fun a b : EReal => a + b) (Finset.sum_congr rfl fun k _ => ?_) (congrArg x11 (funext fun a => Fin.ext ?_))
  · have el : Cert.ReferenceIdeal.ReadP.lidx_main_v192 (ix2 r (0 : Fin 1)) k = ix2 r k :=
      funext fun a => Fin.ext (by match a with | ⟨0, _⟩ => rfl | ⟨1, _⟩ => rfl)
    have er : Cert.ReferenceIdeal.ReadP.ridx_main_v192 (ix2 r (0 : Fin 1)) k = ix2 k (0 : Fin 1) :=
      funext fun a => Fin.ext (by match a with | ⟨0, _⟩ => rfl | ⟨1, _⟩ => rfl)
    rw [el, er, Cert.ReferenceIdeal.ReadP.val_main_v191_apply, Cert.ReferenceIdeal.ReadP.val_main_v190_apply,
      Cert.ReferenceIdeal.ReadP.val_main_v187_apply, Cert.ReferenceIdeal.ReadP.val_main_v189_apply,
      Cert.ReferenceIdeal.ReadP.val_main_v188_apply, Cert.ReferenceIdeal.ReadP.val_main_call4_v0_apply,
      Cert.ReferenceIdeal.ReadP.val_main_call4_cst_apply]
    refine congrArg (fun z : EReal => z * x10 (ix2 k (0 : Fin 1))) ?_
    refine congrArg₂ (fun a b : EReal => max a b) (congrArg₂ (fun a b : EReal => a + b) (Finset.sum_congr rfl fun j _ => ?_)
      (congrArg x9 (funext fun a => Fin.ext (by match a with | ⟨0, _⟩ => rfl)))) rfl
    have el' : Cert.ReferenceIdeal.ReadP.lidx_main_v187 (ix2 r k) j = ix2 r j :=
      funext fun a => Fin.ext (by match a with | ⟨0, _⟩ => rfl | ⟨1, _⟩ => rfl)
    have er' : Cert.ReferenceIdeal.ReadP.ridx_main_v187 (ix2 r k) j = ix2 j k :=
      funext fun a => Fin.ext (by match a with | ⟨0, _⟩ => rfl | ⟨1, _⟩ => rfl)
    rw [el', er']
  · match a with
    | ⟨0, _⟩ => rfl

/-! ## The kernel program's head -/

variable (m : (ℓ : Loc nD τ sig) → Buf (Elt Ideal) ℓ) (ρ : Dev nD → PrngReg)

/-- The four head arguments are written by no host operation and are arrays of no region before the head's: at the
    exit of the last layer's region they hold their launch contents. -/
theorem head_arg8 (c : Dev nD) : W22 m ρ c (Proc.devRef .tc main_arg8) = m ((c : Thread nD τ).loc main_arg8) :=
  ((keepR9 m ρ c main_arg8 (by decide)).trans ((keepH9 (W20 m ρ c) main_arg8 (by decide)).trans ((keepR8 m ρ c main_arg8 (by decide)).trans ((keepH8 (W18 m ρ c) main_arg8 (by decide)).trans ((keepR7 m ρ c main_arg8 (by decide)).trans ((keepH7 (W16 m ρ c) main_arg8 (by decide)).trans ((keepR6 m ρ c main_arg8 (by decide)).trans ((keepH6 (W14 m ρ c) main_arg8 (by decide)).trans ((keepR5 m ρ c main_arg8 (by decide)).trans ((keepH5 (W12 m ρ c) main_arg8 (by decide)).trans ((keepR4 m ρ c main_arg8 (by decide)).trans ((keepH4 (W10 m ρ c) main_arg8 (by decide)).trans ((keepR3 m ρ c main_arg8 (by decide)).trans ((keepH3 (W8 m ρ c) main_arg8 (by decide)).trans ((keepR2 m ρ c main_arg8 (by decide)).trans ((keepH2 (W6 m ρ c) main_arg8 (by decide)).trans ((keepR1 m ρ c main_arg8 (by decide)).trans ((keepH1 (W4 m ρ c) main_arg8 (by decide)).trans ((keepR0 m ρ c main_arg8 (by decide)).trans (W3_arg m ρ c main_arg8 (by decide) (by decide) (by decide)))))))))))))))))))))
theorem head_arg9 (c : Dev nD) : W22 m ρ c (Proc.devRef .tc main_arg9) = m ((c : Thread nD τ).loc main_arg9) :=
  ((keepR9 m ρ c main_arg9 (by decide)).trans ((keepH9 (W20 m ρ c) main_arg9 (by decide)).trans ((keepR8 m ρ c main_arg9 (by decide)).trans ((keepH8 (W18 m ρ c) main_arg9 (by decide)).trans ((keepR7 m ρ c main_arg9 (by decide)).trans ((keepH7 (W16 m ρ c) main_arg9 (by decide)).trans ((keepR6 m ρ c main_arg9 (by decide)).trans ((keepH6 (W14 m ρ c) main_arg9 (by decide)).trans ((keepR5 m ρ c main_arg9 (by decide)).trans ((keepH5 (W12 m ρ c) main_arg9 (by decide)).trans ((keepR4 m ρ c main_arg9 (by decide)).trans ((keepH4 (W10 m ρ c) main_arg9 (by decide)).trans ((keepR3 m ρ c main_arg9 (by decide)).trans ((keepH3 (W8 m ρ c) main_arg9 (by decide)).trans ((keepR2 m ρ c main_arg9 (by decide)).trans ((keepH2 (W6 m ρ c) main_arg9 (by decide)).trans ((keepR1 m ρ c main_arg9 (by decide)).trans ((keepH1 (W4 m ρ c) main_arg9 (by decide)).trans ((keepR0 m ρ c main_arg9 (by decide)).trans (W3_arg m ρ c main_arg9 (by decide) (by decide) (by decide)))))))))))))))))))))
theorem head_arg10 (c : Dev nD) : W22 m ρ c (Proc.devRef .tc main_arg10) = m ((c : Thread nD τ).loc main_arg10) :=
  ((keepR9 m ρ c main_arg10 (by decide)).trans ((keepH9 (W20 m ρ c) main_arg10 (by decide)).trans ((keepR8 m ρ c main_arg10 (by decide)).trans ((keepH8 (W18 m ρ c) main_arg10 (by decide)).trans ((keepR7 m ρ c main_arg10 (by decide)).trans ((keepH7 (W16 m ρ c) main_arg10 (by decide)).trans ((keepR6 m ρ c main_arg10 (by decide)).trans ((keepH6 (W14 m ρ c) main_arg10 (by decide)).trans ((keepR5 m ρ c main_arg10 (by decide)).trans ((keepH5 (W12 m ρ c) main_arg10 (by decide)).trans ((keepR4 m ρ c main_arg10 (by decide)).trans ((keepH4 (W10 m ρ c) main_arg10 (by decide)).trans ((keepR3 m ρ c main_arg10 (by decide)).trans ((keepH3 (W8 m ρ c) main_arg10 (by decide)).trans ((keepR2 m ρ c main_arg10 (by decide)).trans ((keepH2 (W6 m ρ c) main_arg10 (by decide)).trans ((keepR1 m ρ c main_arg10 (by decide)).trans ((keepH1 (W4 m ρ c) main_arg10 (by decide)).trans ((keepR0 m ρ c main_arg10 (by decide)).trans (W3_arg m ρ c main_arg10 (by decide) (by decide) (by decide)))))))))))))))))))))
theorem head_arg11 (c : Dev nD) : W22 m ρ c (Proc.devRef .tc main_arg11) = m ((c : Thread nD τ).loc main_arg11) :=
  ((keepR9 m ρ c main_arg11 (by decide)).trans ((keepH9 (W20 m ρ c) main_arg11 (by decide)).trans ((keepR8 m ρ c main_arg11 (by decide)).trans ((keepH8 (W18 m ρ c) main_arg11 (by decide)).trans ((keepR7 m ρ c main_arg11 (by decide)).trans ((keepH7 (W16 m ρ c) main_arg11 (by decide)).trans ((keepR6 m ρ c main_arg11 (by decide)).trans ((keepH6 (W14 m ρ c) main_arg11 (by decide)).trans ((keepR5 m ρ c main_arg11 (by decide)).trans ((keepH5 (W12 m ρ c) main_arg11 (by decide)).trans ((keepR4 m ρ c main_arg11 (by decide)).trans ((keepH4 (W10 m ρ c) main_arg11 (by decide)).trans ((keepR3 m ρ c main_arg11 (by decide)).trans ((keepH3 (W8 m ρ c) main_arg11 (by decide)).trans ((keepR2 m ρ c main_arg11 (by decide)).trans ((keepH2 (W6 m ρ c) main_arg11 (by decide)).trans ((keepR1 m ρ c main_arg11 (by decide)).trans ((keepH1 (W4 m ρ c) main_arg11 (by decide)).trans ((keepR0 m ρ c main_arg11 (by decide)).trans (W3_arg m ρ c main_arg11 (by decide) (by decide) (by decide)))))))))))))))))))))

/-- At the head region's entry: the first weights. -/
theorem head_in_w1 (c : Dev nD) : V23 m ρ c main_arg8 = m ((c : Thread nD τ).loc main_arg8) :=
  (keepH10 (W22 m ρ c) main_arg8 (by decide)).trans (head_arg8 m ρ c)

/-- At the head region's entry: the first bias as a one-row matrix. -/
theorem head_in_b1 (c : Dev nD) :
    V23 m ρ c main_v179 = shapeCast S1x128 (m ((c : Thread nD τ).loc main_arg9)) shapeCasts_S128_S1x128 := by
  show StableHlo.after hostOps10 (W22 m ρ c) (Proc.devRef .tc main_v179) = _
  try dsimp only [hostOps10]
  after_results_simp
  rw [head_arg9 m ρ c]
  rfl

/-- At the head region's entry: the second weights padded to 128 columns. -/
theorem head_in_w2 (c : Dev nD) : V23 m ρ c main_v174 = headWPad (m ((c : Thread nD τ).loc main_arg10)) := by
  show StableHlo.after hostOps10 (W22 m ρ c) (Proc.devRef .tc main_v174) = _
  try dsimp only [hostOps10]
  after_results_simp
  rw [head_arg10 m ρ c]
  rfl

/-- At the head region's entry: the second bias padded to 128 columns. -/
theorem head_in_b2 (c : Dev nD) :
    V23 m ρ c main_v178 = headBPad (shapeCast S1x1 (m ((c : Thread nD τ).loc main_arg11)) shapeCasts_S1_S1x1) := by
  show StableHlo.after hostOps10 (W22 m ρ c) (Proc.devRef .tc main_v178) = _
  try dsimp only [hostOps10]
  after_results_simp
  rw [head_arg11 m ρ c]
  rfl

/-- After the head region, column 0 of its output at row r is the head function of the features the region was
    entered with and of the four head arguments: only column 0 of the padded second weights and bias is read there. -/
theorem head_out_col0 (c : Dev nD) (Y : S100000x128.Idx → EReal) (hY : V23 m ρ c main_v171 = Y) (r : Fin 100000) :
    (dat10 (F := Ideal) (V23 m ρ) c).arrAt 5 cfg10.N (ix2 r (0 : Fin 128))
      = headFn Y (m ((c : Thread nD τ).loc main_arg8)) (m ((c : Thread nD τ).loc main_arg9))
          (m ((c : Thread nD τ).loc main_arg10)) (m ((c : Thread nD τ).loc main_arg11)) r := by
  rw [Cert.KernelIdeal.RegValue.head10_apply (V23 m ρ) c _ _ _ _ _ hY (head_in_w1 m ρ c) (head_in_b1 m ρ c) (head_in_w2 m ρ c)
    (head_in_b2 m ρ c) r (0 : Fin 128)]
  unfold headFn
  refine congrArg₂ (fun a b : EReal => a + b) (Finset.sum_congr rfl fun k _ => ?_) ?_
  · rw [headWPad_col0, head_row_apply]
  · rw [headBPad_00, head_one_apply]

/-- THE PROGRAM'S RESULT: column 0 of the head region's output, which is the reference's last stage when the head
    region is entered with the reference's features. -/
theorem head_result (c : Dev nD)
    (h171 : W22 m ρ c (Proc.devRef .tc main_v171) = (Cert.ReferenceIdeal.ReadP.val_main_v186 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) :
    W25 m ρ c (Proc.devRef .tc main_v181) = (Cert.ReferenceIdeal.ReadP.val_main_v195 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  have hY : V23 m ρ c main_v171 = (Cert.ReferenceIdeal.ReadP.val_main_v186 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
    (keepH10 (W22 m ρ c) main_v171 (by decide)).trans h171
  show StableHlo.after hostOps11 (W24 m ρ c) (Proc.devRef .tc main_v181) = _
  try dsimp only [hostOps11]
  after_results_simp
  rw [show W24 m ρ c (Proc.devRef .tc main_v180) = (dat10 (F := Ideal) (V23 m ρ) c).arrAt 5 cfg10.N from W24_arr m ρ c 5]
  have key : ∀ i : S100000x1.Idx,
      extractStridedSlice S100000x1 ![0, 0] ((dat10 (F := Ideal) (V23 m ρ) c).arrAt 5 cfg10.N) slices_S100000x128_S100000x1_0_0 i
        = (Cert.ReferenceIdeal.ReadP.val_main_v195 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) i := by
    intro i
    obtain ⟨r, u, rfl⟩ : ∃ (r : Fin 100000) (u : Fin 1), i = ix2 r u := ⟨i 0, i 1, eq_ix2 i⟩
    obtain rfl : u = 0 := Subsingleton.elim _ _
    refine (Cert.Lib.ColSlices.slice_cols_apply (R := 100000) (C := 128) (C' := 1) (o := 0) _ slices_S100000x128_S100000x1_0_0 r 0
      (by decide)).trans ?_
    refine (head_out_col0 m ρ c _ hY r).trans ?_
    exact (head_ref_apply _ _ _ _ _ _ _ _ _ _ _ _ r).symm
  exact funext key

end Cert.KernelIdeal.Stages

end
-- ==== Proof.KFinal.lean ====
/-
  The idealized kernel program's result buffer after the whole program is the reference's last stage function of the
  arguments' launch contents: the three layers' outputs are the reference's (each real-valued, which the next layer's
  variance identity needs), and the head — a padded matrix product of which only column 0 is kept — is the reference's.
-/
import proofs.«110479_j25572235281175_1_alg».proof.Proof.KLayer3C
import proofs.«110479_j25572235281175_1_alg».proof.Proof.KHead

set_option maxRecDepth 16384

noncomputable section

namespace Cert.KernelIdeal.Stages

open Idealize.ShloMosaic Idealize.ShloMosaic.TcCoe Idealize.ShloMosaic.StableHlo Idealize.ShloMosaic.ValueIdx
open Cert.KernelIdeal Cert.KernelIdeal.Gen Cert.KernelIdeal.Carry

variable (m : (ℓ : Loc nD τ sig) → Buf (Elt Ideal) ℓ) (ρ : Dev nD → PrngReg)

/-- The result buffer at the last boundary, under the precondition. -/
theorem final_result (c : Dev nD) (hpre : PreOK m) :
    W25 m ρ c (Proc.devRef .tc main_v181)
      = Cert.ReferenceIdeal.ReadP.val_main_v195 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  head_result m ρ c (L3_out m ρ c hpre)

end Cert.KernelIdeal.Stages

end
-- ==== Proof.LibAfterAppend.lean ====
/-
  A general lemma on straight lines of host operations: the buffer contents after two stretches run one after the
  other are the contents after their concatenation — so a long line can be read stretch by stretch.
-/
import Idealize.ShloMosaic.Lib.StableHlo.Run

namespace Cert.LibAfterAppend

open Idealize.ShloMosaic Idealize.ShloMosaic.StableHlo

/-- The contents after `l₁ ++ l₂` from `V` are the contents after `l₂` from the contents after `l₁` from `V`, for any
    topology, buffer signature and value types. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend
-- ==== Proof.RefStages.lean ====
/-
  The reference program read stage by stage.

  Its @main is one straight line of 238 host operations.  The line is cut after the skip projection (the edge lists, the
  edge weights and x · proj_w are then known), after each of the three graph layers, and at the end; for each stretch,
  from ANY buffer contents that hold the earlier stages' values at the few buffers the stretch reads, the stretch's own
  result buffer ends at the stage function of the arguments that the one-operation-at-a-time reading of the program names
  (`ReadP.val_main_vN`), and every buffer the stretch does not write keeps its contents.  Composed, the result buffer after
  the whole line is `val_main_v195` of the twelve arguments' launch contents.  No shared intermediate is ever repeated:
  each stage's value enters the next stage as a name.
-/
import proofs.«110479_j25572235281175_1_alg».proof.Proof.RefRunP
import proofs.«110479_j25572235281175_1_alg».proof.Proof.RefReadP
import proofs.«110479_j25572235281175_1_alg».proof.Proof.LibAfterAppend

set_option maxRecDepth 16384

noncomputable section

namespace Cert.ReferenceIdeal.Stages

open Cert.ReferenceIdeal Cert.ReferenceIdeal.Gen Cert.ReferenceIdeal.RunP Cert.ReferenceIdeal.ReadP
open Idealize.ShloMosaic Idealize.ShloMosaic.TcCoe Idealize.SL.Sem Idealize.ShloMosaic.StableHlo

variable {F : FTy → Type} [FloatOps F]

/-- Stretch A of the line: operations 1 … 41. -/
abbrev opsA : List (HloOp τ sig (Elt F)) :=
  [ nullary main_v0 (iotaInDim S100000 32 0),
    unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    reshape main_v1 main_v2 rfl shapeCasts_S1x640000_S640000,
    binary main_v2 main_v0 main_v3 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    reshape main_v4 main_v5 rfl shapeCasts_S1x640000_S640000,
    binary main_v5 main_v0 main_v6 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    nullary main_cst (constant S_ .f32 0x3F800000#32),
    unary main_cst main_v7 (broadcastInDim S740000 ![] bcast_S_S740000 : (⟨S_, .f32⟩ : BufTy).Contents (Elt F) → (⟨S740000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S740000x1 ![0] bcast_S740000_S740000x1_0 : (⟨S740000, .i32⟩ : BufTy).Contents (Elt F) → (⟨S740000x1, .i32⟩ : BufTy).Contents (Elt F)),
    ternary main_v8 main_v9 main_v7 main_v10 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S740000 ![] bcast_S_S740000 : (⟨S_, .i32⟩ : BufTy).Contents (Elt F) → (⟨S740000, .i32⟩ : BufTy).Contents (Elt F)),
    binary main_v3 main_v15 main_v16 (cmpi .slt : (⟨S740000, .i32⟩ : BufTy).Contents (Elt F) → (⟨S740000, .i32⟩ : BufTy).Contents (Elt F) → (⟨S740000, .i1⟩ : BufTy).Contents (Elt F)),
    nullary main_c_3 (constantI S_ 32 100000#32),
    unary main_c_3 main_v17 (broadcastInDim S740000 ![] bcast_S_S740000 : (⟨S_, .i32⟩ : BufTy).Contents (Elt F) → (⟨S740000, .i32⟩ : BufTy).Contents (Elt F)),
    binary main_v3 main_v17 main_v18 (addi : (⟨S740000, .i32⟩ : BufTy).Contents (Elt F) → (⟨S740000, .i32⟩ : BufTy).Contents (Elt F) → (⟨S740000, .i32⟩ : BufTy).Contents (Elt F)),
    ternary main_v16 main_v18 main_v3 main_v19 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v19 main_v20 (broadcastInDim S740000x1 ![0] bcast_S740000_S740000x1_0 : (⟨S740000, .i32⟩ : BufTy).Contents (Elt F) → (⟨S740000x1, .i32⟩ : BufTy).Contents (Elt F)),
    binary main_v14 main_v20 main_v21 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    nullary main_c_4 (constantI S_ 32 0#32),
    unary main_c_4 main_v22 (broadcastInDim S740000 ![] bcast_S_S740000 : (⟨S_, .i32⟩ : BufTy).Contents (Elt F) → (⟨S740000, .i32⟩ : BufTy).Contents (Elt F)),
    binary main_v6 main_v22 main_v23 (cmpi .slt : (⟨S740000, .i32⟩ : BufTy).Contents (Elt F) → (⟨S740000, .i32⟩ : BufTy).Contents (Elt F) → (⟨S740000, .i1⟩ : BufTy).Contents (Elt F)),
    nullary main_c_5 (constantI S_ 32 100000#32),
    unary main_c_5 main_v24 (broadcastInDim S740000 ![] bcast_S_S740000 : (⟨S_, .i32⟩ : BufTy).Contents (Elt F) → (⟨S740000, .i32⟩ : BufTy).Contents (Elt F)),
    binary main_v6 main_v24 main_v25 (addi : (⟨S740000, .i32⟩ : BufTy).Contents (Elt F) → (⟨S740000, .i32⟩ : BufTy).Contents (Elt F) → (⟨S740000, .i32⟩ : BufTy).Contents (Elt F)),
    ternary main_v23 main_v25 main_v6 main_v26 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v26 main_v27 (broadcastInDim S740000x1 ![0] bcast_S740000_S740000x1_0 : (⟨S740000, .i32⟩ : BufTy).Contents (Elt F) → (⟨S740000x1, .i32⟩ : BufTy).Contents (Elt F)),
    binary main_v14 main_v27 main_v28 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v21 main_v28 main_v29 (mulf : (⟨S740000, .f32⟩ : BufTy).Contents (Elt F) → (⟨S740000, .f32⟩ : BufTy).Contents (Elt F) → (⟨S740000, .f32⟩ : BufTy).Contents (Elt F)),
    binary main_arg0 main_arg7 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The buffers stretch A writes. -/
abbrev wlA : List (Ref sig .tc) := [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29, main_v30]
theorem writesA : (opsA : List (HloOp τ sig (Elt F))).Forall fun op => op.writes ⊆ ((wlA).map (Proc.devRef (τ := τ) .tc)).toFinset := by
  simp only [opsA, List.Forall, nullary_writes, unary_writes, binary_writes, ternary_writes, quaternary_writes, reshape_writes, binaryIndexed_writes, Finset.singleton_subset_iff, List.mem_toFinset]
  repeat' apply And.intro
  all_goals exact List.mem_map_of_mem (by decide)
/-- A buffer stretch A does not write keeps its contents. -/
theorem keepA (W : Valuation τ sig (Elt F)) (r : Ref sig .tc) (hr : r ∉ wlA) :
    after opsA W (Proc.devRef .tc r) = W (Proc.devRef .tc r) :=
  after_of_writes_sub opsA W writesA hr

/-- Stretch B of the line: operations 42 … 103. -/
abbrev opsB : List (HloOp τ sig (Elt F)) :=
  [ unary main_arg2 main_v31 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v31 main_v32 rfl shapeCasts_S1x128x128_S128x128,
    unary main_arg3 main_v33 ((extractStridedSlice S1x128 ![0, 0] · slices_S3x128_S1x128_0_0) : (⟨S3x128, .f32⟩ : BufTy).Contents (Elt F) → (⟨S1x128, .f32⟩ : BufTy).Contents (Elt F)),
    reshape main_v33 main_v34 rfl shapeCasts_S1x128_S128,
    binary main_arg0 main_v32 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v36 (broadcastInDim S740000 ![] bcast_S_S740000 : (⟨S_, .i32⟩ : BufTy).Contents (Elt F) → (⟨S740000, .i32⟩ : BufTy).Contents (Elt F)),
    binary main_v3 main_v36 main_v37 (cmpi .slt : (⟨S740000, .i32⟩ : BufTy).Contents (Elt F) → (⟨S740000, .i32⟩ : BufTy).Contents (Elt F) → (⟨S740000, .i1⟩ : BufTy).Contents (Elt F)),
    nullary main_c_7 (constantI S_ 32 100000#32),
    unary main_c_7 main_v38 (broadcastInDim S740000 ![] bcast_S_S740000 : (⟨S_, .i32⟩ : BufTy).Contents (Elt F) → (⟨S740000, .i32⟩ : BufTy).Contents (Elt F)),
    binary main_v3 main_v38 main_v39 (addi : (⟨S740000, .i32⟩ : BufTy).Contents (Elt F) → (⟨S740000, .i32⟩ : BufTy).Contents (Elt F) → (⟨S740000, .i32⟩ : BufTy).Contents (Elt F)),
    ternary main_v37 main_v39 main_v3 main_v40 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v40 main_v41 (broadcastInDim S740000x1 ![0] bcast_S740000_S740000x1_0 : (⟨S740000, .i32⟩ : BufTy).Contents (Elt F) → (⟨S740000x1, .i32⟩ : BufTy).Contents (Elt F)),
    binary main_v35 main_v41 main_v42 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v29 main_v43 (broadcastInDim S740000x1 ![0] bcast_S740000_S740000x1_0 : (⟨S740000, .f32⟩ : BufTy).Contents (Elt F) → (⟨S740000x1, .f32⟩ : BufTy).Contents (Elt F)),
    unary main_v43 main_v44 (broadcastInDim S740000x128 ![0, 1] bcast_S740000x1_S740000x128_0_1 : (⟨S740000x1, .f32⟩ : BufTy).Contents (Elt F) → (⟨S740000x128, .f32⟩ : BufTy).Contents (Elt F)),
    binary main_v42 main_v44 main_v45 (mulf : (⟨S740000x128, .f32⟩ : BufTy).Contents (Elt F) → (⟨S740000x128, .f32⟩ : BufTy).Contents (Elt F) → (⟨S740000x128, .f32⟩ : BufTy).Contents (Elt F)),
    nullary main_cst_8 (constant S_ .f32 0x00000000#32),
    unary main_cst_8 main_v46 (broadcastInDim S100000x128 ![] bcast_S_S100000x128 : (⟨S_, .f32⟩ : BufTy).Contents (Elt F) → (⟨S100000x128, .f32⟩ : BufTy).Contents (Elt F)),
    unary main_v6 main_v47 (broadcastInDim S740000x1 ![0] bcast_S740000_S740000x1_0 : (⟨S740000, .i32⟩ : BufTy).Contents (Elt F) → (⟨S740000x1, .i32⟩ : BufTy).Contents (Elt F)),
    ternary main_v46 main_v47 main_v45 main_v48 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_v34 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (addf : (⟨S100000x128, .f32⟩ : BufTy).Contents (Elt F) → (⟨S100000x128, .f32⟩ : BufTy).Contents (Elt F) → (⟨S100000x128, .f32⟩ : BufTy).Contents (Elt F)),
    unary main_arg4 main_v52 ((extractStridedSlice S1x128 ![0, 0] · slices_S3x128_S1x128_0_0) : (⟨S3x128, .f32⟩ : BufTy).Contents (Elt F) → (⟨S1x128, .f32⟩ : BufTy).Contents (Elt F)),
    reshape main_v52 main_v53 rfl shapeCasts_S1x128_S128,
    unary main_arg5 main_v54 ((extractStridedSlice S1x128 ![0, 0] · slices_S3x128_S1x128_0_0) : (⟨S3x128, .f32⟩ : BufTy).Contents (Elt F) → (⟨S1x128, .f32⟩ : BufTy).Contents (Elt F)),
    reshape main_v54 main_v55 rfl shapeCasts_S1x128_S128,
    unary main_arg6 main_v56 ((extractStridedSlice S1x128 ![0, 0] · slices_S3x128_S1x128_0_0) : (⟨S3x128, .f32⟩ : BufTy).Contents (Elt F) → (⟨S1x128, .f32⟩ : BufTy).Contents (Elt F)),
    reshape main_v56 main_v57 rfl shapeCasts_S1x128_S128,
    nullary main_cst_9 (constant S_ .f32 0x00000000#32),
    binary main_v51 main_cst_9 main_v58 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v59 (broadcastInDim S128 ![] bcast_S_S128 : (⟨S_, .f32⟩ : BufTy).Contents (Elt F) → (⟨S128, .f32⟩ : BufTy).Contents (Elt F)),
    binary main_v58 main_v59 main_v60 (Host.divf : (⟨S128, .f32⟩ : BufTy).Contents (Elt F) → (⟨S128, .f32⟩ : BufTy).Contents (Elt F) → (⟨S128, .f32⟩ : BufTy).Contents (Elt F)),
    binary main_v57 main_v60 main_v61 (mulf : (⟨S128, .f32⟩ : BufTy).Contents (Elt F) → (⟨S128, .f32⟩ : BufTy).Contents (Elt F) → (⟨S128, .f32⟩ : BufTy).Contents (Elt F)),
    unary main_v61 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v51 main_v63 main_v64 (subf : (⟨S100000x128, .f32⟩ : BufTy).Contents (Elt F) → (⟨S100000x128, .f32⟩ : BufTy).Contents (Elt F) → (⟨S100000x128, .f32⟩ : BufTy).Contents (Elt F)),
    binary main_v64 main_v64 main_v65 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v65 main_cst_11 main_v66 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_12 (constant S_ .f32 0x47C35000#32),
    unary main_cst_12 main_v67 (broadcastInDim S128 ![] bcast_S_S128 : (⟨S_, .f32⟩ : BufTy).Contents (Elt F) → (⟨S128, .f32⟩ : BufTy).Contents (Elt F)),
    binary main_v66 main_v67 main_v68 (Host.divf : (⟨S128, .f32⟩ : BufTy).Contents (Elt F) → (⟨S128, .f32⟩ : BufTy).Contents (Elt F) → (⟨S128, .f32⟩ : BufTy).Contents (Elt F)),
    nullary main_cst_13 (constant S_ .f32 0x3727C5AC#32),
    unary main_cst_13 main_v69 (broadcastInDim S128 ![] bcast_S_S128 : (⟨S_, .f32⟩ : BufTy).Contents (Elt F) → (⟨S128, .f32⟩ : BufTy).Contents (Elt F)),
    binary main_v68 main_v69 main_v70 (addf : (⟨S128, .f32⟩ : BufTy).Contents (Elt F) → (⟨S128, .f32⟩ : BufTy).Contents (Elt F) → (⟨S128, .f32⟩ : BufTy).Contents (Elt F)),
    unary main_v70 main_v71 (Host.sqrt : (⟨S128, .f32⟩ : BufTy).Contents (Elt F) → (⟨S128, .f32⟩ : BufTy).Contents (Elt F)),
    unary main_v71 main_v72 (broadcastInDim S1x128 ![1] bcast_S128_S1x128_1 : (⟨S128, .f32⟩ : BufTy).Contents (Elt F) → (⟨S1x128, .f32⟩ : BufTy).Contents (Elt F)),
    unary main_v72 main_v73 (broadcastInDim S100000x128 ![0, 1] bcast_S1x128_S100000x128_0_1 : (⟨S1x128, .f32⟩ : BufTy).Contents (Elt F) → (⟨S100000x128, .f32⟩ : BufTy).Contents (Elt F)),
    binary main_v64 main_v73 main_v74 (Host.divf : (⟨S100000x128, .f32⟩ : BufTy).Contents (Elt F) → (⟨S100000x128, .f32⟩ : BufTy).Contents (Elt F) → (⟨S100000x128, .f32⟩ : BufTy).Contents (Elt F)),
    unary main_v53 main_v75 (broadcastInDim S1x128 ![1] bcast_S128_S1x128_1 : (⟨S128, .f32⟩ : BufTy).Contents (Elt F) → (⟨S1x128, .f32⟩ : BufTy).Contents (Elt F)),
    unary main_v75 main_v76 (broadcastInDim S100000x128 ![0, 1] bcast_S1x128_S100000x128_0_1 : (⟨S1x128, .f32⟩ : BufTy).Contents (Elt F) → (⟨S100000x128, .f32⟩ : BufTy).Contents (Elt F)),
    binary main_v74 main_v76 main_v77 (mulf : (⟨S100000x128, .f32⟩ : BufTy).Contents (Elt F) → (⟨S100000x128, .f32⟩ : BufTy).Contents (Elt F) → (⟨S100000x128, .f32⟩ : BufTy).Contents (Elt F)),
    unary main_v55 main_v78 (broadcastInDim S1x128 ![1] bcast_S128_S1x128_1 : (⟨S128, .f32⟩ : BufTy).Contents (Elt F) → (⟨S1x128, .f32⟩ : BufTy).Contents (Elt F)),
    unary main_v78 main_v79 (broadcastInDim S100000x128 ![0, 1] bcast_S1x128_S100000x128_0_1 : (⟨S1x128, .f32⟩ : BufTy).Contents (Elt F) → (⟨S100000x128, .f32⟩ : BufTy).Contents (Elt F)),
    binary main_v77 main_v79 main_v80 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v80) (TRef.of (T := ⟨S100000x128, .f32⟩) main_call1_v0) (TRef.of (T := ⟨S100000x128, .f32⟩) main_v81) maximumf,
    binary main_v81 main_v30 main_v82 (addf : (⟨S100000x128, .f32⟩ : BufTy).Contents (Elt F) → (⟨S100000x128, .f32⟩ : BufTy).Contents (Elt F) → (⟨S100000x128, .f32⟩ : BufTy).Contents (Elt F)) ]

/-- The buffers stretch B writes. -/
abbrev wlB : List (Ref sig .tc) := [main_v31, main_v32, main_v33, main_v34, main_v35, main_c_6, main_v36, main_v37, main_c_7, main_v38, main_v39, main_v40, main_v41, main_v42, main_v43, main_v44, main_v45, main_cst_8, main_v46, main_v47, main_v48, main_v49, main_v50, main_v51, main_v52, main_v53, main_v54, main_v55, main_v56, main_v57, main_cst_9, main_v58, main_cst_10, main_v59, main_v60, main_v61, main_v62, main_v63, main_v64, main_v65, main_cst_11, main_v66, main_cst_12, main_v67, main_v68, main_cst_13, main_v69, main_v70, main_v71, main_v72, main_v73, main_v74, main_v75, main_v76, main_v77, main_v78, main_v79, main_v80, main_call1_cst, main_call1_v0, main_v81, main_v82]
theorem writesB : (opsB : List (HloOp τ sig (Elt F))).Forall fun op => op.writes ⊆ ((wlB).map (Proc.devRef (τ := τ) .tc)).toFinset := by
  simp only [opsB, List.Forall, nullary_writes, unary_writes, binary_writes, ternary_writes, quaternary_writes, reshape_writes, binaryIndexed_writes, Finset.singleton_subset_iff, List.mem_toFinset]
  repeat' apply And.intro
  all_goals exact List.mem_map_of_mem (by decide)
/-- A buffer stretch B does not write keeps its contents. -/
theorem keepB (W : Valuation τ sig (Elt F)) (r : Ref sig .tc) (hr : r ∉ wlB) :
    after opsB W (Proc.devRef .tc r) = W (Proc.devRef .tc r) :=
  after_of_writes_sub opsB W writesB hr

/-- Stretch C of the line: operations 104 … 165. -/
abbrev opsC : List (HloOp τ sig (Elt F)) :=
  [ unary main_arg2 main_v83 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v83 main_v84 rfl shapeCasts_S1x128x128_S128x128,
    unary main_arg3 main_v85 ((extractStridedSlice S1x128 ![1, 0] · slices_S3x128_S1x128_1_0) : (⟨S3x128, .f32⟩ : BufTy).Contents (Elt F) → (⟨S1x128, .f32⟩ : BufTy).Contents (Elt F)),
    reshape main_v85 main_v86 rfl shapeCasts_S1x128_S128,
    binary main_v82 main_v84 main_v87 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_14 (constantI S_ 32 0#32),
    unary main_c_14 main_v88 (broadcastInDim S740000 ![] bcast_S_S740000 : (⟨S_, .i32⟩ : BufTy).Contents (Elt F) → (⟨S740000, .i32⟩ : BufTy).Contents (Elt F)),
    binary main_v3 main_v88 main_v89 (cmpi .slt : (⟨S740000, .i32⟩ : BufTy).Contents (Elt F) → (⟨S740000, .i32⟩ : BufTy).Contents (Elt F) → (⟨S740000, .i1⟩ : BufTy).Contents (Elt F)),
    nullary main_c_15 (constantI S_ 32 100000#32),
    unary main_c_15 main_v90 (broadcastInDim S740000 ![] bcast_S_S740000 : (⟨S_, .i32⟩ : BufTy).Contents (Elt F) → (⟨S740000, .i32⟩ : BufTy).Contents (Elt F)),
    binary main_v3 main_v90 main_v91 (addi : (⟨S740000, .i32⟩ : BufTy).Contents (Elt F) → (⟨S740000, .i32⟩ : BufTy).Contents (Elt F) → (⟨S740000, .i32⟩ : BufTy).Contents (Elt F)),
    ternary main_v89 main_v91 main_v3 main_v92 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v92 main_v93 (broadcastInDim S740000x1 ![0] bcast_S740000_S740000x1_0 : (⟨S740000, .i32⟩ : BufTy).Contents (Elt F) → (⟨S740000x1, .i32⟩ : BufTy).Contents (Elt F)),
    binary main_v87 main_v93 main_v94 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v29 main_v95 (broadcastInDim S740000x1 ![0] bcast_S740000_S740000x1_0 : (⟨S740000, .f32⟩ : BufTy).Contents (Elt F) → (⟨S740000x1, .f32⟩ : BufTy).Contents (Elt F)),
    unary main_v95 main_v96 (broadcastInDim S740000x128 ![0, 1] bcast_S740000x1_S740000x128_0_1 : (⟨S740000x1, .f32⟩ : BufTy).Contents (Elt F) → (⟨S740000x128, .f32⟩ : BufTy).Contents (Elt F)),
    binary main_v94 main_v96 main_v97 (mulf : (⟨S740000x128, .f32⟩ : BufTy).Contents (Elt F) → (⟨S740000x128, .f32⟩ : BufTy).Contents (Elt F) → (⟨S740000x128, .f32⟩ : BufTy).Contents (Elt F)),
    nullary main_cst_16 (constant S_ .f32 0x00000000#32),
    unary main_cst_16 main_v98 (broadcastInDim S100000x128 ![] bcast_S_S100000x128 : (⟨S_, .f32⟩ : BufTy).Contents (Elt F) → (⟨S100000x128, .f32⟩ : BufTy).Contents (Elt F)),
    unary main_v6 main_v99 (broadcastInDim S740000x1 ![0] bcast_S740000_S740000x1_0 : (⟨S740000, .i32⟩ : BufTy).Contents (Elt F) → (⟨S740000x1, .i32⟩ : BufTy).Contents (Elt F)),
    ternary main_v98 main_v99 main_v97 main_v100 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_v86 main_v101 (broadcastInDim S1x128 ![1] bcast_S128_S1x128_1 : (⟨S128, .f32⟩ : BufTy).Contents (Elt F) → (⟨S1x128, .f32⟩ : BufTy).Contents (Elt F)),
    unary main_v101 main_v102 (broadcastInDim S100000x128 ![0, 1] bcast_S1x128_S100000x128_0_1 : (⟨S1x128, .f32⟩ : BufTy).Contents (Elt F) → (⟨S100000x128, .f32⟩ : BufTy).Contents (Elt F)),
    binary main_v100 main_v102 main_v103 (addf : (⟨S100000x128, .f32⟩ : BufTy).Contents (Elt F) → (⟨S100000x128, .f32⟩ : BufTy).Contents (Elt F) → (⟨S100000x128, .f32⟩ : BufTy).Contents (Elt F)),
    unary main_arg4 main_v104 ((extractStridedSlice S1x128 ![1, 0] · slices_S3x128_S1x128_1_0) : (⟨S3x128, .f32⟩ : BufTy).Contents (Elt F) → (⟨S1x128, .f32⟩ : BufTy).Contents (Elt F)),
    reshape main_v104 main_v105 rfl shapeCasts_S1x128_S128,
    unary main_arg5 main_v106 ((extractStridedSlice S1x128 ![1, 0] · slices_S3x128_S1x128_1_0) : (⟨S3x128, .f32⟩ : BufTy).Contents (Elt F) → (⟨S1x128, .f32⟩ : BufTy).Contents (Elt F)),
    reshape main_v106 main_v107 rfl shapeCasts_S1x128_S128,
    unary main_arg6 main_v108 ((extractStridedSlice S1x128 ![1, 0] · slices_S3x128_S1x128_1_0) : (⟨S3x128, .f32⟩ : BufTy).Contents (Elt F) → (⟨S1x128, .f32⟩ : BufTy).Contents (Elt F)),
    reshape main_v108 main_v109 rfl shapeCasts_S1x128_S128,
    nullary main_cst_17 (constant S_ .f32 0x00000000#32),
    binary main_v103 main_cst_17 main_v110 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_18 (constant S_ .f32 0x47C35000#32),
    unary main_cst_18 main_v111 (broadcastInDim S128 ![] bcast_S_S128 : (⟨S_, .f32⟩ : BufTy).Contents (Elt F) → (⟨S128, .f32⟩ : BufTy).Contents (Elt F)),
    binary main_v110 main_v111 main_v112 (Host.divf : (⟨S128, .f32⟩ : BufTy).Contents (Elt F) → (⟨S128, .f32⟩ : BufTy).Contents (Elt F) → (⟨S128, .f32⟩ : BufTy).Contents (Elt F)),
    binary main_v109 main_v112 main_v113 (mulf : (⟨S128, .f32⟩ : BufTy).Contents (Elt F) → (⟨S128, .f32⟩ : BufTy).Contents (Elt F) → (⟨S128, .f32⟩ : BufTy).Contents (Elt F)),
    unary main_v113 main_v114 (broadcastInDim S1x128 ![1] bcast_S128_S1x128_1 : (⟨S128, .f32⟩ : BufTy).Contents (Elt F) → (⟨S1x128, .f32⟩ : BufTy).Contents (Elt F)),
    unary main_v114 main_v115 (broadcastInDim S100000x128 ![0, 1] bcast_S1x128_S100000x128_0_1 : (⟨S1x128, .f32⟩ : BufTy).Contents (Elt F) → (⟨S100000x128, .f32⟩ : BufTy).Contents (Elt F)),
    binary main_v103 main_v115 main_v116 (subf : (⟨S100000x128, .f32⟩ : BufTy).Contents (Elt F) → (⟨S100000x128, .f32⟩ : BufTy).Contents (Elt F) → (⟨S100000x128, .f32⟩ : BufTy).Contents (Elt F)),
    binary main_v116 main_v116 main_v117 (mulf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x00000000#32),
    binary main_v117 main_cst_19 main_v118 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_20 (constant S_ .f32 0x47C35000#32),
    unary main_cst_20 main_v119 (broadcastInDim S128 ![] bcast_S_S128 : (⟨S_, .f32⟩ : BufTy).Contents (Elt F) → (⟨S128, .f32⟩ : BufTy).Contents (Elt F)),
    binary main_v118 main_v119 main_v120 (Host.divf : (⟨S128, .f32⟩ : BufTy).Contents (Elt F) → (⟨S128, .f32⟩ : BufTy).Contents (Elt F) → (⟨S128, .f32⟩ : BufTy).Contents (Elt F)),
    nullary main_cst_21 (constant S_ .f32 0x3727C5AC#32),
    unary main_cst_21 main_v121 (broadcastInDim S128 ![] bcast_S_S128 : (⟨S_, .f32⟩ : BufTy).Contents (Elt F) → (⟨S128, .f32⟩ : BufTy).Contents (Elt F)),
    binary main_v120 main_v121 main_v122 (addf : (⟨S128, .f32⟩ : BufTy).Contents (Elt F) → (⟨S128, .f32⟩ : BufTy).Contents (Elt F) → (⟨S128, .f32⟩ : BufTy).Contents (Elt F)),
    unary main_v122 main_v123 (Host.sqrt : (⟨S128, .f32⟩ : BufTy).Contents (Elt F) → (⟨S128, .f32⟩ : BufTy).Contents (Elt F)),
    unary main_v123 main_v124 (broadcastInDim S1x128 ![1] bcast_S128_S1x128_1 : (⟨S128, .f32⟩ : BufTy).Contents (Elt F) → (⟨S1x128, .f32⟩ : BufTy).Contents (Elt F)),
    unary main_v124 main_v125 (broadcastInDim S100000x128 ![0, 1] bcast_S1x128_S100000x128_0_1 : (⟨S1x128, .f32⟩ : BufTy).Contents (Elt F) → (⟨S100000x128, .f32⟩ : BufTy).Contents (Elt F)),
    binary main_v116 main_v125 main_v126 (Host.divf : (⟨S100000x128, .f32⟩ : BufTy).Contents (Elt F) → (⟨S100000x128, .f32⟩ : BufTy).Contents (Elt F) → (⟨S100000x128, .f32⟩ : BufTy).Contents (Elt F)),
    unary main_v105 main_v127 (broadcastInDim S1x128 ![1] bcast_S128_S1x128_1 : (⟨S128, .f32⟩ : BufTy).Contents (Elt F) → (⟨S1x128, .f32⟩ : BufTy).Contents (Elt F)),
    unary main_v127 main_v128 (broadcastInDim S100000x128 ![0, 1] bcast_S1x128_S100000x128_0_1 : (⟨S1x128, .f32⟩ : BufTy).Contents (Elt F) → (⟨S100000x128, .f32⟩ : BufTy).Contents (Elt F)),
    binary main_v126 main_v128 main_v129 (mulf : (⟨S100000x128, .f32⟩ : BufTy).Contents (Elt F) → (⟨S100000x128, .f32⟩ : BufTy).Contents (Elt F) → (⟨S100000x128, .f32⟩ : BufTy).Contents (Elt F)),
    unary main_v107 main_v130 (broadcastInDim S1x128 ![1] bcast_S128_S1x128_1 : (⟨S128, .f32⟩ : BufTy).Contents (Elt F) → (⟨S1x128, .f32⟩ : BufTy).Contents (Elt F)),
    unary main_v130 main_v131 (broadcastInDim S100000x128 ![0, 1] bcast_S1x128_S100000x128_0_1 : (⟨S1x128, .f32⟩ : BufTy).Contents (Elt F) → (⟨S100000x128, .f32⟩ : BufTy).Contents (Elt F)),
    binary main_v129 main_v131 main_v132 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v132) (TRef.of (T := ⟨S100000x128, .f32⟩) main_call2_v0) (TRef.of (T := ⟨S100000x128, .f32⟩) main_v133) maximumf,
    binary main_v133 main_v82 main_v134 (addf : (⟨S100000x128, .f32⟩ : BufTy).Contents (Elt F) → (⟨S100000x128, .f32⟩ : BufTy).Contents (Elt F) → (⟨S100000x128, .f32⟩ : BufTy).Contents (Elt F)) ]

/-- The buffers stretch C writes. -/
abbrev wlC : List (Ref sig .tc) := [main_v83, main_v84, main_v85, main_v86, main_v87, main_c_14, main_v88, main_v89, main_c_15, main_v90, main_v91, main_v92, main_v93, main_v94, main_v95, main_v96, main_v97, main_cst_16, main_v98, main_v99, main_v100, main_v101, main_v102, main_v103, main_v104, main_v105, main_v106, main_v107, main_v108, main_v109, main_cst_17, main_v110, main_cst_18, main_v111, main_v112, main_v113, main_v114, main_v115, main_v116, main_v117, main_cst_19, main_v118, main_cst_20, main_v119, main_v120, main_cst_21, main_v121, main_v122, main_v123, main_v124, main_v125, main_v126, main_v127, main_v128, main_v129, main_v130, main_v131, main_v132, main_call2_cst, main_call2_v0, main_v133, main_v134]
theorem writesC : (opsC : List (HloOp τ sig (Elt F))).Forall fun op => op.writes ⊆ ((wlC).map (Proc.devRef (τ := τ) .tc)).toFinset := by
  simp only [opsC, List.Forall, nullary_writes, unary_writes, binary_writes, ternary_writes, quaternary_writes, reshape_writes, binaryIndexed_writes, Finset.singleton_subset_iff, List.mem_toFinset]
  repeat' apply And.intro
  all_goals exact List.mem_map_of_mem (by decide)
/-- A buffer stretch C does not write keeps its contents. -/
theorem keepC (W : Valuation τ sig (Elt F)) (r : Ref sig .tc) (hr : r ∉ wlC) :
    after opsC W (Proc.devRef .tc r) = W (Proc.devRef .tc r) :=
  after_of_writes_sub opsC W writesC hr

/-- Stretch D of the line: operations 166 … 227. -/
abbrev opsD : List (HloOp τ sig (Elt F)) :=
  [ unary main_arg2 main_v135 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v135 main_v136 rfl shapeCasts_S1x128x128_S128x128,
    unary main_arg3 main_v137 ((extractStridedSlice S1x128 ![2, 0] · slices_S3x128_S1x128_2_0) : (⟨S3x128, .f32⟩ : BufTy).Contents (Elt F) → (⟨S1x128, .f32⟩ : BufTy).Contents (Elt F)),
    reshape main_v137 main_v138 rfl shapeCasts_S1x128_S128,
    binary main_v134 main_v136 main_v139 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_22 (constantI S_ 32 0#32),
    unary main_c_22 main_v140 (broadcastInDim S740000 ![] bcast_S_S740000 : (⟨S_, .i32⟩ : BufTy).Contents (Elt F) → (⟨S740000, .i32⟩ : BufTy).Contents (Elt F)),
    binary main_v3 main_v140 main_v141 (cmpi .slt : (⟨S740000, .i32⟩ : BufTy).Contents (Elt F) → (⟨S740000, .i32⟩ : BufTy).Contents (Elt F) → (⟨S740000, .i1⟩ : BufTy).Contents (Elt F)),
    nullary main_c_23 (constantI S_ 32 100000#32),
    unary main_c_23 main_v142 (broadcastInDim S740000 ![] bcast_S_S740000 : (⟨S_, .i32⟩ : BufTy).Contents (Elt F) → (⟨S740000, .i32⟩ : BufTy).Contents (Elt F)),
    binary main_v3 main_v142 main_v143 (addi : (⟨S740000, .i32⟩ : BufTy).Contents (Elt F) → (⟨S740000, .i32⟩ : BufTy).Contents (Elt F) → (⟨S740000, .i32⟩ : BufTy).Contents (Elt F)),
    ternary main_v141 main_v143 main_v3 main_v144 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v144 main_v145 (broadcastInDim S740000x1 ![0] bcast_S740000_S740000x1_0 : (⟨S740000, .i32⟩ : BufTy).Contents (Elt F) → (⟨S740000x1, .i32⟩ : BufTy).Contents (Elt F)),
    binary main_v139 main_v145 main_v146 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v29 main_v147 (broadcastInDim S740000x1 ![0] bcast_S740000_S740000x1_0 : (⟨S740000, .f32⟩ : BufTy).Contents (Elt F) → (⟨S740000x1, .f32⟩ : BufTy).Contents (Elt F)),
    unary main_v147 main_v148 (broadcastInDim S740000x128 ![0, 1] bcast_S740000x1_S740000x128_0_1 : (⟨S740000x1, .f32⟩ : BufTy).Contents (Elt F) → (⟨S740000x128, .f32⟩ : BufTy).Contents (Elt F)),
    binary main_v146 main_v148 main_v149 (mulf : (⟨S740000x128, .f32⟩ : BufTy).Contents (Elt F) → (⟨S740000x128, .f32⟩ : BufTy).Contents (Elt F) → (⟨S740000x128, .f32⟩ : BufTy).Contents (Elt F)),
    nullary main_cst_24 (constant S_ .f32 0x00000000#32),
    unary main_cst_24 main_v150 (broadcastInDim S100000x128 ![] bcast_S_S100000x128 : (⟨S_, .f32⟩ : BufTy).Contents (Elt F) → (⟨S100000x128, .f32⟩ : BufTy).Contents (Elt F)),
    unary main_v6 main_v151 (broadcastInDim S740000x1 ![0] bcast_S740000_S740000x1_0 : (⟨S740000, .i32⟩ : BufTy).Contents (Elt F) → (⟨S740000x1, .i32⟩ : BufTy).Contents (Elt F)),
    ternary main_v150 main_v151 main_v149 main_v152 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_v138 main_v153 (broadcastInDim S1x128 ![1] bcast_S128_S1x128_1 : (⟨S128, .f32⟩ : BufTy).Contents (Elt F) → (⟨S1x128, .f32⟩ : BufTy).Contents (Elt F)),
    unary main_v153 main_v154 (broadcastInDim S100000x128 ![0, 1] bcast_S1x128_S100000x128_0_1 : (⟨S1x128, .f32⟩ : BufTy).Contents (Elt F) → (⟨S100000x128, .f32⟩ : BufTy).Contents (Elt F)),
    binary main_v152 main_v154 main_v155 (addf : (⟨S100000x128, .f32⟩ : BufTy).Contents (Elt F) → (⟨S100000x128, .f32⟩ : BufTy).Contents (Elt F) → (⟨S100000x128, .f32⟩ : BufTy).Contents (Elt F)),
    unary main_arg4 main_v156 ((extractStridedSlice S1x128 ![2, 0] · slices_S3x128_S1x128_2_0) : (⟨S3x128, .f32⟩ : BufTy).Contents (Elt F) → (⟨S1x128, .f32⟩ : BufTy).Contents (Elt F)),
    reshape main_v156 main_v157 rfl shapeCasts_S1x128_S128,
    unary main_arg5 main_v158 ((extractStridedSlice S1x128 ![2, 0] · slices_S3x128_S1x128_2_0) : (⟨S3x128, .f32⟩ : BufTy).Contents (Elt F) → (⟨S1x128, .f32⟩ : BufTy).Contents (Elt F)),
    reshape main_v158 main_v159 rfl shapeCasts_S1x128_S128,
    unary main_arg6 main_v160 ((extractStridedSlice S1x128 ![2, 0] · slices_S3x128_S1x128_2_0) : (⟨S3x128, .f32⟩ : BufTy).Contents (Elt F) → (⟨S1x128, .f32⟩ : BufTy).Contents (Elt F)),
    reshape main_v160 main_v161 rfl shapeCasts_S1x128_S128,
    nullary main_cst_25 (constant S_ .f32 0x00000000#32),
    binary main_v155 main_cst_25 main_v162 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_26 (constant S_ .f32 0x47C35000#32),
    unary main_cst_26 main_v163 (broadcastInDim S128 ![] bcast_S_S128 : (⟨S_, .f32⟩ : BufTy).Contents (Elt F) → (⟨S128, .f32⟩ : BufTy).Contents (Elt F)),
    binary main_v162 main_v163 main_v164 (Host.divf : (⟨S128, .f32⟩ : BufTy).Contents (Elt F) → (⟨S128, .f32⟩ : BufTy).Contents (Elt F) → (⟨S128, .f32⟩ : BufTy).Contents (Elt F)),
    binary main_v161 main_v164 main_v165 (mulf : (⟨S128, .f32⟩ : BufTy).Contents (Elt F) → (⟨S128, .f32⟩ : BufTy).Contents (Elt F) → (⟨S128, .f32⟩ : BufTy).Contents (Elt F)),
    unary main_v165 main_v166 (broadcastInDim S1x128 ![1] bcast_S128_S1x128_1 : (⟨S128, .f32⟩ : BufTy).Contents (Elt F) → (⟨S1x128, .f32⟩ : BufTy).Contents (Elt F)),
    unary main_v166 main_v167 (broadcastInDim S100000x128 ![0, 1] bcast_S1x128_S100000x128_0_1 : (⟨S1x128, .f32⟩ : BufTy).Contents (Elt F) → (⟨S100000x128, .f32⟩ : BufTy).Contents (Elt F)),
    binary main_v155 main_v167 main_v168 (subf : (⟨S100000x128, .f32⟩ : BufTy).Contents (Elt F) → (⟨S100000x128, .f32⟩ : BufTy).Contents (Elt F) → (⟨S100000x128, .f32⟩ : BufTy).Contents (Elt F)),
    binary main_v168 main_v168 main_v169 (mulf : (⟨S100000x128, .f32⟩ : BufTy).Contents (Elt F) → (⟨S100000x128, .f32⟩ : BufTy).Contents (Elt F) → (⟨S100000x128, .f32⟩ : BufTy).Contents (Elt F)),
    nullary main_cst_27 (constant S_ .f32 0x00000000#32),
    binary main_v169 main_cst_27 main_v170 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_28 (constant S_ .f32 0x47C35000#32),
    unary main_cst_28 main_v171 (broadcastInDim S128 ![] bcast_S_S128 : (⟨S_, .f32⟩ : BufTy).Contents (Elt F) → (⟨S128, .f32⟩ : BufTy).Contents (Elt F)),
    binary main_v170 main_v171 main_v172 (Host.divf : (⟨S128, .f32⟩ : BufTy).Contents (Elt F) → (⟨S128, .f32⟩ : BufTy).Contents (Elt F) → (⟨S128, .f32⟩ : BufTy).Contents (Elt F)),
    nullary main_cst_29 (constant S_ .f32 0x3727C5AC#32),
    unary main_cst_29 main_v173 (broadcastInDim S128 ![] bcast_S_S128 : (⟨S_, .f32⟩ : BufTy).Contents (Elt F) → (⟨S128, .f32⟩ : BufTy).Contents (Elt F)),
    binary main_v172 main_v173 main_v174 (addf : (⟨S128, .f32⟩ : BufTy).Contents (Elt F) → (⟨S128, .f32⟩ : BufTy).Contents (Elt F) → (⟨S128, .f32⟩ : BufTy).Contents (Elt F)),
    unary main_v174 main_v175 (Host.sqrt : (⟨S128, .f32⟩ : BufTy).Contents (Elt F) → (⟨S128, .f32⟩ : BufTy).Contents (Elt F)),
    unary main_v175 main_v176 (broadcastInDim S1x128 ![1] bcast_S128_S1x128_1 : (⟨S128, .f32⟩ : BufTy).Contents (Elt F) → (⟨S1x128, .f32⟩ : BufTy).Contents (Elt F)),
    unary main_v176 main_v177 (broadcastInDim S100000x128 ![0, 1] bcast_S1x128_S100000x128_0_1 : (⟨S1x128, .f32⟩ : BufTy).Contents (Elt F) → (⟨S100000x128, .f32⟩ : BufTy).Contents (Elt F)),
    binary main_v168 main_v177 main_v178 (Host.divf : (⟨S100000x128, .f32⟩ : BufTy).Contents (Elt F) → (⟨S100000x128, .f32⟩ : BufTy).Contents (Elt F) → (⟨S100000x128, .f32⟩ : BufTy).Contents (Elt F)),
    unary main_v157 main_v179 (broadcastInDim S1x128 ![1] bcast_S128_S1x128_1 : (⟨S128, .f32⟩ : BufTy).Contents (Elt F) → (⟨S1x128, .f32⟩ : BufTy).Contents (Elt F)),
    unary main_v179 main_v180 (broadcastInDim S100000x128 ![0, 1] bcast_S1x128_S100000x128_0_1 : (⟨S1x128, .f32⟩ : BufTy).Contents (Elt F) → (⟨S100000x128, .f32⟩ : BufTy).Contents (Elt F)),
    binary main_v178 main_v180 main_v181 (mulf : (⟨S100000x128, .f32⟩ : BufTy).Contents (Elt F) → (⟨S100000x128, .f32⟩ : BufTy).Contents (Elt F) → (⟨S100000x128, .f32⟩ : BufTy).Contents (Elt F)),
    unary main_v159 main_v182 (broadcastInDim S1x128 ![1] bcast_S128_S1x128_1 : (⟨S128, .f32⟩ : BufTy).Contents (Elt F) → (⟨S1x128, .f32⟩ : BufTy).Contents (Elt F)),
    unary main_v182 main_v183 (broadcastInDim S100000x128 ![0, 1] bcast_S1x128_S100000x128_0_1 : (⟨S1x128, .f32⟩ : BufTy).Contents (Elt F) → (⟨S100000x128, .f32⟩ : BufTy).Contents (Elt F)),
    binary main_v181 main_v183 main_v184 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v184) (TRef.of (T := ⟨S100000x128, .f32⟩) main_call3_v0) (TRef.of (T := ⟨S100000x128, .f32⟩) main_v185) maximumf,
    binary main_v185 main_v134 main_v186 (addf : (⟨S100000x128, .f32⟩ : BufTy).Contents (Elt F) → (⟨S100000x128, .f32⟩ : BufTy).Contents (Elt F) → (⟨S100000x128, .f32⟩ : BufTy).Contents (Elt F)) ]

/-- The buffers stretch D writes. -/
abbrev wlD : List (Ref sig .tc) := [main_v135, main_v136, main_v137, main_v138, main_v139, main_c_22, main_v140, main_v141, main_c_23, main_v142, main_v143, main_v144, main_v145, main_v146, main_v147, main_v148, main_v149, main_cst_24, main_v150, main_v151, main_v152, main_v153, main_v154, main_v155, main_v156, main_v157, main_v158, main_v159, main_v160, main_v161, main_cst_25, main_v162, main_cst_26, main_v163, main_v164, main_v165, main_v166, main_v167, main_v168, main_v169, main_cst_27, main_v170, main_cst_28, main_v171, main_v172, main_cst_29, main_v173, main_v174, main_v175, main_v176, main_v177, main_v178, main_v179, main_v180, main_v181, main_v182, main_v183, main_v184, main_call3_cst, main_call3_v0, main_v185, main_v186]
theorem writesD : (opsD : List (HloOp τ sig (Elt F))).Forall fun op => op.writes ⊆ ((wlD).map (Proc.devRef (τ := τ) .tc)).toFinset := by
  simp only [opsD, List.Forall, nullary_writes, unary_writes, binary_writes, ternary_writes, quaternary_writes, reshape_writes, binaryIndexed_writes, Finset.singleton_subset_iff, List.mem_toFinset]
  repeat' apply And.intro
  all_goals exact List.mem_map_of_mem (by decide)
/-- A buffer stretch D does not write keeps its contents. -/
theorem keepD (W : Valuation τ sig (Elt F)) (r : Ref sig .tc) (hr : r ∉ wlD) :
    after opsD W (Proc.devRef .tc r) = W (Proc.devRef .tc r) :=
  after_of_writes_sub opsD W writesD hr

/-- Stretch E of the line: operations 228 … 238. -/
abbrev opsE : List (HloOp τ sig (Elt F)) :=
  [ binary main_v186 main_arg8 main_v187 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v188 (broadcastInDim S1x128 ![1] bcast_S128_S1x128_1 : (⟨S128, .f32⟩ : BufTy).Contents (Elt F) → (⟨S1x128, .f32⟩ : BufTy).Contents (Elt F)),
    unary main_v188 main_v189 (broadcastInDim S100000x128 ![0, 1] bcast_S1x128_S100000x128_0_1 : (⟨S1x128, .f32⟩ : BufTy).Contents (Elt F) → (⟨S100000x128, .f32⟩ : BufTy).Contents (Elt F)),
    binary main_v187 main_v189 main_v190 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v190) (TRef.of (T := ⟨S100000x128, .f32⟩) main_call4_v0) (TRef.of (T := ⟨S100000x128, .f32⟩) main_v191) maximumf,
    binary main_v191 main_arg10 main_v192 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    unary main_arg11 main_v193 (broadcastInDim S1x1 ![1] bcast_S1_S1x1_1 : (⟨S1, .f32⟩ : BufTy).Contents (Elt F) → (⟨S1x1, .f32⟩ : BufTy).Contents (Elt F)),
    unary main_v193 main_v194 (broadcastInDim S100000x1 ![0, 1] bcast_S1x1_S100000x1_0_1 : (⟨S1x1, .f32⟩ : BufTy).Contents (Elt F) → (⟨S100000x1, .f32⟩ : BufTy).Contents (Elt F)),
    binary main_v192 main_v194 main_v195 (addf : (⟨S100000x1, .f32⟩ : BufTy).Contents (Elt F) → (⟨S100000x1, .f32⟩ : BufTy).Contents (Elt F) → (⟨S100000x1, .f32⟩ : BufTy).Contents (Elt F)) ]

/-- The buffers stretch E writes. -/
abbrev wlE : List (Ref sig .tc) := [main_v187, main_v188, main_v189, main_v190, main_call4_cst, main_call4_v0, main_v191, main_v192, main_v193, main_v194, main_v195]
theorem writesE : (opsE : List (HloOp τ sig (Elt F))).Forall fun op => op.writes ⊆ ((wlE).map (Proc.devRef (τ := τ) .tc)).toFinset := by
  simp only [opsE, List.Forall, nullary_writes, unary_writes, binary_writes, ternary_writes, quaternary_writes, reshape_writes, binaryIndexed_writes, Finset.singleton_subset_iff, List.mem_toFinset]
  repeat' apply And.intro
  all_goals exact List.mem_map_of_mem (by decide)
/-- A buffer stretch E does not write keeps its contents. -/
theorem keepE (W : Valuation τ sig (Elt F)) (r : Ref sig .tc) (hr : r ∉ wlE) :
    after opsE W (Proc.devRef .tc r) = W (Proc.devRef .tc r) :=
  after_of_writes_sub opsE W writesE hr

/-- The line is its five stretches in order. -/
theorem ops_split : (ops : List (HloOp τ sig (Elt F))) = opsA ++ (opsB ++ (opsC ++ (opsD ++ opsE))) := rfl

/-- After stretch A: the two edge lists with their self loops, the edge weights and the skip projection. -/
theorem stageA (W : Valuation τ sig (Elt F)) :
    after opsA W (Proc.devRef .tc main_v3) = val_main_v3 (F := F) (W (Proc.devRef .tc main_arg1))
    ∧ after opsA W (Proc.devRef .tc main_v6) = val_main_v6 (F := F) (W (Proc.devRef .tc main_arg1))
    ∧ after opsA W (Proc.devRef .tc main_v29) = val_main_v29 (F := F) (W (Proc.devRef .tc main_arg1))
    ∧ after opsA W (Proc.devRef .tc main_v30) = val_main_v30 (F := F) (W (Proc.devRef .tc main_arg0)) (W (Proc.devRef .tc main_arg7)) := by
  refine ⟨?_, ?_, ?_, ?_⟩ <;> (after_results_simp <;> rfl)

/-- After stretch B: the first layer's output. -/
theorem stageB (W : Valuation τ sig (Elt F)) (x0 : (⟨S100000x128, .f32⟩ : BufTy).Contents (Elt F)) (x1 : (⟨S2x640000, .i32⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x128, .f32⟩ : BufTy).Contents (Elt F)) (x7 : (⟨S128x128, .f32⟩ : BufTy).Contents (Elt F))
    (h0 : W (Proc.devRef .tc main_arg0) = x0) (h2 : W (Proc.devRef .tc main_arg2) = x2) (h3 : W (Proc.devRef .tc main_arg3) = x3) (h4 : W (Proc.devRef .tc main_arg4) = x4) (h5 : W (Proc.devRef .tc main_arg5) = x5) (h6 : W (Proc.devRef .tc main_arg6) = x6)
    (hv3 : W (Proc.devRef .tc main_v3) = val_main_v3 (F := F) x1) (hv6 : W (Proc.devRef .tc main_v6) = val_main_v6 (F := F) x1)
    (hv29 : W (Proc.devRef .tc main_v29) = val_main_v29 (F := F) x1) (hv30 : W (Proc.devRef .tc main_v30) = val_main_v30 (F := F) x0 x7) :
    after opsB W (Proc.devRef .tc main_v82) = val_main_v82 (F := F) x0 x1 x2 x3 x4 x5 x6 x7 := by
  after_results_simp
  simp only [h0, h2, h3, h4, h5, h6, hv3, hv6, hv29, hv30]
  rfl

/-- After stretch C: the second layer's output. -/
theorem stageC (W : Valuation τ sig (Elt F)) (x0 : (⟨S100000x128, .f32⟩ : BufTy).Contents (Elt F)) (x1 : (⟨S2x640000, .i32⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x128, .f32⟩ : BufTy).Contents (Elt F)) (x7 : (⟨S128x128, .f32⟩ : BufTy).Contents (Elt F))
    (h2 : W (Proc.devRef .tc main_arg2) = x2) (h3 : W (Proc.devRef .tc main_arg3) = x3) (h4 : W (Proc.devRef .tc main_arg4) = x4) (h5 : W (Proc.devRef .tc main_arg5) = x5) (h6 : W (Proc.devRef .tc main_arg6) = x6)
    (hv3 : W (Proc.devRef .tc main_v3) = val_main_v3 (F := F) x1) (hv6 : W (Proc.devRef .tc main_v6) = val_main_v6 (F := F) x1)
    (hv29 : W (Proc.devRef .tc main_v29) = val_main_v29 (F := F) x1) (hv82 : W (Proc.devRef .tc main_v82) = val_main_v82 (F := F) x0 x1 x2 x3 x4 x5 x6 x7) :
    after opsC W (Proc.devRef .tc main_v134) = val_main_v134 (F := F) x0 x1 x2 x3 x4 x5 x6 x7 := by
  after_results_simp
  simp only [h2, h3, h4, h5, h6, hv3, hv6, hv29, hv82]
  rfl

/-- After stretch D: the third layer's output. -/
theorem stageD (W : Valuation τ sig (Elt F)) (x0 : (⟨S100000x128, .f32⟩ : BufTy).Contents (Elt F)) (x1 : (⟨S2x640000, .i32⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x128, .f32⟩ : BufTy).Contents (Elt F)) (x7 : (⟨S128x128, .f32⟩ : BufTy).Contents (Elt F))
    (h2 : W (Proc.devRef .tc main_arg2) = x2) (h3 : W (Proc.devRef .tc main_arg3) = x3) (h4 : W (Proc.devRef .tc main_arg4) = x4) (h5 : W (Proc.devRef .tc main_arg5) = x5) (h6 : W (Proc.devRef .tc main_arg6) = x6)
    (hv3 : W (Proc.devRef .tc main_v3) = val_main_v3 (F := F) x1) (hv6 : W (Proc.devRef .tc main_v6) = val_main_v6 (F := F) x1)
    (hv29 : W (Proc.devRef .tc main_v29) = val_main_v29 (F := F) x1) (hv134 : W (Proc.devRef .tc main_v134) = val_main_v134 (F := F) x0 x1 x2 x3 x4 x5 x6 x7) :
    after opsD W (Proc.devRef .tc main_v186) = val_main_v186 (F := F) x0 x1 x2 x3 x4 x5 x6 x7 := by
  after_results_simp
  simp only [h2, h3, h4, h5, h6, hv3, hv6, hv29, hv134]
  rfl

/-- After stretch E: the head. -/
theorem stageE (W : Valuation τ sig (Elt F)) (x0 : (⟨S100000x128, .f32⟩ : BufTy).Contents (Elt F)) (x1 : (⟨S2x640000, .i32⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x128, .f32⟩ : BufTy).Contents (Elt F)) (x7 : (⟨S128x128, .f32⟩ : BufTy).Contents (Elt F)) (x8 : (⟨S128x128, .f32⟩ : BufTy).Contents (Elt F)) (x9 : (⟨S128, .f32⟩ : BufTy).Contents (Elt F)) (x10 : (⟨S128x1, .f32⟩ : BufTy).Contents (Elt F)) (x11 : (⟨S1, .f32⟩ : BufTy).Contents (Elt F))
    (h8 : W (Proc.devRef .tc main_arg8) = x8) (h9 : W (Proc.devRef .tc main_arg9) = x9) (h10 : W (Proc.devRef .tc main_arg10) = x10) (h11 : W (Proc.devRef .tc main_arg11) = x11)
    (hv186 : W (Proc.devRef .tc main_v186) = val_main_v186 (F := F) x0 x1 x2 x3 x4 x5 x6 x7) :
    after opsE W (Proc.devRef .tc main_v195) = val_main_v195 (F := F) x0 x1 x2 x3 x4 x5 x6 x7 x8 x9 x10 x11 := by
  after_results_simp
  simp only [h8, h9, h10, h11, hv186]
  rfl

/-- THE WHOLE LINE: from any contents, the result buffer ends at the last stage's function of the twelve argument buffers. -/
theorem after_ops_result (W : Valuation τ sig (Elt F)) :
    after ops W (Proc.devRef .tc main_v195)
      = val_main_v195 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [ops_split, Cert.LibAfterAppend.after_append, Cert.LibAfterAppend.after_append, Cert.LibAfterAppend.after_append, Cert.LibAfterAppend.after_append]
  obtain ⟨a3, a6, a29, a30⟩ := stageA W
  have b82 := stageB (after opsA W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7))
    (keepA W main_arg0 (by decide)) (keepA W main_arg2 (by decide)) (keepA W main_arg3 (by decide)) (keepA W main_arg4 (by decide)) (keepA W main_arg5 (by decide)) (keepA W main_arg6 (by decide)) a3 a6 a29 a30
  have c134 := stageC (after opsB (after opsA W)) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7))
    ((keepB (after opsA W) main_arg2 (by decide)).trans (keepA W main_arg2 (by decide))) ((keepB (after opsA W) main_arg3 (by decide)).trans (keepA W main_arg3 (by decide))) ((keepB (after opsA W) main_arg4 (by decide)).trans (keepA W main_arg4 (by decide))) ((keepB (after opsA W) main_arg5 (by decide)).trans (keepA W main_arg5 (by decide))) ((keepB (after opsA W) main_arg6 (by decide)).trans (keepA W main_arg6 (by decide)))
    ((keepB _ main_v3 (by decide)).trans a3) ((keepB _ main_v6 (by decide)).trans a6) ((keepB _ main_v29 (by decide)).trans a29) b82
  have d186 := stageD (after opsC (after opsB (after opsA W))) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7))
    (((keepC (after opsB (after opsA W)) main_arg2 (by decide)).trans (keepB (after opsA W) main_arg2 (by decide))).trans (keepA W main_arg2 (by decide))) (((keepC (after opsB (after opsA W)) main_arg3 (by decide)).trans (keepB (after opsA W) main_arg3 (by decide))).trans (keepA W main_arg3 (by decide))) (((keepC (after opsB (after opsA W)) main_arg4 (by decide)).trans (keepB (after opsA W) main_arg4 (by decide))).trans (keepA W main_arg4 (by decide))) (((keepC (after opsB (after opsA W)) main_arg5 (by decide)).trans (keepB (after opsA W) main_arg5 (by decide))).trans (keepA W main_arg5 (by decide))) (((keepC (after opsB (after opsA W)) main_arg6 (by decide)).trans (keepB (after opsA W) main_arg6 (by decide))).trans (keepA W main_arg6 (by decide)))
    ((keepC _ main_v3 (by decide)).trans ((keepB _ main_v3 (by decide)).trans a3)) ((keepC _ main_v6 (by decide)).trans ((keepB _ main_v6 (by decide)).trans a6))
    ((keepC _ main_v29 (by decide)).trans ((keepB _ main_v29 (by decide)).trans a29)) c134
  exact stageE (after opsD (after opsC (after opsB (after opsA W)))) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11))
    ((((keepD (after opsC (after opsB (after opsA W))) main_arg8 (by decide)).trans (keepC (after opsB (after opsA W)) main_arg8 (by decide))).trans (keepB (after opsA W) main_arg8 (by decide))).trans (keepA W main_arg8 (by decide))) ((((keepD (after opsC (after opsB (after opsA W))) main_arg9 (by decide)).trans (keepC (after opsB (after opsA W)) main_arg9 (by decide))).trans (keepB (after opsA W) main_arg9 (by decide))).trans (keepA W main_arg9 (by decide))) ((((keepD (after opsC (after opsB (after opsA W))) main_arg10 (by decide)).trans (keepC (after opsB (after opsA W)) main_arg10 (by decide))).trans (keepB (after opsA W) main_arg10 (by decide))).trans (keepA W main_arg10 (by decide))) ((((keepD (after opsC (after opsB (after opsA W))) main_arg11 (by decide)).trans (keepC (after opsB (after opsA W)) main_arg11 (by decide))).trans (keepB (after opsA W) main_arg11 (by decide))).trans (keepA W main_arg11 (by decide))) d186

/-- An argument buffer ends as it began. -/
theorem after_ops_arg (W : Valuation τ sig (Elt F)) (r : Ref sig .tc) (hA : r ∉ wlA) (hB : r ∉ wlB) (hC : r ∉ wlC) (hD : r ∉ wlD) (hE : r ∉ wlE) :
    after ops W (Proc.devRef .tc r) = W (Proc.devRef .tc r) := by
  rw [ops_split, Cert.LibAfterAppend.after_append, Cert.LibAfterAppend.after_append, Cert.LibAfterAppend.after_append, Cert.LibAfterAppend.after_append]
  exact (keepE _ r hE).trans ((keepD _ r hD).trans ((keepC _ r hC).trans ((keepB _ r hB).trans (keepA _ r hA))))

/-- THE RUN of the reference program: every weakly fair execution terminates with the result buffer at the last stage's
    function of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v195) = val_main_v195 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v195).trans (after_ops_result _),
      (h c main_arg0).trans (after_ops_arg _ main_arg0 (by decide) (by decide) (by decide) (by decide) (by decide)),
      (h c main_arg1).trans (after_ops_arg _ main_arg1 (by decide) (by decide) (by decide) (by decide) (by decide)),
      (h c main_arg2).trans (after_ops_arg _ main_arg2 (by decide) (by decide) (by decide) (by decide) (by decide)),
      (h c main_arg3).trans (after_ops_arg _ main_arg3 (by decide) (by decide) (by decide) (by decide) (by decide)),
      (h c main_arg4).trans (after_ops_arg _ main_arg4 (by decide) (by decide) (by decide) (by decide) (by decide)),
      (h c main_arg5).trans (after_ops_arg _ main_arg5 (by decide) (by decide) (by decide) (by decide) (by decide)),
      (h c main_arg6).trans (after_ops_arg _ main_arg6 (by decide) (by decide) (by decide) (by decide) (by decide)),
      (h c main_arg7).trans (after_ops_arg _ main_arg7 (by decide) (by decide) (by decide) (by decide) (by decide)),
      (h c main_arg8).trans (after_ops_arg _ main_arg8 (by decide) (by decide) (by decide) (by decide) (by decide)),
      (h c main_arg9).trans (after_ops_arg _ main_arg9 (by decide) (by decide) (by decide) (by decide) (by decide)),
      (h c main_arg10).trans (after_ops_arg _ main_arg10 (by decide) (by decide) (by decide) (by decide) (by decide)),
      (h c main_arg11).trans (after_ops_arg _ main_arg11 (by decide) (by decide) (by decide) (by decide) (by decide))⟩)
    (run_seq scopedRefs_eq scopedSems_eq defs main (fun _ => ops) main_eq (fun _ => ops_sub) m ρ)

end Cert.ReferenceIdeal.Stages

end
-- ==== Proof.lean ====
/-
  The certificate of a three-layer graph network's forward pass computed by eleven pipelined kernels against its plain
  reference: the kernel program and its idealization run to the end without a fault and leave their arguments unchanged
  (the frames), the idealization rewrote nothing (nothing to preserve), and at the ideal values — floats extended reals,
  every operation exact — the two programs, run from memories that agree on the twelve arguments with every float argument
  finite, end with the same result, entry by entry.

  The two programs compute the edge weights D^{-1/2}[row] · D^{-1/2}[col] by the same host operations.  Each layer is
  h = Σ_edges (x·W)[source] · weight + bias, then (h − s·mean(h)) / sqrt(var + ε) · w + b clamped at zero, plus the skip input.
  The kernel program computes x·W block of rows by block of rows (the same sums over the contraction index), the column
  sums of h and h² accumulated over the row blocks (a sum over all rows taken block by block), the variance in moment
  form Σh²/N − 2·s·μ·μ + s·s·μ·μ, and multiplies by the reciprocal square root.  On real inputs — the precondition — the
  moment form is the mean of the squared deviations from s·μ (expand the square; this uses distributivity, hence the
  finiteness), the variance is not negative, and dividing by the square root of a positive real is multiplying by its
  reciprocal; every layer's output is again real.  The head multiplies by a weight matrix padded with zero columns and keeps
  column 0, where the padded product is the reference's product with the one-column weights.
-/
import proofs.«110479_j25572235281175_1_alg».proof.Defs
import proofs.«110479_j25572235281175_1_alg».proof.Proof.Gen.Kernel
import proofs.«110479_j25572235281175_1_alg».proof.Proof.Gen.Kernel.Skeleton
import proofs.«110479_j25572235281175_1_alg».proof.Proof.Gen.Kernel.Launch
import proofs.«110479_j25572235281175_1_alg».proof.Proof.Gen.Kernel.Points
import proofs.«110479_j25572235281175_1_alg».proof.Proof.Gen.Kernel.Frame
import proofs.«110479_j25572235281175_1_alg».proof.Proof.Gen.KernelIdeal
import proofs.«110479_j25572235281175_1_alg».proof.Proof.Gen.KernelIdeal.Skeleton
import proofs.«110479_j25572235281175_1_alg».proof.Proof.Gen.KernelIdeal.Launch
import proofs.«110479_j25572235281175_1_alg».proof.Proof.Gen.KernelIdeal.Points
import proofs.«110479_j25572235281175_1_alg».proof.Proof.Gen.KernelIdeal.Frame
import proofs.«110479_j25572235281175_1_alg».proof.Proof.Gen.ReferenceIdeal
import proofs.«110479_j25572235281175_1_alg».proof.Proof.Gen.Pre_finite_inputs
import proofs.«110479_j25572235281175_1_alg».proof.Proof.KRun
import proofs.«110479_j25572235281175_1_alg».proof.Proof.KFinal
import proofs.«110479_j25572235281175_1_alg».proof.Proof.RefStages
import Idealize.ShloMosaic.Adequacy
import Idealize.ShloMosaic.Init

noncomputable section

namespace Cert.Proof

open Idealize.ShloMosaic Idealize.ShloMosaic.TcCoe Idealize.SL.Sem

/-- The word-level kernel program runs to the end, nothing faulting, its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Stages.run (F := Ideal) m ρ)

/-- At the ideal values both programs end with the reference's last stage function of the arguments. -/
theorem algebraic : Cert.algebraic_KernelIdeal_ReferenceIdeal := by
  intro m ρ m' ρ' hpre hagree
  refine ⟨fun c => Cert.ReferenceIdeal.ReadP.val_main_v195 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Stages.final_result m ρ c hpre), (h c).2⟩)
      (Cert.KernelIdeal.Gen.run_result m ρ)
  · refine (θ_run Cert.ReferenceIdeal.defs _ _).mono (fun r h c => ⟨?_, (h c).2⟩)
      (Cert.ReferenceIdeal.Stages.run (F := Ideal) m' ρ')
    obtain ⟨a0, a1, a2, a3, a4, a5, a6, a7, a8, a9, a10, a11⟩ := hagree c
    rw [(h c).1, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
